-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S14x64 : Shape := ⟨2, ![14, 64]⟩
abbrev S14 : Shape := ⟨1, ![14]⟩
abbrev S2x14 : Shape := ⟨2, ![2, 14]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S14x64 : S_.BroadcastsInDim S14x64 (![] : Fin 0 → Fin S14x64.rank)
  reducesTo_S14x64_S_d0_1 : S14x64.ReducesTo [0, 1] S_
  bcast_S_S14 : S_.BroadcastsInDim S14 (![] : Fin 0 → Fin S14.rank)
  reducesTo_S14_S_d0 : S14.ReducesTo [0] S_
  bcast_S_S2x14 : S_.BroadcastsInDim S2x14 (![] : Fin 0 → Fin S2x14.rank)
  reducesTo_S2x14_S_d0_1 : S2x14.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg19 : FVec F S14 .f32) (main_arg20 : FVec F S14 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S14 .f32 := Host.absf main_arg19
  let main_cst_34 : FVec F S_ .f32 := constant S_ .f32 0x7F800000#32
  let main_v90 : FVec F S14 .f32 := broadcastInDim S14 ![] bcast_S_S14 main_cst_34
  let main_v91 : IVec S14 1 := cmpf .olt main_v89 main_v90
  let main_c_35 : IVec S_ 1 := constantI S_ 1 1#1
  let main_v92 : IVec S_ 1 := (fun x v => Host.reduce IntOp.andi x v reducesTo_S14_S_d0 h_S_) main_v91 main_c_35
  let main_v93 : IVec S_ 1 := andi main_v88 main_v92
  let main_v94 : FVec F S14 .f32 := Host.absf main_arg20
  let main_cst_36 : FVec F S_ .f32 := constant S_ .f32 0x7F800000#32
  let main_v95 : FVec F S14 .f32 := broadcastInDim S14 ![] bcast_S_S14 main_cst_36
  let main_v96 : IVec S14 1 := cmpf .olt main_v94 main_v95
  let main_c_37 : IVec S_ 1 := constantI S_ 1 1#1
  let main_v97 : IVec S_ 1 := (fun x v => Host.reduce IntOp.andi x v reducesTo_S14_S_d0 h_S_) main_v96 main_c_37
  let main_v98 : IVec S_ 1 := andi main_v93 main_v97
  main_v98

def fn_part4 {F : FTy → Type} [FloatOps F] (main_arg15 : FVec F S256 .f32) (main_arg16 : FVec F S256 .f32) (main_arg17 : FVec F S64 .f32) (main_arg18 : FVec F S64 .f32) (main_arg19 : FVec F S14 .f32) (main_arg20 : FVec F S14 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S14 .f32) (main_arg13 : FVec F S2x14 .f32) (main_arg14 : FVec F S2 .f32) (main_arg15 : FVec F S256 .f32) (main_arg16 : FVec F S256 .f32) (main_arg17 : FVec F S64 .f32) (main_arg18 : FVec F S64 .f32) (main_arg19 : FVec F S14 .f32) (main_arg20 : FVec F S14 .f32) (main_v48 : IVec S_ 1) (main_v49 : FVec F S14x64 .f32) (main_v50 : FVec F S14x64 .f32) : IVec S_ 1 :=
  let main_v51 : IVec S14x64 1 := cmpf .olt main_v49 main_v50
  let main_c_19 : IVec S_ 1 := constantI S_ 1 1#1
  let main_v52 : IVec S_ 1 := (fun x v => Host.reduce IntOp.andi x v reducesTo_S14x64_S_d0_1 h_S_) main_v51 main_c_19
  let main_v53 : IVec S_ 1 := andi main_v48 main_v52
  let main_v54 : FVec F S14 .f32 := Host.absf main_arg12
  let main_cst_20 : FVec F S_ .f32 := constant S_ .f32 0x7F800000#32
  let main_v55 : FVec F S14 .f32 := broadcastInDim S14 ![] bcast_S_S14 main_cst_20
  let main_v56 : IVec S14 1 := cmpf .olt main_v54 main_v55
  let main_c_21 : IVec S_ 1 := constantI S_ 1 1#1
  let main_v57 : IVec S_ 1 := (fun x v => Host.reduce IntOp.andi x v reducesTo_S14_S_d0 h_S_) main_v56 main_c_21
  let main_v58 : IVec S_ 1 := andi main_v53 main_v57
  let main_v59 : FVec F S2x14 .f32 := Host.absf main_arg13
  let main_cst_22 : FVec F S_ .f32 := constant S_ .f32 0x7F800000#32
  let main_v60 : FVec F S2x14 .f32 := broadcastInDim S2x14 ![] bcast_S_S2x14 main_cst_22
  let main_v61 : IVec S2x14 1 := cmpf .olt main_v59 main_v60
  let main_c_23 : IVec S_ 1 := constantI S_ 1 1#1
  let main_v62 : IVec S_ 1 := (fun x v => Host.reduce IntOp.andi x v reducesTo_S2x14_S_d0_1 h_S_) main_v61 main_c_23
  let main_v63 : IVec S_ 1 := andi main_v58 main_v62
  let main_v64 : FVec F S2 .f32 := Host.absf main_arg14
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg15 main_arg16 main_arg17 main_arg18 main_arg19 main_arg20 main_v63 main_v67

def fn_part2 {F : FTy → Type} [FloatOps F] (main_arg8 : FVec F S256 .f32) (main_arg9 : FVec F S64x256 .f32) (main_arg10 : FVec F S64 .f32) (main_arg11 : FVec F S14x64 .f32) (main_arg12 : FVec F S14 .f32) (main_arg13 : FVec F S2x14 .f32) (main_arg14 : FVec F S2 .f32) (main_arg15 : FVec F S256 .f32) (main_arg16 : FVec F S256 .f32) (main_arg17 : FVec F S64 .f32) (main_arg18 : FVec F S64 .f32) (main_arg19 : FVec F S14 .f32) (main_arg20 : FVec F S14 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S64x256 .f32 := Host.absf main_arg9
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S14x64 .f32 := Host.absf main_arg11
  let main_cst_18 : FVec F S_ .f32 := constant S_ .f32 0x7F800000#32
  let main_v50 : FVec F S14x64 .f32 := broadcastInDim S14x64 ![] bcast_S_S14x64 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S256 .f32) (main_arg6 : FVec F S256 .f32) (main_arg7 : FVec F S256x256 .f32) (main_arg8 : FVec F S256 .f32) (main_arg9 : FVec F S64x256 .f32) (main_arg10 : FVec F S64 .f32) (main_arg11 : FVec F S14x64 .f32) (main_arg12 : FVec F S14 .f32) (main_arg13 : FVec F S2x14 .f32) (main_arg14 : FVec F S2 .f32) (main_arg15 : FVec F S256 .f32) (main_arg16 : FVec F S256 .f32) (main_arg17 : FVec F S64 .f32) (main_arg18 : FVec F S64 .f32) (main_arg19 : FVec F S14 .f32) (main_arg20 : FVec F S14 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : IVec S2x1600000 32) (main_arg2 : FVec F S256x128 .f32) (main_arg3 : FVec F S256 .f32) (main_arg4 : FVec F S256x128 .f32) (main_arg5 : FVec F S256 .f32) (main_arg6 : FVec F S256 .f32) (main_arg7 : FVec F S256x256 .f32) (main_arg8 : FVec F S256 .f32) (main_arg9 : FVec F S64x256 .f32) (main_arg10 : FVec F S64 .f32) (main_arg11 : FVec F S14x64 .f32) (main_arg12 : FVec F S14 .f32) (main_arg13 : FVec F S2x14 .f32) (main_arg14 : FVec F S2 .f32) (main_arg15 : FVec F S256 .f32) (main_arg16 : FVec F S256 .f32) (main_arg17 : FVec F S64 .f32) (main_arg18 : FVec F S64 .f32) (main_arg19 : FVec F S14 .f32) (main_arg20 : FVec F S14 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S2x1600000 : Shape := ⟨2, ![2, 1600000]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S14x64 : Shape := ⟨2, ![14, 64]⟩
abbrev S14 : Shape := ⟨1, ![14]⟩
abbrev S2x14 : Shape := ⟨2, ![2, 14]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x256 : Shape := ⟨2, ![1, 256]⟩
abbrev S100000x256 : Shape := ⟨2, ![100000, 256]⟩
abbrev S5000x128 : Shape := ⟨2, ![5000, 128]⟩
abbrev S5000x1 : Shape := ⟨2, ![5000, 1]⟩
abbrev S5000x256 : Shape := ⟨2, ![5000, 256]⟩
abbrev S128x256 : Shape := ⟨2, ![128, 256]⟩
abbrev S1x64 : Shape := ⟨2, ![1, 64]⟩
abbrev S100000x64 : Shape := ⟨2, ![100000, 64]⟩
abbrev S5000x64 : Shape := ⟨2, ![5000, 64]⟩
abbrev S256x64 : Shape := ⟨2, ![256, 64]⟩
abbrev S1x14 : Shape := ⟨2, ![1, 14]⟩
abbrev S100000x14 : Shape := ⟨2, ![100000, 14]⟩
abbrev S5000x14 : Shape := ⟨2, ![5000, 14]⟩
abbrev S64x14 : Shape := ⟨2, ![64, 14]⟩
abbrev S1x2 : Shape := ⟨2, ![1, 2]⟩
abbrev S100000x2 : Shape := ⟨2, ![100000, 2]⟩
abbrev S5000x2 : Shape := ⟨2, ![5000, 2]⟩
abbrev S14x2 : Shape := ⟨2, ![14, 2]⟩
abbrev S5000 : Shape := ⟨1, ![5000]⟩

abbrev nBuf : Space → Nat
  | .hbm => 147
  | .vmem => 51
  | .smem => 0
  | _ => 0

abbrev hbmTy0_0 (i : Nat) : BufTy := match i % 128 with
  | 0 => ⟨S100000x128, .f32⟩
  | 1 => ⟨S2x1600000, .i32⟩
  | 2 => ⟨S256x128, .f32⟩
  | 3 => ⟨S256, .f32⟩
  | 4 => ⟨S256x128, .f32⟩
  | 5 => ⟨S256, .f32⟩
  | 6 => ⟨S256, .f32⟩
  | 7 => ⟨S256x256, .f32⟩
  | 8 => ⟨S256, .f32⟩
  | 9 => ⟨S64x256, .f32⟩
  | 10 => ⟨S64, .f32⟩
  | 11 => ⟨S14x64, .f32⟩
  | 12 => ⟨S14, .f32⟩
  | 13 => ⟨S2x14, .f32⟩
  | 14 => ⟨S2, .f32⟩
  | 15 => ⟨S256, .f32⟩
  | 16 => ⟨S256, .f32⟩
  | 17 => ⟨S64, .f32⟩
  | 18 => ⟨S64, .f32⟩
  | 19 => ⟨S14, .f32⟩
  | 20 => ⟨S14, .f32⟩
  | 21 => ⟨S1x1600000, .i32⟩
  | 22 => ⟨S1600000, .i32⟩
  | 23 => ⟨S1x1600000, .i32⟩
  | 24 => ⟨S1600000, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S_, .f32⟩
  | 39 => ⟨S1600000, .f32⟩
  | 40 => ⟨S_, .f32⟩
  | 41 => ⟨S100000, .f32⟩
  | 42 => ⟨S1600000x1, .i32⟩
  | 43 => ⟨S100000, .f32⟩
  | 44 => ⟨S100000x1, .f32⟩
  | 45 => ⟨S1x256, .f32⟩
  | 46 => ⟨S100000x256, .f32⟩
  | 47 => ⟨S1x256, .f32⟩
  | 48 => ⟨S1x256, .f32⟩
  | 49 => ⟨S_, .f32⟩
  | 50 => ⟨S1x256, .f32⟩
  | 51 => ⟨S1x256, .f32⟩
  | 52 => ⟨S_, .f32⟩
  | 53 => ⟨S1x256, .f32⟩
  | 54 => ⟨S1x256, .f32⟩
  | 55 => ⟨S1x256, .f32⟩
  | 56 => ⟨S1x256, .f32⟩
  | 57 => ⟨S_, .f32⟩
  | 58 => ⟨S1x256, .f32⟩
  | 59 => ⟨S1x256, .f32⟩
  | 60 => ⟨S_, .f32⟩
  | 61 => ⟨S1x256, .f32⟩
  | 62 => ⟨S1x256, .f32⟩
  | 63 => ⟨S1x256, .f32⟩
  | 64 => ⟨S1x256, .f32⟩
  | 65 => ⟨S1x256, .f32⟩
  | 66 => ⟨S1x256, .f32⟩
  | 67 => ⟨S1x256, .f32⟩
  | 68 => ⟨S1x256, .f32⟩
  | 69 => ⟨S1x256, .f32⟩
  | 70 => ⟨S1x256, .f32⟩
  | 71 => ⟨S100000x256, .f32⟩
  | 72 => ⟨S1x256, .f32⟩
  | 73 => ⟨S1x256, .f32⟩
  | 74 => ⟨S_, .f32⟩
  | 75 => ⟨S1x256, .f32⟩
  | 76 => ⟨S1x256, .f32⟩
  | 77 => ⟨S_, .f32⟩
  | 78 => ⟨S1x256, .f32⟩
  | 79 => ⟨S1x256, .f32⟩
  | 80 => ⟨S1x256, .f32⟩
  | 81 => ⟨S1x256, .f32⟩
  | 82 => ⟨S_, .f32⟩
  | 83 => ⟨S1x256, .f32⟩
  | 84 => ⟨S1x256, .f32⟩
  | 85 => ⟨S_, .f32⟩
  | 86 => ⟨S1x256, .f32⟩
  | 87 => ⟨S1x256, .f32⟩
  | 88 => ⟨S1x256, .f32⟩
  | 89 => ⟨S1x256, .f32⟩
  | 90 => ⟨S1x256, .f32⟩
  | 91 => ⟨S1x256, .f32⟩
  | 92 => ⟨S1x256, .f32⟩
  | 93 => ⟨S1x256, .f32⟩
  | 94 => ⟨S1x256, .f32⟩
  | 95 => ⟨S1x64, .f32⟩
  | 96 => ⟨S100000x64, .f32⟩
  | 97 => ⟨S1x64, .f32⟩
  | 98 => ⟨S1x64, .f32⟩
  | 99 => ⟨S_, .f32⟩
  | 100 => ⟨S1x64, .f32⟩
  | 101 => ⟨S1x64, .f32⟩
  | 102 => ⟨S_, .f32⟩
  | 103 => ⟨S1x64, .f32⟩
  | 104 => ⟨S1x64, .f32⟩
  | 105 => ⟨S1x64, .f32⟩
  | 106 => ⟨S1x64, .f32⟩
  | 107 => ⟨S_, .f32⟩
  | 108 => ⟨S1x64, .f32⟩
  | 109 => ⟨S1x64, .f32⟩
  | 110 => ⟨S_, .f32⟩
  | 111 => ⟨S1x64, .f32⟩
  | 112 => ⟨S1x64, .f32⟩
  | 113 => ⟨S1x64, .f32⟩
  | 114 => ⟨S1x64, .f32⟩
  | 115 => ⟨S1x64, .f32⟩
  | 116 => ⟨S1x64, .f32⟩
  | 117 => ⟨S1x64, .f32⟩
  | 118 => ⟨S1x64, .f32⟩
  | 119 => ⟨S1x64, .f32⟩
  | 120 => ⟨S1x14, .f32⟩
  | 121 => ⟨S100000x14, .f32⟩
  | 122 => ⟨S1x14, .f32⟩
  | 123 => ⟨S1x14, .f32⟩
  | 124 => ⟨S_, .f32⟩
  | 125 => ⟨S1x14, .f32⟩
  | 126 => ⟨S1x14, .f32⟩
  | 127 => ⟨S_, .f32⟩
  | _ => ⟨S100000x128, .f32⟩

abbrev hbmTy0_1 (i : Nat) : BufTy := match i % 128 with
  | 0 => ⟨S1x14, .f32⟩
  | 1 => ⟨S1x14, .f32⟩
  | 2 => ⟨S1x14, .f32⟩
  | 3 => ⟨S1x14, .f32⟩
  | 4 => ⟨S_, .f32⟩
  | 5 => ⟨S1x14, .f32⟩
  | 6 => ⟨S1x14, .f32⟩
  | 7 => ⟨S_, .f32⟩
  | 8 => ⟨S1x14, .f32⟩
  | 9 => ⟨S1x14, .f32⟩
  | 10 => ⟨S1x14, .f32⟩
  | 11 => ⟨S1x14, .f32⟩
  | 12 => ⟨S1x14, .f32⟩
  | 13 => ⟨S1x14, .f32⟩
  | 14 => ⟨S1x14, .f32⟩
  | 15 => ⟨S1x14, .f32⟩
  | 16 => ⟨S1x14, .f32⟩
  | 17 => ⟨S1x2, .f32⟩
  | 18 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S256x128, .f32⟩
  | .local _ .vmem, ⟨7, _⟩ => ⟨S1x256, .f32⟩
  | .local _ .vmem, ⟨8, _⟩ => ⟨S256x128, .f32⟩
  | .local _ .vmem, ⟨9, _⟩ => ⟨S5000x256, .f32⟩
  | .local _ .vmem, ⟨10, _⟩ => ⟨S5000x256, .f32⟩
  | .local _ .vmem, ⟨11, _⟩ => ⟨S1x256, .f32⟩
  | .local _ .vmem, ⟨12, _⟩ => ⟨S1x256, .f32⟩
  | .local _ .vmem, ⟨13, _⟩ => ⟨S5000x256, .f32⟩
  | .local _ .vmem, ⟨14, _⟩ => ⟨S5000x256, .f32⟩
  | .local _ .vmem, ⟨15, _⟩ => ⟨S1x256, .f32⟩
  | .local _ .vmem, ⟨16, _⟩ => ⟨S1x256, .f32⟩
  | .local _ .vmem, ⟨17, _⟩ => ⟨S256x256, .f32⟩
  | .local _ .vmem, ⟨18, _⟩ => ⟨S1x256, .f32⟩
  | .local _ .vmem, ⟨19, _⟩ => ⟨S5000x256, .f32⟩
  | .local _ .vmem, ⟨20, _⟩ => ⟨S5000x256, .f32⟩
  | .local _ .vmem, ⟨21, _⟩ => ⟨S1x256, .f32⟩
  | .local _ .vmem, ⟨22, _⟩ => ⟨S1x256, .f32⟩
  | .local _ .vmem, ⟨23, _⟩ => ⟨S5000x256, .f32⟩
  | .local _ .vmem, ⟨24, _⟩ => ⟨S5000x256, .f32⟩
  | .local _ .vmem, ⟨25, _⟩ => ⟨S1x256, .f32⟩
  | .local _ .vmem, ⟨26, _⟩ => ⟨S1x256, .f32⟩
  | .local _ .vmem, ⟨27, _⟩ => ⟨S64x256, .f32⟩
  | .local _ .vmem, ⟨28, _⟩ => ⟨S1x64, .f32⟩
  | .local _ .vmem, ⟨29, _⟩ => ⟨S5000x64, .f32⟩
  | .local _ .vmem, ⟨30, _⟩ => ⟨S5000x64, .f32⟩
  | .local _ .vmem, ⟨31, _⟩ => ⟨S1x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | .local _ .vmem, ⟨35, _⟩ => ⟨S1x64, .f32⟩
  | .local _ .vmem, ⟨36, _⟩ => ⟨S1x64, .f32⟩
  | .local _ .vmem, ⟨37, _⟩ => ⟨S14x64, .f32⟩
  | .local _ .vmem, ⟨38, _⟩ => ⟨S1x14, .f32⟩
  | .local _ .vmem, ⟨39, _⟩ => ⟨S5000x14, .f32⟩
  | .local _ .vmem, ⟨40, _⟩ => ⟨S5000x14, .f32⟩
  | .local _ .vmem, ⟨41, _⟩ => ⟨S1x14, .f32⟩
  | .local _ .vmem, ⟨42, _⟩ => ⟨S1x14, .f32⟩
  | .local _ .vmem, ⟨43, _⟩ => ⟨S5000x14, .f32⟩
  | .local _ .vmem, ⟨44, _⟩ => ⟨S5000x14, .f32⟩
  | .local _ .vmem, ⟨45, _⟩ => ⟨S1x14, .f32⟩
  | .local _ .vmem, ⟨46, _⟩ => ⟨S1x14, .f32⟩
  | .local _ .vmem, ⟨47, _⟩ => ⟨S2x14, .f32⟩
  | .local _ .vmem, ⟨48, _⟩ => ⟨S1x2, .f32⟩
  | .local _ .vmem, ⟨49, _⟩ => ⟨S5000x2, .f32⟩
  | .local _ .vmem, ⟨50, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20_0 : Ref sig .tc := ⟨.hbm, 46, rfl⟩
abbrev main_v20_1 : Ref sig .tc := ⟨.hbm, 47, rfl⟩
abbrev main_v20_2 : Ref sig .tc := ⟨.hbm, 48, rfl⟩
abbrev main_cst_3 : Ref sig .tc := ⟨.hbm, 49, rfl⟩
abbrev main_v21 : Ref sig .tc := ⟨.hbm, 50, rfl⟩
abbrev main_v22 : Ref sig .tc := ⟨.hbm, 51, rfl⟩
abbrev main_cst_4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_v28 : Ref sig .tc := ⟨.hbm, 59, rfl⟩
abbrev main_cst_6 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39_0 : Ref sig .tc := ⟨.hbm, 71, rfl⟩
abbrev main_v39_1 : Ref sig .tc := ⟨.hbm, 72, rfl⟩
abbrev main_v39_2 : Ref sig .tc := ⟨.hbm, 73, rfl⟩
abbrev main_cst_7 : Ref sig .tc := ⟨.hbm, 74, rfl⟩
abbrev main_v40 : Ref sig .tc := ⟨.hbm, 75, rfl⟩
abbrev main_v41 : Ref sig .tc := ⟨.hbm, 76, rfl⟩
abbrev main_cst_8 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_9 : Ref sig .tc := ⟨.hbm, 82, rfl⟩
abbrev main_v46 : Ref sig .tc := ⟨.hbm, 83, rfl⟩
abbrev main_v47 : Ref sig .tc := ⟨.hbm, 84, rfl⟩
abbrev main_cst_10 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58_0 : Ref sig .tc := ⟨.hbm, 96, rfl⟩
abbrev main_v58_1 : Ref sig .tc := ⟨.hbm, 97, rfl⟩
abbrev main_v58_2 : Ref sig .tc := ⟨.hbm, 98, rfl⟩
abbrev main_cst_11 : Ref sig .tc := ⟨.hbm, 99, rfl⟩
abbrev main_v59 : Ref sig .tc := ⟨.hbm, 100, rfl⟩
abbrev main_v60 : Ref sig .tc := ⟨.hbm, 101, rfl⟩
abbrev main_cst_12 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_13 : Ref sig .tc := ⟨.hbm, 107, rfl⟩
abbrev main_v65 : Ref sig .tc := ⟨.hbm, 108, rfl⟩
abbrev main_v66 : Ref sig .tc := ⟨.hbm, 109, rfl⟩
abbrev main_cst_14 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77_0 : Ref sig .tc := ⟨.hbm, 121, rfl⟩
abbrev main_v77_1 : Ref sig .tc := ⟨.hbm, 122, rfl⟩
abbrev main_v77_2 : Ref sig .tc := ⟨.hbm, 123, rfl⟩
abbrev main_cst_15 : Ref sig .tc := ⟨.hbm, 124, rfl⟩
abbrev main_v78 : Ref sig .tc := ⟨.hbm, 125, rfl⟩
abbrev main_v79 : Ref sig .tc := ⟨.hbm, 126, rfl⟩
abbrev main_cst_16 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_17 : Ref sig .tc := ⟨.hbm, 132, rfl⟩
abbrev main_v84 : Ref sig .tc := ⟨.hbm, 133, rfl⟩
abbrev main_v85 : Ref sig .tc := ⟨.hbm, 134, rfl⟩
abbrev main_cst_18 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg7_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg7_0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg5_1 : Ref sig .tc := ⟨.vmem, 40, rfl⟩
abbrev cc3_stg6_0 : Ref sig .tc := ⟨.vmem, 41, rfl⟩
abbrev cc3_stg7_0 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem7_0 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem7_0 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem5_1 : DmaSem sig := 40
abbrev cc3_sem6_0 : DmaSem sig := 41
abbrev cc3_sem7_0 : DmaSem sig := 42
abbrev cc4_sem0_0 : DmaSem sig := 43
abbrev cc4_sem0_1 : DmaSem sig := 44
abbrev cc4_sem1_0 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem5_1 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S14x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x14 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x14 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x14 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x14 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x14 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x14 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x14 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2x14 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S256_S1x256 : S256.ShapeCasts S1x256
  inb_S1x256_S1x256_0_0 : ∀ a, (![0, 0] : Fin 2 → Nat) a + S1x256.size a ≤ S1x256.size a
  h_S1x256 : 0 < S1x256.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  reduces_S5000x256_S256 : S5000x256.Reduces [0] S256
  bcast_S_S1x256 : S_.BroadcastsInDim S1x256 (![] : Fin 0 → Fin S1x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  shapeCasts_S64_S1x64 : S64.ShapeCasts S1x64
  inb_S1x64_S1x64_0_0 : ∀ a, (![0, 0] : Fin 2 → Nat) a + S1x64.size a ≤ S1x64.size a
  h_S1x64 : 0 < S1x64.numel
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S1x64 : S_.BroadcastsInDim S1x64 (![] : Fin 0 → Fin S1x64.rank)
  shapeCasts_S14_S1x14 : S14.ShapeCasts S1x14
  inb_S1x14_S1x14_0_0 : ∀ a, (![0, 0] : Fin 2 → Nat) a + S1x14.size a ≤ S1x14.size a
  h_S1x14 : 0 < S1x14.numel
  shapeCasts_S5000x64_S5000x64 : S5000x64.ShapeCasts S5000x64
  inb_S14x64_S14x64_0_0 : ∀ a, (![0, 0] : Fin 2 → Nat) a + S14x64.size a ≤ S14x64.size a
  h_S14x64 : 0 < S14x64.numel
  transposes_S14x64_p1_0_S64x14 : S14x64.Transposes [1, 0] S64x14
  shapeCasts_S1x14_S1x14 : S1x14.ShapeCasts S1x14
  broadcasts_S1x14_S5000x14 : S1x14.Broadcasts S5000x14
  inb_S5000x14_S5000x14_0_0 : ∀ a, (![0, 0] : Fin 2 → Nat) a + S5000x14.size a ≤ S5000x14.size a
  h_S5000x14 : 0 < S5000x14.numel
  reduces_S5000x14_S14 : S5000x14.Reduces [0] S14
  bcast_S_S1x14 : S_.BroadcastsInDim S1x14 (![] : Fin 0 → Fin S1x14.rank)
  shapeCasts_S2_S1x2 : S2.ShapeCasts S1x2
  shapeCasts_S5000x14_S5000x14 : S5000x14.ShapeCasts S5000x14
  inb_S2x14_S2x14_0_0 : ∀ a, (![0, 0] : Fin 2 → Nat) a + S2x14.size a ≤ S2x14.size a
  h_S2x14 : 0 < S2x14.numel
  transposes_S2x14_p1_0_S14x2 : S2x14.Transposes [1, 0] S14x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  dot_S5000x256_S256x64_S5000x64_1_0_0_1_n_n_wf : DotDims.WF S5000x256 S256x64 S5000x64 [1] [0] [0] [1] [] []
  dot_S5000x64_S64x14_S5000x14_1_0_0_1_n_n_wf : DotDims.WF S5000x64 S64x14 S5000x14 [1] [0] [0] [1] [] []
  dot_S5000x14_S14x2_S5000x2_1_0_0_1_n_n_wf : DotDims.WF S5000x14 S14x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S100000x256.size a
  hwx0_6 : ∀ i : grid0.Coords, EltTy.bits .f32 = 32 ∨ (Rect.block (s := S100000x256) S5000x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S100000x256.size a
  hwx1_5 : ∀ i : grid1.Coords, EltTy.bits .f32 = 32 ∨ (Rect.block (s := S100000x256) S5000x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x256.size a ≤ S64x256.size a
  hwx2_3 : ∀ i : grid2.Coords, EltTy.bits .f32 = 32 ∨ (Rect.block (s := S64x256) S64x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S14x64.size a ≤ S14x64.size a
  hwx3_3 : ∀ i : grid3.Coords, EltTy.bits .f32 = 32 ∨ (Rect.block (s := S14x64) S14x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x14.size a ≤ S1x14.size a
  hwx3_4 : ∀ i : grid3.Coords, EltTy.bits .f32 = 32 ∨ (Rect.block (s := S1x14) S1x14.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x14.size a ≤ S100000x14.size a
  hwx3_5 : ∀ i : grid3.Coords, EltTy.bits .f32 = 32 ∨ (Rect.block (s := S100000x14) S5000x14.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x14.size a ≤ S1x14.size a
  hwx3_6 : ∀ i : grid3.Coords, EltTy.bits .f32 = 32 ∨ (Rect.block (s := S1x14) S1x14.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x14.size a ≤ S1x14.size a
  hwx3_7 : ∀ i : grid3.Coords, EltTy.bits .f32 = 32 ∨ (Rect.block (s := S1x14) S1x14.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x14.size a ≤ S100000x14.size a
  hwx4_0 : ∀ i : grid4.Coords, EltTy.bits .f32 = 32 ∨ (Rect.block (s := S100000x14) S5000x14.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x14.size a ≤ S1x14.size a
  hwx4_1 : ∀ i : grid4.Coords, EltTy.bits .f32 = 32 ∨ (Rect.block (s := S1x14) S1x14.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x14.size a ≤ S1x14.size a
  hwx4_2 : ∀ i : grid4.Coords, EltTy.bits .f32 = 32 ∨ (Rect.block (s := S1x14) S1x14.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2x14.size a ≤ S2x14.size a
  hwx4_3 : ∀ i : grid4.Coords, EltTy.bits .f32 = 32 ∨ (Rect.block (s := S2x14) S2x14.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x2.size a ≤ S100000x2.size a
  hwx4_5 : ∀ i : grid4.Coords, EltTy.bits .f32 = 32 ∨ (Rect.block (s := S100000x2) S5000x2.size (cc4_transform_5 i) (hinb4_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x64_S64x14_S5000x14_1_0_0_1_n_n : DotDims S5000x64 S64x14 S5000x14 where
  lhsContracting := [1]
  rhsContracting := [0]
  lhsNonContracting := [0]
  rhsNonContracting := [1]
  lhsBatch := []
  rhsBatch := []
  wf := dot_S5000x64_S64x14_S5000x14_1_0_0_1_n_n_wf
def dot_S5000x14_S14x2_S5000x2_1_0_0_1_n_n : DotDims S5000x14 S14x2 S5000x2 where
  lhsContracting := [1]
  rhsContracting := [0]
  lhsNonContracting := [0]
  rhsNonContracting := [1]
  lhsBatch := []
  rhsBatch := []
  wf := dot_S5000x14_S14x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_0) S5000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_1) S1x256.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20_2) S1x256.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v20_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39_0) S5000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v39_1) S1x256.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39_2) S1x256.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v39_0) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v58_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v58_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v58_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S14x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x14.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77_0) S5000x14.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v77_1) S1x14.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v77_2) S1x14.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v77_0) S5000x14.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S1x14.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v94) S1x14.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S2x14.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v95) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96) S5000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S14x64 : Shape := ⟨2, ![14, 64]⟩
abbrev S14 : Shape := ⟨1, ![14]⟩
abbrev S2x14 : Shape := ⟨2, ![2, 14]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x256 : Shape := ⟨2, ![128, 256]⟩
abbrev S100000x256 : Shape := ⟨2, ![100000, 256]⟩
abbrev S1x256 : Shape := ⟨2, ![1, 256]⟩
abbrev S256x64 : Shape := ⟨2, ![256, 64]⟩
abbrev S100000x64 : Shape := ⟨2, ![100000, 64]⟩
abbrev S1x64 : Shape := ⟨2, ![1, 64]⟩
abbrev S64x14 : Shape := ⟨2, ![64, 14]⟩
abbrev S100000x14 : Shape := ⟨2, ![100000, 14]⟩
abbrev S1x14 : Shape := ⟨2, ![1, 14]⟩
abbrev S14x2 : Shape := ⟨2, ![14, 2]⟩
abbrev S100000x2 : Shape := ⟨2, ![100000, 2]⟩
abbrev S1x2 : Shape := ⟨2, ![1, 2]⟩

abbrev nBuf : Space → Nat
  | .hbm => 225
  | .vmem => 0
  | .smem => 0
  | _ => 0

abbrev hbmTy0_0 (i : Nat) : BufTy := match i % 128 with
  | 0 => ⟨S100000x128, .f32⟩
  | 1 => ⟨S2x1600000, .i32⟩
  | 2 => ⟨S256x128, .f32⟩
  | 3 => ⟨S256, .f32⟩
  | 4 => ⟨S256x128, .f32⟩
  | 5 => ⟨S256, .f32⟩
  | 6 => ⟨S256, .f32⟩
  | 7 => ⟨S256x256, .f32⟩
  | 8 => ⟨S256, .f32⟩
  | 9 => ⟨S64x256, .f32⟩
  | 10 => ⟨S64, .f32⟩
  | 11 => ⟨S14x64, .f32⟩
  | 12 => ⟨S14, .f32⟩
  | 13 => ⟨S2x14, .f32⟩
  | 14 => ⟨S2, .f32⟩
  | 15 => ⟨S256, .f32⟩
  | 16 => ⟨S256, .f32⟩
  | 17 => ⟨S64, .f32⟩
  | 18 => ⟨S64, .f32⟩
  | 19 => ⟨S14, .f32⟩
  | 20 => ⟨S14, .f32⟩
  | 21 => ⟨S1x1600000, .i32⟩
  | 22 => ⟨S1600000, .i32⟩
  | 23 => ⟨S1x1600000, .i32⟩
  | 24 => ⟨S1600000, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S_, .f32⟩
  | 39 => ⟨S1600000, .f32⟩
  | 40 => ⟨S_, .f32⟩
  | 41 => ⟨S100000, .f32⟩
  | 42 => ⟨S1600000x1, .i32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x128, .f32⟩
  | 49 => ⟨S100000x128, .f32⟩
  | 50 => ⟨S128x256, .f32⟩
  | 51 => ⟨S100000x256, .f32⟩
  | 52 => ⟨S1x256, .f32⟩
  | 53 => ⟨S100000x256, .f32⟩
  | 54 => ⟨S100000x256, .f32⟩
  | 55 => ⟨S128x256, .f32⟩
  | 56 => ⟨S100000x256, .f32⟩
  | 57 => ⟨S100000x256, .f32⟩
  | 58 => ⟨S_, .f32⟩
  | 59 => ⟨S256, .f32⟩
  | 60 => ⟨S_, .f32⟩
  | 61 => ⟨S256, .f32⟩
  | 62 => ⟨S256, .f32⟩
  | 63 => ⟨S1x256, .f32⟩
  | 64 => ⟨S100000x256, .f32⟩
  | 65 => ⟨S100000x256, .f32⟩
  | 66 => ⟨S100000x256, .f32⟩
  | 67 => ⟨S_, .f32⟩
  | 68 => ⟨S256, .f32⟩
  | 69 => ⟨S_, .f32⟩
  | 70 => ⟨S256, .f32⟩
  | 71 => ⟨S256, .f32⟩
  | 72 => ⟨S1x256, .f32⟩
  | 73 => ⟨S100000x256, .f32⟩
  | 74 => ⟨S100000x256, .f32⟩
  | 75 => ⟨S1x256, .f32⟩
  | 76 => ⟨S100000x256, .f32⟩
  | 77 => ⟨S100000x256, .f32⟩
  | 78 => ⟨S_, .f32⟩
  | 79 => ⟨S256, .f32⟩
  | 80 => ⟨S256, .f32⟩
  | 81 => ⟨S256, .f32⟩
  | 82 => ⟨S1x256, .f32⟩
  | 83 => ⟨S100000x256, .f32⟩
  | 84 => ⟨S100000x256, .f32⟩
  | 85 => ⟨S1x256, .f32⟩
  | 86 => ⟨S100000x256, .f32⟩
  | 87 => ⟨S100000x256, .f32⟩
  | 88 => ⟨S_, .f32⟩
  | 89 => ⟨S100000x256, .f32⟩
  | 90 => ⟨S100000x256, .f32⟩
  | 91 => ⟨S256x256, .f32⟩
  | 92 => ⟨S100000x256, .f32⟩
  | 93 => ⟨S1x256, .f32⟩
  | 94 => ⟨S100000x256, .f32⟩
  | 95 => ⟨S100000x256, .f32⟩
  | 96 => ⟨S_, .f32⟩
  | 97 => ⟨S256, .f32⟩
  | 98 => ⟨S_, .f32⟩
  | 99 => ⟨S256, .f32⟩
  | 100 => ⟨S256, .f32⟩
  | 101 => ⟨S1x256, .f32⟩
  | 102 => ⟨S100000x256, .f32⟩
  | 103 => ⟨S100000x256, .f32⟩
  | 104 => ⟨S100000x256, .f32⟩
  | 105 => ⟨S_, .f32⟩
  | 106 => ⟨S256, .f32⟩
  | 107 => ⟨S_, .f32⟩
  | 108 => ⟨S256, .f32⟩
  | 109 => ⟨S256, .f32⟩
  | 110 => ⟨S1x256, .f32⟩
  | 111 => ⟨S100000x256, .f32⟩
  | 112 => ⟨S100000x256, .f32⟩
  | 113 => ⟨S1x256, .f32⟩
  | 114 => ⟨S100000x256, .f32⟩
  | 115 => ⟨S100000x256, .f32⟩
  | 116 => ⟨S_, .f32⟩
  | 117 => ⟨S256, .f32⟩
  | 118 => ⟨S256, .f32⟩
  | 119 => ⟨S256, .f32⟩
  | 120 => ⟨S1x256, .f32⟩
  | 121 => ⟨S100000x256, .f32⟩
  | 122 => ⟨S100000x256, .f32⟩
  | 123 => ⟨S1x256, .f32⟩
  | 124 => ⟨S100000x256, .f32⟩
  | 125 => ⟨S100000x256, .f32⟩
  | 126 => ⟨S_, .f32⟩
  | 127 => ⟨S100000x256, .f32⟩
  | _ => ⟨S100000x128, .f32⟩

abbrev hbmTy0_1 (i : Nat) : BufTy := match i % 128 with
  | 0 => ⟨S100000x256, .f32⟩
  | 1 => ⟨S256x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S64, .f32⟩
  | 8 => ⟨S_, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S100000x64, .f32⟩
  | 15 => ⟨S_, .f32⟩
  | 16 => ⟨S64, .f32⟩
  | 17 => ⟨S_, .f32⟩
  | 18 => ⟨S64, .f32⟩
  | 19 => ⟨S64, .f32⟩
  | 20 => ⟨S1x64, .f32⟩
  | 21 => ⟨S100000x64, .f32⟩
  | 22 => ⟨S100000x64, .f32⟩
  | 23 => ⟨S1x64, .f32⟩
  | 24 => ⟨S100000x64, .f32⟩
  | 25 => ⟨S100000x64, .f32⟩
  | 26 => ⟨S_, .f32⟩
  | 27 => ⟨S64, .f32⟩
  | 28 => ⟨S64, .f32⟩
  | 29 => ⟨S64, .f32⟩
  | 30 => ⟨S1x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S64x14, .f32⟩
  | 40 => ⟨S100000x14, .f32⟩
  | 41 => ⟨S1x14, .f32⟩
  | 42 => ⟨S100000x14, .f32⟩
  | 43 => ⟨S100000x14, .f32⟩
  | 44 => ⟨S_, .f32⟩
  | 45 => ⟨S14, .f32⟩
  | 46 => ⟨S_, .f32⟩
  | 47 => ⟨S14, .f32⟩
  | 48 => ⟨S14, .f32⟩
  | 49 => ⟨S1x14, .f32⟩
  | 50 => ⟨S100000x14, .f32⟩
  | 51 => ⟨S100000x14, .f32⟩
  | 52 => ⟨S100000x14, .f32⟩
  | 53 => ⟨S_, .f32⟩
  | 54 => ⟨S14, .f32⟩
  | 55 => ⟨S_, .f32⟩
  | 56 => ⟨S14, .f32⟩
  | 57 => ⟨S14, .f32⟩
  | 58 => ⟨S1x14, .f32⟩
  | 59 => ⟨S100000x14, .f32⟩
  | 60 => ⟨S100000x14, .f32⟩
  | 61 => ⟨S1x14, .f32⟩
  | 62 => ⟨S100000x14, .f32⟩
  | 63 => ⟨S100000x14, .f32⟩
  | 64 => ⟨S_, .f32⟩
  | 65 => ⟨S14, .f32⟩
  | 66 => ⟨S14, .f32⟩
  | 67 => ⟨S14, .f32⟩
  | 68 => ⟨S1x14, .f32⟩
  | 69 => ⟨S100000x14, .f32⟩
  | 70 => ⟨S100000x14, .f32⟩
  | 71 => ⟨S1x14, .f32⟩
  | 72 => ⟨S100000x14, .f32⟩
  | 73 => ⟨S100000x14, .f32⟩
  | 74 => ⟨S_, .f32⟩
  | 75 => ⟨S100000x14, .f32⟩
  | 76 => ⟨S100000x14, .f32⟩
  | 77 => ⟨S14x2, .f32⟩
  | 78 => ⟨S100000x2, .f32⟩
  | 79 => ⟨S1x2, .f32⟩
  | 80 => ⟨S100000x2, .f32⟩
  | 81 => ⟨S100000x2, .f32⟩
  | 82 => ⟨S_, .f32⟩
  | 83 => ⟨S100000, .f32⟩
  | 84 => ⟨S_, .f32⟩
  | 85 => ⟨S100000, .f32⟩
  | 86 => ⟨S100000, .f32⟩
  | 87 => ⟨S100000x1, .f32⟩
  | 88 => ⟨S100000x2, .f32⟩
  | 89 => ⟨S100000x2, .f32⟩
  | 90 => ⟨S100000x2, .f32⟩
  | 91 => ⟨S_, .f32⟩
  | 92 => ⟨S100000, .f32⟩
  | 93 => ⟨S100000x1, .f32⟩
  | 94 => ⟨S100000x1, .f32⟩
  | 95 => ⟨S100000x2, .f32⟩
  | 96 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call0_cst : Ref sig .tc := ⟨.hbm, 88, rfl⟩
abbrev main_call0_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_9 : Ref sig .tc := ⟨.hbm, 96, rfl⟩
abbrev main_v62 : Ref sig .tc := ⟨.hbm, 97, rfl⟩
abbrev main_cst_10 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_11 : Ref sig .tc := ⟨.hbm, 105, rfl⟩
abbrev main_v69 : Ref sig .tc := ⟨.hbm, 106, rfl⟩
abbrev main_cst_12 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_13 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_call1_cst : Ref sig .tc := ⟨.hbm, 126, rfl⟩
abbrev main_call1_v0 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_14 : Ref sig .tc := ⟨.hbm, 134, rfl⟩
abbrev main_v93 : Ref sig .tc := ⟨.hbm, 135, rfl⟩
abbrev main_cst_15 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_16 : Ref sig .tc := ⟨.hbm, 143, rfl⟩
abbrev main_v100 : Ref sig .tc := ⟨.hbm, 144, rfl⟩
abbrev main_cst_17 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_18 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_call2_cst : Ref sig .tc := ⟨.hbm, 164, rfl⟩
abbrev main_call2_v0 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_19 : Ref sig .tc := ⟨.hbm, 172, rfl⟩
abbrev main_v124 : Ref sig .tc := ⟨.hbm, 173, rfl⟩
abbrev main_cst_20 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_21 : Ref sig .tc := ⟨.hbm, 181, rfl⟩
abbrev main_v131 : Ref sig .tc := ⟨.hbm, 182, rfl⟩
abbrev main_cst_22 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_23 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_call3_cst : Ref sig .tc := ⟨.hbm, 202, rfl⟩
abbrev main_call3_v0 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_call4_cst : Ref sig .tc := ⟨.hbm, 210, rfl⟩
abbrev main_call4_v0 : Ref sig .tc := ⟨.hbm, 211, rfl⟩
abbrev main_call4_cst_0 : Ref sig .tc := ⟨.hbm, 212, rfl⟩
abbrev main_call4_v1 : Ref sig .tc := ⟨.hbm, 213, rfl⟩
abbrev main_call4_v2 : Ref sig .tc := ⟨.hbm, 214, rfl⟩
abbrev main_call4_v3 : Ref sig .tc := ⟨.hbm, 215, rfl⟩
abbrev main_call4_v4 : Ref sig .tc := ⟨.hbm, 216, rfl⟩
abbrev main_call4_v5 : Ref sig .tc := ⟨.hbm, 217, rfl⟩
abbrev main_call4_v6 : Ref sig .tc := ⟨.hbm, 218, rfl⟩
abbrev main_call4_cst_1 : Ref sig .tc := ⟨.hbm, 219, rfl⟩
abbrev main_call4_v7 : Ref sig .tc := ⟨.hbm, 220, rfl⟩
abbrev main_call4_v8 : Ref sig .tc := ⟨.hbm, 221, rfl⟩
abbrev main_call4_v9 : Ref sig .tc := ⟨.hbm, 222, rfl⟩
abbrev main_call4_v10 : Ref sig .tc := ⟨.hbm, 223, rfl⟩
abbrev main_v155 : Ref sig .tc := ⟨.hbm, 224, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  bcast_S_S100000x256 : S_.BroadcastsInDim S100000x256 (![] : Fin 0 → Fin S100000x256.rank)
  transposes_S256x256_S256x256_1_0 : S256x256.Transposes [1, 0] S256x256
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  bcast_S_S100000x64 : S_.BroadcastsInDim S100000x64 (![] : Fin 0 → Fin S100000x64.rank)
  transposes_S14x64_S64x14_1_0 : S14x64.Transposes [1, 0] S64x14
  bcast_S14_S1x14_1 : S14.BroadcastsInDim S1x14 (![1] : Fin 1 → Fin S1x14.rank)
  bcast_S1x14_S100000x14_0_1 : S1x14.BroadcastsInDim S100000x14 (![0, 1] : Fin 2 → Fin S100000x14.rank)
  reducesTo_S100000x14_S14_d0 : S100000x14.ReducesTo [0] S14
  bcast_S_S14 : S_.BroadcastsInDim S14 (![] : Fin 0 → Fin S14.rank)
  bcast_S_S100000x14 : S_.BroadcastsInDim S100000x14 (![] : Fin 0 → Fin S100000x14.rank)
  transposes_S2x14_S14x2_1_0 : S2x14.Transposes [1, 0] S14x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  bcast_S100000x1_S100000x2_0_1 : S100000x1.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x256_S100000x256_1_0_0_1_n_n_wf : DotDims.WF S100000x128 S128x256 S100000x256 [1] [0] [0] [1] [] []
  dot_S100000x256_S256x256_S100000x256_1_0_0_1_n_n_wf : DotDims.WF S100000x256 S256x256 S100000x256 [1] [0] [0] [1] [] []
  dot_S100000x256_S256x64_S100000x64_1_0_0_1_n_n_wf : DotDims.WF S100000x256 S256x64 S100000x64 [1] [0] [0] [1] [] []
  dot_S100000x64_S64x14_S100000x14_1_0_0_1_n_n_wf : DotDims.WF S100000x64 S64x14 S100000x14 [1] [0] [0] [1] [] []
  dot_S100000x14_S14x2_S100000x2_1_0_0_1_n_n_wf : DotDims.WF S100000x14 S14x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x14_S100000x14_1_0_0_1_n_n : DotDims S100000x64 S64x14 S100000x14 where
  lhsContracting := [1]
  rhsContracting := [0]
  lhsNonContracting := [0]
  rhsNonContracting := [1]
  lhsBatch := []
  rhsBatch := []
  wf := dot_S100000x64_S64x14_S100000x14_1_0_0_1_n_n_wf
def dot_S100000x14_S14x2_S100000x2_1_0_0_1_n_n : DotDims S100000x14 S14x2 S100000x2 where
  lhsContracting := [1]
  rhsContracting := [0]
  lhsNonContracting := [0]
  rhsNonContracting := [1]
  lhsBatch := []
  rhsBatch := []
  wf := dot_S100000x14_S14x2_S100000x2_1_0_0_1_n_n_wf

class Facts : Prop extends Facts₀ where

variable [Facts]
-- ==== Proof.Stage0.lean ====
import proofs.«119158_j67731634258670_1_alg».proof.Proof.Gen.KernelIdeal.Frame
import Idealize.ShloMosaic.Lib.Pipeline.Value
import Idealize.ShloMosaic.Lib.ValueIdx
import Idealize.ShloMosaic.Lib.Tactic

/-!
# The neighbourhood layer: what region 0 leaves in its three output arrays

The body of this region divides a block of 5000 rows of neighbour sums by the rows' clipped degrees, multiplies by one weight
matrix, adds the bias, adds the product of the rows' own features with a second weight matrix (256 features), stores that
block, and adds the block's column sums and column sums of squares into two one-row accumulators that are reset at the
first grid point and written back after the last. Here: each case of the body leaves its payloads; by induction over the
grid points the accumulators hold running sums; the row blocks tile the activation array, and the accumulators' one block
is their whole array.
-/

noncomputable section

open Idealize.ShloMosaic Idealize.ShloMosaic.TcCoe Idealize.SL.Sem
open Idealize.ShloMosaic.Pipeline (Dat)

namespace Cert.KernelIdeal.Stage0

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! ## What each case of the body leaves: its stores' payloads of the loaded blocks -/

theorem out_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S256x128 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S5000x256 .f32) (harg7 : arg7.IsWhole) (arg8 : Memref sig .tc .vmem S1x256 .f32) (harg8 : arg8.IsWhole) (arg9 : Memref sig .tc .vmem S1x256 .f32) (harg9 : arg9.IsWhole) (hc : cond0_0 i) (x0 : Vec F S5000x128 .f32) (x1 : Vec F S5000x128 .f32) (x2 : Vec F S5000x1 .f32) (x3 : Vec F S256x128 .f32) (x4 : Vec F S1x256 .f32) (x5 : Vec F S256x128 .f32) :
    out0_A_6 c i arg1 harg1 arg2 harg2 arg3 harg3 arg4 harg4 arg5 harg5 arg6 harg6 arg7 harg7 arg8 harg8 arg9 harg9 hc x0 x1 x2 x3 x4 x5 = k0_pay4 x1 x2 x3 x4 x0 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc x0 x1 x2 x3 x4 x5)]
  unfold kernelRun0_A
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S256x128) hz, View.ld_unit_zero (S := S1x256) hz]

theorem out_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S256x128 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S5000x256 .f32) (harg7 : arg7.IsWhole) (arg8 : Memref sig .tc .vmem S1x256 .f32) (harg8 : arg8.IsWhole) (arg9 : Memref sig .tc .vmem S1x256 .f32) (harg9 : arg9.IsWhole) (hc : cond0_0 i) (x0 : Vec F S5000x128 .f32) (x1 : Vec F S5000x128 .f32) (x2 : Vec F S5000x1 .f32) (x3 : Vec F S256x128 .f32) (x4 : Vec F S1x256 .f32) (x5 : Vec F S256x128 .f32) :
    out0_A_7 c i arg1 harg1 arg2 harg2 arg3 harg3 arg4 harg4 arg5 harg5 arg6 harg6 arg7 harg7 arg8 harg8 arg9 harg9 hc x0 x1 x2 x3 x4 x5 = k0_pay5 x1 x2 x3 x4 x0 x5 k0_pay2 := by
  unfold out0_A_7
  rw [View.read_writes_eq_canon _ _ _ (cover0_A_7 c i arg1 harg1 arg2 harg2 arg3 harg3 arg4 harg4 arg5 harg5 arg6 harg6 arg7 harg7 arg8 harg8 arg9 harg9 hc x0 x1 x2 x3 x4 x5)]
  unfold kernelRun0_A
  dsimp only
  sl_unfold_words
  rw [View.canon_cons_unit_zero (S := S1x256) hz, View.readCov_unit_zero (S := S1x256) _ hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S256x128) hz, View.ld_unit_zero (S := S1x256) hz]

theorem out_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S256x128 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S5000x256 .f32) (harg7 : arg7.IsWhole) (arg8 : Memref sig .tc .vmem S1x256 .f32) (harg8 : arg8.IsWhole) (arg9 : Memref sig .tc .vmem S1x256 .f32) (harg9 : arg9.IsWhole) (hc : cond0_0 i) (x0 : Vec F S5000x128 .f32) (x1 : Vec F S5000x128 .f32) (x2 : Vec F S5000x1 .f32) (x3 : Vec F S256x128 .f32) (x4 : Vec F S1x256 .f32) (x5 : Vec F S256x128 .f32) :
    out0_A_8 c i arg1 harg1 arg2 harg2 arg3 harg3 arg4 harg4 arg5 harg5 arg6 harg6 arg7 harg7 arg8 harg8 arg9 harg9 hc x0 x1 x2 x3 x4 x5 = k0_pay1 (k0_pay4 x1 x2 x3 x4 x0 x5) k0_pay3 := by
  unfold out0_A_8
  rw [View.read_writes_eq_canon _ _ _ (cover0_A_8 c i arg1 harg1 arg2 harg2 arg3 harg3 arg4 harg4 arg5 harg5 arg6 harg6 arg7 harg7 arg8 harg8 arg9 harg9 hc x0 x1 x2 x3 x4 x5)]
  unfold kernelRun0_A
  dsimp only
  sl_unfold_words
  rw [View.canon_cons_unit_zero (S := S1x256) hz, View.readCov_unit_zero (S := S1x256) _ hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S256x128) hz, View.ld_unit_zero (S := S1x256) hz]

theorem out_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S256x128 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S5000x256 .f32) (harg7 : arg7.IsWhole) (arg8 : Memref sig .tc .vmem S1x256 .f32) (harg8 : arg8.IsWhole) (arg9 : Memref sig .tc .vmem S1x256 .f32) (harg9 : arg9.IsWhole) (hc : ¬cond0_0 i) (x0 : Vec F S5000x128 .f32) (x1 : Vec F S5000x128 .f32) (x2 : Vec F S5000x1 .f32) (x3 : Vec F S256x128 .f32) (x4 : Vec F S1x256 .f32) (x5 : Vec F S256x128 .f32) (xo7 xo8 : Vec F S1x256 .f32) :
    out0_B_6 c i arg1 harg1 arg2 harg2 arg3 harg3 arg4 harg4 arg5 harg5 arg6 harg6 arg7 harg7 arg8 harg8 arg9 harg9 hc x0 x1 x2 x3 x4 x5 xo7 xo8 = k0_pay4 x1 x2 x3 x4 x0 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S256x128) hz, View.ld_unit_zero (S := S1x256) hz]

theorem out_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S256x128 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S5000x256 .f32) (harg7 : arg7.IsWhole) (arg8 : Memref sig .tc .vmem S1x256 .f32) (harg8 : arg8.IsWhole) (arg9 : Memref sig .tc .vmem S1x256 .f32) (harg9 : arg9.IsWhole) (hc : ¬cond0_0 i) (x0 : Vec F S5000x128 .f32) (x1 : Vec F S5000x128 .f32) (x2 : Vec F S5000x1 .f32) (x3 : Vec F S256x128 .f32) (x4 : Vec F S1x256 .f32) (x5 : Vec F S256x128 .f32) (xo7 xo8 : Vec F S1x256 .f32) :
    out0_B_7 c i arg1 harg1 arg2 harg2 arg3 harg3 arg4 harg4 arg5 harg5 arg6 harg6 arg7 harg7 arg8 harg8 arg9 harg9 hc x0 x1 x2 x3 x4 x5 xo7 xo8 = k0_pay5 x1 x2 x3 x4 x0 x5 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S256x128) hz, View.ld_unit_zero (S := S1x256) hz]

theorem out_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S256x128 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S5000x256 .f32) (harg7 : arg7.IsWhole) (arg8 : Memref sig .tc .vmem S1x256 .f32) (harg8 : arg8.IsWhole) (arg9 : Memref sig .tc .vmem S1x256 .f32) (harg9 : arg9.IsWhole) (hc : ¬cond0_0 i) (x0 : Vec F S5000x128 .f32) (x1 : Vec F S5000x128 .f32) (x2 : Vec F S5000x1 .f32) (x3 : Vec F S256x128 .f32) (x4 : Vec F S1x256 .f32) (x5 : Vec F S256x128 .f32) (xo7 xo8 : Vec F S1x256 .f32) :
    out0_B_8 c i arg1 harg1 arg2 harg2 arg3 harg3 arg4 harg4 arg5 harg5 arg6 harg6 arg7 harg7 arg8 harg8 arg9 harg9 hc x0 x1 x2 x3 x4 x5 xo7 xo8 = k0_pay1 (k0_pay4 x1 x2 x3 x4 x0 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, harg9.read_unread, View.ld_unit_zero (S := S5000x128) hz, View.ld_unit_zero (S := S5000x1) hz, View.ld_unit_zero (S := S256x128) hz, View.ld_unit_zero (S := S1x256) hz]

/-! ## The outputs after each grid point -/

/-- The block of the layer's output that grid point `t` computes from its input blocks. -/
def hblk (c : Dev nD) (t : Fin cfg0.N) : Vec F S5000x256 .f32 := k0_pay4 (iblk0 V c 1 t) (iblk0 V c 2 t) (iblk0 V c 3 t) (iblk0 V c 4 t) (iblk0 V c 0 t) (iblk0 V c 5 t)

/-- The running column sums after point `n`: reset to the zero row at point 0, each point adds its block's column sums. -/
def accS (c : Dev nD) : (n : ℕ) → n < cfg0.N → Vec F S1x256 .f32
  | 0, h => k0_pay5 (iblk0 V c 1 ⟨0, h⟩) (iblk0 V c 2 ⟨0, h⟩) (iblk0 V c 3 ⟨0, h⟩) (iblk0 V c 4 ⟨0, h⟩) (iblk0 V c 0 ⟨0, h⟩) (iblk0 V c 5 ⟨0, h⟩) k0_pay2
  | n + 1, h => k0_pay5 (iblk0 V c 1 ⟨n + 1, h⟩) (iblk0 V c 2 ⟨n + 1, h⟩) (iblk0 V c 3 ⟨n + 1, h⟩) (iblk0 V c 4 ⟨n + 1, h⟩) (iblk0 V c 0 ⟨n + 1, h⟩) (iblk0 V c 5 ⟨n + 1, h⟩) (accS c n (Nat.lt_of_succ_lt h))

/-- The running column sums of squares after point `n`. -/
def accQ (c : Dev nD) : (n : ℕ) → n < cfg0.N → Vec F S1x256 .f32
  | 0, h => k0_pay1 (k0_pay4 (iblk0 V c 1 ⟨0, h⟩) (iblk0 V c 2 ⟨0, h⟩) (iblk0 V c 3 ⟨0, h⟩) (iblk0 V c 4 ⟨0, h⟩) (iblk0 V c 0 ⟨0, h⟩) (iblk0 V c 5 ⟨0, h⟩)) k0_pay3
  | n + 1, h => k0_pay1 (k0_pay4 (iblk0 V c 1 ⟨n + 1, h⟩) (iblk0 V c 2 ⟨n + 1, h⟩) (iblk0 V c 3 ⟨n + 1, h⟩) (iblk0 V c 4 ⟨n + 1, h⟩) (iblk0 V c 0 ⟨n + 1, h⟩) (iblk0 V c 5 ⟨n + 1, h⟩)) (accQ c n (Nat.lt_of_succ_lt h))

/-- After point `n` the three staging buffers hold the point's block and the two running sums: by induction on the point. -/
theorem outsAt_eq (c : Dev nD) : ∀ (n : ℕ) (h : n < cfg0.N),
    outsAt0 V c n h = (hblk V c ⟨n, h⟩, accS V c n h, accQ V c n h)
  | 0, h => by
    rw [outsAt0_A V c ⟨0, h⟩ rfl, out_A_6, out_A_7, out_A_8]
    rfl
  | n + 1, h => by
    have hN : cfg0.N = 20 := N_0
    have hB : ¬(⟨n + 1, h⟩ : Fin cfg0.N).val % 20 = 0 := by dsimp only; omega
    rw [outsAt0_B V c ⟨n + 1, h⟩ hB, out_B_6, out_B_7, out_B_8]
    show (hblk V c ⟨n + 1, h⟩, k0_pay5 (iblk0 V c 1 ⟨n + 1, h⟩) (iblk0 V c 2 ⟨n + 1, h⟩) (iblk0 V c 3 ⟨n + 1, h⟩) (iblk0 V c 4 ⟨n + 1, h⟩) (iblk0 V c 0 ⟨n + 1, h⟩) (iblk0 V c 5 ⟨n + 1, h⟩) (outsAt0 V c n _).2.1, k0_pay1 (k0_pay4 (iblk0 V c 1 ⟨n + 1, h⟩) (iblk0 V c 2 ⟨n + 1, h⟩) (iblk0 V c 3 ⟨n + 1, h⟩) (iblk0 V c 4 ⟨n + 1, h⟩) (iblk0 V c 0 ⟨n + 1, h⟩) (iblk0 V c 5 ⟨n + 1, h⟩)) (outsAt0 V c n _).2.2) = _
    rw [outsAt_eq c n]
    rfl

/-! ## The activation array: the row blocks side by side -/

/-- The new activation as one array: row `i` lies in block `i / 5000` at position `i % 5000`. -/
def Hout (c : Dev nD) : S100000x256.Idx → Elt F .f32 := fun i =>
  hblk V c ⟨(i 0).val / 5000, by have hN : cfg0.N = 20 := N_0; have h : (i 0).val < 100000 := (i 0).isLt; rw [hN]; omega⟩
    (ValueIdx.ix2 (⟨(i 0).val % 5000, Nat.mod_lt _ (by norm_num)⟩ : Fin 5000) (⟨(i 1).val, (i 1).isLt⟩ : Fin 256))

/-- At row `5000 t + r`, column `q`, the array is block `t` at `(r, q)`. -/
theorem Hout_at (c : Dev nD) (t : Fin cfg0.N) (r : Fin 5000) (q : Fin 256) (i : S100000x256.Idx)
    (h0 : (i 0).val = 5000 * t.val + r.val) (h1 : (i 1).val = q.val) : Hout V c i = hblk V c t (ValueIdx.ix2 r q) := by
  have hr := r.isLt
  have ht : (i 0).val / 5000 = t.val := by omega
  have hm : (i 0).val % 5000 = r.val := by omega
  have e1 : ∀ h, (⟨(i 0).val / 5000, h⟩ : Fin cfg0.N) = t := fun h => Fin.ext ht
  have e2 : ∀ h, (⟨(i 0).val % 5000, h⟩ : Fin 5000) = r := fun h => Fin.ext hm
  unfold Hout
  rw [e1, e2]
  exact congrArg (fun z => hblk V c t (ValueIdx.ix2 r z)) (Fin.ext h1)

/-- The activation window's block index is the grid point itself; its column block is the only one. -/
theorem idx5 : ∀ t : Fin cfg0.N, win0_6.index t (0 : Fin 2) = t.val ∧ win0_6.index t (1 : Fin 2) = 0 :=
  (by decide +kernel : ∀ t : Fin grid0.N, _)

/-- What point `t` writes back to the activation array is block `t` of `Hout`. -/
theorem flushed5_eq (c : Dev nD) (t : Fin cfg0.N) :
    (dat0 V c).flushed 6 t = ((cfg0.win 6).blk t).view.read (Elt F) (Hout V c) := by
  show (cfg0.win 6).cut (grid0.coords t) ((dat0 V c).after 6 t) = _
  rw [after0_6, outsAt_eq]
  obtain ⟨e0, e1⟩ := idx5 t
  funext y
  have hy0 : (y 0).val < 5000 := (y 0).isLt
  have hy1 : (y 1).val < 256 := (y 1).isLt
  show hblk V c ⟨t.val, t.isLt⟩ y = Hout V c (((cfg0.win 6).blk t).view.emb y)
  rw [Hout_at V c t ⟨(y 0).val, hy0⟩ ⟨(y 1).val, hy1⟩ _
    (by show win0_6.index t (0 : Fin 2) * 5000 + 1 * (y 0).val = 5000 * t.val + (y 0).val; rw [e0]; omega)
    (by show win0_6.index t (1 : Fin 2) * 256 + 1 * (y 1).val = (y 1).val; rw [e1]; omega)]
  exact congrArg (hblk V c t) (ValueIdx.eq_ix2 y)

/-- An index of the activation array is in point `t`'s block iff each coordinate is in the block's range on its axis. -/
theorem mem_blk5 (t : Fin cfg0.N) (i : S100000x256.Idx) :
    i ∈ ((cfg0.win 6).blk t).view.set ↔ ∀ a : Fin 2, win0_6.index t a * S5000x256.size a ≤ (i a).val ∧ (i a).val < win0_6.index t a * S5000x256.size a + S5000x256.size a := by
  show i ∈ ((View.whole main_v20_0).slice (win0_6.rect t)).set ↔ _
  rw [View.set_slice_whole, Rect.mem_set_unit]
  exact Iff.rfl

/-- So after the run the activation array is `Hout`: every row lies in the block of the point `row / 5000`. -/
theorem final5 (c : Dev nD) : (dat0 V c).arrAt 6 cfg0.N = Hout V c :=
  (dat0 V c).arrAt_eq_of_cover 6 (Hout V c) (fun t _ => flushed5_eq V c t) fun i => by
    have hN : cfg0.N = 20 := N_0
    have h0 : (i 0).val < 100000 := (i 0).isLt
    have h1 : (i 1).val < 256 := (i 1).isLt
    refine ⟨⟨(i 0).val / 5000, by rw [hN]; omega⟩, flush0_6 _, ?_⟩
    obtain ⟨e0, e1⟩ := idx5 (⟨(i 0).val / 5000, by rw [hN]; omega⟩ : Fin cfg0.N)
    rw [mem_blk5]
    intro a
    match a with
    | ⟨0, _⟩ =>
      show win0_6.index _ (0 : Fin 2) * 5000 ≤ (i 0).val ∧ (i 0).val < win0_6.index _ (0 : Fin 2) * 5000 + 5000
      rw [e0]; dsimp only; omega
    | ⟨1, _⟩ =>
      show win0_6.index _ (1 : Fin 2) * 256 ≤ (i 1).val ∧ (i 1).val < win0_6.index _ (1 : Fin 2) * 256 + 256
      rw [e1]; omega

/-! ## The two accumulators: written back once, after the last point, whole -/

/-- The last grid point. -/
abbrev tLast : Fin cfg0.N := ⟨19, by have hN : cfg0.N = 20 := N_0; rw [hN]; decide⟩

theorem flushed6_eq (c : Dev nD) (t : Fin cfg0.N) (hf : (cfg0.win 7).flush t = true) :
    (dat0 V c).flushed 7 t = ((cfg0.win 7).blk t).view.read (Elt F) (accS V c 19 tLast.isLt) := by
  have hN : cfg0.N = 20 := N_0
  have h19 : t.val = 19 := by have := (flush0_7 t).mp hf; have := t.isLt; omega
  obtain rfl : t = tLast := Fin.ext h19
  show (cfg0.win 7).cut (grid0.coords tLast) ((dat0 V c).after 7 tLast) = _
  rw [after0_7, outsAt_eq]
  have hz' : (fun a => win0_7.index tLast a * main_v20_1.ty.shape.size a) = fun _ => 0 := funext fun a => by fin_cases a <;> decide +kernel
  exact (Memref.read_access_unit_zero (Elt F) main_v20_1 hz' (fun a => by rw [congrFun hz' a]; simp) (accS V c 19 tLast.isLt)).symm

theorem flushed7_eq (c : Dev nD) (t : Fin cfg0.N) (hf : (cfg0.win 8).flush t = true) :
    (dat0 V c).flushed 8 t = ((cfg0.win 8).blk t).view.read (Elt F) (accQ V c 19 tLast.isLt) := by
  have hN : cfg0.N = 20 := N_0
  have h19 : t.val = 19 := by have := (flush0_8 t).mp hf; have := t.isLt; omega
  obtain rfl : t = tLast := Fin.ext h19
  show (cfg0.win 8).cut (grid0.coords tLast) ((dat0 V c).after 8 tLast) = _
  rw [after0_8, outsAt_eq]
  have hz' : (fun a => win0_8.index tLast a * main_v20_2.ty.shape.size a) = fun _ => 0 := funext fun a => by fin_cases a <;> decide +kernel
  exact (Memref.read_access_unit_zero (Elt F) main_v20_2 hz' (fun a => by rw [congrFun hz' a]; simp) (accQ V c 19 tLast.isLt)).symm

/-- The one block of an accumulator's array is the array: every index is in it. -/
theorem final6 (c : Dev nD) : (dat0 V c).arrAt 7 cfg0.N = accS V c 19 tLast.isLt :=
  (dat0 V c).arrAt_eq_of_cover 7 _ (flushed6_eq V c) fun i =>
    ⟨tLast, (flush0_7 tLast).mpr rfl, by
      show i ∈ ((View.whole main_v20_1).slice (win0_7.rect tLast)).set
      rw [View.set_slice_whole, Rect.mem_set_unit]
      intro a
      have h0 : (i 0 : Nat) < 1 := (i 0).isLt
      have h1 : (i 1 : Nat) < 256 := (i 1).isLt
      match a with
      | ⟨0, _⟩ => show win0_7.index tLast 0 * win0_7.size 0 ≤ (i 0 : Nat) ∧ (i 0 : Nat) < win0_7.index tLast 0 * win0_7.size 0 + win0_7.xsize (grid0.coords tLast) 0
                  rw [show win0_7.index tLast 0 * win0_7.size 0 = 0 from by decide +kernel, show win0_7.xsize (grid0.coords tLast) 0 = 1 from by decide +kernel]; omega
      | ⟨1, _⟩ => show win0_7.index tLast 1 * win0_7.size 1 ≤ (i 1 : Nat) ∧ (i 1 : Nat) < win0_7.index tLast 1 * win0_7.size 1 + win0_7.xsize (grid0.coords tLast) 1
                  rw [show win0_7.index tLast 1 * win0_7.size 1 = 0 from by decide +kernel, show win0_7.xsize (grid0.coords tLast) 1 = 256 from by decide +kernel]; omega⟩

theorem final7 (c : Dev nD) : (dat0 V c).arrAt 8 cfg0.N = accQ V c 19 tLast.isLt :=
  (dat0 V c).arrAt_eq_of_cover 8 _ (flushed7_eq V c) fun i =>
    ⟨tLast, (flush0_8 tLast).mpr rfl, by
      show i ∈ ((View.whole main_v20_2).slice (win0_8.rect tLast)).set
      rw [View.set_slice_whole, Rect.mem_set_unit]
      intro a
      have h0 : (i 0 : Nat) < 1 := (i 0).isLt
      have h1 : (i 1 : Nat) < 256 := (i 1).isLt
      match a with
      | ⟨0, _⟩ => show win0_8.index tLast 0 * win0_8.size 0 ≤ (i 0 : Nat) ∧ (i 0 : Nat) < win0_8.index tLast 0 * win0_8.size 0 + win0_8.xsize (grid0.coords tLast) 0
                  rw [show win0_8.index tLast 0 * win0_8.size 0 = 0 from by decide +kernel, show win0_8.xsize (grid0.coords tLast) 0 = 1 from by decide +kernel]; omega
      | ⟨1, _⟩ => show win0_8.index tLast 1 * win0_8.size 1 ≤ (i 1 : Nat) ∧ (i 1 : Nat) < win0_8.index tLast 1 * win0_8.size 1 + win0_8.xsize (grid0.coords tLast) 1
                  rw [show win0_8.index tLast 1 * win0_8.size 1 = 0 from by decide +kernel, show win0_8.xsize (grid0.coords tLast) 1 = 256 from by decide +kernel]; omega⟩

end Cert.KernelIdeal.Stage0

end
-- ==== Proof.LibDenseStage.lean ====
/-
  One dense stage of a multilayer perceptron, and the column sums taken of it, read at an index, over arbitrary sizes.

  A block of `m` rows of `k` features is scaled and shifted feature by feature (two one-row operands), clipped below at
  a threshold, multiplied by the transpose of an `[n, k]` weight matrix into a zero accumulator and shifted by a one-row
  bias. Entry `(a, j)` of the result is `(∑ c, max (X (a, c) · S c + T c) θ · W (j, c)) + B j`: the two one-row operands
  are read at their row 0 whatever the row `a`, the transposed weight at `(c, j)` is the weight at `(j, c)`, and the
  product into the zero accumulator is the textbook contraction.

  The sum down the rows of an `[m, n]` block, cast to one row and added to a one-row operand, is at `(0, j)` that operand
  at `(0, j)` plus `∑ r, block (r, j)`.
-/
import Idealize.ShloMosaic.Lib.StackMember
import Idealize.ShloMosaic.Lib.KernelVsHost
import Idealize.ShloMosaic.Lib.ValueLayout
import Idealize.ShloMosaic.PureOps.Ideal.Laws

noncomputable section

namespace Cert.DenseStage

open Idealize.ShloMosaic Idealize.ShloMosaic.ValueIdx Idealize.ShloMosaic.StackMember

variable {m k n : Nat}

/-- The scaled, shifted and clipped input block at `(a, c)`. -/
theorem affineClip_apply (X : FVec Ideal ⟨2, ![m, k]⟩ .f32) (S T : FVec Ideal ⟨2, ![1, k]⟩ .f32) (θ : BitVec 32)
    (hX : (⟨2, ![m, k]⟩ : Shape).ShapeCasts ⟨2, ![m, k]⟩) (hS : (⟨2, ![1, k]⟩ : Shape).ShapeCasts ⟨2, ![1, k]⟩)
    (hSb : (⟨2, ![1, k]⟩ : Shape).Broadcasts ⟨2, ![m, k]⟩) (a : Fin m) (c : Fin k) :
    maximumf (addf (mulf (shapeCast ⟨2, ![m, k]⟩ X hX) (broadcastTo ⟨2, ![m, k]⟩ (shapeCast ⟨2, ![1, k]⟩ S hS) hSb))
        (broadcastTo ⟨2, ![m, k]⟩ (shapeCast ⟨2, ![1, k]⟩ T hS) hSb))
      (broadcast ⟨2, ![m, k]⟩ (Scalar.ofBits (F := Ideal) .f32 θ)) (ix2 a c)
      = max (X (ix2 a c) * S (ix2 (0 : Fin 1) c) + T (ix2 (0 : Fin 1) c)) (Ideal.ofBits .f32 θ) := by
  rw [maximumf_apply, addf_apply, mulf_apply, shapeCast_self, shapeCast_self, shapeCast_self,
    broadcastTo_1b_ab_apply, broadcastTo_1b_ab_apply]
  rfl

/-- The dense stage at `(a, j)`. -/
theorem dense_apply (d : DotDims ⟨2, ![m, k]⟩ ⟨2, ![k, n]⟩ ⟨2, ![m, n]⟩) (hd : d = DotDims.plain m k n)
    (prec : Option ContractPrecision)
    (X : FVec Ideal ⟨2, ![m, k]⟩ .f32) (S T : FVec Ideal ⟨2, ![1, k]⟩ .f32)
    (W : FVec Ideal ⟨2, ![n, k]⟩ .f32) (B : FVec Ideal ⟨2, ![1, n]⟩ .f32) (θ : BitVec 32)
    (hX : (⟨2, ![m, k]⟩ : Shape).ShapeCasts ⟨2, ![m, k]⟩) (hS : (⟨2, ![1, k]⟩ : Shape).ShapeCasts ⟨2, ![1, k]⟩)
    (hSb : (⟨2, ![1, k]⟩ : Shape).Broadcasts ⟨2, ![m, k]⟩)
    (hW : (⟨2, ![n, k]⟩ : Shape).Transposes [1, 0] ⟨2, ![k, n]⟩)
    (hB : (⟨2, ![1, n]⟩ : Shape).ShapeCasts ⟨2, ![1, n]⟩) (hBb : (⟨2, ![1, n]⟩ : Shape).Broadcasts ⟨2, ![m, n]⟩)
    (a : Fin m) (j : Fin n) :
    addf (matmul d prec
        (maximumf (addf (mulf (shapeCast ⟨2, ![m, k]⟩ X hX) (broadcastTo ⟨2, ![m, k]⟩ (shapeCast ⟨2, ![1, k]⟩ S hS) hSb))
            (broadcastTo ⟨2, ![m, k]⟩ (shapeCast ⟨2, ![1, k]⟩ T hS) hSb))
          (broadcast ⟨2, ![m, k]⟩ (Scalar.ofBits (F := Ideal) .f32 θ)))
        (transpose ⟨2, ![k, n]⟩ [1, 0] W hW) (constant ⟨2, ![m, n]⟩ .f32 0x00000000#32))
      (broadcastTo ⟨2, ![m, n]⟩ (shapeCast ⟨2, ![1, n]⟩ B hB) hBb) (ix2 a j)
      = (∑ c : Fin k, max (X (ix2 a c) * S (ix2 (0 : Fin 1) c) + T (ix2 (0 : Fin 1) c)) (Ideal.ofBits .f32 θ) * W (ix2 j c))
        + B (ix2 (0 : Fin 1) j) := by
  subst hd
  rw [addf_apply, matmul_zero_eq_dotGeneral, dotGeneral_plain_apply, broadcastTo_1b_ab_apply, shapeCast_self B hB]
  refine congrArg (· + B (ix2 (0 : Fin 1) j)) (Finset.sum_congr rfl fun c _ => ?_)
  rw [affineClip_apply, transpose_ix2_apply]

/-- The row-`0` index of a one-axis reduction down the rows: the result index `j` with the row `r` put back. -/
theorem lift_rows (h : (⟨2, ![m, n]⟩ : Shape).Reduces [0] ⟨1, ![n]⟩) (j : Fin n) (r : Fin m) :
    h.lift (ix1 j) r = ix2 r j := by
  funext c
  refine Fin.ext ?_
  match c with
  | ⟨0, _⟩ => rfl
  | ⟨1, _⟩ => rfl

/-- The sums down the rows of a block, cast to one row and added to a one-row operand, at `(0, j)`. -/
theorem addColumnSums_apply (v : FVec Ideal ⟨2, ![1, n]⟩ .f32) (src : FVec Ideal ⟨2, ![m, n]⟩ .f32)
    (h : (⟨2, ![m, n]⟩ : Shape).Reduces [0] ⟨1, ![n]⟩) (hφ : FKind.Formats .f32)
    (hacc : (0x00000000#32 : BitVec 32) = FKind.add.neutral .f32 hφ)
    (hc : (⟨1, ![n]⟩ : Shape).ShapeCasts ⟨2, ![1, n]⟩) (j : Fin n) :
    addf v (shapeCast ⟨2, ![1, n]⟩ (multiReduction (F := Ideal) .add [0] ⟨1, ![n]⟩ src 0x00000000#32 h hφ hacc) hc)
        (ix2 (0 : Fin 1) j)
      = v (ix2 (0 : Fin 1) j) + ∑ r : Fin m, src (ix2 r j) := by
  rw [addf_apply, shapeCast_a_1a_apply]
  refine congrArg (v (ix2 (0 : Fin 1) j) + ·) ?_
  refine (Ideal.multiReduction_add_single src _ h hφ hacc (ix1 j)).trans ?_
  exact Finset.sum_congr rfl fun r _ => congrArg src (lift_rows h j r)

end Cert.DenseStage

end
-- ==== Proof.LibBlockOps.lean ====
/-
  Blocks of rows read at an index, over arbitrary sizes: a column repeated across the columns of a block, a product with a
  transposed weight, the stage that averages a block of neighbour sums and projects it, and the logarithm of the softmax
  of a block with two columns.

  • An `[m, 1]` column repeated across `n` columns reads, at `(a, c)`, the column at `(a, 0)`; a length-`m` vector cast
    to such a column first reads the vector at `a`.
  • A block `[m, k]` times the transpose of a weight `[n, k]`, into a zero accumulator, is at `(a, j)` the contraction
    `∑ c, A (a, c) · W (j, c)`.
  • The averaging stage divides each row of a block of sums by that row's count, clipped below at a threshold, projects
    the quotient by one weight, adds a one-row bias, and adds the projection of a second block by a second weight.
  • For a block with two columns the row maximum, taken as a fold of `max` from `-∞` and then `max` with `-∞` once more,
    is the larger of the row's two entries; subtracting it, exponentiating, summing along the row, taking the logarithm
    and subtracting that gives the logarithm of the softmax of the row.
-/
import Idealize.ShloMosaic.Lib.StackMember
import Idealize.ShloMosaic.Lib.KernelVsHost
import Idealize.ShloMosaic.Lib.ValueLayout
import Idealize.ShloMosaic.PureOps.Ideal.Laws

noncomputable section

namespace Cert.BlockOps

open Idealize.ShloMosaic Idealize.ShloMosaic.ValueIdx Idealize.ShloMosaic.StackMember

variable {m k n : Nat}

/-! ## A column repeated across columns -/

/-- An `[m, 1]` column repeated across `n` columns reads, at `(a, c)`, the column at `(a, 0)`. -/
theorem broadcastTo_a1_ab_apply {α : Type} (v : (⟨2, ![m, 1]⟩ : Shape).Idx → α)
    (h : (⟨2, ![m, 1]⟩ : Shape).Broadcasts ⟨2, ![m, n]⟩) (a : Fin m) (c : Fin n) :
    broadcastTo ⟨2, ![m, n]⟩ v h (ix2 a c) = v (ix2 a (0 : Fin 1)) := by
  refine broadcastTo_apply v h (ix2 a c) (ix2 a (0 : Fin 1)) fun ax => ?_
  match ax with
  | ⟨0, _⟩ =>
    show a.val = if m = 1 then 0 else a.val
    split
    · have := a.isLt; omega
    · rfl
  | ⟨1, _⟩ => rfl

/-- A length-`m` vector cast to a column and repeated across `n` columns reads, at `(a, c)`, the vector at `a`. -/
theorem columnBroadcast_apply {α : Type} (x : (⟨1, ![m]⟩ : Shape).Idx → α)
    (hc : (⟨1, ![m]⟩ : Shape).ShapeCasts ⟨2, ![m, 1]⟩) (hb : (⟨2, ![m, 1]⟩ : Shape).Broadcasts ⟨2, ![m, n]⟩)
    (a : Fin m) (c : Fin n) :
    broadcastTo ⟨2, ![m, n]⟩ (shapeCast ⟨2, ![m, 1]⟩ x hc) hb (ix2 a c) = x (ix1 a) := by
  rw [broadcastTo_a1_ab_apply]
  exact shapeCast_apply x hc _ _ (by
    rw [Shape.rowMajor_val_two, Shape.rowMajor_val_one]
    show a.val = a.val * 1 + 0
    omega)

/-! ## A product with a transposed weight -/

/-- A block times the transpose of a weight, into the zero accumulator, at `(a, j)`: both factors are read along their
    second coordinate. -/
theorem matmul_transposed_apply (d : DotDims ⟨2, ![m, k]⟩ ⟨2, ![k, n]⟩ ⟨2, ![m, n]⟩) (hd : d = DotDims.plain m k n)
    (prec : Option ContractPrecision) (A : FVec Ideal ⟨2, ![m, k]⟩ .f32) (W : FVec Ideal ⟨2, ![n, k]⟩ .f32)
    (hW : (⟨2, ![n, k]⟩ : Shape).Transposes [1, 0] ⟨2, ![k, n]⟩) (a : Fin m) (j : Fin n) :
    matmul d prec A (transpose ⟨2, ![k, n]⟩ [1, 0] W hW) (constant ⟨2, ![m, n]⟩ .f32 0x00000000#32) (ix2 a j)
      = ∑ c : Fin k, A (ix2 a c) * W (ix2 j c) := by
  subst hd
  rw [matmul_zero_eq_dotGeneral, dotGeneral_plain_apply]
  exact Finset.sum_congr rfl fun c _ => by rw [transpose_ix2_apply]

/-! ## The averaging stage -/

/-- The quotient of a block of sums by its rows' clipped counts, at `(a, c)`. -/
theorem clippedMean_apply (N : FVec Ideal ⟨2, ![m, k]⟩ .f32) (D : FVec Ideal ⟨2, ![m, 1]⟩ .f32) (θ : BitVec 32)
    (hN : (⟨2, ![m, k]⟩ : Shape).ShapeCasts ⟨2, ![m, k]⟩) (hD : (⟨2, ![m, 1]⟩ : Shape).ShapeCasts ⟨2, ![m, 1]⟩)
    (hDb : (⟨2, ![m, 1]⟩ : Shape).Broadcasts ⟨2, ![m, k]⟩) (a : Fin m) (c : Fin k) :
    divf (shapeCast ⟨2, ![m, k]⟩ N hN)
        (broadcastTo ⟨2, ![m, k]⟩
          (maximumf (shapeCast ⟨2, ![m, 1]⟩ D hD) (broadcast ⟨2, ![m, 1]⟩ (Scalar.ofBits (F := Ideal) .f32 θ))) hDb) (ix2 a c)
      = Ideal.div (N (ix2 a c)) (max (D (ix2 a (0 : Fin 1))) (Ideal.ofBits .f32 θ)) := by
  rw [divf_apply, broadcastTo_a1_ab_apply, maximumf_apply, shapeCast_self N hN, shapeCast_self D hD]
  rfl

/-- The averaging stage at `(a, j)`. -/
theorem meanProject_apply (d : DotDims ⟨2, ![m, k]⟩ ⟨2, ![k, n]⟩ ⟨2, ![m, n]⟩) (hd : d = DotDims.plain m k n)
    (prec : Option ContractPrecision)
    (N : FVec Ideal ⟨2, ![m, k]⟩ .f32) (D : FVec Ideal ⟨2, ![m, 1]⟩ .f32) (W₁ : FVec Ideal ⟨2, ![n, k]⟩ .f32)
    (B : FVec Ideal ⟨2, ![1, n]⟩ .f32) (X : FVec Ideal ⟨2, ![m, k]⟩ .f32) (W₂ : FVec Ideal ⟨2, ![n, k]⟩ .f32) (θ : BitVec 32)
    (hN : (⟨2, ![m, k]⟩ : Shape).ShapeCasts ⟨2, ![m, k]⟩) (hD : (⟨2, ![m, 1]⟩ : Shape).ShapeCasts ⟨2, ![m, 1]⟩)
    (hDb : (⟨2, ![m, 1]⟩ : Shape).Broadcasts ⟨2, ![m, k]⟩)
    (hW : (⟨2, ![n, k]⟩ : Shape).Transposes [1, 0] ⟨2, ![k, n]⟩)
    (hB : (⟨2, ![1, n]⟩ : Shape).ShapeCasts ⟨2, ![1, n]⟩) (hBb : (⟨2, ![1, n]⟩ : Shape).Broadcasts ⟨2, ![m, n]⟩)
    (a : Fin m) (j : Fin n) :
    addf
        (addf
          (matmul d prec
            (divf (shapeCast ⟨2, ![m, k]⟩ N hN)
              (broadcastTo ⟨2, ![m, k]⟩
                (maximumf (shapeCast ⟨2, ![m, 1]⟩ D hD) (broadcast ⟨2, ![m, 1]⟩ (Scalar.ofBits (F := Ideal) .f32 θ))) hDb))
            (transpose ⟨2, ![k, n]⟩ [1, 0] W₁ hW) (constant ⟨2, ![m, n]⟩ .f32 0x00000000#32))
          (broadcastTo ⟨2, ![m, n]⟩ (shapeCast ⟨2, ![1, n]⟩ B hB) hBb))
        (matmul d prec X (transpose ⟨2, ![k, n]⟩ [1, 0] W₂ hW) (constant ⟨2, ![m, n]⟩ .f32 0x00000000#32)) (ix2 a j)
      = ((∑ c : Fin k, Ideal.div (N (ix2 a c)) (max (D (ix2 a (0 : Fin 1))) (Ideal.ofBits .f32 θ)) * W₁ (ix2 j c))
          + B (ix2 (0 : Fin 1) j))
        + ∑ c : Fin k, X (ix2 a c) * W₂ (ix2 j c) := by
  rw [addf_apply, addf_apply, matmul_transposed_apply d hd, matmul_transposed_apply d hd, broadcastTo_1b_ab_apply,
    shapeCast_self B hB]
  refine congrArg (fun t => t + B (ix2 (0 : Fin 1) j) + ∑ c : Fin k, X (ix2 a c) * W₂ (ix2 j c))
    (Finset.sum_congr rfl fun c _ => ?_)
  rw [clippedMean_apply]

/-! ## The logarithm of the softmax of a block with two columns -/

/-- The index of a one-axis reduction along the rows: the result index `a` with the column `q` put back. -/
theorem lift_columns (h : (⟨2, ![m, n]⟩ : Shape).Reduces [1] ⟨1, ![m]⟩) (a : Fin m) (q : Fin n) :
    h.lift (ix1 a) q = ix2 a q := by
  funext c
  refine Fin.ext ?_
  match c with
  | ⟨0, _⟩ => rfl
  | ⟨1, _⟩ => rfl

/-- The fold of `max` from `-∞` over two values is the larger of the two. -/
theorem fold_max_two (f : Fin 2 → EReal) : (Finset.univ : Finset (Fin 2)).fold max ⊥ f = max (f 0) (f 1) := by
  rw [show (Finset.univ : Finset (Fin 2)) = {0, 1} from rfl, Finset.fold_insert (by decide), Finset.fold_singleton,
    max_bot_right]

/-- The pattern of `-∞` denotes the least extended real. -/
theorem ofBits_negInf_f32 : Ideal.ofBits .f32 0xFF800000#32 = ⊥ := by simp [Ideal.ofBits, Ideal.ieee]

/-- The row maximum of a two-column block, as a fold from `-∞` followed by a `max` with `-∞`, at row `a`. -/
theorem rowMax_two_apply (Z : FVec Ideal ⟨2, ![m, 2]⟩ .f32)
    (hr : (⟨2, ![m, 2]⟩ : Shape).Reduces [1] ⟨1, ![m]⟩) (hφ : FKind.Formats .f32)
    (hmax : (0xFF800000#32 : BitVec 32) = FKind.maximumf.neutral .f32 hφ) (a : Fin m) :
    maximumf (broadcast ⟨1, ![m]⟩ (Scalar.ofBits (F := Ideal) .f32 0xFF800000#32))
        (multiReduction (F := Ideal) .maximumf [1] ⟨1, ![m]⟩ Z 0xFF800000#32 hr hφ hmax) (ix1 a)
      = max (Z (ix2 a (0 : Fin 2))) (Z (ix2 a (1 : Fin 2))) := by
  rw [maximumf_apply]
  refine (congrArg (max _) (Ideal.multiReduction_maximumf_single Z _ hr hφ hmax (ix1 a))).trans ?_
  have hfold : (Finset.univ : Finset (Fin 2)).fold max (Ideal.ofBits .f32 0xFF800000#32)
      (fun q : Fin 2 => Z (hr.lift (ix1 a) q)) = max (Z (ix2 a (0 : Fin 2))) (Z (ix2 a (1 : Fin 2))) := by
    rw [ofBits_negInf_f32, fold_max_two, lift_columns, lift_columns]
  exact (congrArg (max (Ideal.ofBits .f32 0xFF800000#32)) hfold).trans (by rw [ofBits_negInf_f32, max_bot_left])

/-- The sum along the rows of a block, at row `a`: the sum over the row's entries. -/
theorem rowSum_apply (src : FVec Ideal ⟨2, ![m, n]⟩ .f32)
    (hr : (⟨2, ![m, n]⟩ : Shape).Reduces [1] ⟨1, ![m]⟩) (hφ : FKind.Formats .f32)
    (hadd : (0x00000000#32 : BitVec 32) = FKind.add.neutral .f32 hφ) (a : Fin m) :
    multiReduction (F := Ideal) .add [1] ⟨1, ![m]⟩ src 0x00000000#32 hr hφ hadd (ix1 a) = ∑ q : Fin n, src (ix2 a q) :=
  (Ideal.multiReduction_add_single src _ hr hφ hadd (ix1 a)).trans
    (Finset.sum_congr rfl fun q _ => congrArg src (lift_columns hr a q))

/-- The logarithm of the softmax of a two-column block at `(a, j)`, computed with the row maximum subtracted first. -/
theorem logSoftmax_two_apply (Z : FVec Ideal ⟨2, ![m, 2]⟩ .f32)
    (hr : (⟨2, ![m, 2]⟩ : Shape).Reduces [1] ⟨1, ![m]⟩) (hφ : FKind.Formats .f32)
    (hmax : (0xFF800000#32 : BitVec 32) = FKind.maximumf.neutral .f32 hφ)
    (hadd : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, 2]⟩)
    (a : Fin m) (j : Fin 2) :
    subf
        (subf Z (broadcastTo ⟨2, ![m, 2]⟩ (shapeCast ⟨2, ![m, 1]⟩
          (maximumf (broadcast ⟨1, ![m]⟩ (Scalar.ofBits (F := Ideal) .f32 0xFF800000#32))
            (multiReduction (F := Ideal) .maximumf [1] ⟨1, ![m]⟩ Z 0xFF800000#32 hr hφ hmax)) hc) hb))
        (broadcastTo ⟨2, ![m, 2]⟩
          (log (shapeCast ⟨2, ![m, 1]⟩
            (multiReduction (F := Ideal) .add [1] ⟨1, ![m]⟩
              (exp (subf Z (broadcastTo ⟨2, ![m, 2]⟩ (shapeCast ⟨2, ![m, 1]⟩
                (maximumf (broadcast ⟨1, ![m]⟩ (Scalar.ofBits (F := Ideal) .f32 0xFF800000#32))
                  (multiReduction (F := Ideal) .maximumf [1] ⟨1, ![m]⟩ Z 0xFF800000#32 hr hφ hmax)) hc) hb)))
              0x00000000#32 hr hφ hadd) hc)) hb) (ix2 a j)
      = (Z (ix2 a j) - max (Z (ix2 a (0 : Fin 2))) (Z (ix2 a (1 : Fin 2))))
        - Ideal.log (∑ q : Fin 2, Ideal.exp (Z (ix2 a q) - max (Z (ix2 a (0 : Fin 2))) (Z (ix2 a (1 : Fin 2))))) := by
  have hcen : ∀ q : Fin 2,
      subf Z (broadcastTo ⟨2, ![m, 2]⟩ (shapeCast ⟨2, ![m, 1]⟩
          (maximumf (broadcast ⟨1, ![m]⟩ (Scalar.ofBits (F := Ideal) .f32 0xFF800000#32))
            (multiReduction (F := Ideal) .maximumf [1] ⟨1, ![m]⟩ Z 0xFF800000#32 hr hφ hmax)) hc) hb) (ix2 a q)
        = Z (ix2 a q) - max (Z (ix2 a (0 : Fin 2))) (Z (ix2 a (1 : Fin 2))) := fun q => by
    rw [subf_apply, columnBroadcast_apply, rowMax_two_apply]
  rw [subf_apply, hcen j, broadcastTo_a1_ab_apply]
  refine congrArg (fun t => Z (ix2 a j) - max (Z (ix2 a (0 : Fin 2))) (Z (ix2 a (1 : Fin 2))) - Ideal.log t) ?_
  refine (shapeCast_apply _ hc (ix2 a (0 : Fin 1)) (ix1 a) (by
    rw [Shape.rowMajor_val_two, Shape.rowMajor_val_one]
    show a.val = a.val * 1 + 0
    omega)).trans ?_
  refine (rowSum_apply _ hr hφ hadd a).trans ?_
  exact Finset.sum_congr rfl fun q _ => congrArg Ideal.exp (hcen q)

end Cert.BlockOps

end
-- ==== Proof.Spec.lean ====
/-
  The last operation of both programs, as one row function: the logarithm of the softmax of a row of two logits,
  written with the row's maximum subtracted first, as both programs compute it.
-/
import Idealize.ShloMosaic.PureOps.Ideal

noncomputable section

namespace Cert.Spec

open Idealize.ShloMosaic

/-- The larger of a row's two entries. -/
def rowMax (z : Fin 2 → EReal) : EReal := max (z 0) (z 1)

/-- Entry `j` of the log-softmax of the row `z`: the entry less the row's maximum, less the logarithm of the sum of the
    exponentials of the entries less that maximum. -/
def lsmRow (z : Fin 2 → EReal) (j : Fin 2) : EReal :=
  (z j - rowMax z) - Ideal.log (∑ q : Fin 2, Ideal.exp (z q - rowMax z))

end Cert.Spec

end
-- ==== Proof.Payloads04.lean ====
/-
  Every value the first and the last kernel store, read at an index.

  The first kernel averages a block of neighbour sums row by row (each row divided by its count, clipped below at one),
  projects the average by one weight, adds a bias and the projection of the block's own features by a second weight; it
  keeps running sums, down the rows, of that output and of its squares, and resets the two sums on the first block. The
  last kernel scales and shifts its block feature by feature, clips below at zero, projects to two logits per row, adds a
  bias and takes the logarithm of the softmax of each row. Each stored value is read here at one index as sums over
  `Fin`, products, quotients, `max`, differences, the exponential and the logarithm of the operands at coordinate indices.
-/
import proofs.«119158_j67731634258670_1_alg».proof.Proof.Gen.KernelIdeal.Skeleton
import proofs.«119158_j67731634258670_1_alg».proof.Proof.LibDenseStage
import proofs.«119158_j67731634258670_1_alg».proof.Proof.LibBlockOps
import proofs.«119158_j67731634258670_1_alg».proof.Proof.Spec

noncomputable section

namespace Cert.KernelIdeal.Pay

open Cert.KernelIdeal Cert.KernelIdeal.Gen Idealize.ShloMosaic Idealize.ShloMosaic.ValueIdx Cert.DenseStage Cert.BlockOps

/-! ## The first kernel: average the neighbour sums, project, add the projected features -/

/-- The kernel's output block at `(a, j)`. -/
theorem k0_pay4_apply (v3 : Vec Ideal S5000x128 .f32) (v5 : Vec Ideal S5000x1 .f32) (v11 : Vec Ideal S256x128 .f32)
    (v14 : Vec Ideal S1x256 .f32) (v18 : Vec Ideal S5000x128 .f32) (v19 : Vec Ideal S256x128 .f32)
    (a : Fin 5000) (j : Fin 256) :
    k0_pay4 (F := Ideal) v3 v5 v11 v14 v18 v19 (ix2 a j)
      = ((∑ c : Fin 128, Ideal.div (v3 (ix2 a c)) (max (v5 (ix2 a (0 : Fin 1))) (Ideal.ofBits .f32 0x3F800000#32))
              * v11 (ix2 j c))
          + v14 (ix2 (0 : Fin 1) j))
        + ∑ c : Fin 128, v18 (ix2 a c) * v19 (ix2 j c) := by
  unfold k0_pay4
  exact meanProject_apply _ rfl none v3 v5 v11 v14 v18 v19 _ _ _ _ _ _ _ a j

/-- The running column sums: the stored sums plus the sums down the block's rows. -/
theorem k0_pay5_apply (v3 : Vec Ideal S5000x128 .f32) (v5 : Vec Ideal S5000x1 .f32) (v11 : Vec Ideal S256x128 .f32)
    (v14 : Vec Ideal S1x256 .f32) (v18 : Vec Ideal S5000x128 .f32) (v19 : Vec Ideal S256x128 .f32)
    (v24 : Vec Ideal S1x256 .f32) (j : Fin 256) :
    k0_pay5 (F := Ideal) v3 v5 v11 v14 v18 v19 v24 (ix2 (0 : Fin 1) j)
      = v24 (ix2 (0 : Fin 1) j) + ∑ r : Fin 5000, k0_pay4 (F := Ideal) v3 v5 v11 v14 v18 v19 (ix2 r j) := by
  unfold k0_pay5
  rw [shapeCast_self v24]
  exact addColumnSums_apply v24 (k0_pay4 (F := Ideal) v3 v5 v11 v14 v18 v19) _ _ _ _ j

/-- The running column sums of squares: the stored sums plus the sums down the rows of the block's squares. -/
theorem k0_pay1_apply (v22 : FVec Ideal S5000x256 .f32) (v30 : Vec Ideal S1x256 .f32) (j : Fin 256) :
    k0_pay1 (F := Ideal) v22 v30 (ix2 (0 : Fin 1) j)
      = v30 (ix2 (0 : Fin 1) j) + ∑ r : Fin 5000, v22 (ix2 r j) * v22 (ix2 r j) := by
  unfold k0_pay1
  rw [shapeCast_self v30]
  exact addColumnSums_apply v30 (mulf v22 v22) _ _ _ _ j

/-- The first reset store writes zero everywhere. -/
theorem k0_pay2_apply (y : (S1x256 : Shape).Idx) : k0_pay2 (F := Ideal) y = 0 :=
  Ideal.ofBits_zero_f32

/-- The second reset store writes zero everywhere. -/
theorem k0_pay3_apply (y : (S1x256 : Shape).Idx) : k0_pay3 (F := Ideal) y = 0 :=
  Ideal.ofBits_zero_f32

/-! ## The last kernel: two logits per row and the logarithm of their softmax -/

/-- The logarithm of the softmax of a two-column block at `(a, j)`, as the row function applied to row `a`. -/
theorem logSoftmax_two_lsmRow {m : Nat} (Z : FVec Ideal ⟨2, ![m, 2]⟩ .f32)
    (hr : (⟨2, ![m, 2]⟩ : Shape).Reduces [1] ⟨1, ![m]⟩) (hφ : FKind.Formats .f32)
    (hmax : (0xFF800000#32 : BitVec 32) = FKind.maximumf.neutral .f32 hφ)
    (hadd : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, 2]⟩)
    (a : Fin m) (j : Fin 2) :
    subf
        (subf Z (broadcastTo ⟨2, ![m, 2]⟩ (shapeCast ⟨2, ![m, 1]⟩
          (maximumf (broadcast ⟨1, ![m]⟩ (Scalar.ofBits (F := Ideal) .f32 0xFF800000#32))
            (multiReduction (F := Ideal) .maximumf [1] ⟨1, ![m]⟩ Z 0xFF800000#32 hr hφ hmax)) hc) hb))
        (broadcastTo ⟨2, ![m, 2]⟩
          (log (shapeCast ⟨2, ![m, 1]⟩
            (multiReduction (F := Ideal) .add [1] ⟨1, ![m]⟩
              (exp (subf Z (broadcastTo ⟨2, ![m, 2]⟩ (shapeCast ⟨2, ![m, 1]⟩
                (maximumf (broadcast ⟨1, ![m]⟩ (Scalar.ofBits (F := Ideal) .f32 0xFF800000#32))
                  (multiReduction (F := Ideal) .maximumf [1] ⟨1, ![m]⟩ Z 0xFF800000#32 hr hφ hmax)) hc) hb)))
              0x00000000#32 hr hφ hadd) hc)) hb) (ix2 a j)
      = Cert.Spec.lsmRow (fun q : Fin 2 => Z (ix2 a q)) j :=
  logSoftmax_two_apply Z hr hφ hmax hadd hc hb a j

/-- The kernel's output block at `(a, j)`: the logarithm of the softmax of row `a`'s two logits, each logit the clipped
    affine image of the row against a row of the weight, plus the bias. -/
theorem k4_pay1_apply (v0 : Vec Ideal S5000x14 .f32) (v2 v6 : Vec Ideal S1x14 .f32) (v12 : Vec Ideal S2x14 .f32)
    (v15 : Vec Ideal S1x2 .f32) (a : Fin 5000) (j : Fin 2) :
    k4_pay1 (F := Ideal) v0 v2 v6 v12 v15 (ix2 a j)
      = Cert.Spec.lsmRow
          (fun q : Fin 2 =>
            (∑ c : Fin 14, max (v0 (ix2 a c) * v2 (ix2 (0 : Fin 1) c) + v6 (ix2 (0 : Fin 1) c)) (Ideal.ofBits .f32 0x00000000#32)
                * v12 (ix2 q c))
              + v15 (ix2 (0 : Fin 1) q)) j := by
  unfold k4_pay1
  refine (logSoftmax_two_lsmRow _ _ _ _ _ _ _ a j).trans ?_
  exact congrArg (fun f : Fin 2 → EReal => Cert.Spec.lsmRow f j)
    (funext fun q => dense_apply _ rfl none v0 v2 v6 v12 v15 _ _ _ _ _ _ _ a q)

end Cert.KernelIdeal.Pay

end
-- ==== Proof.LibBlockSum.lean ====
/-
  A finite sum regrouped into equal blocks.

  Over any commutative additive monoid, the sum of `g` over the `n = a · b` indices `0, …, n - 1` is the sum, over
  the `a` blocks `p`, of the sums over the `b` positions `r` inside a block of `g` at index `b · p + r`. Addition
  being commutative and associative, no finiteness of the summands is involved.
-/
import Mathlib.Algebra.BigOperators.Fin
import Mathlib.Data.Fintype.BigOperators
import Mathlib.Logic.Equiv.Fin.Basic

namespace Cert.Lib.BlockSum

/-- Position `r` of block `p` (blocks of `b` positions, `a` of them) is an index below `n = a · b`. -/
theorem block_index_lt {a b n : ℕ} (hn : a * b = n) (p : Fin a) (r : Fin b) : b * p.val + r.val < n := by
  have h1 : b * p.val + r.val < b * (p.val + 1) := by rw [Nat.mul_succ]; exact Nat.add_lt_add_left r.isLt _
  have h2 : b * (p.val + 1) ≤ b * a := Nat.mul_le_mul_left _ p.isLt
  calc b * p.val + r.val < b * (p.val + 1) := h1
    _ ≤ b * a := h2
    _ = n := by rw [Nat.mul_comm]; exact hn

/-- The sum over `n = a · b` indices is the sum over the `a` blocks of the sums over the `b` positions of a block. -/
theorem sum_eq_sum_blocks {M : Type*} [AddCommMonoid M] {n : ℕ} (a b : ℕ) (hn : a * b = n) (g : Fin n → M) :
    ∑ i : Fin n, g i = ∑ p : Fin a, ∑ r : Fin b, g ⟨b * p.val + r.val, block_index_lt hn p r⟩ := by
  subst hn
  rw [← finProdFinEquiv.sum_comp, Fintype.sum_prod_type]
  refine Finset.sum_congr rfl fun p _ => Finset.sum_congr rfl fun r _ => congrArg g (Fin.ext ?_)
  show (finProdFinEquiv (p, r)).val = b * p.val + r.val
  rw [finProdFinEquiv_apply_val]
  exact Nat.add_comm _ _

/-! ## Running sums

A sequence that starts at `f 0` and adds `f (n + 1)` at step `n + 1` is the sequence of the partial sums of `f`; sums
over the first `N` natural numbers and over the `N` indices below `N` are the same sums. -/

variable {M : Type*} [AddCommMonoid M]

/-- A sequence that starts at `f 0` and adds `f (n + 1)` at step `n + 1` is, at step `n`, the sum of `f` over
    `0, …, n`. -/
theorem acc_eq_sum_range (f acc : ℕ → M) (h0 : acc 0 = f 0) (hs : ∀ n, acc (n + 1) = acc n + f (n + 1)) (n : ℕ) :
    acc n = ∑ p ∈ Finset.range (n + 1), f p := by
  induction n with
  | zero => rw [h0, Finset.sum_range_one]
  | succ n ih => rw [hs, ih, Finset.sum_range_succ _ (n + 1)]

/-- The same when the steps are known only below a bound `N`: at every step `n` below `N` the sequence is the sum of
    `f` over `0, …, n`. -/
theorem acc_eq_sum_range_of_lt (N : ℕ) (f acc : ℕ → M) (h0 : acc 0 = f 0)
    (hs : ∀ n, n + 1 < N → acc (n + 1) = acc n + f (n + 1)) (n : ℕ) (hn : n < N) :
    acc n = ∑ p ∈ Finset.range (n + 1), f p := by
  induction n with
  | zero => rw [h0, Finset.sum_range_one]
  | succ n ih => rw [hs n hn, ih (Nat.lt_of_succ_lt hn), Finset.sum_range_succ _ (n + 1)]

/-- A sum over the first `N` natural numbers is the sum over the `N` indices below `N`. -/
theorem sum_range_eq_sum_fin (N : ℕ) (f : ℕ → M) : ∑ p ∈ Finset.range N, f p = ∑ t : Fin N, f t.val :=
  Finset.sum_range f

/-- A family on the `N` indices below `N`, continued by `0` to every natural number, has over the first `N` natural
    numbers the family's own sum. -/
theorem sum_range_dite (N : ℕ) (g : Fin N → M) :
    ∑ p ∈ Finset.range N, (if h : p < N then g ⟨p, h⟩ else 0) = ∑ t : Fin N, g t := by
  rw [Finset.sum_range]
  refine Finset.sum_congr rfl fun t _ => ?_
  show (if h : t.val < N then g ⟨t.val, h⟩ else 0) = g t
  rw [dif_pos t.isLt]

/-- For sequences indexed by the `n + 1` indices `0, …, n`: one that starts at `g 0` and adds `g (k + 1)` at step
    `k + 1` is, at step `k`, the sum of `g` over the indices `0, …, k`. -/
theorem acc_fin_eq_sum {n : ℕ} (g acc : Fin (n + 1) → M) (h0 : acc 0 = g 0)
    (hs : ∀ k : Fin n, acc k.succ = acc k.castSucc + g k.succ) (k : Fin (n + 1)) :
    acc k = ∑ t : Fin (k.val + 1), g ⟨t.val, Nat.lt_of_lt_of_le t.isLt k.isLt⟩ := by
  let G : ℕ → M := fun i => if h : i < n + 1 then g ⟨i, h⟩ else 0
  let A : ℕ → M := fun i => if h : i < n + 1 then acc ⟨i, h⟩ else 0
  have hA0 : A 0 = G 0 := by
    show (if h : 0 < n + 1 then acc ⟨0, h⟩ else 0) = if h : 0 < n + 1 then g ⟨0, h⟩ else 0
    rw [dif_pos (Nat.succ_pos n), dif_pos (Nat.succ_pos n)]
    exact h0
  have hAs : ∀ i, i + 1 < n + 1 → A (i + 1) = A i + G (i + 1) := by
    intro i hi
    have hi' : i < n := Nat.lt_of_succ_lt_succ hi
    show (if h : i + 1 < n + 1 then acc ⟨i + 1, h⟩ else 0)
      = (if h : i < n + 1 then acc ⟨i, h⟩ else 0) + if h : i + 1 < n + 1 then g ⟨i + 1, h⟩ else 0
    rw [dif_pos hi, dif_pos hi, dif_pos (Nat.lt_succ_of_lt hi')]
    exact hs ⟨i, hi'⟩
  have hk := acc_eq_sum_range_of_lt (n + 1) G A hA0 hAs k.val k.isLt
  have hAk : A k.val = acc k := by
    show (if h : k.val < n + 1 then acc ⟨k.val, h⟩ else 0) = acc k
    rw [dif_pos k.isLt]
  rw [← hAk, hk, sum_range_eq_sum_fin]
  refine Finset.sum_congr rfl fun t _ => ?_
  show (if h : t.val < n + 1 then g ⟨t.val, h⟩ else 0) = _
  rw [dif_pos (Nat.lt_of_lt_of_le t.isLt k.isLt)]

/-- At the last step such a sequence is the sum of `g` over all its indices. -/
theorem acc_fin_last {n : ℕ} (g acc : Fin (n + 1) → M) (h0 : acc 0 = g 0)
    (hs : ∀ k : Fin n, acc k.succ = acc k.castSucc + g k.succ) :
    acc (Fin.last n) = ∑ t : Fin (n + 1), g t :=
  acc_fin_eq_sum g acc h0 hs (Fin.last n)

end Cert.Lib.BlockSum
-- ==== Proof.Stage0Ideal.lean ====
/-
  The neighbourhood layer at the extended reals: closed forms of what the region leaves.

  Row `i` of the layer's output is the average of row `i` of the neighbour sums (the row divided by its count, clipped
  below at one) against the rows of the first weight, plus the bias, plus row `i` of the features against the rows of
  the second weight: 128 features in, 256 features out. The two accumulators, after the last of the 20 grid points, hold
  for every output feature the sum down all 100000 rows of the output and of its square: each grid point adds the sums
  down its block of 5000 rows to what the point before left, the first point starting from zero, and the 20 blocks of
  5000 rows tile the 100000 rows. Only commutativity and associativity of the sum are used, so the entries may be any
  extended reals.
-/
import proofs.«119158_j67731634258670_1_alg».proof.Proof.Stage0
import proofs.«119158_j67731634258670_1_alg».proof.Proof.Payloads04
import proofs.«119158_j67731634258670_1_alg».proof.Proof.LibBlockSum

noncomputable section

open scoped BigOperators
open Idealize.ShloMosaic Idealize.ShloMosaic.ValueIdx Idealize.ShloMosaic.TcCoe Idealize.SL.Sem

namespace Cert.KernelIdeal.Stage0I

open Cert.KernelIdeal Cert.KernelIdeal.Gen

variable (V : (c : Dev nD) → (b : Ref sig .tc) → Buf (Elt Ideal) ((c : Thread nD τ).loc b))

/-- The rows' own features, as the region finds them. -/
abbrev Feat (c : Dev nD) : S100000x128.Idx → EReal := V c (Pipeline.arrRef spec0 0)
/-- The sums of the rows' neighbours' features. -/
abbrev Nbr (c : Dev nD) : S100000x128.Idx → EReal := V c (Pipeline.arrRef spec0 1)
/-- The rows' neighbour counts, one column. -/
abbrev Deg (c : Dev nD) : S100000x1.Idx → EReal := V c (Pipeline.arrRef spec0 2)
/-- The weight applied to the averaged neighbours, one row per output feature. -/
abbrev Wl (c : Dev nD) : S256x128.Idx → EReal := V c (Pipeline.arrRef spec0 3)
/-- The bias row. -/
abbrev Bl (c : Dev nD) : S1x256.Idx → EReal := V c (Pipeline.arrRef spec0 4)
/-- The weight applied to the rows' own features, one row per output feature. -/
abbrev Wr (c : Dev nD) : S256x128.Idx → EReal := V c (Pipeline.arrRef spec0 5)

/-! ## The input windows' blocks, read off the arrays as the region finds them -/

theorem idx0 : ∀ t : Fin cfg0.N, win0_0.index t (0 : Fin 2) = t.val ∧ win0_0.index t (1 : Fin 2) = 0 :=
  (by decide +kernel : ∀ t : Fin grid0.N, _)

/-- Block `t` of the features at `(r, k)` is the array at row `5000 t + r`, column `k`. -/
theorem iblk0_at (c : Dev nD) (t : Fin cfg0.N) (r : Fin 5000) (k : Fin 128) (i : S100000x128.Idx)
    (h0 : (i 0).val = 5000 * t.val + r.val) (h1 : (i 1).val = k.val) :
    iblk0 V c 0 t (ix2 r k) = V c (Pipeline.arrRef spec0 0) i := by
  obtain ⟨e0, e1⟩ := idx0 t
  unfold iblk0
  rw [View.read_apply]
  refine congrArg (V c (Pipeline.arrRef spec0 0)) (funext fun a => Fin.ext ?_)
  match a with
  | ⟨0, _⟩ => show win0_0.index t (0 : Fin 2) * 5000 + 1 * r.val = (i 0).val; rw [e0, h0]; omega
  | ⟨1, _⟩ => show win0_0.index t (1 : Fin 2) * 128 + 1 * k.val = (i 1).val; rw [e1, h1]; omega

theorem idx1 : ∀ t : Fin cfg0.N, win0_1.index t (0 : Fin 2) = t.val ∧ win0_1.index t (1 : Fin 2) = 0 :=
  (by decide +kernel : ∀ t : Fin grid0.N, _)

/-- Block `t` of the neighbour sums at `(r, k)` is the array at row `5000 t + r`, column `k`. -/
theorem iblk1_at (c : Dev nD) (t : Fin cfg0.N) (r : Fin 5000) (k : Fin 128) (i : S100000x128.Idx)
    (h0 : (i 0).val = 5000 * t.val + r.val) (h1 : (i 1).val = k.val) :
    iblk0 V c 1 t (ix2 r k) = V c (Pipeline.arrRef spec0 1) i := by
  obtain ⟨e0, e1⟩ := idx1 t
  unfold iblk0
  rw [View.read_apply]
  refine congrArg (V c (Pipeline.arrRef spec0 1)) (funext fun a => Fin.ext ?_)
  match a with
  | ⟨0, _⟩ => show win0_1.index t (0 : Fin 2) * 5000 + 1 * r.val = (i 0).val; rw [e0, h0]; omega
  | ⟨1, _⟩ => show win0_1.index t (1 : Fin 2) * 128 + 1 * k.val = (i 1).val; rw [e1, h1]; omega

theorem idx2 : ∀ t : Fin cfg0.N, win0_2.index t (0 : Fin 2) = t.val ∧ win0_2.index t (1 : Fin 2) = 0 :=
  (by decide +kernel : ∀ t : Fin grid0.N, _)

/-- Block `t` of the counts at `(r, 0)` is the column at row `5000 t + r`. -/
theorem iblk2_at (c : Dev nD) (t : Fin cfg0.N) (r : Fin 5000) (k : Fin 1) (i : S100000x1.Idx)
    (h0 : (i 0).val = 5000 * t.val + r.val) (h1 : (i 1).val = k.val) :
    iblk0 V c 2 t (ix2 r k) = V c (Pipeline.arrRef spec0 2) i := by
  obtain ⟨e0, e1⟩ := idx2 t
  unfold iblk0
  rw [View.read_apply]
  refine congrArg (V c (Pipeline.arrRef spec0 2)) (funext fun a => Fin.ext ?_)
  match a with
  | ⟨0, _⟩ => show win0_2.index t (0 : Fin 2) * 5000 + 1 * r.val = (i 0).val; rw [e0, h0]; omega
  | ⟨1, _⟩ => show win0_2.index t (1 : Fin 2) * 1 + 1 * k.val = (i 1).val; rw [e1, h1]; omega

theorem idx3 : ∀ t : Fin cfg0.N, win0_3.index t (0 : Fin 2) = 0 ∧ win0_3.index t (1 : Fin 2) = 0 :=
  (by decide +kernel : ∀ t : Fin grid0.N, _)

/-- Window 3's one block is its whole array. -/
theorem iblk3_at (c : Dev nD) (t : Fin cfg0.N) (y : S256x128.Idx) : iblk0 V c 3 t y = V c (Pipeline.arrRef spec0 3) y := by
  obtain ⟨e0, e1⟩ := idx3 t
  unfold iblk0
  rw [View.read_apply]
  refine congrArg (V c (Pipeline.arrRef spec0 3)) (funext fun a => Fin.ext ?_)
  match a with
  | ⟨0, _⟩ => show win0_3.index t (0 : Fin 2) * 256 + 1 * (y 0).val = (y 0).val; rw [e0]; omega
  | ⟨1, _⟩ => show win0_3.index t (1 : Fin 2) * 128 + 1 * (y 1).val = (y 1).val; rw [e1]; omega

theorem idx4 : ∀ t : Fin cfg0.N, win0_4.index t (0 : Fin 2) = 0 ∧ win0_4.index t (1 : Fin 2) = 0 :=
  (by decide +kernel : ∀ t : Fin grid0.N, _)

/-- Window 4's one block is its whole array. -/
theorem iblk4_at (c : Dev nD) (t : Fin cfg0.N) (y : S1x256.Idx) : iblk0 V c 4 t y = V c (Pipeline.arrRef spec0 4) y := by
  obtain ⟨e0, e1⟩ := idx4 t
  unfold iblk0
  rw [View.read_apply]
  refine congrArg (V c (Pipeline.arrRef spec0 4)) (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

theorem idx5 : ∀ t : Fin cfg0.N, win0_5.index t (0 : Fin 2) = 0 ∧ win0_5.index t (1 : Fin 2) = 0 :=
  (by decide +kernel : ∀ t : Fin grid0.N, _)

/-- Window 5's one block is its whole array. -/
theorem iblk5_at (c : Dev nD) (t : Fin cfg0.N) (y : S256x128.Idx) : iblk0 V c 5 t y = V c (Pipeline.arrRef spec0 5) y := by
  obtain ⟨e0, e1⟩ := idx5 t
  unfold iblk0
  rw [View.read_apply]
  refine congrArg (V c (Pipeline.arrRef spec0 5)) (funext fun a => Fin.ext ?_)
  match a with
  | ⟨0, _⟩ => show win0_5.index t (0 : Fin 2) * 256 + 1 * (y 0).val = (y 0).val; rw [e0]; omega
  | ⟨1, _⟩ => show win0_5.index t (1 : Fin 2) * 128 + 1 * (y 1).val = (y 1).val; rw [e1]; omega

/-! ## The output array -/

/-- Block `t` of the output at `(r, j)`, from the arrays: its row is row `5000 t + r`. -/
theorem hblk_apply (c : Dev nD) (t : Fin cfg0.N) (r : Fin 5000) (j : Fin 256) (i : Fin 100000)
    (hi : i.val = 5000 * t.val + r.val) :
    Stage0.hblk V c t (ix2 r j)
      = ((∑ k : Fin 128, Ideal.div (Nbr V c (ix2 i k)) (max (Deg V c (ix2 i (0 : Fin 1))) (Ideal.ofBits .f32 0x3F800000#32))
              * Wl V c (ix2 j k))
          + Bl V c (ix2 (0 : Fin 1) j))
        + ∑ k : Fin 128, Feat V c (ix2 i k) * Wr V c (ix2 j k) := by
  unfold Stage0.hblk
  rw [Pay.k0_pay4_apply]
  have e0 : ∀ k : Fin 128, iblk0 V c 0 t (ix2 r k) = Feat V c (ix2 i k) :=
    fun k => iblk0_at V c t r k (ix2 i k) hi rfl
  have e1 : ∀ k : Fin 128, iblk0 V c 1 t (ix2 r k) = Nbr V c (ix2 i k) :=
    fun k => iblk1_at V c t r k (ix2 i k) hi rfl
  have e2 : iblk0 V c 2 t (ix2 r (0 : Fin 1)) = Deg V c (ix2 i (0 : Fin 1)) :=
    iblk2_at V c t r 0 (ix2 i (0 : Fin 1)) hi rfl
  have e3 : ∀ k : Fin 128, iblk0 V c 3 t (ix2 j k) = Wl V c (ix2 j k) :=
    fun k => iblk3_at V c t _
  have e4 : iblk0 V c 4 t (ix2 (0 : Fin 1) j) = Bl V c (ix2 (0 : Fin 1) j) :=
    iblk4_at V c t _
  have e5 : ∀ k : Fin 128, iblk0 V c 5 t (ix2 j k) = Wr V c (ix2 j k) :=
    fun k => iblk5_at V c t _
  refine congrArg₂ (· + ·) (congrArg₂ (· + ·) (Finset.sum_congr rfl fun k _ => ?_) e4)
    (Finset.sum_congr rfl fun k _ => ?_)
  · exact congrArg₂ (· * ·) (congrArg₂ Ideal.div (e1 k) (congrArg₂ max e2 rfl)) (e3 k)
  · exact congrArg₂ (· * ·) (e0 k) (e5 k)

/-- THE OUTPUT at `(i, j)`. -/
theorem Hout_apply (c : Dev nD) (i : Fin 100000) (j : Fin 256) :
    Stage0.Hout V c (ix2 i j)
      = ((∑ k : Fin 128, Ideal.div (Nbr V c (ix2 i k)) (max (Deg V c (ix2 i (0 : Fin 1))) (Ideal.ofBits .f32 0x3F800000#32))
              * Wl V c (ix2 j k))
          + Bl V c (ix2 (0 : Fin 1) j))
        + ∑ k : Fin 128, Feat V c (ix2 i k) * Wr V c (ix2 j k) := by
  have hN : cfg0.N = 20 := N_0
  have hi := i.isLt
  have hd : i.val = 5000 * (i.val / 5000) + i.val % 5000 := (Nat.div_add_mod i.val 5000).symm
  rw [Stage0.Hout_at V c ⟨i.val / 5000, by rw [hN]; omega⟩ ⟨i.val % 5000, Nat.mod_lt _ (by norm_num)⟩ j
    (ix2 i j) hd rfl]
  exact hblk_apply V c _ _ j i hd

/-! ## The two accumulators -/

/-- The sums down the rows of block `p`, continued by zero past the last grid point. -/
def blockS (c : Dev nD) (j : Fin 256) (p : ℕ) : EReal :=
  if hp : p < cfg0.N then ∑ r : Fin 5000, Stage0.hblk V c ⟨p, hp⟩ (ix2 r j) else 0

/-- The sums of squares down the rows of block `p`, continued by zero past the last grid point. -/
def blockQ (c : Dev nD) (j : Fin 256) (p : ℕ) : EReal :=
  if hp : p < cfg0.N then
    ∑ r : Fin 5000, Stage0.hblk V c ⟨p, hp⟩ (ix2 r j) * Stage0.hblk V c ⟨p, hp⟩ (ix2 r j)
  else 0

/-- After grid point `n` the first accumulator holds the block sums of the points `0, …, n`. -/
theorem accS_range (c : Dev nD) (j : Fin 256) : ∀ (n : ℕ) (h : n < cfg0.N),
    Stage0.accS V c n h (ix2 (0 : Fin 1) j) = ∑ p ∈ Finset.range (n + 1), blockS V c j p
  | 0, h => by
    have e : Stage0.accS V c 0 h = k0_pay5 (iblk0 V c 1 ⟨0, h⟩) (iblk0 V c 2 ⟨0, h⟩) (iblk0 V c 3 ⟨0, h⟩)
        (iblk0 V c 4 ⟨0, h⟩) (iblk0 V c 0 ⟨0, h⟩) (iblk0 V c 5 ⟨0, h⟩) (k0_pay2 (F := Ideal)) := rfl
    rw [e, Pay.k0_pay5_apply, Pay.k0_pay2_apply, zero_add, Finset.sum_range_one]
    unfold blockS
    rw [dif_pos h]
    rfl
  | n + 1, h => by
    have e : Stage0.accS V c (n + 1) h = k0_pay5 (iblk0 V c 1 ⟨n + 1, h⟩) (iblk0 V c 2 ⟨n + 1, h⟩)
        (iblk0 V c 3 ⟨n + 1, h⟩) (iblk0 V c 4 ⟨n + 1, h⟩) (iblk0 V c 0 ⟨n + 1, h⟩) (iblk0 V c 5 ⟨n + 1, h⟩)
        (Stage0.accS V c n (Nat.lt_of_succ_lt h)) := rfl
    rw [e, Pay.k0_pay5_apply, accS_range c j n, Finset.sum_range_succ _ (n + 1)]
    refine congrArg (_ + ·) ?_
    unfold blockS
    rw [dif_pos h]
    rfl

/-- After grid point `n` the second accumulator holds the block sums of squares of the points `0, …, n`. -/
theorem accQ_range (c : Dev nD) (j : Fin 256) : ∀ (n : ℕ) (h : n < cfg0.N),
    Stage0.accQ V c n h (ix2 (0 : Fin 1) j) = ∑ p ∈ Finset.range (n + 1), blockQ V c j p
  | 0, h => by
    have e : Stage0.accQ V c 0 h = k0_pay1 (k0_pay4 (iblk0 V c 1 ⟨0, h⟩) (iblk0 V c 2 ⟨0, h⟩) (iblk0 V c 3 ⟨0, h⟩)
        (iblk0 V c 4 ⟨0, h⟩) (iblk0 V c 0 ⟨0, h⟩) (iblk0 V c 5 ⟨0, h⟩)) (k0_pay3 (F := Ideal)) := rfl
    rw [e, Pay.k0_pay1_apply, Pay.k0_pay3_apply, zero_add, Finset.sum_range_one]
    unfold blockQ
    rw [dif_pos h]
    rfl
  | n + 1, h => by
    have e : Stage0.accQ V c (n + 1) h = k0_pay1 (k0_pay4 (iblk0 V c 1 ⟨n + 1, h⟩) (iblk0 V c 2 ⟨n + 1, h⟩)
        (iblk0 V c 3 ⟨n + 1, h⟩) (iblk0 V c 4 ⟨n + 1, h⟩) (iblk0 V c 0 ⟨n + 1, h⟩) (iblk0 V c 5 ⟨n + 1, h⟩))
        (Stage0.accQ V c n (Nat.lt_of_succ_lt h)) := rfl
    rw [e, Pay.k0_pay1_apply, accQ_range c j n, Finset.sum_range_succ _ (n + 1)]
    refine congrArg (_ + ·) ?_
    unfold blockQ
    rw [dif_pos h]
    rfl

/-- THE FIRST ACCUMULATOR after the last grid point: the column sums of the output. -/
theorem accS_apply (c : Dev nD) (j : Fin 256) :
    Stage0.accS V c 19 Stage0.tLast.isLt (ix2 (0 : Fin 1) j) = ∑ i : Fin 100000, Stage0.Hout V c (ix2 i j) := by
  have hN : cfg0.N = 20 := N_0
  rw [accS_range V c j 19 Stage0.tLast.isLt, show (19 + 1 : ℕ) = cfg0.N from hN.symm]
  unfold blockS
  rw [Cert.Lib.BlockSum.sum_range_dite cfg0.N
      (fun t : Fin cfg0.N => ∑ r : Fin 5000, Stage0.hblk V c t (ix2 r j)),
    Cert.Lib.BlockSum.sum_eq_sum_blocks cfg0.N 5000 (by rw [hN])
      (fun i : Fin 100000 => Stage0.Hout V c (ix2 i j))]
  refine Finset.sum_congr rfl fun p _ => Finset.sum_congr rfl fun r _ => ?_
  exact (Stage0.Hout_at V c p r j _ rfl rfl).symm

/-- THE SECOND ACCUMULATOR after the last grid point: the column sums of squares of the output. -/
theorem accQ_apply (c : Dev nD) (j : Fin 256) :
    Stage0.accQ V c 19 Stage0.tLast.isLt (ix2 (0 : Fin 1) j)
      = ∑ i : Fin 100000, Stage0.Hout V c (ix2 i j) * Stage0.Hout V c (ix2 i j) := by
  have hN : cfg0.N = 20 := N_0
  rw [accQ_range V c j 19 Stage0.tLast.isLt, show (19 + 1 : ℕ) = cfg0.N from hN.symm]
  unfold blockQ
  rw [Cert.Lib.BlockSum.sum_range_dite cfg0.N
      (fun t : Fin cfg0.N => ∑ r : Fin 5000, Stage0.hblk V c t (ix2 r j) * Stage0.hblk V c t (ix2 r j)),
    Cert.Lib.BlockSum.sum_eq_sum_blocks cfg0.N 5000 (by rw [hN])
      (fun i : Fin 100000 => Stage0.Hout V c (ix2 i j) * Stage0.Hout V c (ix2 i j))]
  refine Finset.sum_congr rfl fun p _ => Finset.sum_congr rfl fun r _ => ?_
  rw [Stage0.Hout_at V c p r j _ rfl rfl]

end Cert.KernelIdeal.Stage0I

end
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.KernelHost0.lean ====
/-
  The kernel program's first stretch of host operations, read off an arbitrary valuation.

  Before its first region the kernel program does on the host what the reference does: it slices
  the edge list into sources and targets, wraps negative source indices, gathers the source rows,
  and accumulates them into the target rows of a zero array; it accumulates ones into the target
  entries of a zero vector (the in-degree counts); and it recasts the counts as a column and the
  first bias as a row. The node features and the two weights of the first layer are not written.
-/
import proofs.«119158_j67731634258670_1_alg».proof.Proof.Gen.KernelIdeal.Launch
import proofs.«119158_j67731634258670_1_alg».proof.Proof.ReadP
import proofs.«119158_j67731634258670_1_alg».proof.Proof.LibColumn
import Idealize.ShloMosaic.Lib.StableHlo.Run
import Idealize.ShloMosaic.Lib.ValueLayout

noncomputable section

open Cert.KernelIdeal Cert.KernelIdeal.Gen Idealize.ShloMosaic Idealize.ShloMosaic.ValueIdx Idealize.ShloMosaic.TcCoe
open Idealize.ShloMosaic.StableHlo

namespace Cert.KernelIdeal.HostOps

/-- The neighbour sums: the kernel program computes them with the reference's own operations. -/
theorem agg0 (W : Valuation τ sig (Elt Ideal)) :
    StableHlo.after hostOps0 W (Proc.devRef .tc main_v13)
      = Cert.ReferenceIdeal.Read.val_main_v13 (F := Ideal) (W (Proc.devRef .tc main_arg0)) (W (Proc.devRef .tc main_arg1)) := by
  after_results_simp
  rfl

/-- The in-degree counts, recast as a column. -/
theorem deg0 (W : Valuation τ sig (Elt Ideal)) (i : Fin 100000) :
    (StableHlo.after hostOps0 W (Proc.devRef .tc main_v18) : S100000x1.Idx → EReal) (ix2 i (0 : Fin 1))
      = Cert.ReferenceIdeal.Read.val_main_v17 (F := Ideal) (W (Proc.devRef .tc main_arg1)) (ix1 i) := by
  after_results_simp
  refine (Cert.Lib.Column.shapeCast_a_a1_apply _ _ i 0).trans ?_
  rfl

/-- The first bias, recast as a row. -/
theorem bias0 (W : Valuation τ sig (Elt Ideal)) (j : Fin 256) :
    (StableHlo.after hostOps0 W (Proc.devRef .tc main_v19) : S1x256.Idx → EReal) (ix2 (0 : Fin 1) j)
      = (W (Proc.devRef .tc main_arg3) : S256.Idx → EReal) (ix1 j) := by
  after_results
  exact shapeCast_a_1a_apply _ _ _ _

/-- The node features are not written. -/
theorem keep0_x (W : Valuation τ sig (Elt Ideal)) :
    StableHlo.after hostOps0 W (Proc.devRef .tc main_arg0) = W (Proc.devRef .tc main_arg0) := by
  after_results

/-- The first layer's weight on the neighbour means is not written. -/
theorem keep0_wl (W : Valuation τ sig (Elt Ideal)) :
    StableHlo.after hostOps0 W (Proc.devRef .tc main_arg2) = W (Proc.devRef .tc main_arg2) := by
  after_results

/-- The first layer's weight on the node's own features is not written. -/
theorem keep0_wr (W : Valuation τ sig (Elt Ideal)) :
    StableHlo.after hostOps0 W (Proc.devRef .tc main_arg4) = W (Proc.devRef .tc main_arg4) := by
  after_results

end Cert.KernelIdeal.HostOps

end
-- ==== Proof.LibBatchNorm.lean ====
/-
  Training-mode batch normalisation followed by a rectifier, over the extended reals, for a
  column of finite entries, written in two ways.

  For `h : Fin n → ℝ` with `n > 0`: the mean is `(∑ h) / n`, the (biased) variance is
  `(∑ (h k - mean)²) / n ≥ 0`, and `(∑ h²) / n - mean² = variance` (the divisor has to be exactly
  `n`), so the maximum of that difference with `0` is the variance again. With `e > 0` the sum
  `variance + e` is positive, so its reciprocal square root is the real `(√(variance + e))⁻¹`.
  Finally `h · (g · inv) + (b - g · mean · inv) = g · (h - mean) · inv + b`.
  Every intermediate value is a finite real, so each extended-real operation is the coercion of
  the real one.
-/
import Idealize.ShloMosaic.PureOps.Ideal

open Idealize.ShloMosaic
open scoped BigOperators

noncomputable section

namespace Cert.LibBatchNorm

/-- The mean of a column. -/
def mean {n : ℕ} (h : Fin n → ℝ) : ℝ := (∑ k, h k) / n

/-- The biased variance of a column: the mean of the squared deviations. -/
def var {n : ℕ} (h : Fin n → ℝ) : ℝ := (∑ k, (h k - mean h) * (h k - mean h)) / n

/-- Batch normalisation with scale `g`, shift `b`, stabiliser `e`, then the rectifier. -/
def bnRelu {n : ℕ} (h : Fin n → ℝ) (g b e : ℝ) (i : Fin n) : ℝ :=
  max (g * (h i - mean h) * (Real.sqrt (var h + e))⁻¹ + b) 0

/-! ### General helpers -/

/-- The coercion of a finite real sum is the sum of the coercions. -/
theorem coe_sum {ι : Type*} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- The quotient of two reals, the divisor nonzero, is the coercion of the real quotient. -/
theorem div_coe_coe (a : ℝ) {y : ℝ} (hy : y ≠ 0) :
    Ideal.div (a : EReal) (y : EReal) = ((a / y : ℝ) : EReal) := by
  rw [Ideal.div_coe hy, ← EReal.coe_mul, mul_one_div]

/-- A sum of products of reals is the coercion of the real sum of products. -/
theorem sum_mul_coe {ι : Type*} [Fintype ι] (a w : ι → ℝ) :
    ∑ k, (a k : EReal) * (w k : EReal) = ((∑ k, a k * w k : ℝ) : EReal) := by
  rw [coe_sum]
  exact Finset.sum_congr rfl (fun k _ => (EReal.coe_mul _ _).symm)

/-- The maximum of two reals: the coercion is monotone. -/
theorem coe_max (a b : ℝ) : max (a : EReal) (b : EReal) = ((max a b : ℝ) : EReal) :=
  (EReal.coe_strictMono.monotone.map_max).symm

/-- The reciprocal square root of a positive real is the real `(√r)⁻¹`. -/
theorem rsqrt_pos_coe {r : ℝ} (hr : 0 < r) :
    Ideal.rsqrt (r : EReal) = (((Real.sqrt r)⁻¹ : ℝ) : EReal) := by
  rw [Ideal.rsqrt_coe, if_neg (not_lt.mpr hr.le), if_neg hr.ne']

/-! ### The statistics -/

/-- A variance is a mean of squares. -/
theorem var_nonneg {n : ℕ} (h : Fin n → ℝ) : 0 ≤ var h :=
  div_nonneg (Finset.sum_nonneg fun k _ => mul_self_nonneg _) (Nat.cast_nonneg n)

/-- Mean of the squares minus square of the mean is the variance. -/
theorem var_eq {n : ℕ} (hn : 0 < n) (h : Fin n → ℝ) :
    (∑ k, h k * h k) / n - mean h * mean h = var h := by
  have hN : (n : ℝ) ≠ 0 := Nat.cast_ne_zero.mpr hn.ne'
  have hS : ∑ k, h k = n * mean h := by
    unfold mean
    field_simp
  have hexp : ∑ k, (h k - mean h) * (h k - mean h)
      = (∑ k, h k * h k) - 2 * mean h * (n * mean h) + n * (mean h * mean h) := by
    have hk : ∀ k, (h k - mean h) * (h k - mean h)
        = h k * h k - 2 * mean h * h k + mean h * mean h := fun k => by ring
    simp only [hk, Finset.sum_add_distrib, Finset.sum_sub_distrib, ← Finset.mul_sum,
      Finset.sum_const, Finset.card_univ, Fintype.card_fin, nsmul_eq_mul]
    rw [hS]
    ring
  unfold var
  rw [hexp]
  field_simp
  ring

/-- The variance plus a positive stabiliser is positive. -/
theorem var_add_pos {n : ℕ} (h : Fin n → ℝ) {e : ℝ} (he : 0 < e) : 0 < var h + e :=
  add_pos_of_nonneg_of_pos (var_nonneg h) he

/-! ### The two written forms -/

/-- The first written form: the statistics as the sum and the sum of squares, the output as
    the affine map `h · scale + shift`. -/
theorem scaleShift_form {n : ℕ} (hn : 0 < n) (h : Fin n → ℝ) (g b e : ℝ) (he : 0 < e)
    (c eps z : EReal) (hc : c = ((n : ℝ) : EReal)) (heps : eps = (e : EReal)) (hz : z = 0)
    (i : Fin n) :
    let S : EReal := ∑ k, (h k : EReal)
    let Q : EReal := ∑ k, (h k : EReal) * (h k : EReal)
    let mu : EReal := Ideal.div S c
    let inv : EReal := Ideal.rsqrt (max (Ideal.div Q c - mu * mu) z + eps)
    max ((h i : EReal) * ((g : EReal) * inv) + ((b : EReal) - (g : EReal) * mu * inv)) z
      = ((bnRelu h g b e i : ℝ) : EReal) := by
  intro S Q mu inv
  subst hc heps hz
  have hN : (n : ℝ) ≠ 0 := Nat.cast_ne_zero.mpr hn.ne'
  have hS : S = ((∑ k, h k : ℝ) : EReal) := (coe_sum _ _).symm
  have hQ : Q = ((∑ k, h k * h k : ℝ) : EReal) := sum_mul_coe h h
  have hmu : mu = ((mean h : ℝ) : EReal) := by
    show Ideal.div S _ = _
    rw [hS, div_coe_coe _ hN]
    rfl
  have hinv : inv = (((Real.sqrt (var h + e))⁻¹ : ℝ) : EReal) := by
    show Ideal.rsqrt (max (Ideal.div Q _ - mu * mu) 0 + _) = _
    rw [hQ, hmu, div_coe_coe _ hN, ← EReal.coe_mul, ← EReal.coe_sub, var_eq hn h,
      ← EReal.coe_zero, coe_max, max_eq_left (var_nonneg h), ← EReal.coe_add,
      rsqrt_pos_coe (var_add_pos h he)]
  show max ((h i : EReal) * ((g : EReal) * inv) + ((b : EReal) - (g : EReal) * mu * inv)) 0 = _
  rw [hinv, hmu]
  have hreal : (h i : EReal) * ((g : EReal) * (((Real.sqrt (var h + e))⁻¹ : ℝ) : EReal))
      + ((b : EReal) - (g : EReal) * ((mean h : ℝ) : EReal) * (((Real.sqrt (var h + e))⁻¹ : ℝ) : EReal))
      = ((g * (h i - mean h) * (Real.sqrt (var h + e))⁻¹ + b : ℝ) : EReal) := by
    rw [← EReal.coe_mul, ← EReal.coe_mul, ← EReal.coe_mul, ← EReal.coe_mul, ← EReal.coe_sub,
      ← EReal.coe_add]
    congr 1
    ring
  rw [hreal, ← EReal.coe_zero, coe_max]
  rfl

/-- The second written form: the centred statistics. -/
theorem centred_form {n : ℕ} (hn : 0 < n) (h : Fin n → ℝ) (g b e : ℝ) (he : 0 < e)
    (c eps z : EReal) (hc : c = ((n : ℝ) : EReal)) (heps : eps = (e : EReal)) (hz : z = 0)
    (i : Fin n) :
    let S : EReal := ∑ k, (h k : EReal)
    let mu : EReal := Ideal.div S c
    let D : EReal := ∑ k, ((h k : EReal) - mu) * ((h k : EReal) - mu)
    max ((g : EReal) * ((h i : EReal) - mu) * Ideal.rsqrt (Ideal.div D c + eps) + (b : EReal)) z
      = ((bnRelu h g b e i : ℝ) : EReal) := by
  intro S mu D
  subst hc heps hz
  have hN : (n : ℝ) ≠ 0 := Nat.cast_ne_zero.mpr hn.ne'
  have hS : S = ((∑ k, h k : ℝ) : EReal) := (coe_sum _ _).symm
  have hmu : mu = ((mean h : ℝ) : EReal) := by
    show Ideal.div S _ = _
    rw [hS, div_coe_coe _ hN]
    rfl
  have hD : D = ((∑ k, (h k - mean h) * (h k - mean h) : ℝ) : EReal) := by
    show ∑ k, ((h k : EReal) - mu) * ((h k : EReal) - mu) = _
    rw [hmu, coe_sum]
    refine Finset.sum_congr rfl (fun k _ => ?_)
    rw [EReal.coe_mul, EReal.coe_sub]
  have hr : Ideal.rsqrt (Ideal.div D ((n : ℝ) : EReal) + (e : EReal))
      = (((Real.sqrt (var h + e))⁻¹ : ℝ) : EReal) := by
    rw [hD, div_coe_coe _ hN, ← EReal.coe_add]
    exact rsqrt_pos_coe (var_add_pos h he)
  rw [hr, hmu, ← EReal.coe_sub, ← EReal.coe_mul, ← EReal.coe_mul, ← EReal.coe_add,
    ← EReal.coe_zero, coe_max]
  rfl

/-- The two written forms have the same value. -/
theorem scaleShift_eq_centred {n : ℕ} (hn : 0 < n) (h : Fin n → ℝ) (g b e : ℝ) (he : 0 < e)
    (c eps z : EReal) (hc : c = ((n : ℝ) : EReal)) (heps : eps = (e : EReal)) (hz : z = 0)
    (i : Fin n) :
    let S : EReal := ∑ k, (h k : EReal)
    let Q : EReal := ∑ k, (h k : EReal) * (h k : EReal)
    let mu : EReal := Ideal.div S c
    let inv : EReal := Ideal.rsqrt (max (Ideal.div Q c - mu * mu) z + eps)
    let D : EReal := ∑ k, ((h k : EReal) - mu) * ((h k : EReal) - mu)
    max ((h i : EReal) * ((g : EReal) * inv) + ((b : EReal) - (g : EReal) * mu * inv)) z
      = max ((g : EReal) * ((h i : EReal) - mu) * Ideal.rsqrt (Ideal.div D c + eps) + (b : EReal)) z := by
  intro S Q mu inv D
  exact (scaleShift_form hn h g b e he c eps z hc heps hz i).trans
    (centred_form hn h g b e he c eps z hc heps hz i).symm

/-! ### The same three statements with the abbreviations written out -/

/-- The first written form, every intermediate value written out in place. -/
theorem scaleShift_form_inl {n : ℕ} (hn : 0 < n) (h : Fin n → ℝ) (g b e : ℝ) (he : 0 < e)
    (c eps z : EReal) (hc : c = ((n : ℝ) : EReal)) (heps : eps = (e : EReal)) (hz : z = 0)
    (i : Fin n) :
    max ((h i : EReal) * ((g : EReal)
          * Ideal.rsqrt (max (Ideal.div (∑ k, (h k : EReal) * (h k : EReal)) c
              - Ideal.div (∑ k, (h k : EReal)) c * Ideal.div (∑ k, (h k : EReal)) c) z + eps))
        + ((b : EReal) - (g : EReal) * Ideal.div (∑ k, (h k : EReal)) c
          * Ideal.rsqrt (max (Ideal.div (∑ k, (h k : EReal) * (h k : EReal)) c
              - Ideal.div (∑ k, (h k : EReal)) c * Ideal.div (∑ k, (h k : EReal)) c) z + eps))) z
      = ((bnRelu h g b e i : ℝ) : EReal) :=
  scaleShift_form hn h g b e he c eps z hc heps hz i

/-- The second written form, every intermediate value written out in place. -/
theorem centred_form_inl {n : ℕ} (hn : 0 < n) (h : Fin n → ℝ) (g b e : ℝ) (he : 0 < e)
    (c eps z : EReal) (hc : c = ((n : ℝ) : EReal)) (heps : eps = (e : EReal)) (hz : z = 0)
    (i : Fin n) :
    max ((g : EReal) * ((h i : EReal) - Ideal.div (∑ k, (h k : EReal)) c)
        * Ideal.rsqrt (Ideal.div (∑ k, ((h k : EReal) - Ideal.div (∑ k, (h k : EReal)) c)
            * ((h k : EReal) - Ideal.div (∑ k, (h k : EReal)) c)) c + eps) + (b : EReal)) z
      = ((bnRelu h g b e i : ℝ) : EReal) :=
  centred_form hn h g b e he c eps z hc heps hz i

/-- The two written forms, written out in place, have the same value. -/
theorem scaleShift_eq_centred_inl {n : ℕ} (hn : 0 < n) (h : Fin n → ℝ) (g b e : ℝ) (he : 0 < e)
    (c eps z : EReal) (hc : c = ((n : ℝ) : EReal)) (heps : eps = (e : EReal)) (hz : z = 0)
    (i : Fin n) :
    max ((h i : EReal) * ((g : EReal)
          * Ideal.rsqrt (max (Ideal.div (∑ k, (h k : EReal) * (h k : EReal)) c
              - Ideal.div (∑ k, (h k : EReal)) c * Ideal.div (∑ k, (h k : EReal)) c) z + eps))
        + ((b : EReal) - (g : EReal) * Ideal.div (∑ k, (h k : EReal)) c
          * Ideal.rsqrt (max (Ideal.div (∑ k, (h k : EReal) * (h k : EReal)) c
              - Ideal.div (∑ k, (h k : EReal)) c * Ideal.div (∑ k, (h k : EReal)) c) z + eps))) z
      = max ((g : EReal) * ((h i : EReal) - Ideal.div (∑ k, (h k : EReal)) c)
        * Ideal.rsqrt (Ideal.div (∑ k, ((h k : EReal) - Ideal.div (∑ k, (h k : EReal)) c)
            * ((h k : EReal) - Ideal.div (∑ k, (h k : EReal)) c)) c + eps) + (b : EReal)) z :=
  (scaleShift_form_inl hn h g b e he c eps z hc heps hz i).trans
    (centred_form_inl hn h g b e he c eps z hc heps hz i).symm

end Cert.LibBatchNorm
-- ==== Proof.Consts.lean ====
/-
  The float literals that the two programs spell, as the extended reals their 32-bit patterns
  denote: sign bit, eight exponent bits with bias 127, twenty-three significand bits.

  * `0x47C35000`: exponent field 143, significand field 4411392, so
    `(2^23 + 4411392) · 2^(143 - 127 - 23) = 12800000 / 128 = 100000`.
  * `0x3727C5AC`: exponent field 110, significand field 2606508, so
    `(2^23 + 2606508) · 2^(110 - 127 - 23) = 10995116 / 2^40 = 2748779 / 2^38`,
    the single-precision number nearest to `10⁻⁵`.
  * `0x3F800000`: exponent field 127, significand field 0, so `2^23 · 2^(-23) = 1`.
  * `0x7F800000` and `0xFF800000`: exponent field all ones, significand field 0: `+∞` and `-∞`.
-/
import Idealize.ShloMosaic.PureOps.Ideal

noncomputable section

namespace Cert.Consts

open Idealize.ShloMosaic

/-- The pattern `0x47C35000` denotes the real `100000`. -/
theorem ofBits_n : Ideal.ofBits .f32 0x47C35000#32 = ((100000 : ℝ) : EReal) := by
  simp [Ideal.ofBits, Ideal.ieee, -EReal.coe_mul]; norm_num

/-- The exact value of the pattern `0x3727C5AC`: `2748779 / 2^38`. -/
def epsR : ℝ := 2748779 / 274877906944

theorem epsR_pos : 0 < epsR := by
  unfold epsR; norm_num

/-- The pattern `0x3727C5AC` denotes `2748779 / 2^38`. -/
theorem ofBits_eps : Ideal.ofBits .f32 0x3727C5AC#32 = (epsR : EReal) := by
  unfold epsR
  simp [Ideal.ofBits, Ideal.ieee, -EReal.coe_mul]; norm_num

/-- The pattern `0x3F800000` denotes the real `1`. -/
theorem ofBits_one : Ideal.ofBits .f32 0x3F800000#32 = ((1 : ℝ) : EReal) := by
  simp [Ideal.ofBits, Ideal.ieee, -EReal.coe_mul]; norm_num

/-- The pattern `0xFF800000` denotes `-∞`. -/
theorem ofBits_neg_inf : Ideal.ofBits .f32 0xFF800000#32 = ⊥ := by
  simp [Ideal.ofBits, Ideal.ieee]

/-- The pattern `0x7F800000` denotes `+∞`. -/
theorem ofBits_inf : Ideal.ofBits .f32 0x7F800000#32 = ⊤ := by
  simp [Ideal.ofBits, Ideal.ieee]

end Cert.Consts

end
-- ==== Proof.RefLayers0.lean ====
/-
  The pure steps the layers of the reference are read through, stated on the extended reals with no program in sight.

  * Batch normalisation and rectifier for one column, with the two sums written as they are computed: each starts from
    an initial value that is zero, the mean and the variance are named, and the output is
    `max (g · (H i - m) · rsqrt (v + eps) + b) z`. When the column is finite this is the coercion of the real
    `bnRelu`.
  * The maximum of a row of two entries as a fold of `max` from `-∞`.
  * The row count's word as the cast of the natural number `100000`.
-/
import proofs.«119158_j67731634258670_1_alg».proof.Proof.LibBatchNorm
import proofs.«119158_j67731634258670_1_alg».proof.Proof.Consts

open Idealize.ShloMosaic
open scoped BigOperators

noncomputable section

namespace Cert.ReferenceIdeal.Layers

/-- One column through batch normalisation and the rectifier: the mean `m` is the quotient by the row count of the
    column's sum, the variance `v` that of the sum of squared deviations from `m`, both sums started from a zero. -/
theorem bn_column {n : ℕ} (hn : 0 < n) (H : Fin n → EReal) (hr : Fin n → ℝ)
    (hH : ∀ i, H i = ((hr i : ℝ) : EReal)) (g b : EReal) (gr br e : ℝ)
    (hg : g = (gr : EReal)) (hb : b = (br : EReal)) (he : 0 < e)
    (c eps z z1 z2 : EReal) (hc : c = ((n : ℝ) : EReal)) (heps : eps = (e : EReal))
    (hz : z = 0) (hz1 : z1 = 0) (hz2 : z2 = 0)
    (m v : EReal) (hm : m = Ideal.div (z1 + ∑ k, H k) c)
    (hv : v = Ideal.div (z2 + ∑ k, (H k - m) * (H k - m)) c) (i : Fin n) :
    max (g * (H i - m) * Ideal.rsqrt (v + eps) + b) z
      = ((Cert.LibBatchNorm.bnRelu hr gr br e i : ℝ) : EReal) := by
  have hHf : H = fun i => ((hr i : ℝ) : EReal) := funext hH
  subst hHf hg hb hz1 hz2
  rw [zero_add] at hm
  subst hm
  rw [zero_add] at hv
  subst hv
  exact Cert.LibBatchNorm.centred_form_inl hn hr gr br e he c eps z hc heps hz i

/-- The row count's word denotes the real `100000`, written as the cast of the natural number. -/
theorem ofBits_rows : Ideal.ofBits .f32 0x47C35000#32 = (((100000 : ℕ) : ℝ) : EReal) := by
  rw [Cert.Consts.ofBits_n]; norm_num

/-- The fold of `max` from `-∞` over the two entries of a row is the larger entry. -/
theorem fold_max_two (f : Fin 2 → EReal) :
    (Finset.univ : Finset (Fin 2)).fold max ⊥ f = max (f 0) (f 1) := by
  have hu : (Finset.univ : Finset (Fin 2)) = insert 0 {1} := by decide
  rw [hu, Finset.fold_insert (by decide), Finset.fold_singleton, max_bot_right]

end Cert.ReferenceIdeal.Layers

end
-- ==== Proof.RefLayers.lean ====
/-
  The layers of the reference program read at an index.

  Each dense layer is, at row `i` and column `j`, the sum over the input columns of the input at `(i, c)` times the
  weight at `(j, c)`, plus the bias at `j`. Each normalisation block takes a column of its input through: the mean (the
  column's sum over the 100000 rows, started from a zero, divided by the row count), the variance (the same with the
  squared deviations from the mean), then scale · deviation · reciprocal root of (variance + stabiliser) + shift, and the
  rectifier as a maximum with a zero. For a column of finite entries this is the coercion of the real `bnRelu`.
  The last step is the logarithm of the softmax of each row of two logits, with the row's maximum subtracted first.
-/
import proofs.«119158_j67731634258670_1_alg».proof.Proof.ReadP
import proofs.«119158_j67731634258670_1_alg».proof.Proof.RefLayers0
import proofs.«119158_j67731634258670_1_alg».proof.Proof.Consts
import proofs.«119158_j67731634258670_1_alg».proof.Proof.Spec

open Idealize.ShloMosaic Idealize.ShloMosaic.ValueIdx
open Cert.ReferenceIdeal Cert.ReferenceIdeal.Gen
open scoped BigOperators

noncomputable section

namespace Cert.ReferenceIdeal.Layers

variable (x0 : (⟨S100000x128, .f32⟩ : BufTy).Contents (Elt Ideal))
variable (x1 : (⟨S2x1600000, .i32⟩ : BufTy).Contents (Elt Ideal))
variable (x2 : (⟨S256x128, .f32⟩ : BufTy).Contents (Elt Ideal))
variable (x3 : (⟨S256, .f32⟩ : BufTy).Contents (Elt Ideal))
variable (x4 : (⟨S256x128, .f32⟩ : BufTy).Contents (Elt Ideal))
variable (x5 x6 : (⟨S256, .f32⟩ : BufTy).Contents (Elt Ideal))
variable (x7 : (⟨S256x256, .f32⟩ : BufTy).Contents (Elt Ideal))
variable (x8 : (⟨S256, .f32⟩ : BufTy).Contents (Elt Ideal))
variable (x9 : (⟨S64x256, .f32⟩ : BufTy).Contents (Elt Ideal))
variable (x10 : (⟨S64, .f32⟩ : BufTy).Contents (Elt Ideal))
variable (x11 : (⟨S14x64, .f32⟩ : BufTy).Contents (Elt Ideal))
variable (x12 : (⟨S14, .f32⟩ : BufTy).Contents (Elt Ideal))
variable (x13 : (⟨S2x14, .f32⟩ : BufTy).Contents (Elt Ideal))
variable (x14 : (⟨S2, .f32⟩ : BufTy).Contents (Elt Ideal))
variable (x15 x16 : (⟨S256, .f32⟩ : BufTy).Contents (Elt Ideal))
variable (x17 x18 : (⟨S64, .f32⟩ : BufTy).Contents (Elt Ideal))
variable (x19 x20 : (⟨S14, .f32⟩ : BufTy).Contents (Elt Ideal))

/-! ## The first dense layer after the aggregation -/

/-- Row `i`, column `j` of the first dense layer: the rectified normalised activations of row `i` against row `j` of
    the weight, plus the bias. -/
theorem lin1 (i : Fin 100000) (j : Fin 256) :
    Read.val_main_v61 (F := Ideal) x0 x1 x2 x3 x4 x5 x6 x7 x8 (ix2 i j)
      = (∑ c : Fin 256, Read.val_main_v56 (F := Ideal) x0 x1 x2 x3 x4 x5 x6 (ix2 i c) * x7 (ix2 j c)) + x8 (ix1 j) := by
  have el : ∀ c : Fin 256, Read.lidx_main_v58 (ix2 i j) c = ix2 i c := fun c => funext fun a => Fin.ext (by
    match a with | ⟨0, _⟩ => rfl | ⟨1, _⟩ => rfl)
  have er : ∀ c : Fin 256, Read.idx_main_v57 (Read.ridx_main_v58 (ix2 i j) c) = ix2 j c := fun c => funext fun a =>
    Fin.ext (by match a with | ⟨0, _⟩ => rfl | ⟨1, _⟩ => rfl)
  have eb : Read.idx_main_v59 (Read.idx_main_v60 (ix2 i j)) = ix1 j := funext fun a => Fin.ext (by
    match a with | ⟨0, _⟩ => rfl)
  rw [Read.val_main_v61_apply, Read.val_main_v58_apply, Read.val_main_v60_apply, Read.val_main_v59_apply, eb,
    Ideal.addf_def]
  congr 1
  refine Finset.sum_congr rfl fun c _ => ?_
  rw [Read.val_main_v57_apply, el c, er c]

/-! ## The aggregation layer -/

/-- Row `i`, column `j` of the aggregation layer: the neighbour sums of row `i`, each divided by the larger of the
    row's in-degree and one, against row `j` of the first weight, plus the bias, plus the row's own features against
    row `j` of the second weight. -/
theorem sage (i : Fin 100000) (j : Fin 256) :
    Read.val_main_v30 (F := Ideal) x0 x1 x2 x3 x4 (ix2 i j)
      = ((∑ c : Fin 128,
            Ideal.div (Read.val_main_v13 (F := Ideal) x0 x1 (ix2 i c))
              (max (Read.val_main_v17 (F := Ideal) x1 (ix1 i)) (Ideal.ofBits .f32 0x3F800000#32)) * x2 (ix2 j c))
          + x3 (ix1 j))
        + ∑ c : Fin 128, x0 (ix2 i c) * x4 (ix2 j c) := by
  have el : ∀ c : Fin 128, Read.lidx_main_v24 (ix2 i j) c = ix2 i c := fun c => funext fun a => Fin.ext (by
    match a with | ⟨0, _⟩ => rfl | ⟨1, _⟩ => rfl)
  have er : ∀ c : Fin 128, Read.idx_main_v23 (Read.ridx_main_v24 (ix2 i j) c) = ix2 j c := fun c => funext fun a =>
    Fin.ext (by match a with | ⟨0, _⟩ => rfl | ⟨1, _⟩ => rfl)
  have ed : ∀ c : Fin 128, Read.idx_main_v20 (Read.idx_main_v21 (ix2 i c)) = ix1 i := fun c => funext fun a =>
    Fin.ext (by match a with | ⟨0, _⟩ => rfl)
  have eb : Read.idx_main_v25 (Read.idx_main_v26 (ix2 i j)) = ix1 j := funext fun a => Fin.ext (by
    match a with | ⟨0, _⟩ => rfl)
  have el' : ∀ c : Fin 128, Read.lidx_main_v29 (ix2 i j) c = ix2 i c := fun c => funext fun a => Fin.ext (by
    match a with | ⟨0, _⟩ => rfl | ⟨1, _⟩ => rfl)
  have er' : ∀ c : Fin 128, Read.idx_main_v28 (Read.ridx_main_v29 (ix2 i j) c) = ix2 j c := fun c => funext fun a =>
    Fin.ext (by match a with | ⟨0, _⟩ => rfl | ⟨1, _⟩ => rfl)
  rw [Read.val_main_v30_apply, Read.val_main_v27_apply, Read.val_main_v24_apply, Read.val_main_v26_apply,
    Read.val_main_v25_apply, eb, Read.val_main_v29_apply, Ideal.addf_def, Ideal.addf_def]
  refine congrArg₂ (· + ·) (congrArg₂ (· + ·) ?_ rfl) ?_
  · refine Finset.sum_congr rfl fun c _ => ?_
    rw [el c, Read.val_main_v23_apply, er c, Read.val_main_v22_apply, Read.val_main_v21_apply,
      Read.val_main_v20_apply, ed c, Read.val_main_v19_apply, Read.val_main_v18_apply, Read.val_main_cst_3_apply]
    rfl
  · refine Finset.sum_congr rfl fun c _ => ?_
    rw [el' c, Read.val_main_v28_apply, er' c]

/-! ## The first normalisation block (on the aggregation layer's output) -/

/-- The mean of column `k` of the aggregation layer's output. -/
theorem mean0 (k : Fin 256) :
    Read.val_main_v33 (F := Ideal) x0 x1 x2 x3 x4 (ix1 k)
      = Ideal.div (Ideal.ofBits .f32 0x00000000#32
          + ∑ r : Fin 100000, Read.val_main_v30 (F := Ideal) x0 x1 x2 x3 x4 (ix2 r k))
        (Ideal.ofBits .f32 0x47C35000#32) := by
  have e : ∀ r : Fin 100000, Read.idx_main_v31 (ix1 k) r = ix2 r k := fun r => funext fun a => Fin.ext (by
    match a with | ⟨0, _⟩ => rfl | ⟨1, _⟩ => rfl)
  rw [Read.val_main_v33_apply, Read.val_main_v31_apply, Read.val_main_v32_apply, Read.val_main_cst_5_apply,
    Read.val_main_cst_4_apply]
  simp only [e]
  rfl

/-- The variance of column `k`: the mean of the squared deviations from the column's mean. -/
theorem var0 (k : Fin 256) :
    Read.val_main_v40 (F := Ideal) x0 x1 x2 x3 x4 (ix1 k)
      = Ideal.div (Ideal.ofBits .f32 0x00000000#32
          + ∑ r : Fin 100000,
              (Read.val_main_v30 (F := Ideal) x0 x1 x2 x3 x4 (ix2 r k)
                - Read.val_main_v33 (F := Ideal) x0 x1 x2 x3 x4 (ix1 k))
              * (Read.val_main_v30 (F := Ideal) x0 x1 x2 x3 x4 (ix2 r k)
                - Read.val_main_v33 (F := Ideal) x0 x1 x2 x3 x4 (ix1 k)))
        (Ideal.ofBits .f32 0x47C35000#32) := by
  have e : ∀ r : Fin 100000, Read.idx_main_v38 (ix1 k) r = ix2 r k := fun r => funext fun a => Fin.ext (by
    match a with | ⟨0, _⟩ => rfl | ⟨1, _⟩ => rfl)
  have em : ∀ r : Fin 100000, Read.idx_main_v34 (Read.idx_main_v35 (ix2 r k)) = ix1 k := fun r => funext fun a =>
    Fin.ext (by match a with | ⟨0, _⟩ => rfl)
  have hs : ∀ r : Fin 100000, Read.val_main_v37 (F := Ideal) x0 x1 x2 x3 x4 (Read.idx_main_v38 (ix1 k) r)
      = (Read.val_main_v30 (F := Ideal) x0 x1 x2 x3 x4 (ix2 r k)
          - Read.val_main_v33 (F := Ideal) x0 x1 x2 x3 x4 (ix1 k))
        * (Read.val_main_v30 (F := Ideal) x0 x1 x2 x3 x4 (ix2 r k)
          - Read.val_main_v33 (F := Ideal) x0 x1 x2 x3 x4 (ix1 k)) := fun r => by
    rw [e r, Read.val_main_v37_apply, Read.val_main_v36_apply, Read.val_main_v35_apply, Read.val_main_v34_apply, em r]
    rfl
  rw [Read.val_main_v40_apply, Read.val_main_v38_apply, Read.val_main_v39_apply, Read.val_main_cst_7_apply,
    Read.val_main_cst_6_apply]
  simp only [hs]
  rfl

/-- The block's output at `(i, k)` from the column's mean and variance. -/
theorem bnOut0 (i : Fin 100000) (k : Fin 256) :
    Read.val_main_v56 (F := Ideal) x0 x1 x2 x3 x4 x5 x6 (ix2 i k)
      = max (x5 (ix1 k)
            * (Read.val_main_v30 (F := Ideal) x0 x1 x2 x3 x4 (ix2 i k)
              - Read.val_main_v33 (F := Ideal) x0 x1 x2 x3 x4 (ix1 k))
            * Ideal.rsqrt (Read.val_main_v40 (F := Ideal) x0 x1 x2 x3 x4 (ix1 k) + Ideal.ofBits .f32 0x3727C5AC#32)
          + x6 (ix1 k))
        (Ideal.ofBits .f32 0x00000000#32) := by
  have eg : Read.idx_main_v44 (Read.idx_main_v45 (ix2 i k)) = ix1 k := funext fun a => Fin.ext (by
    match a with | ⟨0, _⟩ => rfl)
  have em : Read.idx_main_v41 (Read.idx_main_v42 (ix2 i k)) = ix1 k := funext fun a => Fin.ext (by
    match a with | ⟨0, _⟩ => rfl)
  have ev : Read.idx_main_v50 (Read.idx_main_v51 (ix2 i k)) = ix1 k := funext fun a => Fin.ext (by
    match a with | ⟨0, _⟩ => rfl)
  have eb : Read.idx_main_v53 (Read.idx_main_v54 (ix2 i k)) = ix1 k := funext fun a => Fin.ext (by
    match a with | ⟨0, _⟩ => rfl)
  rw [Read.val_main_v56_apply, Read.val_main_v55_apply, Read.val_main_v52_apply, Read.val_main_v46_apply,
    Read.val_main_v45_apply, Read.val_main_v44_apply, eg, Read.val_main_v43_apply, Read.val_main_v42_apply,
    Read.val_main_v41_apply, em, Read.val_main_v51_apply, Read.val_main_v50_apply, ev, Read.val_main_v49_apply,
    Read.val_main_v48_apply, Read.val_main_v47_apply, Read.val_main_cst_8_apply, Read.val_main_v54_apply,
    Read.val_main_v53_apply, eb, Read.val_main_call0_v0_apply, Read.val_main_call0_cst_apply]
  rfl

/-- The first normalisation block on a finite input: the real `bnRelu` of the column. -/
theorem bn0 (hr : Fin 100000 → Fin 256 → ℝ)
    (hH : ∀ i k, Read.val_main_v30 (F := Ideal) x0 x1 x2 x3 x4 (ix2 i k) = ((hr i k : ℝ) : EReal))
    (gr br : Fin 256 → ℝ) (hg : ∀ k, x5 (ix1 k) = ((gr k : ℝ) : EReal)) (hb : ∀ k, x6 (ix1 k) = ((br k : ℝ) : EReal))
    (i : Fin 100000) (k : Fin 256) :
    Read.val_main_v56 (F := Ideal) x0 x1 x2 x3 x4 x5 x6 (ix2 i k)
      = ((Cert.LibBatchNorm.bnRelu (fun i' => hr i' k) (gr k) (br k) Cert.Consts.epsR i : ℝ) : EReal) := by
  rw [bnOut0]
  exact bn_column (by norm_num) (fun i' => Read.val_main_v30 (F := Ideal) x0 x1 x2 x3 x4 (ix2 i' k))
    (fun i' => hr i' k) (fun i' => hH i' k) _ _ (gr k) (br k) Cert.Consts.epsR (hg k) (hb k) Cert.Consts.epsR_pos
    _ _ _ _ _ ofBits_rows Cert.Consts.ofBits_eps Ideal.ofBits_zero_f32 Ideal.ofBits_zero_f32 Ideal.ofBits_zero_f32
    _ _ (mean0 x0 x1 x2 x3 x4 k) (var0 x0 x1 x2 x3 x4 k) i

end Cert.ReferenceIdeal.Layers

end
-- ==== Proof.KChain0.lean ====
import proofs.«119158_j67731634258670_1_alg».proof.Proof.Stage0Ideal
import proofs.«119158_j67731634258670_1_alg».proof.Proof.KernelHost0
import proofs.«119158_j67731634258670_1_alg».proof.Proof.RefLayers

/-!
# The neighbourhood layer of the kernel against the reference

The kernel's host operations before its first region are the reference's own (the edge slices, the row gather, the two
scatter-adds), so the first region finds the reference's neighbour sums and degree counts; entry by entry its output is
the reference's first pre-normalisation activation, and its two accumulators hold that array's column sums and column
sums of squares.
-/

noncomputable section

open Idealize.ShloMosaic Idealize.ShloMosaic.ValueIdx Idealize.ShloMosaic.TcCoe Idealize.SL.Sem

namespace Cert.KernelIdeal.Chain

open Cert.KernelIdeal Cert.KernelIdeal.Gen Cert.ReferenceIdeal.Layers

variable (m : (ℓ : Loc nD τ sig) → Buf (Elt Ideal) ℓ) (ρ : Dev nD → PrngReg)

theorem layer0 (c : Dev nD) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S256x128, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal))
    (hx0 : W0 m ρ c (Proc.devRef .tc main_arg0) = x0) (hx1 : W0 m ρ c (Proc.devRef .tc main_arg1) = x1)
    (hx2 : W0 m ρ c (Proc.devRef .tc main_arg2) = x2) (hx3 : (W0 m ρ c (Proc.devRef .tc main_arg3) : S256.Idx → EReal) = x3)
    (hx4 : W0 m ρ c (Proc.devRef .tc main_arg4) = x4) :
    (∀ i j, (W2 m ρ c (Proc.devRef .tc main_v20_0) : S100000x256.Idx → EReal) (ix2 i j) = Cert.ReferenceIdeal.Read.val_main_v30 (F := Ideal) x0 x1 x2 x3 x4 (ix2 i j))
    ∧ (∀ j, (W2 m ρ c (Proc.devRef .tc main_v20_1) : S1x256.Idx → EReal) (ix2 (0 : Fin 1) j) = (∑ i : Fin 100000, Cert.ReferenceIdeal.Read.val_main_v30 (F := Ideal) x0 x1 x2 x3 x4 (ix2 i j) : EReal))
    ∧ (∀ j, (W2 m ρ c (Proc.devRef .tc main_v20_2) : S1x256.Idx → EReal) (ix2 (0 : Fin 1) j) = (∑ i : Fin 100000, Cert.ReferenceIdeal.Read.val_main_v30 (F := Ideal) x0 x1 x2 x3 x4 (ix2 i j) * Cert.ReferenceIdeal.Read.val_main_v30 (F := Ideal) x0 x1 x2 x3 x4 (ix2 i j) : EReal)) := by
  have eH : W2 m ρ c (Proc.devRef .tc main_v20_0) = Stage0.Hout (V1 m ρ) c := (W2_arr m ρ c 6).trans (Stage0.final5 (V1 m ρ) c)
  have eS : W2 m ρ c (Proc.devRef .tc main_v20_1) = Stage0.accS (V1 m ρ) c 19 Stage0.tLast.isLt := (W2_arr m ρ c 7).trans (Stage0.final6 (V1 m ρ) c)
  have eQ : W2 m ρ c (Proc.devRef .tc main_v20_2) = Stage0.accQ (V1 m ρ) c 19 Stage0.tLast.isLt := (W2_arr m ρ c 8).trans (Stage0.final7 (V1 m ρ) c)
  have hentry : ∀ i j, Stage0.Hout (V1 m ρ) c (ix2 i j) = Cert.ReferenceIdeal.Read.val_main_v30 (F := Ideal) x0 x1 x2 x3 x4 (ix2 i j) := by
    intro i j
    have eNbr : Stage0I.Nbr (V1 m ρ) c = Cert.ReferenceIdeal.Read.val_main_v13 (F := Ideal) x0 x1 := (HostOps.agg0 (W0 m ρ c)).trans (by rw [hx0, hx1])
    have eDeg : Stage0I.Deg (V1 m ρ) c (ix2 i (0 : Fin 1)) = Cert.ReferenceIdeal.Read.val_main_v17 (F := Ideal) x1 (ix1 i) := (HostOps.deg0 (W0 m ρ c) i).trans (by rw [hx1])
    have eBl : Stage0I.Bl (V1 m ρ) c (ix2 (0 : Fin 1) j) = x3 (ix1 j) := (HostOps.bias0 (W0 m ρ c) j).trans (by rw [hx3])
    have eFeat : Stage0I.Feat (V1 m ρ) c = x0 := (HostOps.keep0_x (W0 m ρ c)).trans hx0
    have eWl : Stage0I.Wl (V1 m ρ) c = x2 := (HostOps.keep0_wl (W0 m ρ c)).trans hx2
    have eWr : Stage0I.Wr (V1 m ρ) c = x4 := (HostOps.keep0_wr (W0 m ρ c)).trans hx4
    rw [Stage0I.Hout_apply, sage x0 x1 x2 x3 x4 i j, eNbr, eDeg, eBl, eFeat, eWl, eWr]
  refine ⟨fun i j => ?_, fun j => ?_, fun j => ?_⟩
  · rw [eH]; exact hentry i j
  · rw [eS]; exact (Stage0I.accS_apply (V1 m ρ) c j).trans (Finset.sum_congr rfl fun i _ => hentry i j)
  · rw [eQ]; exact (Stage0I.accQ_apply (V1 m ρ) c j).trans (Finset.sum_congr rfl fun i _ => by rw [hentry i j])

end Cert.KernelIdeal.Chain

end
-- ==== Proof.Stage1.lean ====
import proofs.«119158_j67731634258670_1_alg».proof.Proof.Gen.KernelIdeal.Frame
import Idealize.ShloMosaic.Lib.Pipeline.Value
import Idealize.ShloMosaic.Lib.ValueIdx
import Idealize.ShloMosaic.Lib.Tactic

/-!
# Dense stage 1: what the region leaves in its three output arrays

The body of this region maps a block of 5000 rows of the previous activation (256 features) through an affine map and a
ramp, multiplies by the weight matrix and adds the bias (256 features), stores that block, and adds the block's column
sums and column sums of squares into two one-row accumulators that are reset at the first grid point and written back
after the last. Here: each case of the body leaves its payloads; by induction over the grid points the accumulators hold
running sums; the row blocks tile the activation array, and the accumulators' one block is their whole array.
-/

noncomputable section

open Idealize.ShloMosaic Idealize.ShloMosaic.TcCoe Idealize.SL.Sem
open Idealize.ShloMosaic.Pipeline (Dat)

namespace Cert.KernelIdeal.Stage1

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! ## What each case of the body leaves: its stores' payloads of the loaded blocks -/

theorem out_A_5 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (hc : cond1_0 i) (x0 : Vec F S5000x256 .f32) (x1 : Vec F S1x256 .f32) (x2 : Vec F S1x256 .f32) (x3 : Vec F S256x256 .f32) (x4 : Vec F S1x256 .f32) :
    out1_A_5 c i arg1 harg1 arg2 harg2 arg3 harg3 arg4 harg4 arg5 harg5 arg6 harg6 arg7 harg7 arg8 harg8 hc x0 x1 x2 x3 x4 = k1_pay4 x0 x1 x2 x3 x4 := by
  unfold out1_A_5
  rw [View.read_writes_eq_canon _ _ _ (cover1_A_5 c i arg1 harg1 arg2 harg2 arg3 harg3 arg4 harg4 arg5 harg5 arg6 harg6 arg7 harg7 arg8 harg8 hc x0 x1 x2 x3 x4)]
  unfold kernelRun1_A
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x256) hz, View.ld_unit_zero (S := S1x256) hz, View.ld_unit_zero (S := S256x256) hz, View.ld_unit_zero (S := S1x256) hz]

theorem out_A_6 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (hc : cond1_0 i) (x0 : Vec F S5000x256 .f32) (x1 : Vec F S1x256 .f32) (x2 : Vec F S1x256 .f32) (x3 : Vec F S256x256 .f32) (x4 : Vec F S1x256 .f32) :
    out1_A_6 c i arg1 harg1 arg2 harg2 arg3 harg3 arg4 harg4 arg5 harg5 arg6 harg6 arg7 harg7 arg8 harg8 hc x0 x1 x2 x3 x4 = k1_pay5 x0 x1 x2 x3 x4 k1_pay2 := by
  unfold out1_A_6
  rw [View.read_writes_eq_canon _ _ _ (cover1_A_6 c i arg1 harg1 arg2 harg2 arg3 harg3 arg4 harg4 arg5 harg5 arg6 harg6 arg7 harg7 arg8 harg8 hc x0 x1 x2 x3 x4)]
  unfold kernelRun1_A
  dsimp only
  sl_unfold_words
  rw [View.canon_cons_unit_zero (S := S1x256) hz, View.readCov_unit_zero (S := S1x256) _ hz]
  simp only [View.readAt_eq_ld, harg1.read_unread, harg2.read_unread, harg3.read_unread, harg4.read_unread, harg5.read_unread, harg7.read_unread, harg8.read_unread, View.ld_unit_zero (S := S5000x256) hz, View.ld_unit_zero (S := S1x256) hz, View.ld_unit_zero (S := S256x256) hz, View.ld_unit_zero (S := S1x256) hz]

theorem out_A_7 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (hc : cond1_0 i) (x0 : Vec F S5000x256 .f32) (x1 : Vec F S1x256 .f32) (x2 : Vec F S1x256 .f32) (x3 : Vec F S256x256 .f32) (x4 : Vec F S1x256 .f32) :
    out1_A_7 c i arg1 harg1 arg2 harg2 arg3 harg3 arg4 harg4 arg5 harg5 arg6 harg6 arg7 harg7 arg8 harg8 hc x0 x1 x2 x3 x4 = k1_pay1 (k1_pay6 k1_pay3) (k1_pay7 x0 x1 x2 x3 x4) := by
  unfold out1_A_7
  rw [View.read_writes_eq_canon _ _ _ (cover1_A_7 c i arg1 harg1 arg2 harg2 arg3 harg3 arg4 harg4 arg5 harg5 arg6 harg6 arg7 harg7 arg8 harg8 hc x0 x1 x2 x3 x4)]
  unfold kernelRun1_A
  dsimp only
  sl_unfold_words
  rw [View.canon_cons_unit_zero (S := S1x256) hz, View.readCov_unit_zero (S := S1x256) _ hz]
  simp only [View.readAt_eq_ld, harg1.read_unread, harg2.read_unread, harg3.read_unread, harg4.read_unread, harg5.read_unread, harg7.read_unread, harg8.read_unread, View.ld_unit_zero (S := S5000x256) hz, View.ld_unit_zero (S := S1x256) hz, View.ld_unit_zero (S := S256x256) hz, View.ld_unit_zero (S := S1x256) hz]

theorem out_B_5 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (hc : ¬cond1_0 i) (x0 : Vec F S5000x256 .f32) (x1 : Vec F S1x256 .f32) (x2 : Vec F S1x256 .f32) (x3 : Vec F S256x256 .f32) (x4 : Vec F S1x256 .f32) (xo6 xo7 : Vec F S1x256 .f32) :
    out1_B_5 c i arg1 harg1 arg2 harg2 arg3 harg3 arg4 harg4 arg5 harg5 arg6 harg6 arg7 harg7 arg8 harg8 hc x0 x1 x2 x3 x4 xo6 xo7 = k1_pay4 x0 x1 x2 x3 x4 := by
  unfold out1_B_5
  rw [View.read_writes_eq_canon _ _ _ (cover1_B_5 c i arg1 harg1 arg2 harg2 arg3 harg3 arg4 harg4 arg5 harg5 arg6 harg6 arg7 harg7 arg8 harg8 hc x0 x1 x2 x3 x4 xo6 xo7)]
  unfold kernelRun1_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x256) hz, View.ld_unit_zero (S := S1x256) hz, View.ld_unit_zero (S := S256x256) hz, View.ld_unit_zero (S := S1x256) hz]

theorem out_B_6 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (hc : ¬cond1_0 i) (x0 : Vec F S5000x256 .f32) (x1 : Vec F S1x256 .f32) (x2 : Vec F S1x256 .f32) (x3 : Vec F S256x256 .f32) (x4 : Vec F S1x256 .f32) (xo6 xo7 : Vec F S1x256 .f32) :
    out1_B_6 c i arg1 harg1 arg2 harg2 arg3 harg3 arg4 harg4 arg5 harg5 arg6 harg6 arg7 harg7 arg8 harg8 hc x0 x1 x2 x3 x4 xo6 xo7 = k1_pay5 x0 x1 x2 x3 x4 xo6 := by
  unfold out1_B_6
  rw [View.read_writes_eq_canon _ _ _ (cover1_B_6 c i arg1 harg1 arg2 harg2 arg3 harg3 arg4 harg4 arg5 harg5 arg6 harg6 arg7 harg7 arg8 harg8 hc x0 x1 x2 x3 x4 xo6 xo7)]
  unfold kernelRun1_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x256) hz, View.ld_unit_zero (S := S1x256) hz, View.ld_unit_zero (S := S256x256) hz, View.ld_unit_zero (S := S1x256) hz]

theorem out_B_7 (c : Dev nD) (i : grid1.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S5000x256 .f32) (harg6 : arg6.IsWhole) (arg7 : Memref sig .tc .vmem S1x256 .f32) (harg7 : arg7.IsWhole) (arg8 : Memref sig .tc .vmem S1x256 .f32) (harg8 : arg8.IsWhole) (hc : ¬cond1_0 i) (x0 : Vec F S5000x256 .f32) (x1 : Vec F S1x256 .f32) (x2 : Vec F S1x256 .f32) (x3 : Vec F S256x256 .f32) (x4 : Vec F S1x256 .f32) (xo6 xo7 : Vec F S1x256 .f32) :
    out1_B_7 c i arg1 harg1 arg2 harg2 arg3 harg3 arg4 harg4 arg5 harg5 arg6 harg6 arg7 harg7 arg8 harg8 hc x0 x1 x2 x3 x4 xo6 xo7 = k1_pay1 (k1_pay6 xo7) (k1_pay7 x0 x1 x2 x3 x4) := by
  unfold out1_B_7
  rw [View.read_writes_eq_canon _ _ _ (cover1_B_7 c i arg1 harg1 arg2 harg2 arg3 harg3 arg4 harg4 arg5 harg5 arg6 harg6 arg7 harg7 arg8 harg8 hc x0 x1 x2 x3 x4 xo6 xo7)]
  unfold kernelRun1_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x256) hz, View.ld_unit_zero (S := S1x256) hz, View.ld_unit_zero (S := S256x256) hz, View.ld_unit_zero (S := S1x256) hz]

/-! ## The outputs after each grid point -/

/-- The block of the new activation that grid point `t` computes from its input blocks. -/
def hblk (c : Dev nD) (t : Fin cfg1.N) : Vec F S5000x256 .f32 := k1_pay4 (iblk1 V c 0 t) (iblk1 V c 1 t) (iblk1 V c 2 t) (iblk1 V c 3 t) (iblk1 V c 4 t)

/-- The running column sums after point `n`: reset to the zero row at point 0, each point adds its block's column sums. -/
def accS (c : Dev nD) : (n : ℕ) → n < cfg1.N → Vec F S1x256 .f32
  | 0, h => k1_pay5 (iblk1 V c 0 ⟨0, h⟩) (iblk1 V c 1 ⟨0, h⟩) (iblk1 V c 2 ⟨0, h⟩) (iblk1 V c 3 ⟨0, h⟩) (iblk1 V c 4 ⟨0, h⟩) k1_pay2
  | n + 1, h => k1_pay5 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (accS c n (Nat.lt_of_succ_lt h))

/-- The running column sums of squares after point `n`. -/
def accQ (c : Dev nD) : (n : ℕ) → n < cfg1.N → Vec F S1x256 .f32
  | 0, h => k1_pay1 (k1_pay6 k1_pay3) (k1_pay7 (iblk1 V c 0 ⟨0, h⟩) (iblk1 V c 1 ⟨0, h⟩) (iblk1 V c 2 ⟨0, h⟩) (iblk1 V c 3 ⟨0, h⟩) (iblk1 V c 4 ⟨0, h⟩))
  | n + 1, h => k1_pay1 (k1_pay6 (accQ c n (Nat.lt_of_succ_lt h))) (k1_pay7 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩))

/-- After point `n` the three staging buffers hold the point's block and the two running sums: by induction on the point. -/
theorem outsAt_eq (c : Dev nD) : ∀ (n : ℕ) (h : n < cfg1.N),
    outsAt1 V c n h = (hblk V c ⟨n, h⟩, accS V c n h, accQ V c n h)
  | 0, h => by
    rw [outsAt1_A V c ⟨0, h⟩ rfl, out_A_5, out_A_6, out_A_7]
    rfl
  | n + 1, h => by
    have hN : cfg1.N = 20 := N_1
    have hB : ¬(⟨n + 1, h⟩ : Fin cfg1.N).val % 20 = 0 := by dsimp only; omega
    rw [outsAt1_B V c ⟨n + 1, h⟩ hB, out_B_5, out_B_6, out_B_7]
    show (hblk V c ⟨n + 1, h⟩, k1_pay5 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (outsAt1 V c n _).2.1, k1_pay1 (k1_pay6 (outsAt1 V c n _).2.2) (k1_pay7 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩))) = _
    rw [outsAt_eq c n]
    rfl

/-! ## The activation array: the row blocks side by side -/

/-- The new activation as one array: row `i` lies in block `i / 5000` at position `i % 5000`. -/
def Hout (c : Dev nD) : S100000x256.Idx → Elt F .f32 := fun i =>
  hblk V c ⟨(i 0).val / 5000, by have hN : cfg1.N = 20 := N_1; have h : (i 0).val < 100000 := (i 0).isLt; rw [hN]; omega⟩
    (ValueIdx.ix2 (⟨(i 0).val % 5000, Nat.mod_lt _ (by norm_num)⟩ : Fin 5000) (⟨(i 1).val, (i 1).isLt⟩ : Fin 256))

/-- At row `5000 t + r`, column `q`, the array is block `t` at `(r, q)`. -/
theorem Hout_at (c : Dev nD) (t : Fin cfg1.N) (r : Fin 5000) (q : Fin 256) (i : S100000x256.Idx)
    (h0 : (i 0).val = 5000 * t.val + r.val) (h1 : (i 1).val = q.val) : Hout V c i = hblk V c t (ValueIdx.ix2 r q) := by
  have hr := r.isLt
  have ht : (i 0).val / 5000 = t.val := by omega
  have hm : (i 0).val % 5000 = r.val := by omega
  have e1 : ∀ h, (⟨(i 0).val / 5000, h⟩ : Fin cfg1.N) = t := fun h => Fin.ext ht
  have e2 : ∀ h, (⟨(i 0).val % 5000, h⟩ : Fin 5000) = r := fun h => Fin.ext hm
  unfold Hout
  rw [e1, e2]
  exact congrArg (fun z => hblk V c t (ValueIdx.ix2 r z)) (Fin.ext h1)

/-- The activation window's block index is the grid point itself; its column block is the only one. -/
theorem idx5 : ∀ t : Fin cfg1.N, win1_5.index t (0 : Fin 2) = t.val ∧ win1_5.index t (1 : Fin 2) = 0 :=
  (by decide +kernel : ∀ t : Fin grid1.N, _)

/-- What point `t` writes back to the activation array is block `t` of `Hout`. -/
theorem flushed5_eq (c : Dev nD) (t : Fin cfg1.N) :
    (dat1 V c).flushed 5 t = ((cfg1.win 5).blk t).view.read (Elt F) (Hout V c) := by
  show (cfg1.win 5).cut (grid1.coords t) ((dat1 V c).after 5 t) = _
  rw [after1_5, outsAt_eq]
  obtain ⟨e0, e1⟩ := idx5 t
  funext y
  have hy0 : (y 0).val < 5000 := (y 0).isLt
  have hy1 : (y 1).val < 256 := (y 1).isLt
  show hblk V c ⟨t.val, t.isLt⟩ y = Hout V c (((cfg1.win 5).blk t).view.emb y)
  rw [Hout_at V c t ⟨(y 0).val, hy0⟩ ⟨(y 1).val, hy1⟩ _
    (by show win1_5.index t (0 : Fin 2) * 5000 + 1 * (y 0).val = 5000 * t.val + (y 0).val; rw [e0]; omega)
    (by show win1_5.index t (1 : Fin 2) * 256 + 1 * (y 1).val = (y 1).val; rw [e1]; omega)]
  exact congrArg (hblk V c t) (ValueIdx.eq_ix2 y)

/-- An index of the activation array is in point `t`'s block iff each coordinate is in the block's range on its axis. -/
theorem mem_blk5 (t : Fin cfg1.N) (i : S100000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v39_0).slice (win1_5.rect t)).set ↔ _
  rw [View.set_slice_whole, Rect.mem_set_unit]
  exact Iff.rfl

/-- So after the run the activation array is `Hout`: every row lies in the block of the point `row / 5000`. -/
theorem final5 (c : Dev nD) : (dat1 V c).arrAt 5 cfg1.N = Hout V c :=
  (dat1 V c).arrAt_eq_of_cover 5 (Hout V c) (fun t _ => flushed5_eq V c t) fun i => by
    have hN : cfg1.N = 20 := N_1
    have h0 : (i 0).val < 100000 := (i 0).isLt
    have h1 : (i 1).val < 256 := (i 1).isLt
    refine ⟨⟨(i 0).val / 5000, by rw [hN]; omega⟩, flush1_5 _, ?_⟩
    obtain ⟨e0, e1⟩ := idx5 (⟨(i 0).val / 5000, by rw [hN]; omega⟩ : Fin cfg1.N)
    rw [mem_blk5]
    intro a
    match a with
    | ⟨0, _⟩ =>
      show win1_5.index _ (0 : Fin 2) * 5000 ≤ (i 0).val ∧ (i 0).val < win1_5.index _ (0 : Fin 2) * 5000 + 5000
      rw [e0]; dsimp only; omega
    | ⟨1, _⟩ =>
      show win1_5.index _ (1 : Fin 2) * 256 ≤ (i 1).val ∧ (i 1).val < win1_5.index _ (1 : Fin 2) * 256 + 256
      rw [e1]; omega

/-! ## The two accumulators: written back once, after the last point, whole -/

/-- The last grid point. -/
abbrev tLast : Fin cfg1.N := ⟨19, by have hN : cfg1.N = 20 := N_1; rw [hN]; decide⟩

theorem flushed6_eq (c : Dev nD) (t : Fin cfg1.N) (hf : (cfg1.win 6).flush t = true) :
    (dat1 V c).flushed 6 t = ((cfg1.win 6).blk t).view.read (Elt F) (accS V c 19 tLast.isLt) := by
  have hN : cfg1.N = 20 := N_1
  have h19 : t.val = 19 := by have := (flush1_6 t).mp hf; have := t.isLt; omega
  obtain rfl : t = tLast := Fin.ext h19
  show (cfg1.win 6).cut (grid1.coords tLast) ((dat1 V c).after 6 tLast) = _
  rw [after1_6, outsAt_eq]
  have hz' : (fun a => win1_6.index tLast a * main_v39_1.ty.shape.size a) = fun _ => 0 := funext fun a => by fin_cases a <;> decide +kernel
  exact (Memref.read_access_unit_zero (Elt F) main_v39_1 hz' (fun a => by rw [congrFun hz' a]; simp) (accS V c 19 tLast.isLt)).symm

theorem flushed7_eq (c : Dev nD) (t : Fin cfg1.N) (hf : (cfg1.win 7).flush t = true) :
    (dat1 V c).flushed 7 t = ((cfg1.win 7).blk t).view.read (Elt F) (accQ V c 19 tLast.isLt) := by
  have hN : cfg1.N = 20 := N_1
  have h19 : t.val = 19 := by have := (flush1_7 t).mp hf; have := t.isLt; omega
  obtain rfl : t = tLast := Fin.ext h19
  show (cfg1.win 7).cut (grid1.coords tLast) ((dat1 V c).after 7 tLast) = _
  rw [after1_7, outsAt_eq]
  have hz' : (fun a => win1_7.index tLast a * main_v39_2.ty.shape.size a) = fun _ => 0 := funext fun a => by fin_cases a <;> decide +kernel
  exact (Memref.read_access_unit_zero (Elt F) main_v39_2 hz' (fun a => by rw [congrFun hz' a]; simp) (accQ V c 19 tLast.isLt)).symm

/-- The one block of an accumulator's array is the array: every index is in it. -/
theorem final6 (c : Dev nD) : (dat1 V c).arrAt 6 cfg1.N = accS V c 19 tLast.isLt :=
  (dat1 V c).arrAt_eq_of_cover 6 _ (flushed6_eq V c) fun i =>
    ⟨tLast, (flush1_6 tLast).mpr rfl, by
      show i ∈ ((View.whole main_v39_1).slice (win1_6.rect tLast)).set
      rw [View.set_slice_whole, Rect.mem_set_unit]
      intro a
      have h0 : (i 0 : Nat) < 1 := (i 0).isLt
      have h1 : (i 1 : Nat) < 256 := (i 1).isLt
      match a with
      | ⟨0, _⟩ => show win1_6.index tLast 0 * win1_6.size 0 ≤ (i 0 : Nat) ∧ (i 0 : Nat) < win1_6.index tLast 0 * win1_6.size 0 + win1_6.xsize (grid1.coords tLast) 0
                  rw [show win1_6.index tLast 0 * win1_6.size 0 = 0 from by decide +kernel, show win1_6.xsize (grid1.coords tLast) 0 = 1 from by decide +kernel]; omega
      | ⟨1, _⟩ => show win1_6.index tLast 1 * win1_6.size 1 ≤ (i 1 : Nat) ∧ (i 1 : Nat) < win1_6.index tLast 1 * win1_6.size 1 + win1_6.xsize (grid1.coords tLast) 1
                  rw [show win1_6.index tLast 1 * win1_6.size 1 = 0 from by decide +kernel, show win1_6.xsize (grid1.coords tLast) 1 = 256 from by decide +kernel]; omega⟩

theorem final7 (c : Dev nD) : (dat1 V c).arrAt 7 cfg1.N = accQ V c 19 tLast.isLt :=
  (dat1 V c).arrAt_eq_of_cover 7 _ (flushed7_eq V c) fun i =>
    ⟨tLast, (flush1_7 tLast).mpr rfl, by
      show i ∈ ((View.whole main_v39_2).slice (win1_7.rect tLast)).set
      rw [View.set_slice_whole, Rect.mem_set_unit]
      intro a
      have h0 : (i 0 : Nat) < 1 := (i 0).isLt
      have h1 : (i 1 : Nat) < 256 := (i 1).isLt
      match a with
      | ⟨0, _⟩ => show win1_7.index tLast 0 * win1_7.size 0 ≤ (i 0 : Nat) ∧ (i 0 : Nat) < win1_7.index tLast 0 * win1_7.size 0 + win1_7.xsize (grid1.coords tLast) 0
                  rw [show win1_7.index tLast 0 * win1_7.size 0 = 0 from by decide +kernel, show win1_7.xsize (grid1.coords tLast) 0 = 1 from by decide +kernel]; omega
      | ⟨1, _⟩ => show win1_7.index tLast 1 * win1_7.size 1 ≤ (i 1 : Nat) ∧ (i 1 : Nat) < win1_7.index tLast 1 * win1_7.size 1 + win1_7.xsize (grid1.coords tLast) 1
                  rw [show win1_7.index tLast 1 * win1_7.size 1 = 0 from by decide +kernel, show win1_7.xsize (grid1.coords tLast) 1 = 256 from by decide +kernel]; omega⟩

/-! ## The input windows' blocks, read off the arrays as the region finds them -/

theorem idx0 : ∀ t : Fin cfg1.N, win1_0.index t (0 : Fin 2) = t.val ∧ win1_0.index t (1 : Fin 2) = 0 :=
  (by decide +kernel : ∀ t : Fin grid1.N, _)

/-- Block `t` of the previous activation at `(r, k)` is the array at row `5000 t + r`, column `k`. -/
theorem iblk0_at (c : Dev nD) (t : Fin cfg1.N) (r : Fin 5000) (k : Fin 256) (i : S100000x256.Idx)
    (h0 : (i 0).val = 5000 * t.val + r.val) (h1 : (i 1).val = k.val) :
    iblk1 V c 0 t (ValueIdx.ix2 r k) = V c (Pipeline.arrRef spec1 0) i := by
  obtain ⟨e0, e1⟩ := idx0 t
  unfold iblk1
  rw [View.read_apply]
  refine congrArg (V c (Pipeline.arrRef spec1 0)) (funext fun a => Fin.ext ?_)
  match a with
  | ⟨0, _⟩ => show win1_0.index t (0 : Fin 2) * 5000 + 1 * r.val = (i 0).val; rw [e0, h0]; omega
  | ⟨1, _⟩ => show win1_0.index t (1 : Fin 2) * 256 + 1 * k.val = (i 1).val; rw [e1, h1]; omega

theorem idxW1 : ∀ t : Fin cfg1.N, win1_1.index t (0 : Fin 2) = 0 ∧ win1_1.index t (1 : Fin 2) = 0 :=
  (by decide +kernel : ∀ t : Fin grid1.N, _)

/-- Window 1's one block is its whole array. -/
theorem iblk1_at (c : Dev nD) (t : Fin cfg1.N) (y : S1x256.Idx) : iblk1 V c 1 t y = V c (Pipeline.arrRef spec1 1) y := by
  obtain ⟨e0, e1⟩ := idxW1 t
  unfold iblk1
  rw [View.read_apply]
  refine congrArg (V c (Pipeline.arrRef spec1 1)) (funext fun a => Fin.ext ?_)
  match a with
  | ⟨0, _⟩ => show win1_1.index t (0 : Fin 2) * 1 + 1 * (y 0).val = (y 0).val; rw [e0]; omega
  | ⟨1, _⟩ => show win1_1.index t (1 : Fin 2) * 256 + 1 * (y 1).val = (y 1).val; rw [e1]; omega

theorem idxW2 : ∀ t : Fin cfg1.N, win1_2.index t (0 : Fin 2) = 0 ∧ win1_2.index t (1 : Fin 2) = 0 :=
  (by decide +kernel : ∀ t : Fin grid1.N, _)

/-- Window 2's one block is its whole array. -/
theorem iblk2_at (c : Dev nD) (t : Fin cfg1.N) (y : S1x256.Idx) : iblk1 V c 2 t y = V c (Pipeline.arrRef spec1 2) y := by
  obtain ⟨e0, e1⟩ := idxW2 t
  unfold iblk1
  rw [View.read_apply]
  refine congrArg (V c (Pipeline.arrRef spec1 2)) (funext fun a => Fin.ext ?_)
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

theorem idxW3 : ∀ t : Fin cfg1.N, win1_3.index t (0 : Fin 2) = 0 ∧ win1_3.index t (1 : Fin 2) = 0 :=
  (by decide +kernel : ∀ t : Fin grid1.N, _)

/-- Window 3's one block is its whole array. -/
theorem iblk3_at (c : Dev nD) (t : Fin cfg1.N) (y : S256x256.Idx) : iblk1 V c 3 t y = V c (Pipeline.arrRef spec1 3) y := by
  obtain ⟨e0, e1⟩ := idxW3 t
  unfold iblk1
  rw [View.read_apply]
  refine congrArg (V c (Pipeline.arrRef spec1 3)) (funext fun a => Fin.ext ?_)
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

theorem idxW4 : ∀ t : Fin cfg1.N, win1_4.index t (0 : Fin 2) = 0 ∧ win1_4.index t (1 : Fin 2) = 0 :=
  (by decide +kernel : ∀ t : Fin grid1.N, _)

/-- Window 4's one block is its whole array. -/
theorem iblk4_at (c : Dev nD) (t : Fin cfg1.N) (y : S1x256.Idx) : iblk1 V c 4 t y = V c (Pipeline.arrRef spec1 4) y := by
  obtain ⟨e0, e1⟩ := idxW4 t
  unfold iblk1
  rw [View.read_apply]
  refine congrArg (V c (Pipeline.arrRef spec1 4)) (funext fun a => Fin.ext ?_)
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

end Cert.KernelIdeal.Stage1

end
-- ==== Proof.Payloads123.lean ====
/-
  Every value the three stage kernels store, read at an index.

  The three kernels run one body at three sizes (256 → 256, 256 → 64, 64 → 14 features over blocks of 5000 rows): scale
  and shift the block feature by feature, clip below at zero, multiply by the transposed weight and add the bias; keep
  running sums, down the rows, of that output and of its squares; and reset the two sums on the first block. Each stored
  value is read here at one index as sums over `Fin`, products, `max` and the operands at coordinate indices.
-/
import proofs.«119158_j67731634258670_1_alg».proof.Proof.Gen.KernelIdeal.Skeleton
import proofs.«119158_j67731634258670_1_alg».proof.Proof.LibDenseStage

noncomputable section

namespace Cert.KernelIdeal.Pay

open Cert.KernelIdeal Cert.KernelIdeal.Gen Idealize.ShloMosaic Idealize.ShloMosaic.ValueIdx Cert.DenseStage

/-! ## The stage that maps 256 features to 256 -/

/-- The stage's output block at `(a, j)`: the clipped affine image of row `a` against row `j` of the weight, plus the bias. -/
theorem k1_pay4_apply (x0 : Vec Ideal S5000x256 .f32) (x1 x2 : Vec Ideal S1x256 .f32) (x3 : Vec Ideal S256x256 .f32)
    (x4 : Vec Ideal S1x256 .f32) (a : Fin 5000) (j : Fin 256) :
    k1_pay4 (F := Ideal) x0 x1 x2 x3 x4 (ix2 a j)
      = (∑ c : Fin 256, max (x0 (ix2 a c) * x1 (ix2 (0 : Fin 1) c) + x2 (ix2 (0 : Fin 1) c)) (Ideal.ofBits .f32 0x00000000#32)
            * x3 (ix2 j c))
        + x4 (ix2 (0 : Fin 1) j) := by
  unfold k1_pay4
  exact dense_apply _ rfl none x0 x1 x2 x3 x4 _ _ _ _ _ _ _ a j

/-- The running column sums: the stored sums plus the sums down the block's rows. -/
theorem k1_pay5_apply (x0 : Vec Ideal S5000x256 .f32) (x1 x2 : Vec Ideal S1x256 .f32) (x3 : Vec Ideal S256x256 .f32)
    (x4 : Vec Ideal S1x256 .f32) (v23 : Vec Ideal S1x256 .f32) (j : Fin 256) :
    k1_pay5 (F := Ideal) x0 x1 x2 x3 x4 v23 (ix2 (0 : Fin 1) j)
      = v23 (ix2 (0 : Fin 1) j) + ∑ r : Fin 5000, k1_pay4 (F := Ideal) x0 x1 x2 x3 x4 (ix2 r j) := by
  unfold k1_pay5
  rw [shapeCast_self v23]
  exact addColumnSums_apply v23 (k1_pay4 (F := Ideal) x0 x1 x2 x3 x4) _ _ _ _ j

/-- The running column sums of squares, given the block of squares. -/
theorem k1_pay1_apply (v30 : FVec Ideal S1x256 .f32) (v31 : FVec Ideal S5000x256 .f32) (j : Fin 256) :
    k1_pay1 (F := Ideal) v30 v31 (ix2 (0 : Fin 1) j) = v30 (ix2 (0 : Fin 1) j) + ∑ r : Fin 5000, v31 (ix2 r j) := by
  unfold k1_pay1
  exact addColumnSums_apply v30 v31 _ _ _ _ j

/-- The value stored back unchanged. -/
theorem k1_pay6_eq (v29 : Vec Ideal S1x256 .f32) : k1_pay6 (F := Ideal) v29 = v29 := by
  unfold k1_pay6
  exact shapeCast_self v29 _

/-- The block of squares. -/
theorem k1_pay7_apply (x0 : Vec Ideal S5000x256 .f32) (x1 x2 : Vec Ideal S1x256 .f32) (x3 : Vec Ideal S256x256 .f32)
    (x4 : Vec Ideal S1x256 .f32) (r : Fin 5000) (j : Fin 256) :
    k1_pay7 (F := Ideal) x0 x1 x2 x3 x4 (ix2 r j)
      = k1_pay4 (F := Ideal) x0 x1 x2 x3 x4 (ix2 r j) * k1_pay4 (F := Ideal) x0 x1 x2 x3 x4 (ix2 r j) := rfl

/-- The first reset store writes zero everywhere. -/
theorem k1_pay2_apply (y : (S1x256 : Shape).Idx) : k1_pay2 (F := Ideal) y = 0 :=
  Ideal.ofBits_zero_f32

/-- The second reset store writes zero everywhere. -/
theorem k1_pay3_apply (y : (S1x256 : Shape).Idx) : k1_pay3 (F := Ideal) y = 0 :=
  Ideal.ofBits_zero_f32

/-! ## The stage that maps 256 features to 64 -/

/-- The stage's output block at `(a, j)`: the clipped affine image of row `a` against row `j` of the weight, plus the bias. -/
theorem k2_pay4_apply (x0 : Vec Ideal S5000x256 .f32) (x1 x2 : Vec Ideal S1x256 .f32) (x3 : Vec Ideal S64x256 .f32)
    (x4 : Vec Ideal S1x64 .f32) (a : Fin 5000) (j : Fin 64) :
    k2_pay4 (F := Ideal) x0 x1 x2 x3 x4 (ix2 a j)
      = (∑ c : Fin 256, max (x0 (ix2 a c) * x1 (ix2 (0 : Fin 1) c) + x2 (ix2 (0 : Fin 1) c)) (Ideal.ofBits .f32 0x00000000#32)
            * x3 (ix2 j c))
        + x4 (ix2 (0 : Fin 1) j) := by
  unfold k2_pay4
  exact dense_apply _ rfl none x0 x1 x2 x3 x4 _ _ _ _ _ _ _ a j

/-- The running column sums: the stored sums plus the sums down the block's rows. -/
theorem k2_pay5_apply (x0 : Vec Ideal S5000x256 .f32) (x1 x2 : Vec Ideal S1x256 .f32) (x3 : Vec Ideal S64x256 .f32)
    (x4 : Vec Ideal S1x64 .f32) (v23 : Vec Ideal S1x64 .f32) (j : Fin 64) :
    k2_pay5 (F := Ideal) x0 x1 x2 x3 x4 v23 (ix2 (0 : Fin 1) j)
      = v23 (ix2 (0 : Fin 1) j) + ∑ r : Fin 5000, k2_pay4 (F := Ideal) x0 x1 x2 x3 x4 (ix2 r j) := by
  unfold k2_pay5
  rw [shapeCast_self v23]
  exact addColumnSums_apply v23 (k2_pay4 (F := Ideal) x0 x1 x2 x3 x4) _ _ _ _ j

/-- The running column sums of squares, given the block of squares. -/
theorem k2_pay1_apply (v30 : FVec Ideal S1x64 .f32) (v31 : FVec Ideal S5000x64 .f32) (j : Fin 64) :
    k2_pay1 (F := Ideal) v30 v31 (ix2 (0 : Fin 1) j) = v30 (ix2 (0 : Fin 1) j) + ∑ r : Fin 5000, v31 (ix2 r j) := by
  unfold k2_pay1
  exact addColumnSums_apply v30 v31 _ _ _ _ j

/-- The value stored back unchanged. -/
theorem k2_pay6_eq (v29 : Vec Ideal S1x64 .f32) : k2_pay6 (F := Ideal) v29 = v29 := by
  unfold k2_pay6
  exact shapeCast_self v29 _

/-- The block of squares. -/
theorem k2_pay7_apply (x0 : Vec Ideal S5000x256 .f32) (x1 x2 : Vec Ideal S1x256 .f32) (x3 : Vec Ideal S64x256 .f32)
    (x4 : Vec Ideal S1x64 .f32) (r : Fin 5000) (j : Fin 64) :
    k2_pay7 (F := Ideal) x0 x1 x2 x3 x4 (ix2 r j)
      = k2_pay4 (F := Ideal) x0 x1 x2 x3 x4 (ix2 r j) * k2_pay4 (F := Ideal) x0 x1 x2 x3 x4 (ix2 r j) := rfl

/-- The first reset store writes zero everywhere. -/
theorem k2_pay2_apply (y : (S1x64 : Shape).Idx) : k2_pay2 (F := Ideal) y = 0 :=
  Ideal.ofBits_zero_f32

/-- The second reset store writes zero everywhere. -/
theorem k2_pay3_apply (y : (S1x64 : Shape).Idx) : k2_pay3 (F := Ideal) y = 0 :=
  Ideal.ofBits_zero_f32

/-! ## The stage that maps 64 features to 14 -/

/-- The stage's output block at `(a, j)`: the clipped affine image of row `a` against row `j` of the weight, plus the bias. -/
theorem k3_pay4_apply (x0 : Vec Ideal S5000x64 .f32) (x1 x2 : Vec Ideal S1x64 .f32) (x3 : Vec Ideal S14x64 .f32)
    (x4 : Vec Ideal S1x14 .f32) (a : Fin 5000) (j : Fin 14) :
    k3_pay4 (F := Ideal) x0 x1 x2 x3 x4 (ix2 a j)
      = (∑ c : Fin 64, max (x0 (ix2 a c) * x1 (ix2 (0 : Fin 1) c) + x2 (ix2 (0 : Fin 1) c)) (Ideal.ofBits .f32 0x00000000#32)
            * x3 (ix2 j c))
        + x4 (ix2 (0 : Fin 1) j) := by
  unfold k3_pay4
  exact dense_apply _ rfl none x0 x1 x2 x3 x4 _ _ _ _ _ _ _ a j

/-- The running column sums: the stored sums plus the sums down the block's rows. -/
theorem k3_pay5_apply (x0 : Vec Ideal S5000x64 .f32) (x1 x2 : Vec Ideal S1x64 .f32) (x3 : Vec Ideal S14x64 .f32)
    (x4 : Vec Ideal S1x14 .f32) (v23 : Vec Ideal S1x14 .f32) (j : Fin 14) :
    k3_pay5 (F := Ideal) x0 x1 x2 x3 x4 v23 (ix2 (0 : Fin 1) j)
      = v23 (ix2 (0 : Fin 1) j) + ∑ r : Fin 5000, k3_pay4 (F := Ideal) x0 x1 x2 x3 x4 (ix2 r j) := by
  unfold k3_pay5
  rw [shapeCast_self v23]
  exact addColumnSums_apply v23 (k3_pay4 (F := Ideal) x0 x1 x2 x3 x4) _ _ _ _ j

/-- The running column sums of squares, given the block of squares. -/
theorem k3_pay1_apply (v30 : FVec Ideal S1x14 .f32) (v31 : FVec Ideal S5000x14 .f32) (j : Fin 14) :
    k3_pay1 (F := Ideal) v30 v31 (ix2 (0 : Fin 1) j) = v30 (ix2 (0 : Fin 1) j) + ∑ r : Fin 5000, v31 (ix2 r j) := by
  unfold k3_pay1
  exact addColumnSums_apply v30 v31 _ _ _ _ j

/-- The value stored back unchanged. -/
theorem k3_pay6_eq (v29 : Vec Ideal S1x14 .f32) : k3_pay6 (F := Ideal) v29 = v29 := by
  unfold k3_pay6
  exact shapeCast_self v29 _

/-- The block of squares. -/
theorem k3_pay7_apply (x0 : Vec Ideal S5000x64 .f32) (x1 x2 : Vec Ideal S1x64 .f32) (x3 : Vec Ideal S14x64 .f32)
    (x4 : Vec Ideal S1x14 .f32) (r : Fin 5000) (j : Fin 14) :
    k3_pay7 (F := Ideal) x0 x1 x2 x3 x4 (ix2 r j)
      = k3_pay4 (F := Ideal) x0 x1 x2 x3 x4 (ix2 r j) * k3_pay4 (F := Ideal) x0 x1 x2 x3 x4 (ix2 r j) := rfl

/-- The first reset store writes zero everywhere. -/
theorem k3_pay2_apply (y : (S1x14 : Shape).Idx) : k3_pay2 (F := Ideal) y = 0 :=
  Ideal.ofBits_zero_f32

/-- The second reset store writes zero everywhere. -/
theorem k3_pay3_apply (y : (S1x14 : Shape).Idx) : k3_pay3 (F := Ideal) y = 0 :=
  Ideal.ofBits_zero_f32

end Cert.KernelIdeal.Pay

end
-- ==== Proof.Stage1Ideal.lean ====
/-
  Dense stage 1 at the extended reals: closed forms of what the region leaves.

  Row `i` of the new activation is the clipped affine image of row `i` of the previous activation
  (scale and shift feature by feature, then the maximum with zero) against the rows of the weight,
  plus the bias: 256 features in, 256 features out. The two accumulators, after the last of the 20
  grid points, hold for every output feature the sum down all 100000 rows of the new activation
  and of its square: each grid point adds the sums down its block of 5000 rows to what the point
  before left, the first point starting from zero, and the 20 blocks of 5000 rows tile the 100000
  rows. Only commutativity and associativity of the sum are used, so the entries may be any
  extended reals.
-/
import proofs.«119158_j67731634258670_1_alg».proof.Proof.Stage1
import proofs.«119158_j67731634258670_1_alg».proof.Proof.Payloads123
import proofs.«119158_j67731634258670_1_alg».proof.Proof.LibBlockSum

noncomputable section

open scoped BigOperators
open Idealize.ShloMosaic Idealize.ShloMosaic.ValueIdx Idealize.ShloMosaic.TcCoe Idealize.SL.Sem

namespace Cert.KernelIdeal.Stage1I

open Cert.KernelIdeal Cert.KernelIdeal.Gen

variable (V : (c : Dev nD) → (b : Ref sig .tc) → Buf (Elt Ideal) ((c : Thread nD τ).loc b))

/-- The previous activation, as the region finds it. -/
abbrev Hin (c : Dev nD) : S100000x256.Idx → EReal := V c (Pipeline.arrRef spec1 0)
/-- The scale row. -/
abbrev Sc (c : Dev nD) : S1x256.Idx → EReal := V c (Pipeline.arrRef spec1 1)
/-- The shift row. -/
abbrev Sh (c : Dev nD) : S1x256.Idx → EReal := V c (Pipeline.arrRef spec1 2)
/-- The weight matrix, one row per output feature. -/
abbrev Wt (c : Dev nD) : S256x256.Idx → EReal := V c (Pipeline.arrRef spec1 3)
/-- The bias row. -/
abbrev Bi (c : Dev nD) : S1x256.Idx → EReal := V c (Pipeline.arrRef spec1 4)

/-- Block `t` of the new activation at `(r, j)`, from the arrays: its row is row `5000 t + r`. -/
theorem hblk_apply (c : Dev nD) (t : Fin cfg1.N) (r : Fin 5000) (j : Fin 256) (i : Fin 100000)
    (hi : i.val = 5000 * t.val + r.val) :
    Stage1.hblk V c t (ix2 r j)
      = (∑ k : Fin 256, max (Hin V c (ix2 i k) * Sc V c (ix2 (0 : Fin 1) k) + Sh V c (ix2 (0 : Fin 1) k))
            (Ideal.ofBits .f32 0x00000000#32) * Wt V c (ix2 j k))
        + Bi V c (ix2 (0 : Fin 1) j) := by
  unfold Stage1.hblk
  rw [Pay.k1_pay4_apply]
  have e0 : ∀ k : Fin 256, iblk1 V c 0 t (ix2 r k) = Hin V c (ix2 i k) :=
    fun k => Stage1.iblk0_at V c t r k (ix2 i k) hi rfl
  have e1 : ∀ k : Fin 256, iblk1 V c 1 t (ix2 (0 : Fin 1) k) = Sc V c (ix2 (0 : Fin 1) k) :=
    fun k => Stage1.iblk1_at V c t _
  have e2 : ∀ k : Fin 256, iblk1 V c 2 t (ix2 (0 : Fin 1) k) = Sh V c (ix2 (0 : Fin 1) k) :=
    fun k => Stage1.iblk2_at V c t _
  have e3 : ∀ k : Fin 256, iblk1 V c 3 t (ix2 j k) = Wt V c (ix2 j k) :=
    fun k => Stage1.iblk3_at V c t _
  have e4 : iblk1 V c 4 t (ix2 (0 : Fin 1) j) = Bi V c (ix2 (0 : Fin 1) j) :=
    Stage1.iblk4_at V c t _
  refine congrArg₂ (· + ·) (Finset.sum_congr rfl fun k _ => ?_) e4
  exact congrArg₂ (· * ·)
    (congrArg₂ max (congrArg₂ (· + ·) (congrArg₂ (· * ·) (e0 k) (e1 k)) (e2 k)) rfl) (e3 k)

/-- THE NEW ACTIVATION at `(i, j)`. -/
theorem Hout_apply (c : Dev nD) (i : Fin 100000) (j : Fin 256) :
    Stage1.Hout V c (ix2 i j)
      = (∑ k : Fin 256, max (Hin V c (ix2 i k) * Sc V c (ix2 (0 : Fin 1) k) + Sh V c (ix2 (0 : Fin 1) k))
            (Ideal.ofBits .f32 0x00000000#32) * Wt V c (ix2 j k))
        + Bi V c (ix2 (0 : Fin 1) j) := by
  have hN : cfg1.N = 20 := N_1
  have hi := i.isLt
  have hd : i.val = 5000 * (i.val / 5000) + i.val % 5000 := (Nat.div_add_mod i.val 5000).symm
  rw [Stage1.Hout_at V c ⟨i.val / 5000, by rw [hN]; omega⟩ ⟨i.val % 5000, Nat.mod_lt _ (by norm_num)⟩ j
    (ix2 i j) hd rfl]
  exact hblk_apply V c _ _ j i hd

/-- The sums down the rows of block `p`, continued by zero past the last grid point. -/
def blockS (c : Dev nD) (j : Fin 256) (p : ℕ) : EReal :=
  if hp : p < cfg1.N then ∑ r : Fin 5000, Stage1.hblk V c ⟨p, hp⟩ (ix2 r j) else 0

/-- The sums of squares down the rows of block `p`, continued by zero past the last grid point. -/
def blockQ (c : Dev nD) (j : Fin 256) (p : ℕ) : EReal :=
  if hp : p < cfg1.N then
    ∑ r : Fin 5000, Stage1.hblk V c ⟨p, hp⟩ (ix2 r j) * Stage1.hblk V c ⟨p, hp⟩ (ix2 r j)
  else 0

/-- After grid point `n` the first accumulator holds the block sums of the points `0, …, n`. -/
theorem accS_range (c : Dev nD) (j : Fin 256) : ∀ (n : ℕ) (h : n < cfg1.N),
    Stage1.accS V c n h (ix2 (0 : Fin 1) j) = ∑ p ∈ Finset.range (n + 1), blockS V c j p
  | 0, h => by
    have e : Stage1.accS V c 0 h = k1_pay5 (iblk1 V c 0 ⟨0, h⟩) (iblk1 V c 1 ⟨0, h⟩) (iblk1 V c 2 ⟨0, h⟩)
        (iblk1 V c 3 ⟨0, h⟩) (iblk1 V c 4 ⟨0, h⟩) (k1_pay2 (F := Ideal)) := rfl
    rw [e, Pay.k1_pay5_apply, Pay.k1_pay2_apply, zero_add, Finset.sum_range_one]
    unfold blockS
    rw [dif_pos h]
    rfl
  | n + 1, h => by
    have e : Stage1.accS V c (n + 1) h = k1_pay5 (iblk1 V c 0 ⟨n + 1, h⟩) (iblk1 V c 1 ⟨n + 1, h⟩)
        (iblk1 V c 2 ⟨n + 1, h⟩) (iblk1 V c 3 ⟨n + 1, h⟩) (iblk1 V c 4 ⟨n + 1, h⟩)
        (Stage1.accS V c n (Nat.lt_of_succ_lt h)) := rfl
    rw [e, Pay.k1_pay5_apply, accS_range c j n, Finset.sum_range_succ _ (n + 1)]
    refine congrArg (_ + ·) ?_
    unfold blockS
    rw [dif_pos h]
    rfl

/-- After grid point `n` the second accumulator holds the block sums of squares of the points
    `0, …, n`. -/
theorem accQ_range (c : Dev nD) (j : Fin 256) : ∀ (n : ℕ) (h : n < cfg1.N),
    Stage1.accQ V c n h (ix2 (0 : Fin 1) j) = ∑ p ∈ Finset.range (n + 1), blockQ V c j p
  | 0, h => by
    have e : Stage1.accQ V c 0 h = k1_pay1 (k1_pay6 (k1_pay3 (F := Ideal))) (k1_pay7 (iblk1 V c 0 ⟨0, h⟩)
        (iblk1 V c 1 ⟨0, h⟩) (iblk1 V c 2 ⟨0, h⟩) (iblk1 V c 3 ⟨0, h⟩) (iblk1 V c 4 ⟨0, h⟩)) := rfl
    rw [e, Pay.k1_pay1_apply, Pay.k1_pay6_eq, Pay.k1_pay3_apply, zero_add, Finset.sum_range_one]
    unfold blockQ
    rw [dif_pos h]
    rfl
  | n + 1, h => by
    have e : Stage1.accQ V c (n + 1) h = k1_pay1 (k1_pay6 (Stage1.accQ V c n (Nat.lt_of_succ_lt h)))
        (k1_pay7 (iblk1 V c 0 ⟨n + 1, h⟩) (iblk1 V c 1 ⟨n + 1, h⟩) (iblk1 V c 2 ⟨n + 1, h⟩)
          (iblk1 V c 3 ⟨n + 1, h⟩) (iblk1 V c 4 ⟨n + 1, h⟩)) := rfl
    rw [e, Pay.k1_pay1_apply, Pay.k1_pay6_eq, accQ_range c j n, Finset.sum_range_succ _ (n + 1)]
    refine congrArg (_ + ·) ?_
    unfold blockQ
    rw [dif_pos h]
    rfl

/-- THE FIRST ACCUMULATOR after the last grid point: the column sums of the new activation. -/
theorem accS_apply (c : Dev nD) (j : Fin 256) :
    Stage1.accS V c 19 Stage1.tLast.isLt (ix2 (0 : Fin 1) j) = ∑ i : Fin 100000, Stage1.Hout V c (ix2 i j) := by
  have hN : cfg1.N = 20 := N_1
  rw [accS_range V c j 19 Stage1.tLast.isLt, show (19 + 1 : ℕ) = cfg1.N from hN.symm]
  unfold blockS
  rw [Cert.Lib.BlockSum.sum_range_dite cfg1.N
      (fun t : Fin cfg1.N => ∑ r : Fin 5000, Stage1.hblk V c t (ix2 r j)),
    Cert.Lib.BlockSum.sum_eq_sum_blocks cfg1.N 5000 (by rw [hN])
      (fun i : Fin 100000 => Stage1.Hout V c (ix2 i j))]
  refine Finset.sum_congr rfl fun p _ => Finset.sum_congr rfl fun r _ => ?_
  exact (Stage1.Hout_at V c p r j _ rfl rfl).symm

/-- THE SECOND ACCUMULATOR after the last grid point: the column sums of squares of the new
    activation. -/
theorem accQ_apply (c : Dev nD) (j : Fin 256) :
    Stage1.accQ V c 19 Stage1.tLast.isLt (ix2 (0 : Fin 1) j)
      = ∑ i : Fin 100000, Stage1.Hout V c (ix2 i j) * Stage1.Hout V c (ix2 i j) := by
  have hN : cfg1.N = 20 := N_1
  rw [accQ_range V c j 19 Stage1.tLast.isLt, show (19 + 1 : ℕ) = cfg1.N from hN.symm]
  unfold blockQ
  rw [Cert.Lib.BlockSum.sum_range_dite cfg1.N
      (fun t : Fin cfg1.N => ∑ r : Fin 5000, Stage1.hblk V c t (ix2 r j) * Stage1.hblk V c t (ix2 r j)),
    Cert.Lib.BlockSum.sum_eq_sum_blocks cfg1.N 5000 (by rw [hN])
      (fun i : Fin 100000 => Stage1.Hout V c (ix2 i j) * Stage1.Hout V c (ix2 i j))]
  refine Finset.sum_congr rfl fun p _ => Finset.sum_congr rfl fun r _ => ?_
  rw [Stage1.Hout_at V c p r j _ rfl rfl]

end Cert.KernelIdeal.Stage1I

end
-- ==== Proof.KernelHost1.lean ====
/-
  The host operations between the first and the second region of the kernel program, read at an index, from any
  contents `W` of the buffers. From the 256 column sums `S` and sums of squares `Q` of the first region they compute the
  mean `S / n`, the variance `max (Q / n - mean · mean) 0`, its stabilised reciprocal root, the scale `g · inv` and the
  shift `b - g · mean · inv`, each a row of 256 entries; the bias of the next layer is laid out as a row; nothing else
  is written.
-/
import proofs.«119158_j67731634258670_1_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

open Cert.KernelIdeal Cert.KernelIdeal.Gen Idealize.ShloMosaic Idealize.ShloMosaic.ValueIdx Idealize.ShloMosaic.TcCoe
open Idealize.ShloMosaic.StableHlo
open scoped BigOperators

noncomputable section

namespace Cert.KernelIdeal.HostOps

/-- The product of two extended reals, for a factor whose type is the contents of a buffer at an index. -/
local notation:70 a:70 " *ᵣ " b:71 => @HMul.hMul EReal EReal EReal instHMul a b
/-- The difference of two extended reals, likewise. -/
local notation:65 a:65 " -ᵣ " b:66 => @HSub.hSub EReal EReal EReal instHSub a b

/-- The host's reciprocal square root at an index is the extended reals' of the element. -/
private theorem hostRsqrt_apply {s : Shape} {φ : FTy} (a : FVec Ideal s φ) (i : s.Idx) :
    Host.rsqrt a i = Ideal.rsqrt (a i) := rfl

/-- The scale row at an entry, for rows of any width: gain times the reciprocal root of the larger of
    `Q / n - (S / n) · (S / n)` and zero, plus the stabiliser. -/
private theorem scale_row {a : ℕ} (hb : (⟨0, ![]⟩ : Shape).BroadcastsInDim ⟨2, ![1, a]⟩ ![])
    (g S Q : FVec Ideal ⟨2, ![1, a]⟩ .f32) (o : (⟨2, ![1, a]⟩ : Shape).Idx) :
    mulf g
        (Host.rsqrt
          (addf
            (maximumf
              (subf (Host.divf Q (broadcastInDim ⟨2, ![1, a]⟩ ![] hb (constant (F := Ideal) ⟨0, ![]⟩ .f32 0x47C35000#32)))
                (mulf (Host.divf S (broadcastInDim ⟨2, ![1, a]⟩ ![] hb (constant (F := Ideal) ⟨0, ![]⟩ .f32 0x47C35000#32)))
                  (Host.divf S (broadcastInDim ⟨2, ![1, a]⟩ ![] hb (constant (F := Ideal) ⟨0, ![]⟩ .f32 0x47C35000#32)))))
              (broadcastInDim ⟨2, ![1, a]⟩ ![] hb (constant (F := Ideal) ⟨0, ![]⟩ .f32 0x00000000#32)))
            (broadcastInDim ⟨2, ![1, a]⟩ ![] hb (constant (F := Ideal) ⟨0, ![]⟩ .f32 0x3727C5AC#32)))) o
      = g o
        * Ideal.rsqrt
            (max (Ideal.div (Q o) (Ideal.ofBits .f32 0x47C35000#32)
                  - Ideal.div (S o) (Ideal.ofBits .f32 0x47C35000#32) * Ideal.div (S o) (Ideal.ofBits .f32 0x47C35000#32))
                (Ideal.ofBits .f32 0x00000000#32)
              + Ideal.ofBits .f32 0x3727C5AC#32) := by
  simp only [mulf_apply, addf_apply, subf_apply, maximumf_apply, hostDivf_apply, hostRsqrt_apply,
    broadcastInDim_scalar_apply, constant_apply]
  rfl

/-- The shift row at an entry, for rows of any width: offset less gain times `S / n` times the same reciprocal root. -/
private theorem shift_row {a : ℕ} (hb : (⟨0, ![]⟩ : Shape).BroadcastsInDim ⟨2, ![1, a]⟩ ![])
    (g b S Q : FVec Ideal ⟨2, ![1, a]⟩ .f32) (o : (⟨2, ![1, a]⟩ : Shape).Idx) :
    subf b
        (mulf
          (mulf g (Host.divf S (broadcastInDim ⟨2, ![1, a]⟩ ![] hb (constant (F := Ideal) ⟨0, ![]⟩ .f32 0x47C35000#32))))
          (Host.rsqrt
            (addf
              (maximumf
                (subf
                  (Host.divf Q (broadcastInDim ⟨2, ![1, a]⟩ ![] hb (constant (F := Ideal) ⟨0, ![]⟩ .f32 0x47C35000#32)))
                  (mulf
                    (Host.divf S (broadcastInDim ⟨2, ![1, a]⟩ ![] hb (constant (F := Ideal) ⟨0, ![]⟩ .f32 0x47C35000#32)))
                    (Host.divf S (broadcastInDim ⟨2, ![1, a]⟩ ![] hb (constant (F := Ideal) ⟨0, ![]⟩ .f32 0x47C35000#32)))))
                (broadcastInDim ⟨2, ![1, a]⟩ ![] hb (constant (F := Ideal) ⟨0, ![]⟩ .f32 0x00000000#32)))
              (broadcastInDim ⟨2, ![1, a]⟩ ![] hb (constant (F := Ideal) ⟨0, ![]⟩ .f32 0x3727C5AC#32))))) o
      = b o
        - g o * Ideal.div (S o) (Ideal.ofBits .f32 0x47C35000#32)
          * Ideal.rsqrt
              (max (Ideal.div (Q o) (Ideal.ofBits .f32 0x47C35000#32)
                    - Ideal.div (S o) (Ideal.ofBits .f32 0x47C35000#32) * Ideal.div (S o) (Ideal.ofBits .f32 0x47C35000#32))
                  (Ideal.ofBits .f32 0x00000000#32)
                + Ideal.ofBits .f32 0x3727C5AC#32) := by
  simp only [mulf_apply, addf_apply, subf_apply, maximumf_apply, hostDivf_apply, hostRsqrt_apply,
    broadcastInDim_scalar_apply, constant_apply]
  rfl

/-- The scale of column `k`: the normalisation's gain times the reciprocal root of the stabilised variance. -/
theorem scale1_apply (W : Valuation τ sig (Elt Ideal)) (k : Fin 256) :
    (StableHlo.after hostOps1 W (Proc.devRef .tc main_v34) : S1x256.Idx → EReal) (ix2 (0 : Fin 1) k)
      = (W (Proc.devRef .tc main_arg5) : S256.Idx → EReal) (ix1 k)
        *ᵣ Ideal.rsqrt
            (max (Ideal.div ((W (Proc.devRef .tc main_v20_2) : S1x256.Idx → EReal) (ix2 (0 : Fin 1) k))
                    (Ideal.ofBits .f32 0x47C35000#32)
                  - Ideal.div ((W (Proc.devRef .tc main_v20_1) : S1x256.Idx → EReal) (ix2 (0 : Fin 1) k))
                      (Ideal.ofBits .f32 0x47C35000#32)
                    * Ideal.div ((W (Proc.devRef .tc main_v20_1) : S1x256.Idx → EReal) (ix2 (0 : Fin 1) k))
                      (Ideal.ofBits .f32 0x47C35000#32))
                (Ideal.ofBits .f32 0x00000000#32)
              + Ideal.ofBits .f32 0x3727C5AC#32) := by
  after_results_simp
  refine (scale_row bcast_S_S1x256 _ _ _ _).trans ?_
  rw [← shapeCast_a_1a_apply (W (Proc.devRef .tc main_arg5) : S256.Idx → EReal) shapeCasts_S256_S1x256 (0 : Fin 1) k]
  rfl

/-- The shift of column `k`: the normalisation's offset less gain times mean times the reciprocal root. -/
theorem shift1_apply (W : Valuation τ sig (Elt Ideal)) (k : Fin 256) :
    (StableHlo.after hostOps1 W (Proc.devRef .tc main_v37) : S1x256.Idx → EReal) (ix2 (0 : Fin 1) k)
      = (W (Proc.devRef .tc main_arg6) : S256.Idx → EReal) (ix1 k)
        -ᵣ ((W (Proc.devRef .tc main_arg5) : S256.Idx → EReal) (ix1 k)
            *ᵣ Ideal.div ((W (Proc.devRef .tc main_v20_1) : S1x256.Idx → EReal) (ix2 (0 : Fin 1) k))
                (Ideal.ofBits .f32 0x47C35000#32))
          * Ideal.rsqrt
              (max (Ideal.div ((W (Proc.devRef .tc main_v20_2) : S1x256.Idx → EReal) (ix2 (0 : Fin 1) k))
                      (Ideal.ofBits .f32 0x47C35000#32)
                    - Ideal.div ((W (Proc.devRef .tc main_v20_1) : S1x256.Idx → EReal) (ix2 (0 : Fin 1) k))
                        (Ideal.ofBits .f32 0x47C35000#32)
                      * Ideal.div ((W (Proc.devRef .tc main_v20_1) : S1x256.Idx → EReal) (ix2 (0 : Fin 1) k))
                        (Ideal.ofBits .f32 0x47C35000#32))
                  (Ideal.ofBits .f32 0x00000000#32)
                + Ideal.ofBits .f32 0x3727C5AC#32) := by
  after_results_simp
  refine (shift_row bcast_S_S1x256 _ _ _ _ _).trans ?_
  rw [← shapeCast_a_1a_apply (W (Proc.devRef .tc main_arg5) : S256.Idx → EReal) shapeCasts_S256_S1x256 (0 : Fin 1) k,
    ← shapeCast_a_1a_apply (W (Proc.devRef .tc main_arg6) : S256.Idx → EReal) shapeCasts_S256_S1x256 (0 : Fin 1) k]
  rfl

/-- The next layer's bias laid out as a row. -/
theorem bias1_apply (W : Valuation τ sig (Elt Ideal)) (j : Fin 256) :
    (StableHlo.after hostOps1 W (Proc.devRef .tc main_v38) : S1x256.Idx → EReal) (ix2 (0 : Fin 1) j)
      = (W (Proc.devRef .tc main_arg8) : S256.Idx → EReal) (ix1 j) := by
  after_results_simp
  rw [← shapeCast_a_1a_apply (W (Proc.devRef .tc main_arg8) : S256.Idx → EReal) shapeCasts_S256_S1x256 (0 : Fin 1) j]
  rfl

/-- The first region's normalised-input buffer is not written. -/
theorem keep1_h (W : Valuation τ sig (Elt Ideal)) :
    StableHlo.after hostOps1 W (Proc.devRef .tc main_v20_0) = W (Proc.devRef .tc main_v20_0) := by
  after_results_simp

/-- The next layer's weight is not written. -/
theorem keep1_w (W : Valuation τ sig (Elt Ideal)) :
    StableHlo.after hostOps1 W (Proc.devRef .tc main_arg7) = W (Proc.devRef .tc main_arg7) := by
  after_results_simp

end Cert.KernelIdeal.HostOps

end
-- ==== Proof.KChain1.lean ====
import proofs.«119158_j67731634258670_1_alg».proof.Proof.Stage1Ideal
import proofs.«119158_j67731634258670_1_alg».proof.Proof.KernelHost1
import proofs.«119158_j67731634258670_1_alg».proof.Proof.RefLayers
import proofs.«119158_j67731634258670_1_alg».proof.Proof.LibBatchNorm
import proofs.«119158_j67731634258670_1_alg».proof.Proof.Consts

/-!
# Dense stage 1 of the kernel against the reference, one layer

Given that the kernel's previous activation array is the reference's pre-normalisation activation, that its entries are
real numbers, and that the two one-row accumulators hold that array's column sums and column sums of squares, the
kernel's affine-map-and-ramp of a row entry is the reference's normalised-and-ramped entry (the two written forms of
batch normalisation agree on real columns), so the next activation arrays agree entry by entry, and the next
accumulators hold the next array's column sums and column sums of squares.
-/

noncomputable section

open Idealize.ShloMosaic Idealize.ShloMosaic.ValueIdx Idealize.ShloMosaic.TcCoe Idealize.SL.Sem

namespace Cert.KernelIdeal.Chain

open Cert.KernelIdeal Cert.KernelIdeal.Gen Cert.ReferenceIdeal.Layers

variable (m : (ℓ : Loc nD τ sig) → Buf (Elt Ideal) ℓ) (ρ : Dev nD → PrngReg)

theorem layer1 (c : Dev nD) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S256x128, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) (x5 : (⟨Cert.ReferenceIdeal.S256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal))
    (hxg : (W2 m ρ c (Proc.devRef .tc main_arg5) : S256.Idx → EReal) = x5) (hxb : (W2 m ρ c (Proc.devRef .tc main_arg6) : S256.Idx → EReal) = x6)
    (hxw : W2 m ρ c (Proc.devRef .tc main_arg7) = x7) (hxbias : (W2 m ρ c (Proc.devRef .tc main_arg8) : S256.Idx → EReal) = x8)
    (hr : Fin 100000 → Fin 256 → ℝ) (gr br : Fin 256 → ℝ)
    (hg : ∀ k, x5 (ix1 k) = ((gr k : ℝ) : EReal)) (hb : ∀ k, x6 (ix1 k) = ((br k : ℝ) : EReal))
    (hH : ∀ i k, Cert.ReferenceIdeal.Read.val_main_v30 (F := Ideal) x0 x1 x2 x3 x4 (ix2 i k) = ((hr i k : ℝ) : EReal))
    (h0 : ∀ i k, (W2 m ρ c (Proc.devRef .tc main_v20_0) : S100000x256.Idx → EReal) (ix2 i k) = Cert.ReferenceIdeal.Read.val_main_v30 (F := Ideal) x0 x1 x2 x3 x4 (ix2 i k))
    (hS : ∀ k, (W2 m ρ c (Proc.devRef .tc main_v20_1) : S1x256.Idx → EReal) (ix2 (0 : Fin 1) k) = (∑ i : Fin 100000, Cert.ReferenceIdeal.Read.val_main_v30 (F := Ideal) x0 x1 x2 x3 x4 (ix2 i k) : EReal))
    (hQ : ∀ k, (W2 m ρ c (Proc.devRef .tc main_v20_2) : S1x256.Idx → EReal) (ix2 (0 : Fin 1) k) = (∑ i : Fin 100000, Cert.ReferenceIdeal.Read.val_main_v30 (F := Ideal) x0 x1 x2 x3 x4 (ix2 i k) * Cert.ReferenceIdeal.Read.val_main_v30 (F := Ideal) x0 x1 x2 x3 x4 (ix2 i k) : EReal)) :
    (∀ i j, (W4 m ρ c (Proc.devRef .tc main_v39_0) : S100000x256.Idx → EReal) (ix2 i j) = Cert.ReferenceIdeal.Read.val_main_v61 (F := Ideal) x0 x1 x2 x3 x4 x5 x6 x7 x8 (ix2 i j))
    ∧ (∀ j, (W4 m ρ c (Proc.devRef .tc main_v39_1) : S1x256.Idx → EReal) (ix2 (0 : Fin 1) j) = (∑ i : Fin 100000, Cert.ReferenceIdeal.Read.val_main_v61 (F := Ideal) x0 x1 x2 x3 x4 x5 x6 x7 x8 (ix2 i j) : EReal))
    ∧ (∀ j, (W4 m ρ c (Proc.devRef .tc main_v39_2) : S1x256.Idx → EReal) (ix2 (0 : Fin 1) j) = (∑ i : Fin 100000, Cert.ReferenceIdeal.Read.val_main_v61 (F := Ideal) x0 x1 x2 x3 x4 x5 x6 x7 x8 (ix2 i j) * Cert.ReferenceIdeal.Read.val_main_v61 (F := Ideal) x0 x1 x2 x3 x4 x5 x6 x7 x8 (ix2 i j) : EReal)) := by
  have eH : W4 m ρ c (Proc.devRef .tc main_v39_0) = Stage1.Hout (V3 m ρ) c := (W4_arr m ρ c 5).trans (Stage1.final5 (V3 m ρ) c)
  have eS : W4 m ρ c (Proc.devRef .tc main_v39_1) = Stage1.accS (V3 m ρ) c 19 Stage1.tLast.isLt := (W4_arr m ρ c 6).trans (Stage1.final6 (V3 m ρ) c)
  have eQ : W4 m ρ c (Proc.devRef .tc main_v39_2) = Stage1.accQ (V3 m ρ) c 19 Stage1.tLast.isLt := (W4_arr m ρ c 7).trans (Stage1.final7 (V3 m ρ) c)
  have hc : Ideal.ofBits .f32 0x47C35000#32 = (((100000 : ℕ) : ℝ) : EReal) := by rw [Cert.Consts.ofBits_n]; norm_num
  -- the kernel's affine map and ramp of an entry is the reference's normalised and ramped entry
  have hact : ∀ i k, max (Stage1I.Hin (V3 m ρ) c (ix2 i k) * Stage1I.Sc (V3 m ρ) c (ix2 (0 : Fin 1) k) + Stage1I.Sh (V3 m ρ) c (ix2 (0 : Fin 1) k)) (Ideal.ofBits .f32 0x00000000#32)
      = Cert.ReferenceIdeal.Read.val_main_v56 (F := Ideal) x0 x1 x2 x3 x4 x5 x6 (ix2 i k) := by
    intro i k
    have e1 : Stage1I.Hin (V3 m ρ) c = W2 m ρ c (Proc.devRef .tc main_v20_0) := HostOps.keep1_h (W2 m ρ c)
    have e2 := HostOps.scale1_apply (W2 m ρ c) k
    have e3 := HostOps.shift1_apply (W2 m ρ c) k
    rw [e1, show Stage1I.Sc (V3 m ρ) c (ix2 (0 : Fin 1) k) = _ from e2, show Stage1I.Sh (V3 m ρ) c (ix2 (0 : Fin 1) k) = _ from e3, h0, hS, hQ, hxg, hxb, hg, hb, bn0 x0 x1 x2 x3 x4 x5 x6 hr hH gr br hg hb i k]
    simp only [hH]
    exact Cert.LibBatchNorm.scaleShift_form_inl (n := 100000) (by norm_num) (fun i' => hr i' k) (gr k) (br k) Cert.Consts.epsR Cert.Consts.epsR_pos
      (Ideal.ofBits .f32 0x47C35000#32) (Ideal.ofBits .f32 0x3727C5AC#32) (Ideal.ofBits .f32 0x00000000#32) hc Cert.Consts.ofBits_eps Ideal.ofBits_zero_f32 i
  have hentry : ∀ i j, Stage1.Hout (V3 m ρ) c (ix2 i j) = Cert.ReferenceIdeal.Read.val_main_v61 (F := Ideal) x0 x1 x2 x3 x4 x5 x6 x7 x8 (ix2 i j) := by
    intro i j
    have eW : Stage1I.Wt (V3 m ρ) c = x7 := (HostOps.keep1_w (W2 m ρ c)).trans hxw
    have eB : Stage1I.Bi (V3 m ρ) c (ix2 (0 : Fin 1) j) = x8 (ix1 j) := (HostOps.bias1_apply (W2 m ρ c) j).trans (by rw [hxbias])
    rw [Stage1I.Hout_apply, lin1 x0 x1 x2 x3 x4 x5 x6 x7 x8 i j]
    refine congrArg₂ (· + ·) (Finset.sum_congr rfl fun k _ => ?_) eB
    rw [hact i k, eW]
  refine ⟨fun i j => ?_, fun j => ?_, fun j => ?_⟩
  · rw [eH]; exact hentry i j
  · rw [eS]; exact (Stage1I.accS_apply (V3 m ρ) c j).trans (Finset.sum_congr rfl fun i _ => hentry i j)
  · rw [eQ]; exact (Stage1I.accQ_apply (V3 m ρ) c j).trans (Finset.sum_congr rfl fun i _ => by rw [hentry i j])

end Cert.KernelIdeal.Chain

end
-- ==== Proof.Stage2.lean ====
import proofs.«119158_j67731634258670_1_alg».proof.Proof.Gen.KernelIdeal.Frame
import Idealize.ShloMosaic.Lib.Pipeline.Value
import Idealize.ShloMosaic.Lib.ValueIdx
import Idealize.ShloMosaic.Lib.Tactic

/-!
# Dense stage 2: what the region leaves in its three output arrays

The body of this region maps a block of 5000 rows of the previous activation (256 features) through an affine map and a
ramp, multiplies by the weight matrix and adds the bias (64 features), stores that block, and adds the block's column
sums and column sums of squares into two one-row accumulators that are reset at the first grid point and written back
after the last. Here: each case of the body leaves its payloads; by induction over the grid points the accumulators hold
running sums; the row blocks tile the activation array, and the accumulators' one block is their whole array.
-/

noncomputable section

open Idealize.ShloMosaic Idealize.ShloMosaic.TcCoe Idealize.SL.Sem
open Idealize.ShloMosaic.Pipeline (Dat)

namespace Cert.KernelIdeal.Stage2

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! ## What each case of the body leaves: its stores' payloads of the loaded blocks -/

theorem out_A_5 (c : Dev nD) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S64x256 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc : cond2_0 i) (x0 : Vec F S5000x256 .f32) (x1 : Vec F S1x256 .f32) (x2 : Vec F S1x256 .f32) (x3 : Vec F S64x256 .f32) (x4 : Vec F S1x64 .f32) :
    out2_A_5 c i arg1 harg1 arg2 harg2 arg3 harg3 arg4 harg4 arg5 harg5 arg6 harg6 arg7 harg7 arg8 harg8 hc x0 x1 x2 x3 x4 = k2_pay4 x0 x1 x2 x3 x4 := by
  unfold out2_A_5
  rw [View.read_writes_eq_canon _ _ _ (cover2_A_5 c i arg1 harg1 arg2 harg2 arg3 harg3 arg4 harg4 arg5 harg5 arg6 harg6 arg7 harg7 arg8 harg8 hc x0 x1 x2 x3 x4)]
  unfold kernelRun2_A
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x256) hz, View.ld_unit_zero (S := S1x256) hz, View.ld_unit_zero (S := S64x256) hz, View.ld_unit_zero (S := S1x64) hz]

theorem out_A_6 (c : Dev nD) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S64x256 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc : cond2_0 i) (x0 : Vec F S5000x256 .f32) (x1 : Vec F S1x256 .f32) (x2 : Vec F S1x256 .f32) (x3 : Vec F S64x256 .f32) (x4 : Vec F S1x64 .f32) :
    out2_A_6 c i arg1 harg1 arg2 harg2 arg3 harg3 arg4 harg4 arg5 harg5 arg6 harg6 arg7 harg7 arg8 harg8 hc x0 x1 x2 x3 x4 = k2_pay5 x0 x1 x2 x3 x4 k2_pay2 := by
  unfold out2_A_6
  rw [View.read_writes_eq_canon _ _ _ (cover2_A_6 c i arg1 harg1 arg2 harg2 arg3 harg3 arg4 harg4 arg5 harg5 arg6 harg6 arg7 harg7 arg8 harg8 hc x0 x1 x2 x3 x4)]
  unfold kernelRun2_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg7.read_unread, harg8.read_unread, View.ld_unit_zero (S := S5000x256) hz, View.ld_unit_zero (S := S1x256) hz, View.ld_unit_zero (S := S64x256) hz, View.ld_unit_zero (S := S1x64) hz]

theorem out_A_7 (c : Dev nD) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S64x256 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc : cond2_0 i) (x0 : Vec F S5000x256 .f32) (x1 : Vec F S1x256 .f32) (x2 : Vec F S1x256 .f32) (x3 : Vec F S64x256 .f32) (x4 : Vec F S1x64 .f32) :
    out2_A_7 c i arg1 harg1 arg2 harg2 arg3 harg3 arg4 harg4 arg5 harg5 arg6 harg6 arg7 harg7 arg8 harg8 hc x0 x1 x2 x3 x4 = k2_pay1 (k2_pay6 k2_pay3) (k2_pay7 x0 x1 x2 x3 x4) := by
  unfold out2_A_7
  rw [View.read_writes_eq_canon _ _ _ (cover2_A_7 c i arg1 harg1 arg2 harg2 arg3 harg3 arg4 harg4 arg5 harg5 arg6 harg6 arg7 harg7 arg8 harg8 hc x0 x1 x2 x3 x4)]
  unfold kernelRun2_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg7.read_unread, harg8.read_unread, View.ld_unit_zero (S := S5000x256) hz, View.ld_unit_zero (S := S1x256) hz, View.ld_unit_zero (S := S64x256) hz, View.ld_unit_zero (S := S1x64) hz]

theorem out_B_5 (c : Dev nD) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S64x256 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc : ¬cond2_0 i) (x0 : Vec F S5000x256 .f32) (x1 : Vec F S1x256 .f32) (x2 : Vec F S1x256 .f32) (x3 : Vec F S64x256 .f32) (x4 : Vec F S1x64 .f32) (xo6 xo7 : Vec F S1x64 .f32) :
    out2_B_5 c i arg1 harg1 arg2 harg2 arg3 harg3 arg4 harg4 arg5 harg5 arg6 harg6 arg7 harg7 arg8 harg8 hc x0 x1 x2 x3 x4 xo6 xo7 = k2_pay4 x0 x1 x2 x3 x4 := by
  unfold out2_B_5
  rw [View.read_writes_eq_canon _ _ _ (cover2_B_5 c i arg1 harg1 arg2 harg2 arg3 harg3 arg4 harg4 arg5 harg5 arg6 harg6 arg7 harg7 arg8 harg8 hc x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x256) hz, View.ld_unit_zero (S := S1x256) hz, View.ld_unit_zero (S := S64x256) hz, View.ld_unit_zero (S := S1x64) hz]

theorem out_B_6 (c : Dev nD) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S64x256 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc : ¬cond2_0 i) (x0 : Vec F S5000x256 .f32) (x1 : Vec F S1x256 .f32) (x2 : Vec F S1x256 .f32) (x3 : Vec F S64x256 .f32) (x4 : Vec F S1x64 .f32) (xo6 xo7 : Vec F S1x64 .f32) :
    out2_B_6 c i arg1 harg1 arg2 harg2 arg3 harg3 arg4 harg4 arg5 harg5 arg6 harg6 arg7 harg7 arg8 harg8 hc x0 x1 x2 x3 x4 xo6 xo7 = k2_pay5 x0 x1 x2 x3 x4 xo6 := by
  unfold out2_B_6
  rw [View.read_writes_eq_canon _ _ _ (cover2_B_6 c i arg1 harg1 arg2 harg2 arg3 harg3 arg4 harg4 arg5 harg5 arg6 harg6 arg7 harg7 arg8 harg8 hc x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x256) hz, View.ld_unit_zero (S := S1x256) hz, View.ld_unit_zero (S := S64x256) hz, View.ld_unit_zero (S := S1x64) hz]

theorem out_B_7 (c : Dev nD) (i : grid2.Coords) (arg1 : Memref sig .tc .vmem S5000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S64x256 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc : ¬cond2_0 i) (x0 : Vec F S5000x256 .f32) (x1 : Vec F S1x256 .f32) (x2 : Vec F S1x256 .f32) (x3 : Vec F S64x256 .f32) (x4 : Vec F S1x64 .f32) (xo6 xo7 : Vec F S1x64 .f32) :
    out2_B_7 c i arg1 harg1 arg2 harg2 arg3 harg3 arg4 harg4 arg5 harg5 arg6 harg6 arg7 harg7 arg8 harg8 hc x0 x1 x2 x3 x4 xo6 xo7 = k2_pay1 (k2_pay6 xo7) (k2_pay7 x0 x1 x2 x3 x4) := by
  unfold out2_B_7
  rw [View.read_writes_eq_canon _ _ _ (cover2_B_7 c i arg1 harg1 arg2 harg2 arg3 harg3 arg4 harg4 arg5 harg5 arg6 harg6 arg7 harg7 arg8 harg8 hc x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x256) hz, View.ld_unit_zero (S := S1x256) hz, View.ld_unit_zero (S := S64x256) hz, View.ld_unit_zero (S := S1x64) hz]

/-! ## The outputs after each grid point -/

/-- The block of the new activation that grid point `t` computes from its input blocks. -/
def hblk (c : Dev nD) (t : Fin cfg2.N) : Vec F S5000x64 .f32 := k2_pay4 (iblk2 V c 0 t) (iblk2 V c 1 t) (iblk2 V c 2 t) (iblk2 V c 3 t) (iblk2 V c 4 t)

/-- The running column sums after point `n`: reset to the zero row at point 0, each point adds its block's column sums. -/
def accS (c : Dev nD) : (n : ℕ) → n < cfg2.N → Vec F S1x64 .f32
  | 0, h => k2_pay5 (iblk2 V c 0 ⟨0, h⟩) (iblk2 V c 1 ⟨0, h⟩) (iblk2 V c 2 ⟨0, h⟩) (iblk2 V c 3 ⟨0, h⟩) (iblk2 V c 4 ⟨0, h⟩) k2_pay2
  | n + 1, h => k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (accS c n (Nat.lt_of_succ_lt h))

/-- The running column sums of squares after point `n`. -/
def accQ (c : Dev nD) : (n : ℕ) → n < cfg2.N → Vec F S1x64 .f32
  | 0, h => k2_pay1 (k2_pay6 k2_pay3) (k2_pay7 (iblk2 V c 0 ⟨0, h⟩) (iblk2 V c 1 ⟨0, h⟩) (iblk2 V c 2 ⟨0, h⟩) (iblk2 V c 3 ⟨0, h⟩) (iblk2 V c 4 ⟨0, h⟩))
  | n + 1, h => k2_pay1 (k2_pay6 (accQ c n (Nat.lt_of_succ_lt h))) (k2_pay7 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩))

/-- After point `n` the three staging buffers hold the point's block and the two running sums: by induction on the point. -/
theorem outsAt_eq (c : Dev nD) : ∀ (n : ℕ) (h : n < cfg2.N),
    outsAt2 V c n h = (hblk V c ⟨n, h⟩, accS V c n h, accQ V c n h)
  | 0, h => by
    rw [outsAt2_A V c ⟨0, h⟩ rfl, out_A_5, out_A_6, out_A_7]
    rfl
  | n + 1, h => by
    have hN : cfg2.N = 20 := N_2
    have hB : ¬(⟨n + 1, h⟩ : Fin cfg2.N).val % 20 = 0 := by dsimp only; omega
    rw [outsAt2_B V c ⟨n + 1, h⟩ hB, out_B_5, out_B_6, out_B_7]
    show (hblk V c ⟨n + 1, h⟩, k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c n _).2.1, k2_pay1 (k2_pay6 (outsAt2 V c n _).2.2) (k2_pay7 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩))) = _
    rw [outsAt_eq c n]
    rfl

/-! ## The activation array: the row blocks side by side -/

/-- The new activation as one array: row `i` lies in block `i / 5000` at position `i % 5000`. -/
def Hout (c : Dev nD) : S100000x64.Idx → Elt F .f32 := fun i =>
  hblk V c ⟨(i 0).val / 5000, by have hN : cfg2.N = 20 := N_2; have h : (i 0).val < 100000 := (i 0).isLt; rw [hN]; omega⟩
    (ValueIdx.ix2 (⟨(i 0).val % 5000, Nat.mod_lt _ (by norm_num)⟩ : Fin 5000) (⟨(i 1).val, (i 1).isLt⟩ : Fin 64))

/-- At row `5000 t + r`, column `q`, the array is block `t` at `(r, q)`. -/
theorem Hout_at (c : Dev nD) (t : Fin cfg2.N) (r : Fin 5000) (q : Fin 64) (i : S100000x64.Idx)
    (h0 : (i 0).val = 5000 * t.val + r.val) (h1 : (i 1).val = q.val) : Hout V c i = hblk V c t (ValueIdx.ix2 r q) := by
  have hr := r.isLt
  have ht : (i 0).val / 5000 = t.val := by omega
  have hm : (i 0).val % 5000 = r.val := by omega
  have e1 : ∀ h, (⟨(i 0).val / 5000, h⟩ : Fin cfg2.N) = t := fun h => Fin.ext ht
  have e2 : ∀ h, (⟨(i 0).val % 5000, h⟩ : Fin 5000) = r := fun h => Fin.ext hm
  unfold Hout
  rw [e1, e2]
  exact congrArg (fun z => hblk V c t (ValueIdx.ix2 r z)) (Fin.ext h1)

/-- The activation window's block index is the grid point itself; its column block is the only one. -/
theorem idx5 : ∀ t : Fin cfg2.N, win2_5.index t (0 : Fin 2) = t.val ∧ win2_5.index t (1 : Fin 2) = 0 :=
  (by decide +kernel : ∀ t : Fin grid2.N, _)

/-- What point `t` writes back to the activation array is block `t` of `Hout`. -/
theorem flushed5_eq (c : Dev nD) (t : Fin cfg2.N) :
    (dat2 V c).flushed 5 t = ((cfg2.win 5).blk t).view.read (Elt F) (Hout V c) := by
  show (cfg2.win 5).cut (grid2.coords t) ((dat2 V c).after 5 t) = _
  rw [after2_5, outsAt_eq]
  obtain ⟨e0, e1⟩ := idx5 t
  funext y
  have hy0 : (y 0).val < 5000 := (y 0).isLt
  have hy1 : (y 1).val < 64 := (y 1).isLt
  show hblk V c ⟨t.val, t.isLt⟩ y = Hout V c (((cfg2.win 5).blk t).view.emb y)
  rw [Hout_at V c t ⟨(y 0).val, hy0⟩ ⟨(y 1).val, hy1⟩ _
    (by show win2_5.index t (0 : Fin 2) * 5000 + 1 * (y 0).val = 5000 * t.val + (y 0).val; rw [e0]; omega)
    (by show win2_5.index t (1 : Fin 2) * 64 + 1 * (y 1).val = (y 1).val; rw [e1]; omega)]
  exact congrArg (hblk V c t) (ValueIdx.eq_ix2 y)

/-- An index of the activation array is in point `t`'s block iff each coordinate is in the block's range on its axis. -/
theorem mem_blk5 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v58_0).slice (win2_5.rect t)).set ↔ _
  rw [View.set_slice_whole, Rect.mem_set_unit]
  exact Iff.rfl

/-- So after the run the activation array is `Hout`: every row lies in the block of the point `row / 5000`. -/
theorem final5 (c : Dev nD) : (dat2 V c).arrAt 5 cfg2.N = Hout V c :=
  (dat2 V c).arrAt_eq_of_cover 5 (Hout V c) (fun t _ => flushed5_eq V c t) fun i => by
    have hN : cfg2.N = 20 := N_2
    have h0 : (i 0).val < 100000 := (i 0).isLt
    have h1 : (i 1).val < 64 := (i 1).isLt
    refine ⟨⟨(i 0).val / 5000, by rw [hN]; omega⟩, flush2_5 _, ?_⟩
    obtain ⟨e0, e1⟩ := idx5 (⟨(i 0).val / 5000, by rw [hN]; omega⟩ : Fin cfg2.N)
    rw [mem_blk5]
    intro a
    match a with
    | ⟨0, _⟩ =>
      show win2_5.index _ (0 : Fin 2) * 5000 ≤ (i 0).val ∧ (i 0).val < win2_5.index _ (0 : Fin 2) * 5000 + 5000
      rw [e0]; dsimp only; omega
    | ⟨1, _⟩ =>
      show win2_5.index _ (1 : Fin 2) * 64 ≤ (i 1).val ∧ (i 1).val < win2_5.index _ (1 : Fin 2) * 64 + 64
      rw [e1]; omega

/-! ## The two accumulators: written back once, after the last point, whole -/

/-- The last grid point. -/
abbrev tLast : Fin cfg2.N := ⟨19, by have hN : cfg2.N = 20 := N_2; rw [hN]; decide⟩

theorem flushed6_eq (c : Dev nD) (t : Fin cfg2.N) (hf : (cfg2.win 6).flush t = true) :
    (dat2 V c).flushed 6 t = ((cfg2.win 6).blk t).view.read (Elt F) (accS V c 19 tLast.isLt) := by
  have hN : cfg2.N = 20 := N_2
  have h19 : t.val = 19 := by have := (flush2_6 t).mp hf; have := t.isLt; omega
  obtain rfl : t = tLast := Fin.ext h19
  show (cfg2.win 6).cut (grid2.coords tLast) ((dat2 V c).after 6 tLast) = _
  rw [after2_6, outsAt_eq]
  have hz' : (fun a => win2_6.index tLast a * main_v58_1.ty.shape.size a) = fun _ => 0 := funext fun a => by fin_cases a <;> decide +kernel
  exact (Memref.read_access_unit_zero (Elt F) main_v58_1 hz' (fun a => by rw [congrFun hz' a]; simp) (accS V c 19 tLast.isLt)).symm

theorem flushed7_eq (c : Dev nD) (t : Fin cfg2.N) (hf : (cfg2.win 7).flush t = true) :
    (dat2 V c).flushed 7 t = ((cfg2.win 7).blk t).view.read (Elt F) (accQ V c 19 tLast.isLt) := by
  have hN : cfg2.N = 20 := N_2
  have h19 : t.val = 19 := by have := (flush2_7 t).mp hf; have := t.isLt; omega
  obtain rfl : t = tLast := Fin.ext h19
  show (cfg2.win 7).cut (grid2.coords tLast) ((dat2 V c).after 7 tLast) = _
  rw [after2_7, outsAt_eq]
  have hz' : (fun a => win2_7.index tLast a * main_v58_2.ty.shape.size a) = fun _ => 0 := funext fun a => by fin_cases a <;> decide +kernel
  exact (Memref.read_access_unit_zero (Elt F) main_v58_2 hz' (fun a => by rw [congrFun hz' a]; simp) (accQ V c 19 tLast.isLt)).symm

/-- The one block of an accumulator's array is the array: every index is in it. -/
theorem final6 (c : Dev nD) : (dat2 V c).arrAt 6 cfg2.N = accS V c 19 tLast.isLt :=
  (dat2 V c).arrAt_eq_of_cover 6 _ (flushed6_eq V c) fun i =>
    ⟨tLast, (flush2_6 tLast).mpr rfl, by
      show i ∈ ((View.whole main_v58_1).slice (win2_6.rect tLast)).set
      rw [View.set_slice_whole, Rect.mem_set_unit]
      intro a
      have h0 : (i 0 : Nat) < 1 := (i 0).isLt
      have h1 : (i 1 : Nat) < 64 := (i 1).isLt
      match a with
      | ⟨0, _⟩ => show win2_6.index tLast 0 * win2_6.size 0 ≤ (i 0 : Nat) ∧ (i 0 : Nat) < win2_6.index tLast 0 * win2_6.size 0 + win2_6.xsize (grid2.coords tLast) 0
                  rw [show win2_6.index tLast 0 * win2_6.size 0 = 0 from by decide +kernel, show win2_6.xsize (grid2.coords tLast) 0 = 1 from by decide +kernel]; omega
      | ⟨1, _⟩ => show win2_6.index tLast 1 * win2_6.size 1 ≤ (i 1 : Nat) ∧ (i 1 : Nat) < win2_6.index tLast 1 * win2_6.size 1 + win2_6.xsize (grid2.coords tLast) 1
                  rw [show win2_6.index tLast 1 * win2_6.size 1 = 0 from by decide +kernel, show win2_6.xsize (grid2.coords tLast) 1 = 64 from by decide +kernel]; omega⟩

theorem final7 (c : Dev nD) : (dat2 V c).arrAt 7 cfg2.N = accQ V c 19 tLast.isLt :=
  (dat2 V c).arrAt_eq_of_cover 7 _ (flushed7_eq V c) fun i =>
    ⟨tLast, (flush2_7 tLast).mpr rfl, by
      show i ∈ ((View.whole main_v58_2).slice (win2_7.rect tLast)).set
      rw [View.set_slice_whole, Rect.mem_set_unit]
      intro a
      have h0 : (i 0 : Nat) < 1 := (i 0).isLt
      have h1 : (i 1 : Nat) < 64 := (i 1).isLt
      match a with
      | ⟨0, _⟩ => show win2_7.index tLast 0 * win2_7.size 0 ≤ (i 0 : Nat) ∧ (i 0 : Nat) < win2_7.index tLast 0 * win2_7.size 0 + win2_7.xsize (grid2.coords tLast) 0
                  rw [show win2_7.index tLast 0 * win2_7.size 0 = 0 from by decide +kernel, show win2_7.xsize (grid2.coords tLast) 0 = 1 from by decide +kernel]; omega
      | ⟨1, _⟩ => show win2_7.index tLast 1 * win2_7.size 1 ≤ (i 1 : Nat) ∧ (i 1 : Nat) < win2_7.index tLast 1 * win2_7.size 1 + win2_7.xsize (grid2.coords tLast) 1
                  rw [show win2_7.index tLast 1 * win2_7.size 1 = 0 from by decide +kernel, show win2_7.xsize (grid2.coords tLast) 1 = 64 from by decide +kernel]; omega⟩

/-! ## The input windows' blocks, read off the arrays as the region finds them -/

theorem idx0 : ∀ t : Fin cfg2.N, win2_0.index t (0 : Fin 2) = t.val ∧ win2_0.index t (1 : Fin 2) = 0 :=
  (by decide +kernel : ∀ t : Fin grid2.N, _)

/-- Block `t` of the previous activation at `(r, k)` is the array at row `5000 t + r`, column `k`. -/
theorem iblk0_at (c : Dev nD) (t : Fin cfg2.N) (r : Fin 5000) (k : Fin 256) (i : S100000x256.Idx)
    (h0 : (i 0).val = 5000 * t.val + r.val) (h1 : (i 1).val = k.val) :
    iblk2 V c 0 t (ValueIdx.ix2 r k) = V c (Pipeline.arrRef spec2 0) i := by
  obtain ⟨e0, e1⟩ := idx0 t
  unfold iblk2
  rw [View.read_apply]
  refine congrArg (V c (Pipeline.arrRef spec2 0)) (funext fun a => Fin.ext ?_)
  match a with
  | ⟨0, _⟩ => show win2_0.index t (0 : Fin 2) * 5000 + 1 * r.val = (i 0).val; rw [e0, h0]; omega
  | ⟨1, _⟩ => show win2_0.index t (1 : Fin 2) * 256 + 1 * k.val = (i 1).val; rw [e1, h1]; omega

theorem idxW1 : ∀ t : Fin cfg2.N, win2_1.index t (0 : Fin 2) = 0 ∧ win2_1.index t (1 : Fin 2) = 0 :=
  (by decide +kernel : ∀ t : Fin grid2.N, _)

/-- Window 1's one block is its whole array. -/
theorem iblk1_at (c : Dev nD) (t : Fin cfg2.N) (y : S1x256.Idx) : iblk2 V c 1 t y = V c (Pipeline.arrRef spec2 1) y := by
  obtain ⟨e0, e1⟩ := idxW1 t
  unfold iblk2
  rw [View.read_apply]
  refine congrArg (V c (Pipeline.arrRef spec2 1)) (funext fun a => Fin.ext ?_)
  match a with
  | ⟨0, _⟩ => show win2_1.index t (0 : Fin 2) * 1 + 1 * (y 0).val = (y 0).val; rw [e0]; omega
  | ⟨1, _⟩ => show win2_1.index t (1 : Fin 2) * 256 + 1 * (y 1).val = (y 1).val; rw [e1]; omega

theorem idxW2 : ∀ t : Fin cfg2.N, win2_2.index t (0 : Fin 2) = 0 ∧ win2_2.index t (1 : Fin 2) = 0 :=
  (by decide +kernel : ∀ t : Fin grid2.N, _)

/-- Window 2's one block is its whole array. -/
theorem iblk2_at (c : Dev nD) (t : Fin cfg2.N) (y : S1x256.Idx) : iblk2 V c 2 t y = V c (Pipeline.arrRef spec2 2) y := by
  obtain ⟨e0, e1⟩ := idxW2 t
  unfold iblk2
  rw [View.read_apply]
  refine congrArg (V c (Pipeline.arrRef spec2 2)) (funext fun a => Fin.ext ?_)
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

theorem idxW3 : ∀ t : Fin cfg2.N, win2_3.index t (0 : Fin 2) = 0 ∧ win2_3.index t (1 : Fin 2) = 0 :=
  (by decide +kernel : ∀ t : Fin grid2.N, _)

/-- Window 3's one block is its whole array. -/
theorem iblk3_at (c : Dev nD) (t : Fin cfg2.N) (y : S64x256.Idx) : iblk2 V c 3 t y = V c (Pipeline.arrRef spec2 3) y := by
  obtain ⟨e0, e1⟩ := idxW3 t
  unfold iblk2
  rw [View.read_apply]
  refine congrArg (V c (Pipeline.arrRef spec2 3)) (funext fun a => Fin.ext ?_)
  match a with
  | ⟨0, _⟩ => show win2_3.index t (0 : Fin 2) * 64 + 1 * (y 0).val = (y 0).val; rw [e0]; omega
  | ⟨1, _⟩ => show win2_3.index t (1 : Fin 2) * 256 + 1 * (y 1).val = (y 1).val; rw [e1]; omega

theorem idxW4 : ∀ t : Fin cfg2.N, win2_4.index t (0 : Fin 2) = 0 ∧ win2_4.index t (1 : Fin 2) = 0 :=
  (by decide +kernel : ∀ t : Fin grid2.N, _)

/-- Window 4's one block is its whole array. -/
theorem iblk4_at (c : Dev nD) (t : Fin cfg2.N) (y : S1x64.Idx) : iblk2 V c 4 t y = V c (Pipeline.arrRef spec2 4) y := by
  obtain ⟨e0, e1⟩ := idxW4 t
  unfold iblk2
  rw [View.read_apply]
  refine congrArg (V c (Pipeline.arrRef spec2 4)) (funext fun a => Fin.ext ?_)
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

end Cert.KernelIdeal.Stage2

end
-- ==== Proof.Stage2Ideal.lean ====
/-
  Dense stage 2 at the extended reals: closed forms of what the region leaves.

  Row `i` of the new activation is the clipped affine image of row `i` of the previous activation
  (scale and shift feature by feature, then the maximum with zero) against the rows of the weight,
  plus the bias: 256 features in, 64 features out. The two accumulators, after the last of the 20
  grid points, hold for every output feature the sum down all 100000 rows of the new activation
  and of its square: each grid point adds the sums down its block of 5000 rows to what the point
  before left, the first point starting from zero, and the 20 blocks of 5000 rows tile the 100000
  rows. Only commutativity and associativity of the sum are used, so the entries may be any
  extended reals.
-/
import proofs.«119158_j67731634258670_1_alg».proof.Proof.Stage2
import proofs.«119158_j67731634258670_1_alg».proof.Proof.Payloads123
import proofs.«119158_j67731634258670_1_alg».proof.Proof.LibBlockSum

noncomputable section

open scoped BigOperators
open Idealize.ShloMosaic Idealize.ShloMosaic.ValueIdx Idealize.ShloMosaic.TcCoe Idealize.SL.Sem

namespace Cert.KernelIdeal.Stage2I

open Cert.KernelIdeal Cert.KernelIdeal.Gen

variable (V : (c : Dev nD) → (b : Ref sig .tc) → Buf (Elt Ideal) ((c : Thread nD τ).loc b))

/-- The previous activation, as the region finds it. -/
abbrev Hin (c : Dev nD) : S100000x256.Idx → EReal := V c (Pipeline.arrRef spec2 0)
/-- The scale row. -/
abbrev Sc (c : Dev nD) : S1x256.Idx → EReal := V c (Pipeline.arrRef spec2 1)
/-- The shift row. -/
abbrev Sh (c : Dev nD) : S1x256.Idx → EReal := V c (Pipeline.arrRef spec2 2)
/-- The weight matrix, one row per output feature. -/
abbrev Wt (c : Dev nD) : S64x256.Idx → EReal := V c (Pipeline.arrRef spec2 3)
/-- The bias row. -/
abbrev Bi (c : Dev nD) : S1x64.Idx → EReal := V c (Pipeline.arrRef spec2 4)

/-- Block `t` of the new activation at `(r, j)`, from the arrays: its row is row `5000 t + r`. -/
theorem hblk_apply (c : Dev nD) (t : Fin cfg2.N) (r : Fin 5000) (j : Fin 64) (i : Fin 100000)
    (hi : i.val = 5000 * t.val + r.val) :
    Stage2.hblk V c t (ix2 r j)
      = (∑ k : Fin 256, max (Hin V c (ix2 i k) * Sc V c (ix2 (0 : Fin 1) k) + Sh V c (ix2 (0 : Fin 1) k))
            (Ideal.ofBits .f32 0x00000000#32) * Wt V c (ix2 j k))
        + Bi V c (ix2 (0 : Fin 1) j) := by
  unfold Stage2.hblk
  rw [Pay.k2_pay4_apply]
  have e0 : ∀ k : Fin 256, iblk2 V c 0 t (ix2 r k) = Hin V c (ix2 i k) :=
    fun k => Stage2.iblk0_at V c t r k (ix2 i k) hi rfl
  have e1 : ∀ k : Fin 256, iblk2 V c 1 t (ix2 (0 : Fin 1) k) = Sc V c (ix2 (0 : Fin 1) k) :=
    fun k => Stage2.iblk1_at V c t _
  have e2 : ∀ k : Fin 256, iblk2 V c 2 t (ix2 (0 : Fin 1) k) = Sh V c (ix2 (0 : Fin 1) k) :=
    fun k => Stage2.iblk2_at V c t _
  have e3 : ∀ k : Fin 256, iblk2 V c 3 t (ix2 j k) = Wt V c (ix2 j k) :=
    fun k => Stage2.iblk3_at V c t _
  have e4 : iblk2 V c 4 t (ix2 (0 : Fin 1) j) = Bi V c (ix2 (0 : Fin 1) j) :=
    Stage2.iblk4_at V c t _
  refine congrArg₂ (· + ·) (Finset.sum_congr rfl fun k _ => ?_) e4
  exact congrArg₂ (· * ·)
    (congrArg₂ max (congrArg₂ (· + ·) (congrArg₂ (· * ·) (e0 k) (e1 k)) (e2 k)) rfl) (e3 k)

/-- THE NEW ACTIVATION at `(i, j)`. -/
theorem Hout_apply (c : Dev nD) (i : Fin 100000) (j : Fin 64) :
    Stage2.Hout V c (ix2 i j)
      = (∑ k : Fin 256, max (Hin V c (ix2 i k) * Sc V c (ix2 (0 : Fin 1) k) + Sh V c (ix2 (0 : Fin 1) k))
            (Ideal.ofBits .f32 0x00000000#32) * Wt V c (ix2 j k))
        + Bi V c (ix2 (0 : Fin 1) j) := by
  have hN : cfg2.N = 20 := N_2
  have hi := i.isLt
  have hd : i.val = 5000 * (i.val / 5000) + i.val % 5000 := (Nat.div_add_mod i.val 5000).symm
  rw [Stage2.Hout_at V c ⟨i.val / 5000, by rw [hN]; omega⟩ ⟨i.val % 5000, Nat.mod_lt _ (by norm_num)⟩ j
    (ix2 i j) hd rfl]
  exact hblk_apply V c _ _ j i hd

/-- The sums down the rows of block `p`, continued by zero past the last grid point. -/
def blockS (c : Dev nD) (j : Fin 64) (p : ℕ) : EReal :=
  if hp : p < cfg2.N then ∑ r : Fin 5000, Stage2.hblk V c ⟨p, hp⟩ (ix2 r j) else 0

/-- The sums of squares down the rows of block `p`, continued by zero past the last grid point. -/
def blockQ (c : Dev nD) (j : Fin 64) (p : ℕ) : EReal :=
  if hp : p < cfg2.N then
    ∑ r : Fin 5000, Stage2.hblk V c ⟨p, hp⟩ (ix2 r j) * Stage2.hblk V c ⟨p, hp⟩ (ix2 r j)
  else 0

/-- After grid point `n` the first accumulator holds the block sums of the points `0, …, n`. -/
theorem accS_range (c : Dev nD) (j : Fin 64) : ∀ (n : ℕ) (h : n < cfg2.N),
    Stage2.accS V c n h (ix2 (0 : Fin 1) j) = ∑ p ∈ Finset.range (n + 1), blockS V c j p
  | 0, h => by
    have e : Stage2.accS V c 0 h = k2_pay5 (iblk2 V c 0 ⟨0, h⟩) (iblk2 V c 1 ⟨0, h⟩) (iblk2 V c 2 ⟨0, h⟩)
        (iblk2 V c 3 ⟨0, h⟩) (iblk2 V c 4 ⟨0, h⟩) (k2_pay2 (F := Ideal)) := rfl
    rw [e, Pay.k2_pay5_apply, Pay.k2_pay2_apply, zero_add, Finset.sum_range_one]
    unfold blockS
    rw [dif_pos h]
    rfl
  | n + 1, h => by
    have e : Stage2.accS V c (n + 1) h = k2_pay5 (iblk2 V c 0 ⟨n + 1, h⟩) (iblk2 V c 1 ⟨n + 1, h⟩)
        (iblk2 V c 2 ⟨n + 1, h⟩) (iblk2 V c 3 ⟨n + 1, h⟩) (iblk2 V c 4 ⟨n + 1, h⟩)
        (Stage2.accS V c n (Nat.lt_of_succ_lt h)) := rfl
    rw [e, Pay.k2_pay5_apply, accS_range c j n, Finset.sum_range_succ _ (n + 1)]
    refine congrArg (_ + ·) ?_
    unfold blockS
    rw [dif_pos h]
    rfl

/-- After grid point `n` the second accumulator holds the block sums of squares of the points
    `0, …, n`. -/
theorem accQ_range (c : Dev nD) (j : Fin 64) : ∀ (n : ℕ) (h : n < cfg2.N),
    Stage2.accQ V c n h (ix2 (0 : Fin 1) j) = ∑ p ∈ Finset.range (n + 1), blockQ V c j p
  | 0, h => by
    have e : Stage2.accQ V c 0 h = k2_pay1 (k2_pay6 (k2_pay3 (F := Ideal))) (k2_pay7 (iblk2 V c 0 ⟨0, h⟩)
        (iblk2 V c 1 ⟨0, h⟩) (iblk2 V c 2 ⟨0, h⟩) (iblk2 V c 3 ⟨0, h⟩) (iblk2 V c 4 ⟨0, h⟩)) := rfl
    rw [e, Pay.k2_pay1_apply, Pay.k2_pay6_eq, Pay.k2_pay3_apply, zero_add, Finset.sum_range_one]
    unfold blockQ
    rw [dif_pos h]
    rfl
  | n + 1, h => by
    have e : Stage2.accQ V c (n + 1) h = k2_pay1 (k2_pay6 (Stage2.accQ V c n (Nat.lt_of_succ_lt h)))
        (k2_pay7 (iblk2 V c 0 ⟨n + 1, h⟩) (iblk2 V c 1 ⟨n + 1, h⟩) (iblk2 V c 2 ⟨n + 1, h⟩)
          (iblk2 V c 3 ⟨n + 1, h⟩) (iblk2 V c 4 ⟨n + 1, h⟩)) := rfl
    rw [e, Pay.k2_pay1_apply, Pay.k2_pay6_eq, accQ_range c j n, Finset.sum_range_succ _ (n + 1)]
    refine congrArg (_ + ·) ?_
    unfold blockQ
    rw [dif_pos h]
    rfl

/-- THE FIRST ACCUMULATOR after the last grid point: the column sums of the new activation. -/
theorem accS_apply (c : Dev nD) (j : Fin 64) :
    Stage2.accS V c 19 Stage2.tLast.isLt (ix2 (0 : Fin 1) j) = ∑ i : Fin 100000, Stage2.Hout V c (ix2 i j) := by
  have hN : cfg2.N = 20 := N_2
  rw [accS_range V c j 19 Stage2.tLast.isLt, show (19 + 1 : ℕ) = cfg2.N from hN.symm]
  unfold blockS
  rw [Cert.Lib.BlockSum.sum_range_dite cfg2.N
      (fun t : Fin cfg2.N => ∑ r : Fin 5000, Stage2.hblk V c t (ix2 r j)),
    Cert.Lib.BlockSum.sum_eq_sum_blocks cfg2.N 5000 (by rw [hN])
      (fun i : Fin 100000 => Stage2.Hout V c (ix2 i j))]
  refine Finset.sum_congr rfl fun p _ => Finset.sum_congr rfl fun r _ => ?_
  exact (Stage2.Hout_at V c p r j _ rfl rfl).symm

/-- THE SECOND ACCUMULATOR after the last grid point: the column sums of squares of the new
    activation. -/
theorem accQ_apply (c : Dev nD) (j : Fin 64) :
    Stage2.accQ V c 19 Stage2.tLast.isLt (ix2 (0 : Fin 1) j)
      = ∑ i : Fin 100000, Stage2.Hout V c (ix2 i j) * Stage2.Hout V c (ix2 i j) := by
  have hN : cfg2.N = 20 := N_2
  rw [accQ_range V c j 19 Stage2.tLast.isLt, show (19 + 1 : ℕ) = cfg2.N from hN.symm]
  unfold blockQ
  rw [Cert.Lib.BlockSum.sum_range_dite cfg2.N
      (fun t : Fin cfg2.N => ∑ r : Fin 5000, Stage2.hblk V c t (ix2 r j) * Stage2.hblk V c t (ix2 r j)),
    Cert.Lib.BlockSum.sum_eq_sum_blocks cfg2.N 5000 (by rw [hN])
      (fun i : Fin 100000 => Stage2.Hout V c (ix2 i j) * Stage2.Hout V c (ix2 i j))]
  refine Finset.sum_congr rfl fun p _ => Finset.sum_congr rfl fun r _ => ?_
  rw [Stage2.Hout_at V c p r j _ rfl rfl]

end Cert.KernelIdeal.Stage2I

end
-- ==== Proof.KernelHost2.lean ====
/-
  The host operations between the second and the third region of the kernel program, read at an index, from any
  contents `W` of the buffers. From the 256 column sums `S` and sums of squares `Q` of the second region they compute
  the mean `S / n`, the variance `max (Q / n - mean · mean) 0`, its stabilised reciprocal root, the scale `g · inv` and
  the shift `b - g · mean · inv`, each a row of 256 entries; the bias of the next layer (64 entries) is laid out as a
  row; nothing else is written.
-/
import proofs.«119158_j67731634258670_1_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

open Cert.KernelIdeal Cert.KernelIdeal.Gen Idealize.ShloMosaic Idealize.ShloMosaic.ValueIdx Idealize.ShloMosaic.TcCoe
open Idealize.ShloMosaic.StableHlo
open scoped BigOperators

noncomputable section

namespace Cert.KernelIdeal.HostOps

/-- The product of two extended reals, for a factor whose type is the contents of a buffer at an index. -/
local notation:70 a:70 " *ᵣ " b:71 => @HMul.hMul EReal EReal EReal instHMul a b
/-- The difference of two extended reals, likewise. -/
local notation:65 a:65 " -ᵣ " b:66 => @HSub.hSub EReal EReal EReal instHSub a b
/-- The row count's word. -/
local notation "cN" => Ideal.ofBits FTy.f32 0x47C35000#32
/-- The zero word. -/
local notation "z0" => Ideal.ofBits FTy.f32 0x00000000#32
/-- The stabiliser's word. -/
local notation "eps" => Ideal.ofBits FTy.f32 0x3727C5AC#32

/-- The host's reciprocal square root at an index is the extended reals' of the element. -/
private theorem hostRsqrt_apply {s : Shape} {φ : FTy} (a : FVec Ideal s φ) (i : s.Idx) :
    Host.rsqrt a i = Ideal.rsqrt (a i) := rfl

/-- The scale row at an entry, for rows of any width: gain times the reciprocal root of the larger of
    `Q / n - (S / n) · (S / n)` and zero, plus the stabiliser. -/
private theorem scale_row {a : ℕ} (hb : (⟨0, ![]⟩ : Shape).BroadcastsInDim ⟨2, ![1, a]⟩ ![])
    (g S Q : FVec Ideal ⟨2, ![1, a]⟩ .f32) (o : (⟨2, ![1, a]⟩ : Shape).Idx) :
    mulf g
        (Host.rsqrt
          (addf
            (maximumf
              (subf (Host.divf Q (broadcastInDim ⟨2, ![1, a]⟩ ![] hb (constant (F := Ideal) ⟨0, ![]⟩ .f32 0x47C35000#32)))
                (mulf (Host.divf S (broadcastInDim ⟨2, ![1, a]⟩ ![] hb (constant (F := Ideal) ⟨0, ![]⟩ .f32 0x47C35000#32)))
                  (Host.divf S (broadcastInDim ⟨2, ![1, a]⟩ ![] hb (constant (F := Ideal) ⟨0, ![]⟩ .f32 0x47C35000#32)))))
              (broadcastInDim ⟨2, ![1, a]⟩ ![] hb (constant (F := Ideal) ⟨0, ![]⟩ .f32 0x00000000#32)))
            (broadcastInDim ⟨2, ![1, a]⟩ ![] hb (constant (F := Ideal) ⟨0, ![]⟩ .f32 0x3727C5AC#32)))) o
      = g o
        * Ideal.rsqrt
            (max (Ideal.div (Q o) (Ideal.ofBits .f32 0x47C35000#32)
                  - Ideal.div (S o) (Ideal.ofBits .f32 0x47C35000#32) * Ideal.div (S o) (Ideal.ofBits .f32 0x47C35000#32))
                (Ideal.ofBits .f32 0x00000000#32)
              + Ideal.ofBits .f32 0x3727C5AC#32) := by
  simp only [mulf_apply, addf_apply, subf_apply, maximumf_apply, hostDivf_apply, hostRsqrt_apply,
    broadcastInDim_scalar_apply, constant_apply]
  rfl

/-- The shift row at an entry, for rows of any width: offset less gain times `S / n` times the same reciprocal root. -/
private theorem shift_row {a : ℕ} (hb : (⟨0, ![]⟩ : Shape).BroadcastsInDim ⟨2, ![1, a]⟩ ![])
    (g b S Q : FVec Ideal ⟨2, ![1, a]⟩ .f32) (o : (⟨2, ![1, a]⟩ : Shape).Idx) :
    subf b
        (mulf
          (mulf g (Host.divf S (broadcastInDim ⟨2, ![1, a]⟩ ![] hb (constant (F := Ideal) ⟨0, ![]⟩ .f32 0x47C35000#32))))
          (Host.rsqrt
            (addf
              (maximumf
                (subf
                  (Host.divf Q (broadcastInDim ⟨2, ![1, a]⟩ ![] hb (constant (F := Ideal) ⟨0, ![]⟩ .f32 0x47C35000#32)))
                  (mulf
                    (Host.divf S (broadcastInDim ⟨2, ![1, a]⟩ ![] hb (constant (F := Ideal) ⟨0, ![]⟩ .f32 0x47C35000#32)))
                    (Host.divf S (broadcastInDim ⟨2, ![1, a]⟩ ![] hb (constant (F := Ideal) ⟨0, ![]⟩ .f32 0x47C35000#32)))))
                (broadcastInDim ⟨2, ![1, a]⟩ ![] hb (constant (F := Ideal) ⟨0, ![]⟩ .f32 0x00000000#32)))
              (broadcastInDim ⟨2, ![1, a]⟩ ![] hb (constant (F := Ideal) ⟨0, ![]⟩ .f32 0x3727C5AC#32))))) o
      = b o
        - g o * Ideal.div (S o) (Ideal.ofBits .f32 0x47C35000#32)
          * Ideal.rsqrt
              (max (Ideal.div (Q o) (Ideal.ofBits .f32 0x47C35000#32)
                    - Ideal.div (S o) (Ideal.ofBits .f32 0x47C35000#32) * Ideal.div (S o) (Ideal.ofBits .f32 0x47C35000#32))
                  (Ideal.ofBits .f32 0x00000000#32)
                + Ideal.ofBits .f32 0x3727C5AC#32) := by
  simp only [mulf_apply, addf_apply, subf_apply, maximumf_apply, hostDivf_apply, hostRsqrt_apply,
    broadcastInDim_scalar_apply, constant_apply]
  rfl

variable (W : Valuation τ sig (Elt Ideal))

/-- The second region's column sums. -/
local notation "Sv" => (W (Proc.devRef Proc.tc main_v39_1) : S1x256.Idx → EReal)
/-- The second region's column sums of squares. -/
local notation "Qv" => (W (Proc.devRef Proc.tc main_v39_2) : S1x256.Idx → EReal)
/-- The normalisation's gain. -/
local notation "gv" => (W (Proc.devRef Proc.tc main_arg15) : S256.Idx → EReal)
/-- The normalisation's offset. -/
local notation "bv" => (W (Proc.devRef Proc.tc main_arg16) : S256.Idx → EReal)

/-- The scale of column `k`: the normalisation's gain times the reciprocal root of the stabilised variance. -/
theorem scale2_apply (k : Fin 256) :
    (StableHlo.after hostOps2 W (Proc.devRef .tc main_v53) : S1x256.Idx → EReal) (ix2 (0 : Fin 1) k)
      = gv (ix1 k)
        *ᵣ Ideal.rsqrt
            (max (Ideal.div (Qv (ix2 (0 : Fin 1) k)) cN
                  - Ideal.div (Sv (ix2 (0 : Fin 1) k)) cN * Ideal.div (Sv (ix2 (0 : Fin 1) k)) cN) z0
              + eps) := by
  after_results_simp
  refine (scale_row bcast_S_S1x256 _ _ _ _).trans ?_
  rw [← shapeCast_a_1a_apply gv shapeCasts_S256_S1x256 (0 : Fin 1) k]
  rfl

/-- The shift of column `k`: the normalisation's offset less gain times mean times the reciprocal root. -/
theorem shift2_apply (k : Fin 256) :
    (StableHlo.after hostOps2 W (Proc.devRef .tc main_v56) : S1x256.Idx → EReal) (ix2 (0 : Fin 1) k)
      = bv (ix1 k)
        -ᵣ (gv (ix1 k) *ᵣ Ideal.div (Sv (ix2 (0 : Fin 1) k)) cN)
          * Ideal.rsqrt
              (max (Ideal.div (Qv (ix2 (0 : Fin 1) k)) cN
                    - Ideal.div (Sv (ix2 (0 : Fin 1) k)) cN * Ideal.div (Sv (ix2 (0 : Fin 1) k)) cN) z0
                + eps) := by
  after_results_simp
  refine (shift_row bcast_S_S1x256 _ _ _ _ _).trans ?_
  rw [← shapeCast_a_1a_apply gv shapeCasts_S256_S1x256 (0 : Fin 1) k,
    ← shapeCast_a_1a_apply bv shapeCasts_S256_S1x256 (0 : Fin 1) k]
  rfl

/-- The next layer's bias laid out as a row. -/
theorem bias2_apply (j : Fin 64) :
    (StableHlo.after hostOps2 W (Proc.devRef .tc main_v57) : S1x64.Idx → EReal) (ix2 (0 : Fin 1) j)
      = (W (Proc.devRef .tc main_arg10) : S64.Idx → EReal) (ix1 j) := by
  after_results_simp
  rw [← shapeCast_a_1a_apply (W (Proc.devRef .tc main_arg10) : S64.Idx → EReal) shapeCasts_S64_S1x64 (0 : Fin 1) j]
  rfl

/-- The second region's normalised-input buffer is not written. -/
theorem keep2_h :
    StableHlo.after hostOps2 W (Proc.devRef .tc main_v39_0) = W (Proc.devRef .tc main_v39_0) := by
  after_results_simp

/-- The next layer's weight is not written. -/
theorem keep2_w :
    StableHlo.after hostOps2 W (Proc.devRef .tc main_arg9) = W (Proc.devRef .tc main_arg9) := by
  after_results_simp

end Cert.KernelIdeal.HostOps

end
-- ==== Proof.RefLayers1.lean ====
/-
  The second normalisation block and the second dense layer of the reference program read at an index: the block takes
  each of the 256 columns of the first dense layer's output through mean, variance, scale and shift and the rectifier;
  the dense layer maps the 256 rectified columns to 64.
-/
import proofs.«119158_j67731634258670_1_alg».proof.Proof.ReadP
import proofs.«119158_j67731634258670_1_alg».proof.Proof.RefLayers0
import proofs.«119158_j67731634258670_1_alg».proof.Proof.Consts
import proofs.«119158_j67731634258670_1_alg».proof.Proof.Spec

open Idealize.ShloMosaic Idealize.ShloMosaic.ValueIdx
open Cert.ReferenceIdeal Cert.ReferenceIdeal.Gen
open scoped BigOperators

noncomputable section

namespace Cert.ReferenceIdeal.Layers

variable (x0 : (⟨S100000x128, .f32⟩ : BufTy).Contents (Elt Ideal))
variable (x1 : (⟨S2x1600000, .i32⟩ : BufTy).Contents (Elt Ideal))
variable (x2 : (⟨S256x128, .f32⟩ : BufTy).Contents (Elt Ideal))
variable (x3 : (⟨S256, .f32⟩ : BufTy).Contents (Elt Ideal))
variable (x4 : (⟨S256x128, .f32⟩ : BufTy).Contents (Elt Ideal))
variable (x5 x6 : (⟨S256, .f32⟩ : BufTy).Contents (Elt Ideal))
variable (x7 : (⟨S256x256, .f32⟩ : BufTy).Contents (Elt Ideal))
variable (x8 : (⟨S256, .f32⟩ : BufTy).Contents (Elt Ideal))
variable (x9 : (⟨S64x256, .f32⟩ : BufTy).Contents (Elt Ideal))
variable (x10 : (⟨S64, .f32⟩ : BufTy).Contents (Elt Ideal))
variable (x11 : (⟨S14x64, .f32⟩ : BufTy).Contents (Elt Ideal))
variable (x12 : (⟨S14, .f32⟩ : BufTy).Contents (Elt Ideal))
variable (x13 : (⟨S2x14, .f32⟩ : BufTy).Contents (Elt Ideal))
variable (x14 : (⟨S2, .f32⟩ : BufTy).Contents (Elt Ideal))
variable (x15 x16 : (⟨S256, .f32⟩ : BufTy).Contents (Elt Ideal))
variable (x17 x18 : (⟨S64, .f32⟩ : BufTy).Contents (Elt Ideal))
variable (x19 x20 : (⟨S14, .f32⟩ : BufTy).Contents (Elt Ideal))

/-- The first dense layer's output, the block's input. -/
local notation "H1" => Read.val_main_v61 (F := Ideal) x0 x1 x2 x3 x4 x5 x6 x7 x8
/-- The columns' means. -/
local notation "M1" => Read.val_main_v64 (F := Ideal) x0 x1 x2 x3 x4 x5 x6 x7 x8
/-- The columns' variances. -/
local notation "V1" => Read.val_main_v71 (F := Ideal) x0 x1 x2 x3 x4 x5 x6 x7 x8
/-- The block's output. -/
local notation "A1" => Read.val_main_v87 (F := Ideal) x0 x1 x2 x3 x4 x5 x6 x7 x8 x15 x16

/-! ## The second normalisation block -/

/-- The mean of column `k` of the first dense layer's output. -/
theorem mean1 (k : Fin 256) :
    M1 (ix1 k)
      = Ideal.div (Ideal.ofBits .f32 0x00000000#32 + ∑ r : Fin 100000, H1 (ix2 r k))
        (Ideal.ofBits .f32 0x47C35000#32) := by
  have e : ∀ r : Fin 100000, Read.idx_main_v62 (ix1 k) r = ix2 r k := fun r => funext fun a => Fin.ext (by
    match a with | ⟨0, _⟩ => rfl | ⟨1, _⟩ => rfl)
  rw [Read.val_main_v64_apply, Read.val_main_v62_apply, Read.val_main_v63_apply, Read.val_main_cst_10_apply,
    Read.val_main_cst_9_apply]
  simp only [e]
  rfl

/-- The variance of column `k`: the mean of the squared deviations from the column's mean. -/
theorem var1 (k : Fin 256) :
    V1 (ix1 k)
      = Ideal.div (Ideal.ofBits .f32 0x00000000#32
          + ∑ r : Fin 100000, (H1 (ix2 r k) - M1 (ix1 k)) * (H1 (ix2 r k) - M1 (ix1 k)))
        (Ideal.ofBits .f32 0x47C35000#32) := by
  have e : ∀ r : Fin 100000, Read.idx_main_v69 (ix1 k) r = ix2 r k := fun r => funext fun a => Fin.ext (by
    match a with | ⟨0, _⟩ => rfl | ⟨1, _⟩ => rfl)
  have em : ∀ r : Fin 100000, Read.idx_main_v65 (Read.idx_main_v66 (ix2 r k)) = ix1 k := fun r => funext fun a =>
    Fin.ext (by match a with | ⟨0, _⟩ => rfl)
  have hs : ∀ r : Fin 100000,
      Read.val_main_v68 (F := Ideal) x0 x1 x2 x3 x4 x5 x6 x7 x8 (Read.idx_main_v69 (ix1 k) r)
        = (H1 (ix2 r k) - M1 (ix1 k)) * (H1 (ix2 r k) - M1 (ix1 k)) := fun r => by
    rw [e r, Read.val_main_v68_apply, Read.val_main_v67_apply, Read.val_main_v66_apply, Read.val_main_v65_apply, em r]
    rfl
  rw [Read.val_main_v71_apply, Read.val_main_v69_apply, Read.val_main_v70_apply, Read.val_main_cst_12_apply,
    Read.val_main_cst_11_apply]
  simp only [hs]
  rfl

/-- The block's output at `(i, k)` from the column's mean and variance. -/
theorem bnOut1 (i : Fin 100000) (k : Fin 256) :
    A1 (ix2 i k)
      = max (x15 (ix1 k) * (H1 (ix2 i k) - M1 (ix1 k))
            * Ideal.rsqrt (V1 (ix1 k) + Ideal.ofBits .f32 0x3727C5AC#32)
          + x16 (ix1 k))
        (Ideal.ofBits .f32 0x00000000#32) := by
  have eg : Read.idx_main_v75 (Read.idx_main_v76 (ix2 i k)) = ix1 k := funext fun a => Fin.ext (by
    match a with | ⟨0, _⟩ => rfl)
  have em : Read.idx_main_v72 (Read.idx_main_v73 (ix2 i k)) = ix1 k := funext fun a => Fin.ext (by
    match a with | ⟨0, _⟩ => rfl)
  have ev : Read.idx_main_v81 (Read.idx_main_v82 (ix2 i k)) = ix1 k := funext fun a => Fin.ext (by
    match a with | ⟨0, _⟩ => rfl)
  have eb : Read.idx_main_v84 (Read.idx_main_v85 (ix2 i k)) = ix1 k := funext fun a => Fin.ext (by
    match a with | ⟨0, _⟩ => rfl)
  rw [Read.val_main_v87_apply, Read.val_main_v86_apply, Read.val_main_v83_apply, Read.val_main_v77_apply,
    Read.val_main_v76_apply, Read.val_main_v75_apply, eg, Read.val_main_v74_apply, Read.val_main_v73_apply,
    Read.val_main_v72_apply, em, Read.val_main_v82_apply, Read.val_main_v81_apply, ev, Read.val_main_v80_apply,
    Read.val_main_v79_apply, Read.val_main_v78_apply, Read.val_main_cst_13_apply, Read.val_main_v85_apply,
    Read.val_main_v84_apply, eb, Read.val_main_call1_v0_apply, Read.val_main_call1_cst_apply]
  rfl

/-- The second normalisation block on a finite input: the real `bnRelu` of the column. -/
theorem bn1 (hr : Fin 100000 → Fin 256 → ℝ) (hH : ∀ i k, H1 (ix2 i k) = ((hr i k : ℝ) : EReal))
    (gr br : Fin 256 → ℝ) (hg : ∀ k, x15 (ix1 k) = ((gr k : ℝ) : EReal))
    (hb : ∀ k, x16 (ix1 k) = ((br k : ℝ) : EReal)) (i : Fin 100000) (k : Fin 256) :
    A1 (ix2 i k)
      = ((Cert.LibBatchNorm.bnRelu (fun i' => hr i' k) (gr k) (br k) Cert.Consts.epsR i : ℝ) : EReal) := by
  rw [bnOut1]
  exact bn_column (by norm_num) (fun i' => H1 (ix2 i' k)) (fun i' => hr i' k) (fun i' => hH i' k) _ _ (gr k) (br k)
    Cert.Consts.epsR (hg k) (hb k) Cert.Consts.epsR_pos _ _ _ _ _ ofBits_rows Cert.Consts.ofBits_eps
    Ideal.ofBits_zero_f32 Ideal.ofBits_zero_f32 Ideal.ofBits_zero_f32 _ _
    (mean1 x0 x1 x2 x3 x4 x5 x6 x7 x8 k) (var1 x0 x1 x2 x3 x4 x5 x6 x7 x8 k) i

/-! ## The second dense layer -/

/-- Row `i`, column `j` of the second dense layer: the block's output in row `i` against row `j` of the weight, plus the
    bias. -/
theorem lin2 (i : Fin 100000) (j : Fin 64) :
    Read.val_main_v92 (F := Ideal) x0 x1 x2 x3 x4 x5 x6 x7 x8 x9 x10 x15 x16 (ix2 i j)
      = (∑ c : Fin 256, A1 (ix2 i c) * x9 (ix2 j c)) + x10 (ix1 j) := by
  have el : ∀ c : Fin 256, Read.lidx_main_v89 (ix2 i j) c = ix2 i c := fun c => funext fun a => Fin.ext (by
    match a with | ⟨0, _⟩ => rfl | ⟨1, _⟩ => rfl)
  have er : ∀ c : Fin 256, Read.idx_main_v88 (Read.ridx_main_v89 (ix2 i j) c) = ix2 j c := fun c => funext fun a =>
    Fin.ext (by match a with | ⟨0, _⟩ => rfl | ⟨1, _⟩ => rfl)
  have eb : Read.idx_main_v90 (Read.idx_main_v91 (ix2 i j)) = ix1 j := funext fun a => Fin.ext (by
    match a with | ⟨0, _⟩ => rfl)
  rw [Read.val_main_v92_apply, Read.val_main_v89_apply, Read.val_main_v91_apply, Read.val_main_v90_apply, eb,
    Ideal.addf_def]
  congr 1
  refine Finset.sum_congr rfl fun c _ => ?_
  rw [Read.val_main_v88_apply, el c, er c]

end Cert.ReferenceIdeal.Layers

end
-- ==== Proof.KChain2.lean ====
import proofs.«119158_j67731634258670_1_alg».proof.Proof.Stage2Ideal
import proofs.«119158_j67731634258670_1_alg».proof.Proof.KernelHost2
import proofs.«119158_j67731634258670_1_alg».proof.Proof.RefLayers1
import proofs.«119158_j67731634258670_1_alg».proof.Proof.LibBatchNorm
import proofs.«119158_j67731634258670_1_alg».proof.Proof.Consts

/-!
# Dense stage 2 of the kernel against the reference, one layer

Given that the kernel's previous activation array is the reference's pre-normalisation activation, that its entries are
real numbers, and that the two one-row accumulators hold that array's column sums and column sums of squares, the
kernel's affine-map-and-ramp of a row entry is the reference's normalised-and-ramped entry (the two written forms of
batch normalisation agree on real columns), so the next activation arrays agree entry by entry, and the next
accumulators hold the next array's column sums and column sums of squares.
-/

noncomputable section

open Idealize.ShloMosaic Idealize.ShloMosaic.ValueIdx Idealize.ShloMosaic.TcCoe Idealize.SL.Sem

namespace Cert.KernelIdeal.Chain

open Cert.KernelIdeal Cert.KernelIdeal.Gen Cert.ReferenceIdeal.Layers

variable (m : (ℓ : Loc nD τ sig) → Buf (Elt Ideal) ℓ) (ρ : Dev nD → PrngReg)

theorem layer2 (c : Dev nD) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S256x128, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) (x5 : (⟨Cert.ReferenceIdeal.S256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S64x256, .f32⟩ : BufTy).Contents (Elt Ideal)) (x10 : (⟨Cert.ReferenceIdeal.S64, .f32⟩ : BufTy).Contents (Elt Ideal)) (x15 : (⟨Cert.ReferenceIdeal.S256, .f32⟩ : BufTy).Contents (Elt Ideal)) (x16 : (⟨Cert.ReferenceIdeal.S256, .f32⟩ : BufTy).Contents (Elt Ideal))
    (hxg : (W4 m ρ c (Proc.devRef .tc main_arg15) : S256.Idx → EReal) = x15) (hxb : (W4 m ρ c (Proc.devRef .tc main_arg16) : S256.Idx → EReal) = x16)
    (hxw : W4 m ρ c (Proc.devRef .tc main_arg9) = x9) (hxbias : (W4 m ρ c (Proc.devRef .tc main_arg10) : S64.Idx → EReal) = x10)
    (hr : Fin 100000 → Fin 256 → ℝ) (gr br : Fin 256 → ℝ)
    (hg : ∀ k, x15 (ix1 k) = ((gr k : ℝ) : EReal)) (hb : ∀ k, x16 (ix1 k) = ((br k : ℝ) : EReal))
    (hH : ∀ i k, Cert.ReferenceIdeal.Read.val_main_v61 (F := Ideal) x0 x1 x2 x3 x4 x5 x6 x7 x8 (ix2 i k) = ((hr i k : ℝ) : EReal))
    (h0 : ∀ i k, (W4 m ρ c (Proc.devRef .tc main_v39_0) : S100000x256.Idx → EReal) (ix2 i k) = Cert.ReferenceIdeal.Read.val_main_v61 (F := Ideal) x0 x1 x2 x3 x4 x5 x6 x7 x8 (ix2 i k))
    (hS : ∀ k, (W4 m ρ c (Proc.devRef .tc main_v39_1) : S1x256.Idx → EReal) (ix2 (0 : Fin 1) k) = (∑ i : Fin 100000, Cert.ReferenceIdeal.Read.val_main_v61 (F := Ideal) x0 x1 x2 x3 x4 x5 x6 x7 x8 (ix2 i k) : EReal))
    (hQ : ∀ k, (W4 m ρ c (Proc.devRef .tc main_v39_2) : S1x256.Idx → EReal) (ix2 (0 : Fin 1) k) = (∑ i : Fin 100000, Cert.ReferenceIdeal.Read.val_main_v61 (F := Ideal) x0 x1 x2 x3 x4 x5 x6 x7 x8 (ix2 i k) * Cert.ReferenceIdeal.Read.val_main_v61 (F := Ideal) x0 x1 x2 x3 x4 x5 x6 x7 x8 (ix2 i k) : EReal)) :
    (∀ i j, (W6 m ρ c (Proc.devRef .tc main_v58_0) : S100000x64.Idx → EReal) (ix2 i j) = Cert.ReferenceIdeal.Read.val_main_v92 (F := Ideal) x0 x1 x2 x3 x4 x5 x6 x7 x8 x9 x10 x15 x16 (ix2 i j))
    ∧ (∀ j, (W6 m ρ c (Proc.devRef .tc main_v58_1) : S1x64.Idx → EReal) (ix2 (0 : Fin 1) j) = (∑ i : Fin 100000, Cert.ReferenceIdeal.Read.val_main_v92 (F := Ideal) x0 x1 x2 x3 x4 x5 x6 x7 x8 x9 x10 x15 x16 (ix2 i j) : EReal))
    ∧ (∀ j, (W6 m ρ c (Proc.devRef .tc main_v58_2) : S1x64.Idx → EReal) (ix2 (0 : Fin 1) j) = (∑ i : Fin 100000, Cert.ReferenceIdeal.Read.val_main_v92 (F := Ideal) x0 x1 x2 x3 x4 x5 x6 x7 x8 x9 x10 x15 x16 (ix2 i j) * Cert.ReferenceIdeal.Read.val_main_v92 (F := Ideal) x0 x1 x2 x3 x4 x5 x6 x7 x8 x9 x10 x15 x16 (ix2 i j) : EReal)) := by
  have eH : W6 m ρ c (Proc.devRef .tc main_v58_0) = Stage2.Hout (V5 m ρ) c := (W6_arr m ρ c 5).trans (Stage2.final5 (V5 m ρ) c)
  have eS : W6 m ρ c (Proc.devRef .tc main_v58_1) = Stage2.accS (V5 m ρ) c 19 Stage2.tLast.isLt := (W6_arr m ρ c 6).trans (Stage2.final6 (V5 m ρ) c)
  have eQ : W6 m ρ c (Proc.devRef .tc main_v58_2) = Stage2.accQ (V5 m ρ) c 19 Stage2.tLast.isLt := (W6_arr m ρ c 7).trans (Stage2.final7 (V5 m ρ) c)
  have hc : Ideal.ofBits .f32 0x47C35000#32 = (((100000 : ℕ) : ℝ) : EReal) := by rw [Cert.Consts.ofBits_n]; norm_num
  -- the kernel's affine map and ramp of an entry is the reference's normalised and ramped entry
  have hact : ∀ i k, max (Stage2I.Hin (V5 m ρ) c (ix2 i k) * Stage2I.Sc (V5 m ρ) c (ix2 (0 : Fin 1) k) + Stage2I.Sh (V5 m ρ) c (ix2 (0 : Fin 1) k)) (Ideal.ofBits .f32 0x00000000#32)
      = Cert.ReferenceIdeal.Read.val_main_v87 (F := Ideal) x0 x1 x2 x3 x4 x5 x6 x7 x8 x15 x16 (ix2 i k) := by
    intro i k
    have e1 : Stage2I.Hin (V5 m ρ) c = W4 m ρ c (Proc.devRef .tc main_v39_0) := HostOps.keep2_h (W4 m ρ c)
    have e2 := HostOps.scale2_apply (W4 m ρ c) k
    have e3 := HostOps.shift2_apply (W4 m ρ c) k
    rw [e1, show Stage2I.Sc (V5 m ρ) c (ix2 (0 : Fin 1) k) = _ from e2, show Stage2I.Sh (V5 m ρ) c (ix2 (0 : Fin 1) k) = _ from e3, h0, hS, hQ, hxg, hxb, hg, hb, bn1 x0 x1 x2 x3 x4 x5 x6 x7 x8 x15 x16 hr hH gr br hg hb i k]
    simp only [hH]
    exact Cert.LibBatchNorm.scaleShift_form_inl (n := 100000) (by norm_num) (fun i' => hr i' k) (gr k) (br k) Cert.Consts.epsR Cert.Consts.epsR_pos
      (Ideal.ofBits .f32 0x47C35000#32) (Ideal.ofBits .f32 0x3727C5AC#32) (Ideal.ofBits .f32 0x00000000#32) hc Cert.Consts.ofBits_eps Ideal.ofBits_zero_f32 i
  have hentry : ∀ i j, Stage2.Hout (V5 m ρ) c (ix2 i j) = Cert.ReferenceIdeal.Read.val_main_v92 (F := Ideal) x0 x1 x2 x3 x4 x5 x6 x7 x8 x9 x10 x15 x16 (ix2 i j) := by
    intro i j
    have eW : Stage2I.Wt (V5 m ρ) c = x9 := (HostOps.keep2_w (W4 m ρ c)).trans hxw
    have eB : Stage2I.Bi (V5 m ρ) c (ix2 (0 : Fin 1) j) = x10 (ix1 j) := (HostOps.bias2_apply (W4 m ρ c) j).trans (by rw [hxbias])
    rw [Stage2I.Hout_apply, lin2 x0 x1 x2 x3 x4 x5 x6 x7 x8 x9 x10 x15 x16 i j]
    refine congrArg₂ (· + ·) (Finset.sum_congr rfl fun k _ => ?_) eB
    rw [hact i k, eW]
  refine ⟨fun i j => ?_, fun j => ?_, fun j => ?_⟩
  · rw [eH]; exact hentry i j
  · rw [eS]; exact (Stage2I.accS_apply (V5 m ρ) c j).trans (Finset.sum_congr rfl fun i _ => hentry i j)
  · rw [eQ]; exact (Stage2I.accQ_apply (V5 m ρ) c j).trans (Finset.sum_congr rfl fun i _ => by rw [hentry i j])

end Cert.KernelIdeal.Chain

end
-- ==== Proof.Stage3.lean ====
import proofs.«119158_j67731634258670_1_alg».proof.Proof.Gen.KernelIdeal.Frame
import Idealize.ShloMosaic.Lib.Pipeline.Value
import Idealize.ShloMosaic.Lib.ValueIdx
import Idealize.ShloMosaic.Lib.Tactic

/-!
# Dense stage 3: what the region leaves in its three output arrays

The body of this region maps a block of 5000 rows of the previous activation (64 features) through an affine map and a
ramp, multiplies by the weight matrix and adds the bias (14 features), stores that block, and adds the block's column
sums and column sums of squares into two one-row accumulators that are reset at the first grid point and written back
after the last. Here: each case of the body leaves its payloads; by induction over the grid points the accumulators hold
running sums; the row blocks tile the activation array, and the accumulators' one block is their whole array.
-/

noncomputable section

open Idealize.ShloMosaic Idealize.ShloMosaic.TcCoe Idealize.SL.Sem
open Idealize.ShloMosaic.Pipeline (Dat)

namespace Cert.KernelIdeal.Stage3

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! ## What each case of the body leaves: its stores' payloads of the loaded blocks -/

theorem out_A_5 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S14x64 .f32) (harg4 : arg4.IsWhole) (arg5 : Memref sig .tc .vmem S1x14 .f32) (harg5 : arg5.IsWhole) (arg6 : Memref sig .tc .vmem S5000x14 .f32) (harg6 : arg6.IsWhole) (arg7 : Memref sig .tc .vmem S1x14 .f32) (harg7 : arg7.IsWhole) (arg8 : Memref sig .tc .vmem S1x14 .f32) (harg8 : arg8.IsWhole) (hc : cond3_0 i) (x0 : Vec F S5000x64 .f32) (x1 : Vec F S1x64 .f32) (x2 : Vec F S1x64 .f32) (x3 : Vec F S14x64 .f32) (x4 : Vec F S1x14 .f32) :
    out3_A_5 c i arg1 harg1 arg2 harg2 arg3 harg3 arg4 harg4 arg5 harg5 arg6 harg6 arg7 harg7 arg8 harg8 hc x0 x1 x2 x3 x4 = k3_pay4 x0 x1 x2 x3 x4 := by
  unfold out3_A_5
  rw [View.read_writes_eq_canon _ _ _ (cover3_A_5 c i arg1 harg1 arg2 harg2 arg3 harg3 arg4 harg4 arg5 harg5 arg6 harg6 arg7 harg7 arg8 harg8 hc x0 x1 x2 x3 x4)]
  unfold kernelRun3_A
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x64) hz, View.ld_unit_zero (S := S1x64) hz, View.ld_unit_zero (S := S14x64) hz, View.ld_unit_zero (S := S1x14) hz]

theorem out_A_6 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S14x64 .f32) (harg4 : arg4.IsWhole) (arg5 : Memref sig .tc .vmem S1x14 .f32) (harg5 : arg5.IsWhole) (arg6 : Memref sig .tc .vmem S5000x14 .f32) (harg6 : arg6.IsWhole) (arg7 : Memref sig .tc .vmem S1x14 .f32) (harg7 : arg7.IsWhole) (arg8 : Memref sig .tc .vmem S1x14 .f32) (harg8 : arg8.IsWhole) (hc : cond3_0 i) (x0 : Vec F S5000x64 .f32) (x1 : Vec F S1x64 .f32) (x2 : Vec F S1x64 .f32) (x3 : Vec F S14x64 .f32) (x4 : Vec F S1x14 .f32) :
    out3_A_6 c i arg1 harg1 arg2 harg2 arg3 harg3 arg4 harg4 arg5 harg5 arg6 harg6 arg7 harg7 arg8 harg8 hc x0 x1 x2 x3 x4 = k3_pay5 x0 x1 x2 x3 x4 k3_pay2 := by
  unfold out3_A_6
  rw [View.read_writes_eq_canon _ _ _ (cover3_A_6 c i arg1 harg1 arg2 harg2 arg3 harg3 arg4 harg4 arg5 harg5 arg6 harg6 arg7 harg7 arg8 harg8 hc x0 x1 x2 x3 x4)]
  unfold kernelRun3_A
  dsimp only
  sl_unfold_words
  rw [View.canon_cons_unit_zero (S := S1x14) hz, View.readCov_unit_zero (S := S1x14) _ hz]
  simp only [View.readAt_eq_ld, harg1.read_unread, harg2.read_unread, harg3.read_unread, harg4.read_unread, harg5.read_unread, harg7.read_unread, harg8.read_unread, View.ld_unit_zero (S := S5000x64) hz, View.ld_unit_zero (S := S1x64) hz, View.ld_unit_zero (S := S14x64) hz, View.ld_unit_zero (S := S1x14) hz]

theorem out_A_7 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S14x64 .f32) (harg4 : arg4.IsWhole) (arg5 : Memref sig .tc .vmem S1x14 .f32) (harg5 : arg5.IsWhole) (arg6 : Memref sig .tc .vmem S5000x14 .f32) (harg6 : arg6.IsWhole) (arg7 : Memref sig .tc .vmem S1x14 .f32) (harg7 : arg7.IsWhole) (arg8 : Memref sig .tc .vmem S1x14 .f32) (harg8 : arg8.IsWhole) (hc : cond3_0 i) (x0 : Vec F S5000x64 .f32) (x1 : Vec F S1x64 .f32) (x2 : Vec F S1x64 .f32) (x3 : Vec F S14x64 .f32) (x4 : Vec F S1x14 .f32) :
    out3_A_7 c i arg1 harg1 arg2 harg2 arg3 harg3 arg4 harg4 arg5 harg5 arg6 harg6 arg7 harg7 arg8 harg8 hc x0 x1 x2 x3 x4 = k3_pay1 (k3_pay6 k3_pay3) (k3_pay7 x0 x1 x2 x3 x4) := by
  unfold out3_A_7
  rw [View.read_writes_eq_canon _ _ _ (cover3_A_7 c i arg1 harg1 arg2 harg2 arg3 harg3 arg4 harg4 arg5 harg5 arg6 harg6 arg7 harg7 arg8 harg8 hc x0 x1 x2 x3 x4)]
  unfold kernelRun3_A
  dsimp only
  sl_unfold_words
  rw [View.canon_cons_unit_zero (S := S1x14) hz, View.readCov_unit_zero (S := S1x14) _ hz]
  simp only [View.readAt_eq_ld, harg1.read_unread, harg2.read_unread, harg3.read_unread, harg4.read_unread, harg5.read_unread, harg7.read_unread, harg8.read_unread, View.ld_unit_zero (S := S5000x64) hz, View.ld_unit_zero (S := S1x64) hz, View.ld_unit_zero (S := S14x64) hz, View.ld_unit_zero (S := S1x14) hz]

theorem out_B_5 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S14x64 .f32) (harg4 : arg4.IsWhole) (arg5 : Memref sig .tc .vmem S1x14 .f32) (harg5 : arg5.IsWhole) (arg6 : Memref sig .tc .vmem S5000x14 .f32) (harg6 : arg6.IsWhole) (arg7 : Memref sig .tc .vmem S1x14 .f32) (harg7 : arg7.IsWhole) (arg8 : Memref sig .tc .vmem S1x14 .f32) (harg8 : arg8.IsWhole) (hc : ¬cond3_0 i) (x0 : Vec F S5000x64 .f32) (x1 : Vec F S1x64 .f32) (x2 : Vec F S1x64 .f32) (x3 : Vec F S14x64 .f32) (x4 : Vec F S1x14 .f32) (xo6 xo7 : Vec F S1x14 .f32) :
    out3_B_5 c i arg1 harg1 arg2 harg2 arg3 harg3 arg4 harg4 arg5 harg5 arg6 harg6 arg7 harg7 arg8 harg8 hc x0 x1 x2 x3 x4 xo6 xo7 = k3_pay4 x0 x1 x2 x3 x4 := by
  unfold out3_B_5
  rw [View.read_writes_eq_canon _ _ _ (cover3_B_5 c i arg1 harg1 arg2 harg2 arg3 harg3 arg4 harg4 arg5 harg5 arg6 harg6 arg7 harg7 arg8 harg8 hc x0 x1 x2 x3 x4 xo6 xo7)]
  unfold kernelRun3_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x64) hz, View.ld_unit_zero (S := S1x64) hz, View.ld_unit_zero (S := S14x64) hz, View.ld_unit_zero (S := S1x14) hz]

theorem out_B_6 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S14x64 .f32) (harg4 : arg4.IsWhole) (arg5 : Memref sig .tc .vmem S1x14 .f32) (harg5 : arg5.IsWhole) (arg6 : Memref sig .tc .vmem S5000x14 .f32) (harg6 : arg6.IsWhole) (arg7 : Memref sig .tc .vmem S1x14 .f32) (harg7 : arg7.IsWhole) (arg8 : Memref sig .tc .vmem S1x14 .f32) (harg8 : arg8.IsWhole) (hc : ¬cond3_0 i) (x0 : Vec F S5000x64 .f32) (x1 : Vec F S1x64 .f32) (x2 : Vec F S1x64 .f32) (x3 : Vec F S14x64 .f32) (x4 : Vec F S1x14 .f32) (xo6 xo7 : Vec F S1x14 .f32) :
    out3_B_6 c i arg1 harg1 arg2 harg2 arg3 harg3 arg4 harg4 arg5 harg5 arg6 harg6 arg7 harg7 arg8 harg8 hc x0 x1 x2 x3 x4 xo6 xo7 = k3_pay5 x0 x1 x2 x3 x4 xo6 := by
  unfold out3_B_6
  rw [View.read_writes_eq_canon _ _ _ (cover3_B_6 c i arg1 harg1 arg2 harg2 arg3 harg3 arg4 harg4 arg5 harg5 arg6 harg6 arg7 harg7 arg8 harg8 hc x0 x1 x2 x3 x4 xo6 xo7)]
  unfold kernelRun3_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x64) hz, View.ld_unit_zero (S := S1x64) hz, View.ld_unit_zero (S := S14x64) hz, View.ld_unit_zero (S := S1x14) hz]

theorem out_B_7 (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S14x64 .f32) (harg4 : arg4.IsWhole) (arg5 : Memref sig .tc .vmem S1x14 .f32) (harg5 : arg5.IsWhole) (arg6 : Memref sig .tc .vmem S5000x14 .f32) (harg6 : arg6.IsWhole) (arg7 : Memref sig .tc .vmem S1x14 .f32) (harg7 : arg7.IsWhole) (arg8 : Memref sig .tc .vmem S1x14 .f32) (harg8 : arg8.IsWhole) (hc : ¬cond3_0 i) (x0 : Vec F S5000x64 .f32) (x1 : Vec F S1x64 .f32) (x2 : Vec F S1x64 .f32) (x3 : Vec F S14x64 .f32) (x4 : Vec F S1x14 .f32) (xo6 xo7 : Vec F S1x14 .f32) :
    out3_B_7 c i arg1 harg1 arg2 harg2 arg3 harg3 arg4 harg4 arg5 harg5 arg6 harg6 arg7 harg7 arg8 harg8 hc x0 x1 x2 x3 x4 xo6 xo7 = k3_pay1 (k3_pay6 xo7) (k3_pay7 x0 x1 x2 x3 x4) := by
  unfold out3_B_7
  rw [View.read_writes_eq_canon _ _ _ (cover3_B_7 c i arg1 harg1 arg2 harg2 arg3 harg3 arg4 harg4 arg5 harg5 arg6 harg6 arg7 harg7 arg8 harg8 hc x0 x1 x2 x3 x4 xo6 xo7)]
  unfold kernelRun3_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x64) hz, View.ld_unit_zero (S := S1x64) hz, View.ld_unit_zero (S := S14x64) hz, View.ld_unit_zero (S := S1x14) hz]

/-! ## The outputs after each grid point -/

/-- The block of the new activation that grid point `t` computes from its input blocks. -/
def hblk (c : Dev nD) (t : Fin cfg3.N) : Vec F S5000x14 .f32 := k3_pay4 (iblk3 V c 0 t) (iblk3 V c 1 t) (iblk3 V c 2 t) (iblk3 V c 3 t) (iblk3 V c 4 t)

/-- The running column sums after point `n`: reset to the zero row at point 0, each point adds its block's column sums. -/
def accS (c : Dev nD) : (n : ℕ) → n < cfg3.N → Vec F S1x14 .f32
  | 0, h => k3_pay5 (iblk3 V c 0 ⟨0, h⟩) (iblk3 V c 1 ⟨0, h⟩) (iblk3 V c 2 ⟨0, h⟩) (iblk3 V c 3 ⟨0, h⟩) (iblk3 V c 4 ⟨0, h⟩) k3_pay2
  | n + 1, h => k3_pay5 (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (accS c n (Nat.lt_of_succ_lt h))

/-- The running column sums of squares after point `n`. -/
def accQ (c : Dev nD) : (n : ℕ) → n < cfg3.N → Vec F S1x14 .f32
  | 0, h => k3_pay1 (k3_pay6 k3_pay3) (k3_pay7 (iblk3 V c 0 ⟨0, h⟩) (iblk3 V c 1 ⟨0, h⟩) (iblk3 V c 2 ⟨0, h⟩) (iblk3 V c 3 ⟨0, h⟩) (iblk3 V c 4 ⟨0, h⟩))
  | n + 1, h => k3_pay1 (k3_pay6 (accQ c n (Nat.lt_of_succ_lt h))) (k3_pay7 (iblk3 V c 0 ⟨n + 1, h⟩) (iblk3 V c 1 ⟨n + 1, h⟩) (iblk3 V c 2 ⟨n + 1, h⟩) (iblk3 V c 3 ⟨n + 1, h⟩) (iblk3 V c 4 ⟨n + 1, h⟩))

/-- After point `n` the three staging buffers hold the point's block and the two running sums: by induction on the point. -/
theorem outsAt_eq (c : Dev nD) : ∀ (n : ℕ) (h : n < cfg3.N),
    outsAt3 V c n h = (hblk V c ⟨n, h⟩, accS V c n h, accQ V c n h)
  | 0, h => by
    rw [outsAt3_A V c ⟨0, h⟩ rfl, out_A_5, out_A_6, out_A_7]
    rfl
  | n + 1, h => by
    have hN : cfg3.N = 20 := N_3
    have hB : ¬(⟨n + 1, h⟩ : Fin cfg3.N).val % 20 = 0 := by dsimp only; omega
    rw [outsAt3_B V c ⟨n + 1, h⟩ hB, out_B_5, out_B_6, out_B_7]
    show (hblk V c ⟨n + 1, h⟩, k3_pay5 (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (outsAt3 V c n _).2.1, k3_pay1 (k3_pay6 (outsAt3 V c n _).2.2) (k3_pay7 (iblk3 V c 0 ⟨n + 1, h⟩) (iblk3 V c 1 ⟨n + 1, h⟩) (iblk3 V c 2 ⟨n + 1, h⟩) (iblk3 V c 3 ⟨n + 1, h⟩) (iblk3 V c 4 ⟨n + 1, h⟩))) = _
    rw [outsAt_eq c n]
    rfl

/-! ## The activation array: the row blocks side by side -/

/-- The new activation as one array: row `i` lies in block `i / 5000` at position `i % 5000`. -/
def Hout (c : Dev nD) : S100000x14.Idx → Elt F .f32 := fun i =>
  hblk V c ⟨(i 0).val / 5000, by have hN : cfg3.N = 20 := N_3; have h : (i 0).val < 100000 := (i 0).isLt; rw [hN]; omega⟩
    (ValueIdx.ix2 (⟨(i 0).val % 5000, Nat.mod_lt _ (by norm_num)⟩ : Fin 5000) (⟨(i 1).val, (i 1).isLt⟩ : Fin 14))

/-- At row `5000 t + r`, column `q`, the array is block `t` at `(r, q)`. -/
theorem Hout_at (c : Dev nD) (t : Fin cfg3.N) (r : Fin 5000) (q : Fin 14) (i : S100000x14.Idx)
    (h0 : (i 0).val = 5000 * t.val + r.val) (h1 : (i 1).val = q.val) : Hout V c i = hblk V c t (ValueIdx.ix2 r q) := by
  have hr := r.isLt
  have ht : (i 0).val / 5000 = t.val := by omega
  have hm : (i 0).val % 5000 = r.val := by omega
  have e1 : ∀ h, (⟨(i 0).val / 5000, h⟩ : Fin cfg3.N) = t := fun h => Fin.ext ht
  have e2 : ∀ h, (⟨(i 0).val % 5000, h⟩ : Fin 5000) = r := fun h => Fin.ext hm
  unfold Hout
  rw [e1, e2]
  exact congrArg (fun z => hblk V c t (ValueIdx.ix2 r z)) (Fin.ext h1)

/-- The activation window's block index is the grid point itself; its column block is the only one. -/
theorem idx5 : ∀ t : Fin cfg3.N, win3_5.index t (0 : Fin 2) = t.val ∧ win3_5.index t (1 : Fin 2) = 0 :=
  (by decide +kernel : ∀ t : Fin grid3.N, _)

/-- What point `t` writes back to the activation array is block `t` of `Hout`. -/
theorem flushed5_eq (c : Dev nD) (t : Fin cfg3.N) :
    (dat3 V c).flushed 5 t = ((cfg3.win 5).blk t).view.read (Elt F) (Hout V c) := by
  show (cfg3.win 5).cut (grid3.coords t) ((dat3 V c).after 5 t) = _
  rw [after3_5, outsAt_eq]
  obtain ⟨e0, e1⟩ := idx5 t
  funext y
  have hy0 : (y 0).val < 5000 := (y 0).isLt
  have hy1 : (y 1).val < 14 := (y 1).isLt
  show hblk V c ⟨t.val, t.isLt⟩ y = Hout V c (((cfg3.win 5).blk t).view.emb y)
  rw [Hout_at V c t ⟨(y 0).val, hy0⟩ ⟨(y 1).val, hy1⟩ _
    (by show win3_5.index t (0 : Fin 2) * 5000 + 1 * (y 0).val = 5000 * t.val + (y 0).val; rw [e0]; omega)
    (by show win3_5.index t (1 : Fin 2) * 14 + 1 * (y 1).val = (y 1).val; rw [e1]; omega)]
  exact congrArg (hblk V c t) (ValueIdx.eq_ix2 y)

/-- An index of the activation array is in point `t`'s block iff each coordinate is in the block's range on its axis. -/
theorem mem_blk5 (t : Fin cfg3.N) (i : S100000x14.Idx) :
    i ∈ ((cfg3.win 5).blk t).view.set ↔ ∀ a : Fin 2, win3_5.index t a * S5000x14.size a ≤ (i a).val ∧ (i a).val < win3_5.index t a * S5000x14.size a + S5000x14.size a := by
  show i ∈ ((View.whole main_v77_0).slice (win3_5.rect t)).set ↔ _
  rw [View.set_slice_whole, Rect.mem_set_unit]
  exact Iff.rfl

/-- So after the run the activation array is `Hout`: every row lies in the block of the point `row / 5000`. -/
theorem final5 (c : Dev nD) : (dat3 V c).arrAt 5 cfg3.N = Hout V c :=
  (dat3 V c).arrAt_eq_of_cover 5 (Hout V c) (fun t _ => flushed5_eq V c t) fun i => by
    have hN : cfg3.N = 20 := N_3
    have h0 : (i 0).val < 100000 := (i 0).isLt
    have h1 : (i 1).val < 14 := (i 1).isLt
    refine ⟨⟨(i 0).val / 5000, by rw [hN]; omega⟩, flush3_5 _, ?_⟩
    obtain ⟨e0, e1⟩ := idx5 (⟨(i 0).val / 5000, by rw [hN]; omega⟩ : Fin cfg3.N)
    rw [mem_blk5]
    intro a
    match a with
    | ⟨0, _⟩ =>
      show win3_5.index _ (0 : Fin 2) * 5000 ≤ (i 0).val ∧ (i 0).val < win3_5.index _ (0 : Fin 2) * 5000 + 5000
      rw [e0]; dsimp only; omega
    | ⟨1, _⟩ =>
      show win3_5.index _ (1 : Fin 2) * 14 ≤ (i 1).val ∧ (i 1).val < win3_5.index _ (1 : Fin 2) * 14 + 14
      rw [e1]; omega

/-! ## The two accumulators: written back once, after the last point, whole -/

/-- The last grid point. -/
abbrev tLast : Fin cfg3.N := ⟨19, by have hN : cfg3.N = 20 := N_3; rw [hN]; decide⟩

theorem flushed6_eq (c : Dev nD) (t : Fin cfg3.N) (hf : (cfg3.win 6).flush t = true) :
    (dat3 V c).flushed 6 t = ((cfg3.win 6).blk t).view.read (Elt F) (accS V c 19 tLast.isLt) := by
  have hN : cfg3.N = 20 := N_3
  have h19 : t.val = 19 := by have := (flush3_6 t).mp hf; have := t.isLt; omega
  obtain rfl : t = tLast := Fin.ext h19
  show (cfg3.win 6).cut (grid3.coords tLast) ((dat3 V c).after 6 tLast) = _
  rw [after3_6, outsAt_eq]
  have hz' : (fun a => win3_6.index tLast a * main_v77_1.ty.shape.size a) = fun _ => 0 := funext fun a => by fin_cases a <;> decide +kernel
  exact (Memref.read_access_unit_zero (Elt F) main_v77_1 hz' (fun a => by rw [congrFun hz' a]; simp) (accS V c 19 tLast.isLt)).symm

theorem flushed7_eq (c : Dev nD) (t : Fin cfg3.N) (hf : (cfg3.win 7).flush t = true) :
    (dat3 V c).flushed 7 t = ((cfg3.win 7).blk t).view.read (Elt F) (accQ V c 19 tLast.isLt) := by
  have hN : cfg3.N = 20 := N_3
  have h19 : t.val = 19 := by have := (flush3_7 t).mp hf; have := t.isLt; omega
  obtain rfl : t = tLast := Fin.ext h19
  show (cfg3.win 7).cut (grid3.coords tLast) ((dat3 V c).after 7 tLast) = _
  rw [after3_7, outsAt_eq]
  have hz' : (fun a => win3_7.index tLast a * main_v77_2.ty.shape.size a) = fun _ => 0 := funext fun a => by fin_cases a <;> decide +kernel
  exact (Memref.read_access_unit_zero (Elt F) main_v77_2 hz' (fun a => by rw [congrFun hz' a]; simp) (accQ V c 19 tLast.isLt)).symm

/-- The one block of an accumulator's array is the array: every index is in it. -/
theorem final6 (c : Dev nD) : (dat3 V c).arrAt 6 cfg3.N = accS V c 19 tLast.isLt :=
  (dat3 V c).arrAt_eq_of_cover 6 _ (flushed6_eq V c) fun i =>
    ⟨tLast, (flush3_6 tLast).mpr rfl, by
      show i ∈ ((View.whole main_v77_1).slice (win3_6.rect tLast)).set
      rw [View.set_slice_whole, Rect.mem_set_unit]
      intro a
      have h0 : (i 0 : Nat) < 1 := (i 0).isLt
      have h1 : (i 1 : Nat) < 14 := (i 1).isLt
      match a with
      | ⟨0, _⟩ => show win3_6.index tLast 0 * win3_6.size 0 ≤ (i 0 : Nat) ∧ (i 0 : Nat) < win3_6.index tLast 0 * win3_6.size 0 + win3_6.xsize (grid3.coords tLast) 0
                  rw [show win3_6.index tLast 0 * win3_6.size 0 = 0 from by decide +kernel, show win3_6.xsize (grid3.coords tLast) 0 = 1 from by decide +kernel]; omega
      | ⟨1, _⟩ => show win3_6.index tLast 1 * win3_6.size 1 ≤ (i 1 : Nat) ∧ (i 1 : Nat) < win3_6.index tLast 1 * win3_6.size 1 + win3_6.xsize (grid3.coords tLast) 1
                  rw [show win3_6.index tLast 1 * win3_6.size 1 = 0 from by decide +kernel, show win3_6.xsize (grid3.coords tLast) 1 = 14 from by decide +kernel]; omega⟩

theorem final7 (c : Dev nD) : (dat3 V c).arrAt 7 cfg3.N = accQ V c 19 tLast.isLt :=
  (dat3 V c).arrAt_eq_of_cover 7 _ (flushed7_eq V c) fun i =>
    ⟨tLast, (flush3_7 tLast).mpr rfl, by
      show i ∈ ((View.whole main_v77_2).slice (win3_7.rect tLast)).set
      rw [View.set_slice_whole, Rect.mem_set_unit]
      intro a
      have h0 : (i 0 : Nat) < 1 := (i 0).isLt
      have h1 : (i 1 : Nat) < 14 := (i 1).isLt
      match a with
      | ⟨0, _⟩ => show win3_7.index tLast 0 * win3_7.size 0 ≤ (i 0 : Nat) ∧ (i 0 : Nat) < win3_7.index tLast 0 * win3_7.size 0 + win3_7.xsize (grid3.coords tLast) 0
                  rw [show win3_7.index tLast 0 * win3_7.size 0 = 0 from by decide +kernel, show win3_7.xsize (grid3.coords tLast) 0 = 1 from by decide +kernel]; omega
      | ⟨1, _⟩ => show win3_7.index tLast 1 * win3_7.size 1 ≤ (i 1 : Nat) ∧ (i 1 : Nat) < win3_7.index tLast 1 * win3_7.size 1 + win3_7.xsize (grid3.coords tLast) 1
                  rw [show win3_7.index tLast 1 * win3_7.size 1 = 0 from by decide +kernel, show win3_7.xsize (grid3.coords tLast) 1 = 14 from by decide +kernel]; omega⟩

/-! ## The input windows' blocks, read off the arrays as the region finds them -/

theorem idx0 : ∀ t : Fin cfg3.N, win3_0.index t (0 : Fin 2) = t.val ∧ win3_0.index t (1 : Fin 2) = 0 :=
  (by decide +kernel : ∀ t : Fin grid3.N, _)

/-- Block `t` of the previous activation at `(r, k)` is the array at row `5000 t + r`, column `k`. -/
theorem iblk0_at (c : Dev nD) (t : Fin cfg3.N) (r : Fin 5000) (k : Fin 64) (i : S100000x64.Idx)
    (h0 : (i 0).val = 5000 * t.val + r.val) (h1 : (i 1).val = k.val) :
    iblk3 V c 0 t (ValueIdx.ix2 r k) = V c (Pipeline.arrRef spec3 0) i := by
  obtain ⟨e0, e1⟩ := idx0 t
  unfold iblk3
  rw [View.read_apply]
  refine congrArg (V c (Pipeline.arrRef spec3 0)) (funext fun a => Fin.ext ?_)
  match a with
  | ⟨0, _⟩ => show win3_0.index t (0 : Fin 2) * 5000 + 1 * r.val = (i 0).val; rw [e0, h0]; omega
  | ⟨1, _⟩ => show win3_0.index t (1 : Fin 2) * 64 + 1 * k.val = (i 1).val; rw [e1, h1]; omega

theorem idxW1 : ∀ t : Fin cfg3.N, win3_1.index t (0 : Fin 2) = 0 ∧ win3_1.index t (1 : Fin 2) = 0 :=
  (by decide +kernel : ∀ t : Fin grid3.N, _)

/-- Window 1's one block is its whole array. -/
theorem iblk1_at (c : Dev nD) (t : Fin cfg3.N) (y : S1x64.Idx) : iblk3 V c 1 t y = V c (Pipeline.arrRef spec3 1) y := by
  obtain ⟨e0, e1⟩ := idxW1 t
  unfold iblk3
  rw [View.read_apply]
  refine congrArg (V c (Pipeline.arrRef spec3 1)) (funext fun a => Fin.ext ?_)
  match a with
  | ⟨0, _⟩ => show win3_1.index t (0 : Fin 2) * 1 + 1 * (y 0).val = (y 0).val; rw [e0]; omega
  | ⟨1, _⟩ => show win3_1.index t (1 : Fin 2) * 64 + 1 * (y 1).val = (y 1).val; rw [e1]; omega

theorem idxW2 : ∀ t : Fin cfg3.N, win3_2.index t (0 : Fin 2) = 0 ∧ win3_2.index t (1 : Fin 2) = 0 :=
  (by decide +kernel : ∀ t : Fin grid3.N, _)

/-- Window 2's one block is its whole array. -/
theorem iblk2_at (c : Dev nD) (t : Fin cfg3.N) (y : S1x64.Idx) : iblk3 V c 2 t y = V c (Pipeline.arrRef spec3 2) y := by
  obtain ⟨e0, e1⟩ := idxW2 t
  unfold iblk3
  rw [View.read_apply]
  refine congrArg (V c (Pipeline.arrRef spec3 2)) (funext fun a => Fin.ext ?_)
  match a with
  | ⟨0, _⟩ => show win3_2.index t (0 : Fin 2) * 1 + 1 * (y 0).val = (y 0).val; rw [e0]; omega
  | ⟨1, _⟩ => show win3_2.index t (1 : Fin 2) * 64 + 1 * (y 1).val = (y 1).val; rw [e1]; omega

theorem idxW3 : ∀ t : Fin cfg3.N, win3_3.index t (0 : Fin 2) = 0 ∧ win3_3.index t (1 : Fin 2) = 0 :=
  (by decide +kernel : ∀ t : Fin grid3.N, _)

/-- Window 3's one block is its whole array. -/
theorem iblk3_at (c : Dev nD) (t : Fin cfg3.N) (y : S14x64.Idx) : iblk3 V c 3 t y = V c (Pipeline.arrRef spec3 3) y := by
  obtain ⟨e0, e1⟩ := idxW3 t
  unfold iblk3
  rw [View.read_apply]
  refine congrArg (V c (Pipeline.arrRef spec3 3)) (funext fun a => Fin.ext ?_)
  match a with
  | ⟨0, _⟩ => show win3_3.index t (0 : Fin 2) * 14 + 1 * (y 0).val = (y 0).val; rw [e0]; omega
  | ⟨1, _⟩ => show win3_3.index t (1 : Fin 2) * 64 + 1 * (y 1).val = (y 1).val; rw [e1]; omega

theorem idxW4 : ∀ t : Fin cfg3.N, win3_4.index t (0 : Fin 2) = 0 ∧ win3_4.index t (1 : Fin 2) = 0 :=
  (by decide +kernel : ∀ t : Fin grid3.N, _)

/-- Window 4's one block is its whole array. -/
theorem iblk4_at (c : Dev nD) (t : Fin cfg3.N) (y : S1x14.Idx) : iblk3 V c 4 t y = V c (Pipeline.arrRef spec3 4) y := by
  obtain ⟨e0, e1⟩ := idxW4 t
  unfold iblk3
  rw [View.read_apply]
  refine congrArg (V c (Pipeline.arrRef spec3 4)) (funext fun a => Fin.ext ?_)
  match a with
  | ⟨0, _⟩ => show win3_4.index t (0 : Fin 2) * 1 + 1 * (y 0).val = (y 0).val; rw [e0]; omega
  | ⟨1, _⟩ => show win3_4.index t (1 : Fin 2) * 14 + 1 * (y 1).val = (y 1).val; rw [e1]; omega

end Cert.KernelIdeal.Stage3

end
-- ==== Proof.Stage3Ideal.lean ====
/-
  Dense stage 3 at the extended reals: closed forms of what the region leaves.

  Row `i` of the new activation is the clipped affine image of row `i` of the previous activation
  (scale and shift feature by feature, then the maximum with zero) against the rows of the weight,
  plus the bias: 64 features in, 14 features out. The two accumulators, after the last of the 20
  grid points, hold for every output feature the sum down all 100000 rows of the new activation
  and of its square: each grid point adds the sums down its block of 5000 rows to what the point
  before left, the first point starting from zero, and the 20 blocks of 5000 rows tile the 100000
  rows. Only commutativity and associativity of the sum are used, so the entries may be any
  extended reals.
-/
import proofs.«119158_j67731634258670_1_alg».proof.Proof.Stage3
import proofs.«119158_j67731634258670_1_alg».proof.Proof.Payloads123
import proofs.«119158_j67731634258670_1_alg».proof.Proof.LibBlockSum

noncomputable section

open scoped BigOperators
open Idealize.ShloMosaic Idealize.ShloMosaic.ValueIdx Idealize.ShloMosaic.TcCoe Idealize.SL.Sem

namespace Cert.KernelIdeal.Stage3I

open Cert.KernelIdeal Cert.KernelIdeal.Gen

variable (V : (c : Dev nD) → (b : Ref sig .tc) → Buf (Elt Ideal) ((c : Thread nD τ).loc b))

/-- The previous activation, as the region finds it. -/
abbrev Hin (c : Dev nD) : S100000x64.Idx → EReal := V c (Pipeline.arrRef spec3 0)
/-- The scale row. -/
abbrev Sc (c : Dev nD) : S1x64.Idx → EReal := V c (Pipeline.arrRef spec3 1)
/-- The shift row. -/
abbrev Sh (c : Dev nD) : S1x64.Idx → EReal := V c (Pipeline.arrRef spec3 2)
/-- The weight matrix, one row per output feature. -/
abbrev Wt (c : Dev nD) : S14x64.Idx → EReal := V c (Pipeline.arrRef spec3 3)
/-- The bias row. -/
abbrev Bi (c : Dev nD) : S1x14.Idx → EReal := V c (Pipeline.arrRef spec3 4)

/-- Block `t` of the new activation at `(r, j)`, from the arrays: its row is row `5000 t + r`. -/
theorem hblk_apply (c : Dev nD) (t : Fin cfg3.N) (r : Fin 5000) (j : Fin 14) (i : Fin 100000)
    (hi : i.val = 5000 * t.val + r.val) :
    Stage3.hblk V c t (ix2 r j)
      = (∑ k : Fin 64, max (Hin V c (ix2 i k) * Sc V c (ix2 (0 : Fin 1) k) + Sh V c (ix2 (0 : Fin 1) k))
            (Ideal.ofBits .f32 0x00000000#32) * Wt V c (ix2 j k))
        + Bi V c (ix2 (0 : Fin 1) j) := by
  unfold Stage3.hblk
  rw [Pay.k3_pay4_apply]
  have e0 : ∀ k : Fin 64, iblk3 V c 0 t (ix2 r k) = Hin V c (ix2 i k) :=
    fun k => Stage3.iblk0_at V c t r k (ix2 i k) hi rfl
  have e1 : ∀ k : Fin 64, iblk3 V c 1 t (ix2 (0 : Fin 1) k) = Sc V c (ix2 (0 : Fin 1) k) :=
    fun k => Stage3.iblk1_at V c t _
  have e2 : ∀ k : Fin 64, iblk3 V c 2 t (ix2 (0 : Fin 1) k) = Sh V c (ix2 (0 : Fin 1) k) :=
    fun k => Stage3.iblk2_at V c t _
  have e3 : ∀ k : Fin 64, iblk3 V c 3 t (ix2 j k) = Wt V c (ix2 j k) :=
    fun k => Stage3.iblk3_at V c t _
  have e4 : iblk3 V c 4 t (ix2 (0 : Fin 1) j) = Bi V c (ix2 (0 : Fin 1) j) :=
    Stage3.iblk4_at V c t _
  refine congrArg₂ (· + ·) (Finset.sum_congr rfl fun k _ => ?_) e4
  exact congrArg₂ (· * ·)
    (congrArg₂ max (congrArg₂ (· + ·) (congrArg₂ (· * ·) (e0 k) (e1 k)) (e2 k)) rfl) (e3 k)

/-- THE NEW ACTIVATION at `(i, j)`. -/
theorem Hout_apply (c : Dev nD) (i : Fin 100000) (j : Fin 14) :
    Stage3.Hout V c (ix2 i j)
      = (∑ k : Fin 64, max (Hin V c (ix2 i k) * Sc V c (ix2 (0 : Fin 1) k) + Sh V c (ix2 (0 : Fin 1) k))
            (Ideal.ofBits .f32 0x00000000#32) * Wt V c (ix2 j k))
        + Bi V c (ix2 (0 : Fin 1) j) := by
  have hN : cfg3.N = 20 := N_3
  have hi := i.isLt
  have hd : i.val = 5000 * (i.val / 5000) + i.val % 5000 := (Nat.div_add_mod i.val 5000).symm
  rw [Stage3.Hout_at V c ⟨i.val / 5000, by rw [hN]; omega⟩ ⟨i.val % 5000, Nat.mod_lt _ (by norm_num)⟩ j
    (ix2 i j) hd rfl]
  exact hblk_apply V c _ _ j i hd

/-- The sums down the rows of block `p`, continued by zero past the last grid point. -/
def blockS (c : Dev nD) (j : Fin 14) (p : ℕ) : EReal :=
  if hp : p < cfg3.N then ∑ r : Fin 5000, Stage3.hblk V c ⟨p, hp⟩ (ix2 r j) else 0

/-- The sums of squares down the rows of block `p`, continued by zero past the last grid point. -/
def blockQ (c : Dev nD) (j : Fin 14) (p : ℕ) : EReal :=
  if hp : p < cfg3.N then
    ∑ r : Fin 5000, Stage3.hblk V c ⟨p, hp⟩ (ix2 r j) * Stage3.hblk V c ⟨p, hp⟩ (ix2 r j)
  else 0

/-- After grid point `n` the first accumulator holds the block sums of the points `0, …, n`. -/
theorem accS_range (c : Dev nD) (j : Fin 14) : ∀ (n : ℕ) (h : n < cfg3.N),
    Stage3.accS V c n h (ix2 (0 : Fin 1) j) = ∑ p ∈ Finset.range (n + 1), blockS V c j p
  | 0, h => by
    have e : Stage3.accS V c 0 h = k3_pay5 (iblk3 V c 0 ⟨0, h⟩) (iblk3 V c 1 ⟨0, h⟩) (iblk3 V c 2 ⟨0, h⟩)
        (iblk3 V c 3 ⟨0, h⟩) (iblk3 V c 4 ⟨0, h⟩) (k3_pay2 (F := Ideal)) := rfl
    rw [e, Pay.k3_pay5_apply, Pay.k3_pay2_apply, zero_add, Finset.sum_range_one]
    unfold blockS
    rw [dif_pos h]
    rfl
  | n + 1, h => by
    have e : Stage3.accS V c (n + 1) h = k3_pay5 (iblk3 V c 0 ⟨n + 1, h⟩) (iblk3 V c 1 ⟨n + 1, h⟩)
        (iblk3 V c 2 ⟨n + 1, h⟩) (iblk3 V c 3 ⟨n + 1, h⟩) (iblk3 V c 4 ⟨n + 1, h⟩)
        (Stage3.accS V c n (Nat.lt_of_succ_lt h)) := rfl
    rw [e, Pay.k3_pay5_apply, accS_range c j n, Finset.sum_range_succ _ (n + 1)]
    refine congrArg (_ + ·) ?_
    unfold blockS
    rw [dif_pos h]
    rfl

/-- After grid point `n` the second accumulator holds the block sums of squares of the points
    `0, …, n`. -/
theorem accQ_range (c : Dev nD) (j : Fin 14) : ∀ (n : ℕ) (h : n < cfg3.N),
    Stage3.accQ V c n h (ix2 (0 : Fin 1) j) = ∑ p ∈ Finset.range (n + 1), blockQ V c j p
  | 0, h => by
    have e : Stage3.accQ V c 0 h = k3_pay1 (k3_pay6 (k3_pay3 (F := Ideal))) (k3_pay7 (iblk3 V c 0 ⟨0, h⟩)
        (iblk3 V c 1 ⟨0, h⟩) (iblk3 V c 2 ⟨0, h⟩) (iblk3 V c 3 ⟨0, h⟩) (iblk3 V c 4 ⟨0, h⟩)) := rfl
    rw [e, Pay.k3_pay1_apply, Pay.k3_pay6_eq, Pay.k3_pay3_apply, zero_add, Finset.sum_range_one]
    unfold blockQ
    rw [dif_pos h]
    rfl
  | n + 1, h => by
    have e : Stage3.accQ V c (n + 1) h = k3_pay1 (k3_pay6 (Stage3.accQ V c n (Nat.lt_of_succ_lt h)))
        (k3_pay7 (iblk3 V c 0 ⟨n + 1, h⟩) (iblk3 V c 1 ⟨n + 1, h⟩) (iblk3 V c 2 ⟨n + 1, h⟩)
          (iblk3 V c 3 ⟨n + 1, h⟩) (iblk3 V c 4 ⟨n + 1, h⟩)) := rfl
    rw [e, Pay.k3_pay1_apply, Pay.k3_pay6_eq, accQ_range c j n, Finset.sum_range_succ _ (n + 1)]
    refine congrArg (_ + ·) ?_
    unfold blockQ
    rw [dif_pos h]
    rfl

/-- THE FIRST ACCUMULATOR after the last grid point: the column sums of the new activation. -/
theorem accS_apply (c : Dev nD) (j : Fin 14) :
    Stage3.accS V c 19 Stage3.tLast.isLt (ix2 (0 : Fin 1) j) = ∑ i : Fin 100000, Stage3.Hout V c (ix2 i j) := by
  have hN : cfg3.N = 20 := N_3
  rw [accS_range V c j 19 Stage3.tLast.isLt, show (19 + 1 : ℕ) = cfg3.N from hN.symm]
  unfold blockS
  rw [Cert.Lib.BlockSum.sum_range_dite cfg3.N
      (fun t : Fin cfg3.N => ∑ r : Fin 5000, Stage3.hblk V c t (ix2 r j)),
    Cert.Lib.BlockSum.sum_eq_sum_blocks cfg3.N 5000 (by rw [hN])
      (fun i : Fin 100000 => Stage3.Hout V c (ix2 i j))]
  refine Finset.sum_congr rfl fun p _ => Finset.sum_congr rfl fun r _ => ?_
  exact (Stage3.Hout_at V c p r j _ rfl rfl).symm

/-- THE SECOND ACCUMULATOR after the last grid point: the column sums of squares of the new
    activation. -/
theorem accQ_apply (c : Dev nD) (j : Fin 14) :
    Stage3.accQ V c 19 Stage3.tLast.isLt (ix2 (0 : Fin 1) j)
      = ∑ i : Fin 100000, Stage3.Hout V c (ix2 i j) * Stage3.Hout V c (ix2 i j) := by
  have hN : cfg3.N = 20 := N_3
  rw [accQ_range V c j 19 Stage3.tLast.isLt, show (19 + 1 : ℕ) = cfg3.N from hN.symm]
  unfold blockQ
  rw [Cert.Lib.BlockSum.sum_range_dite cfg3.N
      (fun t : Fin cfg3.N => ∑ r : Fin 5000, Stage3.hblk V c t (ix2 r j) * Stage3.hblk V c t (ix2 r j)),
    Cert.Lib.BlockSum.sum_eq_sum_blocks cfg3.N 5000 (by rw [hN])
      (fun i : Fin 100000 => Stage3.Hout V c (ix2 i j) * Stage3.Hout V c (ix2 i j))]
  refine Finset.sum_congr rfl fun p _ => Finset.sum_congr rfl fun r _ => ?_
  rw [Stage3.Hout_at V c p r j _ rfl rfl]

end Cert.KernelIdeal.Stage3I

end
-- ==== Proof.KernelHost3.lean ====
/-
  The host operations between the third and the fourth region of the kernel program, read at an index, from any
  contents `W` of the buffers. From the 64 column sums `S` and sums of squares `Q` of the third region they compute
  the mean `S / n`, the variance `max (Q / n - mean · mean) 0`, its stabilised reciprocal root, the scale `g · inv` and
  the shift `b - g · mean · inv`, each a row of 64 entries; the bias of the next layer (14 entries) is laid out as a
  row; nothing else is written.
-/
import proofs.«119158_j67731634258670_1_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

open Cert.KernelIdeal Cert.KernelIdeal.Gen Idealize.ShloMosaic Idealize.ShloMosaic.ValueIdx Idealize.ShloMosaic.TcCoe
open Idealize.ShloMosaic.StableHlo
open scoped BigOperators

noncomputable section

namespace Cert.KernelIdeal.HostOps

/-- The product of two extended reals, for a factor whose type is the contents of a buffer at an index. -/
local notation:70 a:70 " *ᵣ " b:71 => @HMul.hMul EReal EReal EReal instHMul a b
/-- The difference of two extended reals, likewise. -/
local notation:65 a:65 " -ᵣ " b:66 => @HSub.hSub EReal EReal EReal instHSub a b
/-- The row count's word. -/
local notation "cN" => Ideal.ofBits FTy.f32 0x47C35000#32
/-- The zero word. -/
local notation "z0" => Ideal.ofBits FTy.f32 0x00000000#32
/-- The stabiliser's word. -/
local notation "eps" => Ideal.ofBits FTy.f32 0x3727C5AC#32

/-- The host's reciprocal square root at an index is the extended reals' of the element. -/
private theorem hostRsqrt_apply {s : Shape} {φ : FTy} (a : FVec Ideal s φ) (i : s.Idx) :
    Host.rsqrt a i = Ideal.rsqrt (a i) := rfl

/-- The scale row at an entry, for rows of any width: gain times the reciprocal root of the larger of
    `Q / n - (S / n) · (S / n)` and zero, plus the stabiliser. -/
private theorem scale_row {a : ℕ} (hb : (⟨0, ![]⟩ : Shape).BroadcastsInDim ⟨2, ![1, a]⟩ ![])
    (g S Q : FVec Ideal ⟨2, ![1, a]⟩ .f32) (o : (⟨2, ![1, a]⟩ : Shape).Idx) :
    mulf g
        (Host.rsqrt
          (addf
            (maximumf
              (subf (Host.divf Q (broadcastInDim ⟨2, ![1, a]⟩ ![] hb (constant (F := Ideal) ⟨0, ![]⟩ .f32 0x47C35000#32)))
                (mulf (Host.divf S (broadcastInDim ⟨2, ![1, a]⟩ ![] hb (constant (F := Ideal) ⟨0, ![]⟩ .f32 0x47C35000#32)))
                  (Host.divf S (broadcastInDim ⟨2, ![1, a]⟩ ![] hb (constant (F := Ideal) ⟨0, ![]⟩ .f32 0x47C35000#32)))))
              (broadcastInDim ⟨2, ![1, a]⟩ ![] hb (constant (F := Ideal) ⟨0, ![]⟩ .f32 0x00000000#32)))
            (broadcastInDim ⟨2, ![1, a]⟩ ![] hb (constant (F := Ideal) ⟨0, ![]⟩ .f32 0x3727C5AC#32)))) o
      = g o
        * Ideal.rsqrt
            (max (Ideal.div (Q o) (Ideal.ofBits .f32 0x47C35000#32)
                  - Ideal.div (S o) (Ideal.ofBits .f32 0x47C35000#32) * Ideal.div (S o) (Ideal.ofBits .f32 0x47C35000#32))
                (Ideal.ofBits .f32 0x00000000#32)
              + Ideal.ofBits .f32 0x3727C5AC#32) := by
  simp only [mulf_apply, addf_apply, subf_apply, maximumf_apply, hostDivf_apply, hostRsqrt_apply,
    broadcastInDim_scalar_apply, constant_apply]
  rfl

/-- The shift row at an entry, for rows of any width: offset less gain times `S / n` times the same reciprocal root. -/
private theorem shift_row {a : ℕ} (hb : (⟨0, ![]⟩ : Shape).BroadcastsInDim ⟨2, ![1, a]⟩ ![])
    (g b S Q : FVec Ideal ⟨2, ![1, a]⟩ .f32) (o : (⟨2, ![1, a]⟩ : Shape).Idx) :
    subf b
        (mulf
          (mulf g (Host.divf S (broadcastInDim ⟨2, ![1, a]⟩ ![] hb (constant (F := Ideal) ⟨0, ![]⟩ .f32 0x47C35000#32))))
          (Host.rsqrt
            (addf
              (maximumf
                (subf
                  (Host.divf Q (broadcastInDim ⟨2, ![1, a]⟩ ![] hb (constant (F := Ideal) ⟨0, ![]⟩ .f32 0x47C35000#32)))
                  (mulf
                    (Host.divf S (broadcastInDim ⟨2, ![1, a]⟩ ![] hb (constant (F := Ideal) ⟨0, ![]⟩ .f32 0x47C35000#32)))
                    (Host.divf S (broadcastInDim ⟨2, ![1, a]⟩ ![] hb (constant (F := Ideal) ⟨0, ![]⟩ .f32 0x47C35000#32)))))
                (broadcastInDim ⟨2, ![1, a]⟩ ![] hb (constant (F := Ideal) ⟨0, ![]⟩ .f32 0x00000000#32)))
              (broadcastInDim ⟨2, ![1, a]⟩ ![] hb (constant (F := Ideal) ⟨0, ![]⟩ .f32 0x3727C5AC#32))))) o
      = b o
        - g o * Ideal.div (S o) (Ideal.ofBits .f32 0x47C35000#32)
          * Ideal.rsqrt
              (max (Ideal.div (Q o) (Ideal.ofBits .f32 0x47C35000#32)
                    - Ideal.div (S o) (Ideal.ofBits .f32 0x47C35000#32) * Ideal.div (S o) (Ideal.ofBits .f32 0x47C35000#32))
                  (Ideal.ofBits .f32 0x00000000#32)
                + Ideal.ofBits .f32 0x3727C5AC#32) := by
  simp only [mulf_apply, addf_apply, subf_apply, maximumf_apply, hostDivf_apply, hostRsqrt_apply,
    broadcastInDim_scalar_apply, constant_apply]
  rfl

variable (W : Valuation τ sig (Elt Ideal))

/-- The third region's column sums. -/
local notation "Sv" => (W (Proc.devRef Proc.tc main_v58_1) : S1x64.Idx → EReal)
/-- The third region's column sums of squares. -/
local notation "Qv" => (W (Proc.devRef Proc.tc main_v58_2) : S1x64.Idx → EReal)
/-- The normalisation's gain. -/
local notation "gv" => (W (Proc.devRef Proc.tc main_arg17) : S64.Idx → EReal)
/-- The normalisation's offset. -/
local notation "bv" => (W (Proc.devRef Proc.tc main_arg18) : S64.Idx → EReal)

/-- The scale of column `k`: the normalisation's gain times the reciprocal root of the stabilised variance. -/
theorem scale3_apply (k : Fin 64) :
    (StableHlo.after hostOps3 W (Proc.devRef .tc main_v72) : S1x64.Idx → EReal) (ix2 (0 : Fin 1) k)
      = gv (ix1 k)
        *ᵣ Ideal.rsqrt
            (max (Ideal.div (Qv (ix2 (0 : Fin 1) k)) cN
                  - Ideal.div (Sv (ix2 (0 : Fin 1) k)) cN * Ideal.div (Sv (ix2 (0 : Fin 1) k)) cN) z0
              + eps) := by
  after_results_simp
  refine (scale_row bcast_S_S1x64 _ _ _ _).trans ?_
  rw [← shapeCast_a_1a_apply gv shapeCasts_S64_S1x64 (0 : Fin 1) k]
  rfl

/-- The shift of column `k`: the normalisation's offset less gain times mean times the reciprocal root. -/
theorem shift3_apply (k : Fin 64) :
    (StableHlo.after hostOps3 W (Proc.devRef .tc main_v75) : S1x64.Idx → EReal) (ix2 (0 : Fin 1) k)
      = bv (ix1 k)
        -ᵣ (gv (ix1 k) *ᵣ Ideal.div (Sv (ix2 (0 : Fin 1) k)) cN)
          * Ideal.rsqrt
              (max (Ideal.div (Qv (ix2 (0 : Fin 1) k)) cN
                    - Ideal.div (Sv (ix2 (0 : Fin 1) k)) cN * Ideal.div (Sv (ix2 (0 : Fin 1) k)) cN) z0
                + eps) := by
  after_results_simp
  refine (shift_row bcast_S_S1x64 _ _ _ _ _).trans ?_
  rw [← shapeCast_a_1a_apply gv shapeCasts_S64_S1x64 (0 : Fin 1) k,
    ← shapeCast_a_1a_apply bv shapeCasts_S64_S1x64 (0 : Fin 1) k]
  rfl

/-- The next layer's bias laid out as a row. -/
theorem bias3_apply (j : Fin 14) :
    (StableHlo.after hostOps3 W (Proc.devRef .tc main_v76) : S1x14.Idx → EReal) (ix2 (0 : Fin 1) j)
      = (W (Proc.devRef .tc main_arg12) : S14.Idx → EReal) (ix1 j) := by
  after_results_simp
  rw [← shapeCast_a_1a_apply (W (Proc.devRef .tc main_arg12) : S14.Idx → EReal) shapeCasts_S14_S1x14 (0 : Fin 1) j]
  rfl

/-- The third region's normalised-input buffer is not written. -/
theorem keep3_h :
    StableHlo.after hostOps3 W (Proc.devRef .tc main_v58_0) = W (Proc.devRef .tc main_v58_0) := by
  after_results_simp

/-- The next layer's weight is not written. -/
theorem keep3_w :
    StableHlo.after hostOps3 W (Proc.devRef .tc main_arg11) = W (Proc.devRef .tc main_arg11) := by
  after_results_simp

end Cert.KernelIdeal.HostOps

end
-- ==== Proof.RefLayers2.lean ====
/-
  The third normalisation block and the third dense layer of the reference program read at an index: the block takes
  each of the 64 columns of the second dense layer's output through mean, variance, scale and shift and the rectifier;
  the dense layer maps the 64 rectified columns to 14.
-/
import proofs.«119158_j67731634258670_1_alg».proof.Proof.ReadP
import proofs.«119158_j67731634258670_1_alg».proof.Proof.RefLayers0
import proofs.«119158_j67731634258670_1_alg».proof.Proof.Consts
import proofs.«119158_j67731634258670_1_alg».proof.Proof.Spec

open Idealize.ShloMosaic Idealize.ShloMosaic.ValueIdx
open Cert.ReferenceIdeal Cert.ReferenceIdeal.Gen
open scoped BigOperators

noncomputable section

namespace Cert.ReferenceIdeal.Layers

variable (x0 : (⟨S100000x128, .f32⟩ : BufTy).Contents (Elt Ideal))
variable (x1 : (⟨S2x1600000, .i32⟩ : BufTy).Contents (Elt Ideal))
variable (x2 : (⟨S256x128, .f32⟩ : BufTy).Contents (Elt Ideal))
variable (x3 : (⟨S256, .f32⟩ : BufTy).Contents (Elt Ideal))
variable (x4 : (⟨S256x128, .f32⟩ : BufTy).Contents (Elt Ideal))
variable (x5 x6 : (⟨S256, .f32⟩ : BufTy).Contents (Elt Ideal))
variable (x7 : (⟨S256x256, .f32⟩ : BufTy).Contents (Elt Ideal))
variable (x8 : (⟨S256, .f32⟩ : BufTy).Contents (Elt Ideal))
variable (x9 : (⟨S64x256, .f32⟩ : BufTy).Contents (Elt Ideal))
variable (x10 : (⟨S64, .f32⟩ : BufTy).Contents (Elt Ideal))
variable (x11 : (⟨S14x64, .f32⟩ : BufTy).Contents (Elt Ideal))
variable (x12 : (⟨S14, .f32⟩ : BufTy).Contents (Elt Ideal))
variable (x13 : (⟨S2x14, .f32⟩ : BufTy).Contents (Elt Ideal))
variable (x14 : (⟨S2, .f32⟩ : BufTy).Contents (Elt Ideal))
variable (x15 x16 : (⟨S256, .f32⟩ : BufTy).Contents (Elt Ideal))
variable (x17 x18 : (⟨S64, .f32⟩ : BufTy).Contents (Elt Ideal))
variable (x19 x20 : (⟨S14, .f32⟩ : BufTy).Contents (Elt Ideal))

/-- The second dense layer's output, the block's input. -/
local notation "H2" => Read.val_main_v92 (F := Ideal) x0 x1 x2 x3 x4 x5 x6 x7 x8 x9 x10 x15 x16
/-- The columns' means. -/
local notation "M2" => Read.val_main_v95 (F := Ideal) x0 x1 x2 x3 x4 x5 x6 x7 x8 x9 x10 x15 x16
/-- The columns' variances. -/
local notation "V2" => Read.val_main_v102 (F := Ideal) x0 x1 x2 x3 x4 x5 x6 x7 x8 x9 x10 x15 x16
/-- The block's output. -/
local notation "A2" => Read.val_main_v118 (F := Ideal) x0 x1 x2 x3 x4 x5 x6 x7 x8 x9 x10 x15 x16 x17 x18

/-! ## The third normalisation block -/

/-- The mean of column `k` of the second dense layer's output. -/
theorem mean2 (k : Fin 64) :
    M2 (ix1 k)
      = Ideal.div (Ideal.ofBits .f32 0x00000000#32 + ∑ r : Fin 100000, H2 (ix2 r k))
        (Ideal.ofBits .f32 0x47C35000#32) := by
  have e : ∀ r : Fin 100000, Read.idx_main_v93 (ix1 k) r = ix2 r k := fun r => funext fun a => Fin.ext (by
    match a with | ⟨0, _⟩ => rfl | ⟨1, _⟩ => rfl)
  rw [Read.val_main_v95_apply, Read.val_main_v93_apply, Read.val_main_v94_apply, Read.val_main_cst_15_apply,
    Read.val_main_cst_14_apply]
  simp only [e]
  rfl

/-- The variance of column `k`: the mean of the squared deviations from the column's mean. -/
theorem var2 (k : Fin 64) :
    V2 (ix1 k)
      = Ideal.div (Ideal.ofBits .f32 0x00000000#32
          + ∑ r : Fin 100000, (H2 (ix2 r k) - M2 (ix1 k)) * (H2 (ix2 r k) - M2 (ix1 k)))
        (Ideal.ofBits .f32 0x47C35000#32) := by
  have e : ∀ r : Fin 100000, Read.idx_main_v100 (ix1 k) r = ix2 r k := fun r => funext fun a => Fin.ext (by
    match a with | ⟨0, _⟩ => rfl | ⟨1, _⟩ => rfl)
  have em : ∀ r : Fin 100000, Read.idx_main_v96 (Read.idx_main_v97 (ix2 r k)) = ix1 k := fun r => funext fun a =>
    Fin.ext (by match a with | ⟨0, _⟩ => rfl)
  have hs : ∀ r : Fin 100000,
      Read.val_main_v99 (F := Ideal) x0 x1 x2 x3 x4 x5 x6 x7 x8 x9 x10 x15 x16 (Read.idx_main_v100 (ix1 k) r)
        = (H2 (ix2 r k) - M2 (ix1 k)) * (H2 (ix2 r k) - M2 (ix1 k)) := fun r => by
    rw [e r, Read.val_main_v99_apply, Read.val_main_v98_apply, Read.val_main_v97_apply, Read.val_main_v96_apply, em r]
    rfl
  rw [Read.val_main_v102_apply, Read.val_main_v100_apply, Read.val_main_v101_apply, Read.val_main_cst_17_apply,
    Read.val_main_cst_16_apply]
  simp only [hs]
  rfl

/-- The block's output at `(i, k)` from the column's mean and variance. -/
theorem bnOut2 (i : Fin 100000) (k : Fin 64) :
    A2 (ix2 i k)
      = max (x17 (ix1 k) * (H2 (ix2 i k) - M2 (ix1 k))
            * Ideal.rsqrt (V2 (ix1 k) + Ideal.ofBits .f32 0x3727C5AC#32)
          + x18 (ix1 k))
        (Ideal.ofBits .f32 0x00000000#32) := by
  have eg : Read.idx_main_v106 (Read.idx_main_v107 (ix2 i k)) = ix1 k := funext fun a => Fin.ext (by
    match a with | ⟨0, _⟩ => rfl)
  have em : Read.idx_main_v103 (Read.idx_main_v104 (ix2 i k)) = ix1 k := funext fun a => Fin.ext (by
    match a with | ⟨0, _⟩ => rfl)
  have ev : Read.idx_main_v112 (Read.idx_main_v113 (ix2 i k)) = ix1 k := funext fun a => Fin.ext (by
    match a with | ⟨0, _⟩ => rfl)
  have eb : Read.idx_main_v115 (Read.idx_main_v116 (ix2 i k)) = ix1 k := funext fun a => Fin.ext (by
    match a with | ⟨0, _⟩ => rfl)
  rw [Read.val_main_v118_apply, Read.val_main_v117_apply, Read.val_main_v114_apply, Read.val_main_v108_apply,
    Read.val_main_v107_apply, Read.val_main_v106_apply, eg, Read.val_main_v105_apply, Read.val_main_v104_apply,
    Read.val_main_v103_apply, em, Read.val_main_v113_apply, Read.val_main_v112_apply, ev, Read.val_main_v111_apply,
    Read.val_main_v110_apply, Read.val_main_v109_apply, Read.val_main_cst_18_apply, Read.val_main_v116_apply,
    Read.val_main_v115_apply, eb, Read.val_main_call2_v0_apply, Read.val_main_call2_cst_apply]
  rfl

/-- The third normalisation block on a finite input: the real `bnRelu` of the column. -/
theorem bn2 (hr : Fin 100000 → Fin 64 → ℝ) (hH : ∀ i k, H2 (ix2 i k) = ((hr i k : ℝ) : EReal))
    (gr br : Fin 64 → ℝ) (hg : ∀ k, x17 (ix1 k) = ((gr k : ℝ) : EReal))
    (hb : ∀ k, x18 (ix1 k) = ((br k : ℝ) : EReal)) (i : Fin 100000) (k : Fin 64) :
    A2 (ix2 i k)
      = ((Cert.LibBatchNorm.bnRelu (fun i' => hr i' k) (gr k) (br k) Cert.Consts.epsR i : ℝ) : EReal) := by
  rw [bnOut2]
  exact bn_column (by norm_num) (fun i' => H2 (ix2 i' k)) (fun i' => hr i' k) (fun i' => hH i' k) _ _ (gr k) (br k)
    Cert.Consts.epsR (hg k) (hb k) Cert.Consts.epsR_pos _ _ _ _ _ ofBits_rows Cert.Consts.ofBits_eps
    Ideal.ofBits_zero_f32 Ideal.ofBits_zero_f32 Ideal.ofBits_zero_f32 _ _
    (mean2 x0 x1 x2 x3 x4 x5 x6 x7 x8 x9 x10 x15 x16 k) (var2 x0 x1 x2 x3 x4 x5 x6 x7 x8 x9 x10 x15 x16 k) i

/-! ## The third dense layer -/

/-- Row `i`, column `j` of the third dense layer: the block's output in row `i` against row `j` of the weight, plus the
    bias. -/
theorem lin3 (i : Fin 100000) (j : Fin 14) :
    Read.val_main_v123 (F := Ideal) x0 x1 x2 x3 x4 x5 x6 x7 x8 x9 x10 x11 x12 x15 x16 x17 x18 (ix2 i j)
      = (∑ c : Fin 64, A2 (ix2 i c) * x11 (ix2 j c)) + x12 (ix1 j) := by
  have el : ∀ c : Fin 64, Read.lidx_main_v120 (ix2 i j) c = ix2 i c := fun c => funext fun a => Fin.ext (by
    match a with | ⟨0, _⟩ => rfl | ⟨1, _⟩ => rfl)
  have er : ∀ c : Fin 64, Read.idx_main_v119 (Read.ridx_main_v120 (ix2 i j) c) = ix2 j c := fun c => funext fun a =>
    Fin.ext (by match a with | ⟨0, _⟩ => rfl | ⟨1, _⟩ => rfl)
  have eb : Read.idx_main_v121 (Read.idx_main_v122 (ix2 i j)) = ix1 j := funext fun a => Fin.ext (by
    match a with | ⟨0, _⟩ => rfl)
  rw [Read.val_main_v123_apply, Read.val_main_v120_apply, Read.val_main_v122_apply, Read.val_main_v121_apply, eb,
    Ideal.addf_def]
  refine congrArg₂ (· + ·) ?_ rfl
  refine Finset.sum_congr rfl fun c _ => ?_
  rw [Read.val_main_v119_apply, el c, er c]

end Cert.ReferenceIdeal.Layers

end
-- ==== Proof.KChain3.lean ====
import proofs.«119158_j67731634258670_1_alg».proof.Proof.Stage3Ideal
import proofs.«119158_j67731634258670_1_alg».proof.Proof.KernelHost3
import proofs.«119158_j67731634258670_1_alg».proof.Proof.RefLayers2
import proofs.«119158_j67731634258670_1_alg».proof.Proof.LibBatchNorm
import proofs.«119158_j67731634258670_1_alg».proof.Proof.Consts

/-!
# Dense stage 3 of the kernel against the reference, one layer

Given that the kernel's previous activation array is the reference's pre-normalisation activation, that its entries are
real numbers, and that the two one-row accumulators hold that array's column sums and column sums of squares, the
kernel's affine-map-and-ramp of a row entry is the reference's normalised-and-ramped entry (the two written forms of
batch normalisation agree on real columns), so the next activation arrays agree entry by entry, and the next
accumulators hold the next array's column sums and column sums of squares.
-/

noncomputable section

open Idealize.ShloMosaic Idealize.ShloMosaic.ValueIdx Idealize.ShloMosaic.TcCoe Idealize.SL.Sem

namespace Cert.KernelIdeal.Chain

open Cert.KernelIdeal Cert.KernelIdeal.Gen Cert.ReferenceIdeal.Layers

variable (m : (ℓ : Loc nD τ sig) → Buf (Elt Ideal) ℓ) (ρ : Dev nD → PrngReg)

theorem layer3 (c : Dev nD) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S256x128, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) (x5 : (⟨Cert.ReferenceIdeal.S256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S64x256, .f32⟩ : BufTy).Contents (Elt Ideal)) (x10 : (⟨Cert.ReferenceIdeal.S64, .f32⟩ : BufTy).Contents (Elt Ideal)) (x11 : (⟨Cert.ReferenceIdeal.S14x64, .f32⟩ : BufTy).Contents (Elt Ideal)) (x12 : (⟨Cert.ReferenceIdeal.S14, .f32⟩ : BufTy).Contents (Elt Ideal)) (x15 : (⟨Cert.ReferenceIdeal.S256, .f32⟩ : BufTy).Contents (Elt Ideal)) (x16 : (⟨Cert.ReferenceIdeal.S256, .f32⟩ : BufTy).Contents (Elt Ideal)) (x17 : (⟨Cert.ReferenceIdeal.S64, .f32⟩ : BufTy).Contents (Elt Ideal)) (x18 : (⟨Cert.ReferenceIdeal.S64, .f32⟩ : BufTy).Contents (Elt Ideal))
    (hxg : (W6 m ρ c (Proc.devRef .tc main_arg17) : S64.Idx → EReal) = x17) (hxb : (W6 m ρ c (Proc.devRef .tc main_arg18) : S64.Idx → EReal) = x18)
    (hxw : W6 m ρ c (Proc.devRef .tc main_arg11) = x11) (hxbias : (W6 m ρ c (Proc.devRef .tc main_arg12) : S14.Idx → EReal) = x12)
    (hr : Fin 100000 → Fin 64 → ℝ) (gr br : Fin 64 → ℝ)
    (hg : ∀ k, x17 (ix1 k) = ((gr k : ℝ) : EReal)) (hb : ∀ k, x18 (ix1 k) = ((br k : ℝ) : EReal))
    (hH : ∀ i k, Cert.ReferenceIdeal.Read.val_main_v92 (F := Ideal) x0 x1 x2 x3 x4 x5 x6 x7 x8 x9 x10 x15 x16 (ix2 i k) = ((hr i k : ℝ) : EReal))
    (h0 : ∀ i k, (W6 m ρ c (Proc.devRef .tc main_v58_0) : S100000x64.Idx → EReal) (ix2 i k) = Cert.ReferenceIdeal.Read.val_main_v92 (F := Ideal) x0 x1 x2 x3 x4 x5 x6 x7 x8 x9 x10 x15 x16 (ix2 i k))
    (hS : ∀ k, (W6 m ρ c (Proc.devRef .tc main_v58_1) : S1x64.Idx → EReal) (ix2 (0 : Fin 1) k) = (∑ i : Fin 100000, Cert.ReferenceIdeal.Read.val_main_v92 (F := Ideal) x0 x1 x2 x3 x4 x5 x6 x7 x8 x9 x10 x15 x16 (ix2 i k) : EReal))
    (hQ : ∀ k, (W6 m ρ c (Proc.devRef .tc main_v58_2) : S1x64.Idx → EReal) (ix2 (0 : Fin 1) k) = (∑ i : Fin 100000, Cert.ReferenceIdeal.Read.val_main_v92 (F := Ideal) x0 x1 x2 x3 x4 x5 x6 x7 x8 x9 x10 x15 x16 (ix2 i k) * Cert.ReferenceIdeal.Read.val_main_v92 (F := Ideal) x0 x1 x2 x3 x4 x5 x6 x7 x8 x9 x10 x15 x16 (ix2 i k) : EReal)) :
    (∀ i j, (W8 m ρ c (Proc.devRef .tc main_v77_0) : S100000x14.Idx → EReal) (ix2 i j) = Cert.ReferenceIdeal.Read.val_main_v123 (F := Ideal) x0 x1 x2 x3 x4 x5 x6 x7 x8 x9 x10 x11 x12 x15 x16 x17 x18 (ix2 i j))
    ∧ (∀ j, (W8 m ρ c (Proc.devRef .tc main_v77_1) : S1x14.Idx → EReal) (ix2 (0 : Fin 1) j) = (∑ i : Fin 100000, Cert.ReferenceIdeal.Read.val_main_v123 (F := Ideal) x0 x1 x2 x3 x4 x5 x6 x7 x8 x9 x10 x11 x12 x15 x16 x17 x18 (ix2 i j) : EReal))
    ∧ (∀ j, (W8 m ρ c (Proc.devRef .tc main_v77_2) : S1x14.Idx → EReal) (ix2 (0 : Fin 1) j) = (∑ i : Fin 100000, Cert.ReferenceIdeal.Read.val_main_v123 (F := Ideal) x0 x1 x2 x3 x4 x5 x6 x7 x8 x9 x10 x11 x12 x15 x16 x17 x18 (ix2 i j) * Cert.ReferenceIdeal.Read.val_main_v123 (F := Ideal) x0 x1 x2 x3 x4 x5 x6 x7 x8 x9 x10 x11 x12 x15 x16 x17 x18 (ix2 i j) : EReal)) := by
  have eH : W8 m ρ c (Proc.devRef .tc main_v77_0) = Stage3.Hout (V7 m ρ) c := (W8_arr m ρ c 5).trans (Stage3.final5 (V7 m ρ) c)
  have eS : W8 m ρ c (Proc.devRef .tc main_v77_1) = Stage3.accS (V7 m ρ) c 19 Stage3.tLast.isLt := (W8_arr m ρ c 6).trans (Stage3.final6 (V7 m ρ) c)
  have eQ : W8 m ρ c (Proc.devRef .tc main_v77_2) = Stage3.accQ (V7 m ρ) c 19 Stage3.tLast.isLt := (W8_arr m ρ c 7).trans (Stage3.final7 (V7 m ρ) c)
  have hc : Ideal.ofBits .f32 0x47C35000#32 = (((100000 : ℕ) : ℝ) : EReal) := by rw [Cert.Consts.ofBits_n]; norm_num
  -- the kernel's affine map and ramp of an entry is the reference's normalised and ramped entry
  have hact : ∀ i k, max (Stage3I.Hin (V7 m ρ) c (ix2 i k) * Stage3I.Sc (V7 m ρ) c (ix2 (0 : Fin 1) k) + Stage3I.Sh (V7 m ρ) c (ix2 (0 : Fin 1) k)) (Ideal.ofBits .f32 0x00000000#32)
      = Cert.ReferenceIdeal.Read.val_main_v118 (F := Ideal) x0 x1 x2 x3 x4 x5 x6 x7 x8 x9 x10 x15 x16 x17 x18 (ix2 i k) := by
    intro i k
    have e1 : Stage3I.Hin (V7 m ρ) c = W6 m ρ c (Proc.devRef .tc main_v58_0) := HostOps.keep3_h (W6 m ρ c)
    have e2 := HostOps.scale3_apply (W6 m ρ c) k
    have e3 := HostOps.shift3_apply (W6 m ρ c) k
    rw [e1, show Stage3I.Sc (V7 m ρ) c (ix2 (0 : Fin 1) k) = _ from e2, show Stage3I.Sh (V7 m ρ) c (ix2 (0 : Fin 1) k) = _ from e3, h0, hS, hQ, hxg, hxb, hg, hb, bn2 x0 x1 x2 x3 x4 x5 x6 x7 x8 x9 x10 x15 x16 x17 x18 hr hH gr br hg hb i k]
    simp only [hH]
    exact Cert.LibBatchNorm.scaleShift_form_inl (n := 100000) (by norm_num) (fun i' => hr i' k) (gr k) (br k) Cert.Consts.epsR Cert.Consts.epsR_pos
      (Ideal.ofBits .f32 0x47C35000#32) (Ideal.ofBits .f32 0x3727C5AC#32) (Ideal.ofBits .f32 0x00000000#32) hc Cert.Consts.ofBits_eps Ideal.ofBits_zero_f32 i
  have hentry : ∀ i j, Stage3.Hout (V7 m ρ) c (ix2 i j) = Cert.ReferenceIdeal.Read.val_main_v123 (F := Ideal) x0 x1 x2 x3 x4 x5 x6 x7 x8 x9 x10 x11 x12 x15 x16 x17 x18 (ix2 i j) := by
    intro i j
    have eW : Stage3I.Wt (V7 m ρ) c = x11 := (HostOps.keep3_w (W6 m ρ c)).trans hxw
    have eB : Stage3I.Bi (V7 m ρ) c (ix2 (0 : Fin 1) j) = x12 (ix1 j) := (HostOps.bias3_apply (W6 m ρ c) j).trans (by rw [hxbias])
    rw [Stage3I.Hout_apply, lin3 x0 x1 x2 x3 x4 x5 x6 x7 x8 x9 x10 x11 x12 x15 x16 x17 x18 i j]
    refine congrArg₂ (· + ·) (Finset.sum_congr rfl fun k _ => ?_) eB
    rw [hact i k, eW]
  refine ⟨fun i j => ?_, fun j => ?_, fun j => ?_⟩
  · rw [eH]; exact hentry i j
  · rw [eS]; exact (Stage3I.accS_apply (V7 m ρ) c j).trans (Finset.sum_congr rfl fun i _ => hentry i j)
  · rw [eQ]; exact (Stage3I.accQ_apply (V7 m ρ) c j).trans (Finset.sum_congr rfl fun i _ => by rw [hentry i j])

end Cert.KernelIdeal.Chain

end
-- ==== Proof.Final4.lean ====
import proofs.«119158_j67731634258670_1_alg».proof.Proof.Gen.KernelIdeal.Frame
import Idealize.ShloMosaic.Lib.Pipeline.Value
import Idealize.ShloMosaic.Lib.ValueIdx
import Idealize.ShloMosaic.Lib.Tactic

/-!
# The last region: what it leaves in the result array

The body maps a block of 5000 rows of the last hidden activation (14 features) through an affine map and a ramp,
multiplies by the 2 × 14 weight matrix, adds the bias, and stores the row-wise log-softmax of the two logits. Every grid
point writes its block back; the blocks tile the result array.
-/

noncomputable section

open Idealize.ShloMosaic Idealize.ShloMosaic.TcCoe Idealize.SL.Sem
open Idealize.ShloMosaic.Pipeline (Dat)

namespace Cert.KernelIdeal.Final4

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The body's one store holds its payload of the loaded blocks. -/
theorem out_eq (x0 : Vec F S5000x14 .f32) (x1 x2 : Vec F S1x14 .f32) (x3 : Vec F S2x14 .f32) (x4 : Vec F S1x2 .f32) :
    out4_5 x0 x1 x2 x3 x4 = k4_pay1 x0 x1 x2 x3 x4 := by
  unfold out4_5
  rw [View.canon_unit_zero hz]
  simp only [View.ld_unit_zero (S := S5000x14) hz, View.ld_unit_zero (S := S1x14) hz, View.ld_unit_zero (S := S2x14) hz, View.ld_unit_zero (S := S1x2) hz]

/-- The block of the result that grid point `t` computes from its input blocks. -/
def hblk (c : Dev nD) (t : Fin cfg4.N) : Vec F S5000x2 .f32 :=
  k4_pay1 (iblk4 V c 0 t) (iblk4 V c 1 t) (iblk4 V c 2 t) (iblk4 V c 3 t) (iblk4 V c 4 t)

/-- The result as one array: row `i` lies in block `i / 5000` at position `i % 5000`. -/
def Hout (c : Dev nD) : S100000x2.Idx → Elt F .f32 := fun i =>
  hblk V c ⟨(i 0).val / 5000, by have hN : cfg4.N = 20 := N_4; have h : (i 0).val < 100000 := (i 0).isLt; rw [hN]; omega⟩
    (ValueIdx.ix2 (⟨(i 0).val % 5000, Nat.mod_lt _ (by norm_num)⟩ : Fin 5000) (⟨(i 1).val, (i 1).isLt⟩ : Fin 2))

/-- At row `5000 t + r`, column `q`, the array is block `t` at `(r, q)`. -/
theorem Hout_at (c : Dev nD) (t : Fin cfg4.N) (r : Fin 5000) (q : Fin 2) (i : S100000x2.Idx)
    (h0 : (i 0).val = 5000 * t.val + r.val) (h1 : (i 1).val = q.val) : Hout V c i = hblk V c t (ValueIdx.ix2 r q) := by
  have hr := r.isLt
  have ht : (i 0).val / 5000 = t.val := by omega
  have hm : (i 0).val % 5000 = r.val := by omega
  have e1 : ∀ h, (⟨(i 0).val / 5000, h⟩ : Fin cfg4.N) = t := fun h => Fin.ext ht
  have e2 : ∀ h, (⟨(i 0).val % 5000, h⟩ : Fin 5000) = r := fun h => Fin.ext hm
  unfold Hout
  rw [e1, e2]
  exact congrArg (fun z => hblk V c t (ValueIdx.ix2 r z)) (Fin.ext h1)

/-- The result window's block index is the grid point itself; its column block is the only one. -/
theorem idx5 : ∀ t : Fin cfg4.N, win4_5.index t (0 : Fin 2) = t.val ∧ win4_5.index t (1 : Fin 2) = 0 :=
  (by decide +kernel : ∀ t : Fin grid4.N, _)

/-- What point `t` writes back to the result array is block `t` of `Hout`. -/
theorem flushed5_eq (c : Dev nD) (t : Fin cfg4.N) :
    (dat4 V c).flushed 5 t = ((cfg4.win 5).blk t).view.read (Elt F) (Hout V c) := by
  show (cfg4.win 5).cut (grid4.coords t) ((dat4 V c).after 5 t) = _
  rw [after4_5, out_eq]
  obtain ⟨e0, e1⟩ := idx5 t
  funext y
  have hy0 : (y 0).val < 5000 := (y 0).isLt
  have hy1 : (y 1).val < 2 := (y 1).isLt
  show hblk V c t y = Hout V c (((cfg4.win 5).blk t).view.emb y)
  rw [Hout_at V c t ⟨(y 0).val, hy0⟩ ⟨(y 1).val, hy1⟩ _
    (by show win4_5.index t (0 : Fin 2) * 5000 + 1 * (y 0).val = 5000 * t.val + (y 0).val; rw [e0]; omega)
    (by show win4_5.index t (1 : Fin 2) * 2 + 1 * (y 1).val = (y 1).val; rw [e1]; omega)]
  exact congrArg (hblk V c t) (ValueIdx.eq_ix2 y)

/-- An index of the result array is in point `t`'s block iff each coordinate is in the block's range on its axis. -/
theorem mem_blk5 (t : Fin cfg4.N) (i : S100000x2.Idx) :
    i ∈ ((cfg4.win 5).blk t).view.set ↔ ∀ a : Fin 2, win4_5.index t a * S5000x2.size a ≤ (i a).val ∧ (i a).val < win4_5.index t a * S5000x2.size a + S5000x2.size a := by
  show i ∈ ((View.whole main_v96).slice (win4_5.rect t)).set ↔ _
  rw [View.set_slice_whole, Rect.mem_set_unit]
  exact Iff.rfl

/-- So after the run the result array is `Hout`: every row lies in the block of the point `row / 5000`. -/
theorem final5 (c : Dev nD) : (dat4 V c).arrAt 5 cfg4.N = Hout V c :=
  (dat4 V c).arrAt_eq_of_cover 5 (Hout V c) (fun t _ => flushed5_eq V c t) fun i => by
    have hN : cfg4.N = 20 := N_4
    have h0 : (i 0).val < 100000 := (i 0).isLt
    have h1 : (i 1).val < 2 := (i 1).isLt
    refine ⟨⟨(i 0).val / 5000, by rw [hN]; omega⟩, flush4_5 _, ?_⟩
    obtain ⟨e0, e1⟩ := idx5 (⟨(i 0).val / 5000, by rw [hN]; omega⟩ : Fin cfg4.N)
    rw [mem_blk5]
    intro a
    match a with
    | ⟨0, _⟩ =>
      show win4_5.index _ (0 : Fin 2) * 5000 ≤ (i 0).val ∧ (i 0).val < win4_5.index _ (0 : Fin 2) * 5000 + 5000
      rw [e0]; dsimp only; omega
    | ⟨1, _⟩ =>
      show win4_5.index _ (1 : Fin 2) * 2 ≤ (i 1).val ∧ (i 1).val < win4_5.index _ (1 : Fin 2) * 2 + 2
      rw [e1]; omega

end Cert.KernelIdeal.Final4

end
-- ==== Proof.Final4Ideal.lean ====
/-
  The last region at the extended reals: the closed form of the result array.

  Row `i` of the result is the logarithm of the softmax of the row's two logits; logit `q` is the clipped affine image of
  row `i` of the last hidden activation (scale and shift feature by feature, then the maximum with zero) against row `q`
  of the weight, plus the bias: 14 features in, 2 logits out.
-/
import proofs.«119158_j67731634258670_1_alg».proof.Proof.Final4
import proofs.«119158_j67731634258670_1_alg».proof.Proof.Payloads04
import proofs.«119158_j67731634258670_1_alg».proof.Proof.Spec

noncomputable section

open scoped BigOperators
open Idealize.ShloMosaic Idealize.ShloMosaic.ValueIdx Idealize.ShloMosaic.TcCoe Idealize.SL.Sem

namespace Cert.KernelIdeal.Final4I

open Cert.KernelIdeal Cert.KernelIdeal.Gen

variable (V : (c : Dev nD) → (b : Ref sig .tc) → Buf (Elt Ideal) ((c : Thread nD τ).loc b))

/-- The last hidden activation, as the region finds it. -/
abbrev Hin (c : Dev nD) : S100000x14.Idx → EReal := V c (Pipeline.arrRef spec4 0)
/-- The scale row. -/
abbrev Sc (c : Dev nD) : S1x14.Idx → EReal := V c (Pipeline.arrRef spec4 1)
/-- The shift row. -/
abbrev Sh (c : Dev nD) : S1x14.Idx → EReal := V c (Pipeline.arrRef spec4 2)
/-- The weight matrix, one row per logit. -/
abbrev Wt (c : Dev nD) : S2x14.Idx → EReal := V c (Pipeline.arrRef spec4 3)
/-- The bias row. -/
abbrev Bi (c : Dev nD) : S1x2.Idx → EReal := V c (Pipeline.arrRef spec4 4)

/-! ## The input windows' blocks, read off the arrays as the region finds them -/

theorem idx0 : ∀ t : Fin cfg4.N, win4_0.index t (0 : Fin 2) = t.val ∧ win4_0.index t (1 : Fin 2) = 0 :=
  (by decide +kernel : ∀ t : Fin grid4.N, _)

/-- Block `t` of the activation at `(r, k)` is the array at row `5000 t + r`, column `k`. -/
theorem iblk0_at (c : Dev nD) (t : Fin cfg4.N) (r : Fin 5000) (k : Fin 14) (i : S100000x14.Idx)
    (h0 : (i 0).val = 5000 * t.val + r.val) (h1 : (i 1).val = k.val) :
    iblk4 V c 0 t (ix2 r k) = V c (Pipeline.arrRef spec4 0) i := by
  obtain ⟨e0, e1⟩ := idx0 t
  unfold iblk4
  rw [View.read_apply]
  refine congrArg (V c (Pipeline.arrRef spec4 0)) (funext fun a => Fin.ext ?_)
  match a with
  | ⟨0, _⟩ => show win4_0.index t (0 : Fin 2) * 5000 + 1 * r.val = (i 0).val; rw [e0, h0]; omega
  | ⟨1, _⟩ => show win4_0.index t (1 : Fin 2) * 14 + 1 * k.val = (i 1).val; rw [e1, h1]; omega

theorem idx1 : ∀ t : Fin cfg4.N, win4_1.index t (0 : Fin 2) = 0 ∧ win4_1.index t (1 : Fin 2) = 0 :=
  (by decide +kernel : ∀ t : Fin grid4.N, _)

/-- Window 1's one block is its whole array. -/
theorem iblk1_at (c : Dev nD) (t : Fin cfg4.N) (y : S1x14.Idx) : iblk4 V c 1 t y = V c (Pipeline.arrRef spec4 1) y := by
  obtain ⟨e0, e1⟩ := idx1 t
  unfold iblk4
  rw [View.read_apply]
  refine congrArg (V c (Pipeline.arrRef spec4 1)) (funext fun a => Fin.ext ?_)
  match a with
  | ⟨0, _⟩ => show win4_1.index t (0 : Fin 2) * 1 + 1 * (y 0).val = (y 0).val; rw [e0]; omega
  | ⟨1, _⟩ => show win4_1.index t (1 : Fin 2) * 14 + 1 * (y 1).val = (y 1).val; rw [e1]; omega

theorem idx2 : ∀ t : Fin cfg4.N, win4_2.index t (0 : Fin 2) = 0 ∧ win4_2.index t (1 : Fin 2) = 0 :=
  (by decide +kernel : ∀ t : Fin grid4.N, _)

/-- Window 2's one block is its whole array. -/
theorem iblk2_at (c : Dev nD) (t : Fin cfg4.N) (y : S1x14.Idx) : iblk4 V c 2 t y = V c (Pipeline.arrRef spec4 2) y := by
  obtain ⟨e0, e1⟩ := idx2 t
  unfold iblk4
  rw [View.read_apply]
  refine congrArg (V c (Pipeline.arrRef spec4 2)) (funext fun a => Fin.ext ?_)
  match a with
  | ⟨0, _⟩ => show win4_2.index t (0 : Fin 2) * 1 + 1 * (y 0).val = (y 0).val; rw [e0]; omega
  | ⟨1, _⟩ => show win4_2.index t (1 : Fin 2) * 14 + 1 * (y 1).val = (y 1).val; rw [e1]; omega

theorem idx3 : ∀ t : Fin cfg4.N, win4_3.index t (0 : Fin 2) = 0 ∧ win4_3.index t (1 : Fin 2) = 0 :=
  (by decide +kernel : ∀ t : Fin grid4.N, _)

/-- Window 3's one block is its whole array. -/
theorem iblk3_at (c : Dev nD) (t : Fin cfg4.N) (y : S2x14.Idx) : iblk4 V c 3 t y = V c (Pipeline.arrRef spec4 3) y := by
  obtain ⟨e0, e1⟩ := idx3 t
  unfold iblk4
  rw [View.read_apply]
  refine congrArg (V c (Pipeline.arrRef spec4 3)) (funext fun a => Fin.ext ?_)
  match a with
  | ⟨0, _⟩ => show win4_3.index t (0 : Fin 2) * 2 + 1 * (y 0).val = (y 0).val; rw [e0]; omega
  | ⟨1, _⟩ => show win4_3.index t (1 : Fin 2) * 14 + 1 * (y 1).val = (y 1).val; rw [e1]; omega

theorem idx4 : ∀ t : Fin cfg4.N, win4_4.index t (0 : Fin 2) = 0 ∧ win4_4.index t (1 : Fin 2) = 0 :=
  (by decide +kernel : ∀ t : Fin grid4.N, _)

/-- Window 4's one block is its whole array. -/
theorem iblk4_at (c : Dev nD) (t : Fin cfg4.N) (y : S1x2.Idx) : iblk4 V c 4 t y = V c (Pipeline.arrRef spec4 4) y := by
  obtain ⟨e0, e1⟩ := idx4 t
  unfold iblk4
  rw [View.read_apply]
  refine congrArg (V c (Pipeline.arrRef spec4 4)) (funext fun a => Fin.ext ?_)
  match a with
  | ⟨0, _⟩ => show win4_4.index t (0 : Fin 2) * 1 + 1 * (y 0).val = (y 0).val; rw [e0]; omega
  | ⟨1, _⟩ => show win4_4.index t (1 : Fin 2) * 2 + 1 * (y 1).val = (y 1).val; rw [e1]; omega

/-! ## The result array -/

/-- Logit `q` of row `i`, from the arrays. -/
def logit (c : Dev nD) (i : Fin 100000) (q : Fin 2) : EReal :=
  (∑ k : Fin 14, max (Hin V c (ix2 i k) * Sc V c (ix2 (0 : Fin 1) k) + Sh V c (ix2 (0 : Fin 1) k))
        (Ideal.ofBits .f32 0x00000000#32) * Wt V c (ix2 q k))
    + Bi V c (ix2 (0 : Fin 1) q)

/-- Block `t` of the result at `(r, j)`, from the arrays: its row is row `5000 t + r`. -/
theorem hblk_apply (c : Dev nD) (t : Fin cfg4.N) (r : Fin 5000) (j : Fin 2) (i : Fin 100000)
    (hi : i.val = 5000 * t.val + r.val) :
    Final4.hblk V c t (ix2 r j) = Cert.Spec.lsmRow (logit V c i) j := by
  unfold Final4.hblk
  rw [Pay.k4_pay1_apply]
  have e0 : ∀ k : Fin 14, iblk4 V c 0 t (ix2 r k) = Hin V c (ix2 i k) :=
    fun k => iblk0_at V c t r k (ix2 i k) hi rfl
  have e1 : ∀ k : Fin 14, iblk4 V c 1 t (ix2 (0 : Fin 1) k) = Sc V c (ix2 (0 : Fin 1) k) :=
    fun k => iblk1_at V c t _
  have e2 : ∀ k : Fin 14, iblk4 V c 2 t (ix2 (0 : Fin 1) k) = Sh V c (ix2 (0 : Fin 1) k) :=
    fun k => iblk2_at V c t _
  have e3 : ∀ (q : Fin 2) (k : Fin 14), iblk4 V c 3 t (ix2 q k) = Wt V c (ix2 q k) :=
    fun q k => iblk3_at V c t _
  have e4 : ∀ q : Fin 2, iblk4 V c 4 t (ix2 (0 : Fin 1) q) = Bi V c (ix2 (0 : Fin 1) q) :=
    fun q => iblk4_at V c t _
  refine congrArg (fun f : Fin 2 → EReal => Cert.Spec.lsmRow f j) (funext fun q => ?_)
  refine congrArg₂ (· + ·) (Finset.sum_congr rfl fun k _ => ?_) (e4 q)
  exact congrArg₂ (· * ·)
    (congrArg₂ max (congrArg₂ (· + ·) (congrArg₂ (· * ·) (e0 k) (e1 k)) (e2 k)) rfl) (e3 q k)

/-- THE RESULT at `(i, j)`. -/
theorem Hout_apply (c : Dev nD) (i : Fin 100000) (j : Fin 2) :
    Final4.Hout V c (ix2 i j)
      = Cert.Spec.lsmRow
          (fun q : Fin 2 =>
            (∑ k : Fin 14, max (Hin V c (ix2 i k) * Sc V c (ix2 (0 : Fin 1) k) + Sh V c (ix2 (0 : Fin 1) k))
                (Ideal.ofBits .f32 0x00000000#32) * Wt V c (ix2 q k))
              + Bi V c (ix2 (0 : Fin 1) q)) j := by
  have hN : cfg4.N = 20 := N_4
  have hi := i.isLt
  have hd : i.val = 5000 * (i.val / 5000) + i.val % 5000 := (Nat.div_add_mod i.val 5000).symm
  rw [Final4.Hout_at V c ⟨i.val / 5000, by rw [hN]; omega⟩ ⟨i.val % 5000, Nat.mod_lt _ (by norm_num)⟩ j
    (ix2 i j) hd rfl]
  exact hblk_apply V c _ _ j i hd

end Cert.KernelIdeal.Final4I

end
-- ==== Proof.KernelHost4.lean ====
/-
  The host operations between the fourth and the fifth region of the kernel program, read at an index, from any
  contents `W` of the buffers. From the 14 column sums `S` and sums of squares `Q` of the fourth region they compute
  the mean `S / n`, the variance `max (Q / n - mean · mean) 0`, its stabilised reciprocal root, the scale `g · inv` and
  the shift `b - g · mean · inv`, each a row of 14 entries; the bias of the last layer (2 entries) is laid out as a
  row; nothing else is written.
-/
import proofs.«119158_j67731634258670_1_alg».proof.Proof.Gen.KernelIdeal.Launch
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

open Cert.KernelIdeal Cert.KernelIdeal.Gen Idealize.ShloMosaic Idealize.ShloMosaic.ValueIdx Idealize.ShloMosaic.TcCoe
open Idealize.ShloMosaic.StableHlo
open scoped BigOperators

noncomputable section

namespace Cert.KernelIdeal.HostOps

/-- The product of two extended reals, for a factor whose type is the contents of a buffer at an index. -/
local notation:70 a:70 " *ᵣ " b:71 => @HMul.hMul EReal EReal EReal instHMul a b
/-- The difference of two extended reals, likewise. -/
local notation:65 a:65 " -ᵣ " b:66 => @HSub.hSub EReal EReal EReal instHSub a b
/-- The row count's word. -/
local notation "cN" => Ideal.ofBits FTy.f32 0x47C35000#32
/-- The zero word. -/
local notation "z0" => Ideal.ofBits FTy.f32 0x00000000#32
/-- The stabiliser's word. -/
local notation "eps" => Ideal.ofBits FTy.f32 0x3727C5AC#32

/-- The host's reciprocal square root at an index is the extended reals' of the element. -/
private theorem hostRsqrt_apply {s : Shape} {φ : FTy} (a : FVec Ideal s φ) (i : s.Idx) :
    Host.rsqrt a i = Ideal.rsqrt (a i) := rfl

/-- The scale row at an entry, for rows of any width: gain times the reciprocal root of the larger of
    `Q / n - (S / n) · (S / n)` and zero, plus the stabiliser. -/
private theorem scale_row {a : ℕ} (hb : (⟨0, ![]⟩ : Shape).BroadcastsInDim ⟨2, ![1, a]⟩ ![])
    (g S Q : FVec Ideal ⟨2, ![1, a]⟩ .f32) (o : (⟨2, ![1, a]⟩ : Shape).Idx) :
    mulf g
        (Host.rsqrt
          (addf
            (maximumf
              (subf (Host.divf Q (broadcastInDim ⟨2, ![1, a]⟩ ![] hb (constant (F := Ideal) ⟨0, ![]⟩ .f32 0x47C35000#32)))
                (mulf (Host.divf S (broadcastInDim ⟨2, ![1, a]⟩ ![] hb (constant (F := Ideal) ⟨0, ![]⟩ .f32 0x47C35000#32)))
                  (Host.divf S (broadcastInDim ⟨2, ![1, a]⟩ ![] hb (constant (F := Ideal) ⟨0, ![]⟩ .f32 0x47C35000#32)))))
              (broadcastInDim ⟨2, ![1, a]⟩ ![] hb (constant (F := Ideal) ⟨0, ![]⟩ .f32 0x00000000#32)))
            (broadcastInDim ⟨2, ![1, a]⟩ ![] hb (constant (F := Ideal) ⟨0, ![]⟩ .f32 0x3727C5AC#32)))) o
      = g o
        * Ideal.rsqrt
            (max (Ideal.div (Q o) (Ideal.ofBits .f32 0x47C35000#32)
                  - Ideal.div (S o) (Ideal.ofBits .f32 0x47C35000#32) * Ideal.div (S o) (Ideal.ofBits .f32 0x47C35000#32))
                (Ideal.ofBits .f32 0x00000000#32)
              + Ideal.ofBits .f32 0x3727C5AC#32) := by
  simp only [mulf_apply, addf_apply, subf_apply, maximumf_apply, hostDivf_apply, hostRsqrt_apply,
    broadcastInDim_scalar_apply, constant_apply]
  rfl

/-- The shift row at an entry, for rows of any width: offset less gain times `S / n` times the same reciprocal root. -/
private theorem shift_row {a : ℕ} (hb : (⟨0, ![]⟩ : Shape).BroadcastsInDim ⟨2, ![1, a]⟩ ![])
    (g b S Q : FVec Ideal ⟨2, ![1, a]⟩ .f32) (o : (⟨2, ![1, a]⟩ : Shape).Idx) :
    subf b
        (mulf
          (mulf g (Host.divf S (broadcastInDim ⟨2, ![1, a]⟩ ![] hb (constant (F := Ideal) ⟨0, ![]⟩ .f32 0x47C35000#32))))
          (Host.rsqrt
            (addf
              (maximumf
                (subf
                  (Host.divf Q (broadcastInDim ⟨2, ![1, a]⟩ ![] hb (constant (F := Ideal) ⟨0, ![]⟩ .f32 0x47C35000#32)))
                  (mulf
                    (Host.divf S (broadcastInDim ⟨2, ![1, a]⟩ ![] hb (constant (F := Ideal) ⟨0, ![]⟩ .f32 0x47C35000#32)))
                    (Host.divf S (broadcastInDim ⟨2, ![1, a]⟩ ![] hb (constant (F := Ideal) ⟨0, ![]⟩ .f32 0x47C35000#32)))))
                (broadcastInDim ⟨2, ![1, a]⟩ ![] hb (constant (F := Ideal) ⟨0, ![]⟩ .f32 0x00000000#32)))
              (broadcastInDim ⟨2, ![1, a]⟩ ![] hb (constant (F := Ideal) ⟨0, ![]⟩ .f32 0x3727C5AC#32))))) o
      = b o
        - g o * Ideal.div (S o) (Ideal.ofBits .f32 0x47C35000#32)
          * Ideal.rsqrt
              (max (Ideal.div (Q o) (Ideal.ofBits .f32 0x47C35000#32)
                    - Ideal.div (S o) (Ideal.ofBits .f32 0x47C35000#32) * Ideal.div (S o) (Ideal.ofBits .f32 0x47C35000#32))
                  (Ideal.ofBits .f32 0x00000000#32)
                + Ideal.ofBits .f32 0x3727C5AC#32) := by
  simp only [mulf_apply, addf_apply, subf_apply, maximumf_apply, hostDivf_apply, hostRsqrt_apply,
    broadcastInDim_scalar_apply, constant_apply]
  rfl

variable (W : Valuation τ sig (Elt Ideal))

/-- The fourth region's column sums. -/
local notation "Sv" => (W (Proc.devRef Proc.tc main_v77_1) : S1x14.Idx → EReal)
/-- The fourth region's column sums of squares. -/
local notation "Qv" => (W (Proc.devRef Proc.tc main_v77_2) : S1x14.Idx → EReal)
/-- The normalisation's gain. -/
local notation "gv" => (W (Proc.devRef Proc.tc main_arg19) : S14.Idx → EReal)
/-- The normalisation's offset. -/
local notation "bv" => (W (Proc.devRef Proc.tc main_arg20) : S14.Idx → EReal)

/-- The scale of column `k`: the normalisation's gain times the reciprocal root of the stabilised variance. -/
theorem scale4_apply (k : Fin 14) :
    (StableHlo.after hostOps4 W (Proc.devRef .tc main_v91) : S1x14.Idx → EReal) (ix2 (0 : Fin 1) k)
      = gv (ix1 k)
        *ᵣ Ideal.rsqrt
            (max (Ideal.div (Qv (ix2 (0 : Fin 1) k)) cN
                  - Ideal.div (Sv (ix2 (0 : Fin 1) k)) cN * Ideal.div (Sv (ix2 (0 : Fin 1) k)) cN) z0
              + eps) := by
  after_results_simp
  refine (scale_row bcast_S_S1x14 _ _ _ _).trans ?_
  rw [← shapeCast_a_1a_apply gv shapeCasts_S14_S1x14 (0 : Fin 1) k]
  rfl

/-- The shift of column `k`: the normalisation's offset less gain times mean times the reciprocal root. -/
theorem shift4_apply (k : Fin 14) :
    (StableHlo.after hostOps4 W (Proc.devRef .tc main_v94) : S1x14.Idx → EReal) (ix2 (0 : Fin 1) k)
      = bv (ix1 k)
        -ᵣ (gv (ix1 k) *ᵣ Ideal.div (Sv (ix2 (0 : Fin 1) k)) cN)
          * Ideal.rsqrt
              (max (Ideal.div (Qv (ix2 (0 : Fin 1) k)) cN
                    - Ideal.div (Sv (ix2 (0 : Fin 1) k)) cN * Ideal.div (Sv (ix2 (0 : Fin 1) k)) cN) z0
                + eps) := by
  after_results_simp
  refine (shift_row bcast_S_S1x14 _ _ _ _ _).trans ?_
  rw [← shapeCast_a_1a_apply gv shapeCasts_S14_S1x14 (0 : Fin 1) k,
    ← shapeCast_a_1a_apply bv shapeCasts_S14_S1x14 (0 : Fin 1) k]
  rfl

/-- The last layer's bias laid out as a row. -/
theorem bias4_apply (j : Fin 2) :
    (StableHlo.after hostOps4 W (Proc.devRef .tc main_v95) : S1x2.Idx → EReal) (ix2 (0 : Fin 1) j)
      = (W (Proc.devRef .tc main_arg14) : S2.Idx → EReal) (ix1 j) := by
  after_results_simp
  rw [← shapeCast_a_1a_apply (W (Proc.devRef .tc main_arg14) : S2.Idx → EReal) shapeCasts_S2_S1x2 (0 : Fin 1) j]
  rfl

/-- The fourth region's normalised-input buffer is not written. -/
theorem keep4_h :
    StableHlo.after hostOps4 W (Proc.devRef .tc main_v77_0) = W (Proc.devRef .tc main_v77_0) := by
  after_results_simp

/-- The last layer's weight is not written. -/
theorem keep4_w :
    StableHlo.after hostOps4 W (Proc.devRef .tc main_arg13) = W (Proc.devRef .tc main_arg13) := by
  after_results_simp

end Cert.KernelIdeal.HostOps

end
-- ==== Proof.RefLayers3.lean ====
/-
  The fourth normalisation block, the last dense layer and the final log-softmax of the reference program read at an
  index: the block takes each of the 14 columns of the third dense layer's output through mean, variance, scale and shift
  and the rectifier; the dense layer maps the 14 rectified columns to the 2 logits; the log-softmax subtracts from each
  logit the row's maximum and the logarithm of the sum of the exponentials of the row's shifted logits. The row's maximum
  is a fold of `max` from `-∞` over the two entries, then a maximum with `-∞` again: both `-∞` vanish.
-/
import proofs.«119158_j67731634258670_1_alg».proof.Proof.ReadP
import proofs.«119158_j67731634258670_1_alg».proof.Proof.RefLayers0
import proofs.«119158_j67731634258670_1_alg».proof.Proof.Consts
import proofs.«119158_j67731634258670_1_alg».proof.Proof.Spec

open Idealize.ShloMosaic Idealize.ShloMosaic.ValueIdx
open Cert.ReferenceIdeal Cert.ReferenceIdeal.Gen
open scoped BigOperators

noncomputable section

namespace Cert.ReferenceIdeal.Layers

variable (x0 : (⟨S100000x128, .f32⟩ : BufTy).Contents (Elt Ideal))
variable (x1 : (⟨S2x1600000, .i32⟩ : BufTy).Contents (Elt Ideal))
variable (x2 : (⟨S256x128, .f32⟩ : BufTy).Contents (Elt Ideal))
variable (x3 : (⟨S256, .f32⟩ : BufTy).Contents (Elt Ideal))
variable (x4 : (⟨S256x128, .f32⟩ : BufTy).Contents (Elt Ideal))
variable (x5 x6 : (⟨S256, .f32⟩ : BufTy).Contents (Elt Ideal))
variable (x7 : (⟨S256x256, .f32⟩ : BufTy).Contents (Elt Ideal))
variable (x8 : (⟨S256, .f32⟩ : BufTy).Contents (Elt Ideal))
variable (x9 : (⟨S64x256, .f32⟩ : BufTy).Contents (Elt Ideal))
variable (x10 : (⟨S64, .f32⟩ : BufTy).Contents (Elt Ideal))
variable (x11 : (⟨S14x64, .f32⟩ : BufTy).Contents (Elt Ideal))
variable (x12 : (⟨S14, .f32⟩ : BufTy).Contents (Elt Ideal))
variable (x13 : (⟨S2x14, .f32⟩ : BufTy).Contents (Elt Ideal))
variable (x14 : (⟨S2, .f32⟩ : BufTy).Contents (Elt Ideal))
variable (x15 x16 : (⟨S256, .f32⟩ : BufTy).Contents (Elt Ideal))
variable (x17 x18 : (⟨S64, .f32⟩ : BufTy).Contents (Elt Ideal))
variable (x19 x20 : (⟨S14, .f32⟩ : BufTy).Contents (Elt Ideal))

/-- The third dense layer's output, the block's input. -/
local notation "H3" => Read.val_main_v123 (F := Ideal) x0 x1 x2 x3 x4 x5 x6 x7 x8 x9 x10 x11 x12 x15 x16 x17 x18
/-- The columns' means. -/
local notation "M3" => Read.val_main_v126 (F := Ideal) x0 x1 x2 x3 x4 x5 x6 x7 x8 x9 x10 x11 x12 x15 x16 x17 x18
/-- The columns' variances. -/
local notation "V3" => Read.val_main_v133 (F := Ideal) x0 x1 x2 x3 x4 x5 x6 x7 x8 x9 x10 x11 x12 x15 x16 x17 x18
/-- The block's output. -/
local notation "A3" =>
  Read.val_main_v149 (F := Ideal) x0 x1 x2 x3 x4 x5 x6 x7 x8 x9 x10 x11 x12 x15 x16 x17 x18 x19 x20
/-- The logits. -/
local notation "Z" =>
  Read.val_main_v154 (F := Ideal) x0 x1 x2 x3 x4 x5 x6 x7 x8 x9 x10 x11 x12 x13 x14 x15 x16 x17 x18 x19 x20

/-! ## The fourth normalisation block -/

/-- The mean of column `k` of the third dense layer's output. -/
theorem mean3 (k : Fin 14) :
    M3 (ix1 k)
      = Ideal.div (Ideal.ofBits .f32 0x00000000#32 + ∑ r : Fin 100000, H3 (ix2 r k))
        (Ideal.ofBits .f32 0x47C35000#32) := by
  have e : ∀ r : Fin 100000, Read.idx_main_v124 (ix1 k) r = ix2 r k := fun r => funext fun a => Fin.ext (by
    match a with | ⟨0, _⟩ => rfl | ⟨1, _⟩ => rfl)
  rw [Read.val_main_v126_apply, Read.val_main_v124_apply, Read.val_main_v125_apply, Read.val_main_cst_20_apply,
    Read.val_main_cst_19_apply]
  simp only [e]
  rfl

/-- The variance of column `k`: the mean of the squared deviations from the column's mean. -/
theorem var3 (k : Fin 14) :
    V3 (ix1 k)
      = Ideal.div (Ideal.ofBits .f32 0x00000000#32
          + ∑ r : Fin 100000, (H3 (ix2 r k) - M3 (ix1 k)) * (H3 (ix2 r k) - M3 (ix1 k)))
        (Ideal.ofBits .f32 0x47C35000#32) := by
  have e : ∀ r : Fin 100000, Read.idx_main_v131 (ix1 k) r = ix2 r k := fun r => funext fun a => Fin.ext (by
    match a with | ⟨0, _⟩ => rfl | ⟨1, _⟩ => rfl)
  have em : ∀ r : Fin 100000, Read.idx_main_v127 (Read.idx_main_v128 (ix2 r k)) = ix1 k := fun r => funext fun a =>
    Fin.ext (by match a with | ⟨0, _⟩ => rfl)
  have hs : ∀ r : Fin 100000,
      Read.val_main_v130 (F := Ideal) x0 x1 x2 x3 x4 x5 x6 x7 x8 x9 x10 x11 x12 x15 x16 x17 x18
          (Read.idx_main_v131 (ix1 k) r)
        = (H3 (ix2 r k) - M3 (ix1 k)) * (H3 (ix2 r k) - M3 (ix1 k)) := fun r => by
    rw [e r, Read.val_main_v130_apply, Read.val_main_v129_apply, Read.val_main_v128_apply, Read.val_main_v127_apply,
      em r]
    rfl
  rw [Read.val_main_v133_apply, Read.val_main_v131_apply, Read.val_main_v132_apply, Read.val_main_cst_22_apply,
    Read.val_main_cst_21_apply]
  simp only [hs]
  rfl

/-- The block's output at `(i, k)` from the column's mean and variance. -/
theorem bnOut3 (i : Fin 100000) (k : Fin 14) :
    A3 (ix2 i k)
      = max (x19 (ix1 k) * (H3 (ix2 i k) - M3 (ix1 k))
            * Ideal.rsqrt (V3 (ix1 k) + Ideal.ofBits .f32 0x3727C5AC#32)
          + x20 (ix1 k))
        (Ideal.ofBits .f32 0x00000000#32) := by
  have eg : Read.idx_main_v137 (Read.idx_main_v138 (ix2 i k)) = ix1 k := funext fun a => Fin.ext (by
    match a with | ⟨0, _⟩ => rfl)
  have em : Read.idx_main_v134 (Read.idx_main_v135 (ix2 i k)) = ix1 k := funext fun a => Fin.ext (by
    match a with | ⟨0, _⟩ => rfl)
  have ev : Read.idx_main_v143 (Read.idx_main_v144 (ix2 i k)) = ix1 k := funext fun a => Fin.ext (by
    match a with | ⟨0, _⟩ => rfl)
  have eb : Read.idx_main_v146 (Read.idx_main_v147 (ix2 i k)) = ix1 k := funext fun a => Fin.ext (by
    match a with | ⟨0, _⟩ => rfl)
  rw [Read.val_main_v149_apply, Read.val_main_v148_apply, Read.val_main_v145_apply, Read.val_main_v139_apply,
    Read.val_main_v138_apply, Read.val_main_v137_apply, eg, Read.val_main_v136_apply, Read.val_main_v135_apply,
    Read.val_main_v134_apply, em, Read.val_main_v144_apply, Read.val_main_v143_apply, ev, Read.val_main_v142_apply,
    Read.val_main_v141_apply, Read.val_main_v140_apply, Read.val_main_cst_23_apply, Read.val_main_v147_apply,
    Read.val_main_v146_apply, eb, Read.val_main_call3_v0_apply, Read.val_main_call3_cst_apply]
  rfl

/-- The fourth normalisation block on a finite input: the real `bnRelu` of the column. -/
theorem bn3 (hr : Fin 100000 → Fin 14 → ℝ) (hH : ∀ i k, H3 (ix2 i k) = ((hr i k : ℝ) : EReal))
    (gr br : Fin 14 → ℝ) (hg : ∀ k, x19 (ix1 k) = ((gr k : ℝ) : EReal))
    (hb : ∀ k, x20 (ix1 k) = ((br k : ℝ) : EReal)) (i : Fin 100000) (k : Fin 14) :
    A3 (ix2 i k)
      = ((Cert.LibBatchNorm.bnRelu (fun i' => hr i' k) (gr k) (br k) Cert.Consts.epsR i : ℝ) : EReal) := by
  rw [bnOut3]
  exact bn_column (by norm_num) (fun i' => H3 (ix2 i' k)) (fun i' => hr i' k) (fun i' => hH i' k) _ _ (gr k) (br k)
    Cert.Consts.epsR (hg k) (hb k) Cert.Consts.epsR_pos _ _ _ _ _ ofBits_rows Cert.Consts.ofBits_eps
    Ideal.ofBits_zero_f32 Ideal.ofBits_zero_f32 Ideal.ofBits_zero_f32 _ _
    (mean3 x0 x1 x2 x3 x4 x5 x6 x7 x8 x9 x10 x11 x12 x15 x16 x17 x18 k)
    (var3 x0 x1 x2 x3 x4 x5 x6 x7 x8 x9 x10 x11 x12 x15 x16 x17 x18 k) i

/-! ## The last dense layer -/

/-- Row `i`, column `j` of the last dense layer: the block's output in row `i` against row `j` of the weight, plus the
    bias. -/
theorem lin4 (i : Fin 100000) (j : Fin 2) :
    Z (ix2 i j) = (∑ c : Fin 14, A3 (ix2 i c) * x13 (ix2 j c)) + x14 (ix1 j) := by
  have el : ∀ c : Fin 14, Read.lidx_main_v151 (ix2 i j) c = ix2 i c := fun c => funext fun a => Fin.ext (by
    match a with | ⟨0, _⟩ => rfl | ⟨1, _⟩ => rfl)
  have er : ∀ c : Fin 14, Read.idx_main_v150 (Read.ridx_main_v151 (ix2 i j) c) = ix2 j c := fun c => funext fun a =>
    Fin.ext (by match a with | ⟨0, _⟩ => rfl | ⟨1, _⟩ => rfl)
  have eb : Read.idx_main_v152 (Read.idx_main_v153 (ix2 i j)) = ix1 j := funext fun a => Fin.ext (by
    match a with | ⟨0, _⟩ => rfl)
  rw [Read.val_main_v154_apply, Read.val_main_v151_apply, Read.val_main_v153_apply, Read.val_main_v152_apply, eb,
    Ideal.addf_def]
  refine congrArg₂ (· + ·) ?_ rfl
  refine Finset.sum_congr rfl fun c _ => ?_
  rw [Read.val_main_v150_apply, el c, er c]

/-! ## The log-softmax -/

/-- The row's maximum as the reference computes it — a fold of `max` from `-∞` over the row's two logits, then the
    maximum with `-∞` — is the larger of the two logits. -/
theorem rowMax_read (i : Fin 100000) :
    Read.val_main_call4_v2 (F := Ideal) x0 x1 x2 x3 x4 x5 x6 x7 x8 x9 x10 x11 x12 x13 x14 x15 x16 x17 x18 x19 x20 (ix1 i)
      = Cert.Spec.rowMax (fun q => Z (ix2 i q)) := by
  have hred : S100000x2.Reduces [1] S100000 := by decide
  have e : ∀ q : Fin 2, hred.lift (ix1 i) q = ix2 i q := fun q => funext fun a => Fin.ext (by
    match a with | ⟨0, _⟩ => rfl | ⟨1, _⟩ => rfl)
  rw [Read.val_main_call4_v2_apply, Read.val_main_call4_v1_apply, Read.val_main_call4_cst_0_apply]
  unfold Read.val_main_call4_v0
  rw [Host.reduce_eq_fold_single FloatOps.maximumf _ _ reducesTo_S100000x2_S100000_d1 hred h_S_ (ix1 i),
    Read.val_main_call4_cst_apply, Ideal.ofBits_def, Cert.Consts.ofBits_neg_inf, Ideal.maximumf_def, max_bot_left]
  refine (fold_max_two (fun q : Fin 2 => Z (hred.lift (ix1 i) q))).trans ?_
  rw [e 0, e 1]
  rfl

/-- The result at `(i, j)`: the log-softmax of row `i` of the logits, at entry `j`. -/
theorem lsm (i : Fin 100000) (j : Fin 2) :
    Read.val_main_v155 (F := Ideal) x0 x1 x2 x3 x4 x5 x6 x7 x8 x9 x10 x11 x12 x13 x14 x15 x16 x17 x18 x19 x20 (ix2 i j)
      = Cert.Spec.lsmRow (fun q => Z (ix2 i q)) j := by
  have em : ∀ q : Fin 2, Read.idx_main_call4_v3 (Read.idx_main_call4_v4 (ix2 i q)) = ix1 i := fun q => funext fun a =>
    Fin.ext (by match a with | ⟨0, _⟩ => rfl)
  have es : Read.idx_main_call4_v8 (Read.idx_main_call4_v10 (ix2 i j)) = ix1 i := funext fun a => Fin.ext (by
    match a with | ⟨0, _⟩ => rfl)
  have ek : ∀ q : Fin 2, Read.idx_main_call4_v7 (ix1 i) q = ix2 i q := fun q => funext fun a => Fin.ext (by
    match a with | ⟨0, _⟩ => rfl | ⟨1, _⟩ => rfl)
  have h5 : ∀ q : Fin 2,
      Read.val_main_call4_v5 (F := Ideal) x0 x1 x2 x3 x4 x5 x6 x7 x8 x9 x10 x11 x12 x13 x14 x15 x16 x17 x18 x19 x20
          (ix2 i q)
        = Z (ix2 i q) - Cert.Spec.rowMax (fun q => Z (ix2 i q)) := fun q => by
    rw [Read.val_main_call4_v5_apply, Read.val_main_call4_v4_apply, Read.val_main_call4_v3_apply, em q, rowMax_read]
    rfl
  have h6 : ∀ q : Fin 2,
      Read.val_main_call4_v6 (F := Ideal) x0 x1 x2 x3 x4 x5 x6 x7 x8 x9 x10 x11 x12 x13 x14 x15 x16 x17 x18 x19 x20
          (Read.idx_main_call4_v7 (ix1 i) q)
        = Ideal.exp (Z (ix2 i q) - Cert.Spec.rowMax (fun q => Z (ix2 i q))) := fun q => by
    rw [ek q, Read.val_main_call4_v6_apply, h5 q]
    rfl
  rw [Read.val_main_v155_apply, h5 j, Read.val_main_call4_v10_apply, Read.val_main_call4_v9_apply,
    Read.val_main_call4_v8_apply, es, Read.val_main_call4_v7_apply, Read.val_main_call4_cst_1_apply]
  simp only [h6]
  rw [Ideal.ofBits_def, Ideal.ofBits_zero_f32, zero_add]
  rfl

end Cert.ReferenceIdeal.Layers

end
-- ==== Proof.KChain4.lean ====
import proofs.«119158_j67731634258670_1_alg».proof.Proof.Final4Ideal
import proofs.«119158_j67731634258670_1_alg».proof.Proof.KernelHost4
import proofs.«119158_j67731634258670_1_alg».proof.Proof.RefLayers3
import proofs.«119158_j67731634258670_1_alg».proof.Proof.LibBatchNorm
import proofs.«119158_j67731634258670_1_alg».proof.Proof.Consts

/-!
# The last region of the kernel against the reference

Given that the kernel's last hidden activation array is the reference's, with real entries, and that the two
accumulators hold its column sums and column sums of squares, the kernel's affine map and ramp is the reference's
normalisation and ramp, so the two logits of every row agree and so do their log-softmax entries.
-/

noncomputable section

open Idealize.ShloMosaic Idealize.ShloMosaic.ValueIdx Idealize.ShloMosaic.TcCoe Idealize.SL.Sem

namespace Cert.KernelIdeal.Chain

open Cert.KernelIdeal Cert.KernelIdeal.Gen Cert.ReferenceIdeal.Layers

variable (m : (ℓ : Loc nD τ sig) → Buf (Elt Ideal) ℓ) (ρ : Dev nD → PrngReg)

theorem layer4 (c : Dev nD) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S256x128, .f32⟩ : BufTy).Contents (Elt Ideal)) (x3 : (⟨Cert.ReferenceIdeal.S256, .f32⟩ : BufTy).Contents (Elt Ideal)) (x4 : (⟨Cert.ReferenceIdeal.S256x128, .f32⟩ : BufTy).Contents (Elt Ideal)) (x5 : (⟨Cert.ReferenceIdeal.S256, .f32⟩ : BufTy).Contents (Elt Ideal)) (x6 : (⟨Cert.ReferenceIdeal.S256, .f32⟩ : BufTy).Contents (Elt Ideal)) (x7 : (⟨Cert.ReferenceIdeal.S256x256, .f32⟩ : BufTy).Contents (Elt Ideal)) (x8 : (⟨Cert.ReferenceIdeal.S256, .f32⟩ : BufTy).Contents (Elt Ideal)) (x9 : (⟨Cert.ReferenceIdeal.S64x256, .f32⟩ : BufTy).Contents (Elt Ideal)) (x10 : (⟨Cert.ReferenceIdeal.S64, .f32⟩ : BufTy).Contents (Elt Ideal)) (x11 : (⟨Cert.ReferenceIdeal.S14x64, .f32⟩ : BufTy).Contents (Elt Ideal)) (x12 : (⟨Cert.ReferenceIdeal.S14, .f32⟩ : BufTy).Contents (Elt Ideal)) (x13 : (⟨Cert.ReferenceIdeal.S2x14, .f32⟩ : BufTy).Contents (Elt Ideal)) (x14 : (⟨Cert.ReferenceIdeal.S2, .f32⟩ : BufTy).Contents (Elt Ideal)) (x15 : (⟨Cert.ReferenceIdeal.S256, .f32⟩ : BufTy).Contents (Elt Ideal)) (x16 : (⟨Cert.ReferenceIdeal.S256, .f32⟩ : BufTy).Contents (Elt Ideal)) (x17 : (⟨Cert.ReferenceIdeal.S64, .f32⟩ : BufTy).Contents (Elt Ideal)) (x18 : (⟨Cert.ReferenceIdeal.S64, .f32⟩ : BufTy).Contents (Elt Ideal)) (x19 : (⟨Cert.ReferenceIdeal.S14, .f32⟩ : BufTy).Contents (Elt Ideal)) (x20 : (⟨Cert.ReferenceIdeal.S14, .f32⟩ : BufTy).Contents (Elt Ideal))
    (hxg : (W8 m ρ c (Proc.devRef .tc main_arg19) : S14.Idx → EReal) = x19) (hxb : (W8 m ρ c (Proc.devRef .tc main_arg20) : S14.Idx → EReal) = x20)
    (hxw : W8 m ρ c (Proc.devRef .tc main_arg13) = x13) (hxbias : (W8 m ρ c (Proc.devRef .tc main_arg14) : S2.Idx → EReal) = x14)
    (hr : Fin 100000 → Fin 14 → ℝ) (gr br : Fin 14 → ℝ)
    (hg : ∀ k, x19 (ix1 k) = ((gr k : ℝ) : EReal)) (hb : ∀ k, x20 (ix1 k) = ((br k : ℝ) : EReal))
    (hH : ∀ i k, Cert.ReferenceIdeal.Read.val_main_v123 (F := Ideal) x0 x1 x2 x3 x4 x5 x6 x7 x8 x9 x10 x11 x12 x15 x16 x17 x18 (ix2 i k) = ((hr i k : ℝ) : EReal))
    (h0 : ∀ i k, (W8 m ρ c (Proc.devRef .tc main_v77_0) : S100000x14.Idx → EReal) (ix2 i k) = Cert.ReferenceIdeal.Read.val_main_v123 (F := Ideal) x0 x1 x2 x3 x4 x5 x6 x7 x8 x9 x10 x11 x12 x15 x16 x17 x18 (ix2 i k))
    (hS : ∀ k, (W8 m ρ c (Proc.devRef .tc main_v77_1) : S1x14.Idx → EReal) (ix2 (0 : Fin 1) k) = (∑ i : Fin 100000, Cert.ReferenceIdeal.Read.val_main_v123 (F := Ideal) x0 x1 x2 x3 x4 x5 x6 x7 x8 x9 x10 x11 x12 x15 x16 x17 x18 (ix2 i k) : EReal))
    (hQ : ∀ k, (W8 m ρ c (Proc.devRef .tc main_v77_2) : S1x14.Idx → EReal) (ix2 (0 : Fin 1) k) = (∑ i : Fin 100000, Cert.ReferenceIdeal.Read.val_main_v123 (F := Ideal) x0 x1 x2 x3 x4 x5 x6 x7 x8 x9 x10 x11 x12 x15 x16 x17 x18 (ix2 i k) * Cert.ReferenceIdeal.Read.val_main_v123 (F := Ideal) x0 x1 x2 x3 x4 x5 x6 x7 x8 x9 x10 x11 x12 x15 x16 x17 x18 (ix2 i k) : EReal)) :
    ∀ i j, (W10 m ρ c (Proc.devRef .tc main_v96) : S100000x2.Idx → EReal) (ix2 i j) = Cert.ReferenceIdeal.Read.val_main_v155 (F := Ideal) x0 x1 x2 x3 x4 x5 x6 x7 x8 x9 x10 x11 x12 x13 x14 x15 x16 x17 x18 x19 x20 (ix2 i j) := by
  have eH : W10 m ρ c (Proc.devRef .tc main_v96) = Final4.Hout (V9 m ρ) c := (W10_arr m ρ c 5).trans (Final4.final5 (V9 m ρ) c)
  have hc : Ideal.ofBits .f32 0x47C35000#32 = (((100000 : ℕ) : ℝ) : EReal) := by rw [Cert.Consts.ofBits_n]; norm_num
  have hact : ∀ i k, max (Final4I.Hin (V9 m ρ) c (ix2 i k) * Final4I.Sc (V9 m ρ) c (ix2 (0 : Fin 1) k) + Final4I.Sh (V9 m ρ) c (ix2 (0 : Fin 1) k)) (Ideal.ofBits .f32 0x00000000#32)
      = Cert.ReferenceIdeal.Read.val_main_v149 (F := Ideal) x0 x1 x2 x3 x4 x5 x6 x7 x8 x9 x10 x11 x12 x15 x16 x17 x18 x19 x20 (ix2 i k) := by
    intro i k
    have e1 : Final4I.Hin (V9 m ρ) c = W8 m ρ c (Proc.devRef .tc main_v77_0) := HostOps.keep4_h (W8 m ρ c)
    have e2 := HostOps.scale4_apply (W8 m ρ c) k
    have e3 := HostOps.shift4_apply (W8 m ρ c) k
    rw [e1, show Final4I.Sc (V9 m ρ) c (ix2 (0 : Fin 1) k) = _ from e2, show Final4I.Sh (V9 m ρ) c (ix2 (0 : Fin 1) k) = _ from e3, h0, hS, hQ, hxg, hxb, hg, hb, bn3 x0 x1 x2 x3 x4 x5 x6 x7 x8 x9 x10 x11 x12 x15 x16 x17 x18 x19 x20 hr hH gr br hg hb i k]
    simp only [hH]
    exact Cert.LibBatchNorm.scaleShift_form_inl (n := 100000) (by norm_num) (fun i' => hr i' k) (gr k) (br k) Cert.Consts.epsR Cert.Consts.epsR_pos
      (Ideal.ofBits .f32 0x47C35000#32) (Ideal.ofBits .f32 0x3727C5AC#32) (Ideal.ofBits .f32 0x00000000#32) hc Cert.Consts.ofBits_eps Ideal.ofBits_zero_f32 i
  intro i j
  have eW : Final4I.Wt (V9 m ρ) c = x13 := (HostOps.keep4_w (W8 m ρ c)).trans hxw
  rw [eH, Final4I.Hout_apply, lsm x0 x1 x2 x3 x4 x5 x6 x7 x8 x9 x10 x11 x12 x13 x14 x15 x16 x17 x18 x19 x20 i j]
  refine congrArg (fun z => Cert.Spec.lsmRow z j) (funext fun q => ?_)
  have eB : Final4I.Bi (V9 m ρ) c (ix2 (0 : Fin 1) q) = x14 (ix1 q) := (HostOps.bias4_apply (W8 m ρ c) q).trans (by rw [hxbias])
  rw [lin4 x0 x1 x2 x3 x4 x5 x6 x7 x8 x9 x10 x11 x12 x13 x14 x15 x16 x17 x18 x19 x20 i q]
  refine congrArg₂ (· + ·) (Finset.sum_congr rfl fun k _ => ?_) eB
  rw [hact i k, eW]

end Cert.KernelIdeal.Chain

end
-- ==== Proof.KArgs.lean ====
import proofs.«119158_j67731634258670_1_alg».proof.Proof.Gen.KernelIdeal.Frame

/-!
# The argument arrays as the regions find them

No host operation and no region of the idealized kernel program writes an argument array, so at every boundary between
a stretch of host operations and a region an argument buffer still holds its launch contents. Stated here for the
boundaries and arguments the value proof reads.
-/

noncomputable section

open Idealize.ShloMosaic Idealize.ShloMosaic.TcCoe Idealize.SL.Sem

namespace Cert.KernelIdeal.Args

open Cert.KernelIdeal Cert.KernelIdeal.Gen

variable {F : FTy → Type} [FloatOps F]
variable (m : (ℓ : Loc nD τ sig) → Buf (Elt F) ℓ) (ρ : Dev nD → PrngReg)

theorem W0_arg0 (c : Dev nD) : W0 m ρ c (Proc.devRef .tc main_arg0) = m ((c : Thread nD τ).loc main_arg0) :=
  calc W0 m ρ c (Proc.devRef .tc main_arg0)
    _ = m ((c : Thread nD τ).loc main_arg0) := rfl

theorem W0_arg1 (c : Dev nD) : W0 m ρ c (Proc.devRef .tc main_arg1) = m ((c : Thread nD τ).loc main_arg1) :=
  calc W0 m ρ c (Proc.devRef .tc main_arg1)
    _ = m ((c : Thread nD τ).loc main_arg1) := rfl

theorem W0_arg2 (c : Dev nD) : W0 m ρ c (Proc.devRef .tc main_arg2) = m ((c : Thread nD τ).loc main_arg2) :=
  calc W0 m ρ c (Proc.devRef .tc main_arg2)
    _ = m ((c : Thread nD τ).loc main_arg2) := rfl

theorem W0_arg3 (c : Dev nD) : W0 m ρ c (Proc.devRef .tc main_arg3) = m ((c : Thread nD τ).loc main_arg3) :=
  calc W0 m ρ c (Proc.devRef .tc main_arg3)
    _ = m ((c : Thread nD τ).loc main_arg3) := rfl

theorem W0_arg4 (c : Dev nD) : W0 m ρ c (Proc.devRef .tc main_arg4) = m ((c : Thread nD τ).loc main_arg4) :=
  calc W0 m ρ c (Proc.devRef .tc main_arg4)
    _ = m ((c : Thread nD τ).loc main_arg4) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W4_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W6_arg17 (c : Dev nD) : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem W6_arg18 (c : Dev nD) : W6 m ρ c (Proc.devRef .tc main_arg18) = m ((c : Thread nD τ).loc main_arg18) :=
  calc W6 m ρ c (Proc.devRef .tc main_arg18)
    _ = W5 m ρ c (Proc.devRef .tc main_arg18) := W6_of_ne m ρ c main_arg18 (by decide)
    _ = W4 m ρ c (Proc.devRef .tc main_arg18) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem W6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W8_arg19 (c : Dev nD) : W8 m ρ c (Proc.devRef .tc main_arg19) = m ((c : Thread nD τ).loc main_arg19) :=
  calc W8 m ρ c (Proc.devRef .tc main_arg19)
    _ = W7 m ρ c (Proc.devRef .tc main_arg19) := W8_of_ne m ρ c main_arg19 (by decide)
    _ = W6 m ρ c (Proc.devRef .tc main_arg19) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

theorem W8_arg20 (c : Dev nD) : W8 m ρ c (Proc.devRef .tc main_arg20) = m ((c : Thread nD τ).loc main_arg20) :=
  calc W8 m ρ c (Proc.devRef .tc main_arg20)
    _ = W7 m ρ c (Proc.devRef .tc main_arg20) := W8_of_ne m ρ c main_arg20 (by decide)
    _ = W6 m ρ c (Proc.devRef .tc main_arg20) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := W6_of_ne m ρ c main_arg20 (by decide)
    _ = W4 m ρ c (Proc.devRef .tc main_arg20) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

theorem W8_arg13 (c : Dev nD) : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W8_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := StableHlo.after_of_forall_not_mem _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

end Cert.KernelIdeal.Args

end
-- ==== Proof.AggregateReal.lean ====
/-
  The neighbour aggregation of the reference, read as real numbers.

  The neighbour sums are a row gather of the node features followed by an accumulating row scatter
  into a zero array; the in-degree counts are an accumulating scatter of ones into a zero array.
  Every entry of a gather is an entry of its operand, and an accumulating scatter read at an index
  is the operand there plus a finite sum of update entries. So for real node features the neighbour
  sums are real, the counts are nonnegative reals, and the quotient of a sum by the larger of the
  count and one is a real: its divisor is a real that is at least one, hence not zero.
-/
import proofs.«119158_j67731634258670_1_alg».proof.Proof.ReadP
import proofs.«119158_j67731634258670_1_alg».proof.Proof.Consts
import Idealize.ShloMosaic.Lib.IdealHost
import Idealize.ShloMosaic.PureOps.Ideal

noncomputable section

open scoped BigOperators

namespace Cert.ReferenceIdeal.AggReal

open Idealize.ShloMosaic Idealize.ShloMosaic.ValueIdx
open Cert.ReferenceIdeal

/-! ### Finite sums of reals inside the extended reals -/

/-- A finite sum of extended reals each of which is a real is a real. -/
theorem exists_real_sum {ι : Type*} (s : Finset ι) (f : ι → EReal)
    (hf : ∀ j ∈ s, ∃ r : ℝ, f j = (r : EReal)) : ∃ r : ℝ, ∑ j ∈ s, f j = (r : EReal) := by
  classical
  induction s using Finset.induction_on with
  | empty => exact ⟨0, by simp⟩
  | insert a s ha ih =>
    obtain ⟨ra, hra⟩ := hf a (Finset.mem_insert_self a s)
    obtain ⟨rs, hrs⟩ := ih (fun j hj => hf j (Finset.mem_insert_of_mem hj))
    exact ⟨ra + rs, by rw [Finset.sum_insert ha, hra, hrs, EReal.coe_add]⟩

/-- A finite sum of extended reals each of which is a nonnegative real is a nonnegative real. -/
theorem exists_nonneg_real_sum {ι : Type*} (s : Finset ι) (f : ι → EReal)
    (hf : ∀ j ∈ s, ∃ r : ℝ, 0 ≤ r ∧ f j = (r : EReal)) :
    ∃ r : ℝ, 0 ≤ r ∧ ∑ j ∈ s, f j = (r : EReal) := by
  classical
  induction s using Finset.induction_on with
  | empty => exact ⟨0, le_refl 0, by simp⟩
  | insert a s ha ih =>
    obtain ⟨ra, h0a, hra⟩ := hf a (Finset.mem_insert_self a s)
    obtain ⟨rs, h0s, hrs⟩ := ih (fun j hj => hf j (Finset.mem_insert_of_mem hj))
    exact ⟨ra + rs, add_nonneg h0a h0s, by rw [Finset.sum_insert ha, hra, hrs, EReal.coe_add]⟩

/-! ### A gather and an accumulating scatter of real arrays are real arrays -/

/-- Every entry of a gather is some entry of its operand (the start index is clamped into the
    operand), so a gather of an array of reals is an array of reals. -/
theorem gather_real {s si t : Shape} {w : Nat} {φ : FTy} (d : GatherDims s si t) (x : FVec Ideal s φ)
    (idx : IVec si w) (hx : ∀ i, ∃ r : ℝ, x i = (r : EReal)) :
    ∀ j, ∃ r : ℝ, Host.gather d x idx j = (r : EReal) :=
  fun j => hx (d.operandIdx j idx)

/-- An accumulating scatter, read at an index, is the operand there plus the sum of the updates
    that land there. -/
theorem scatterAdd_apply {s si su : Shape} {w : Nat} {φ : FTy} (d : ScatterDims s si su)
    (x : FVec Ideal s φ) (idx : IVec si w) (upd : FVec Ideal su φ) (i : s.Idx) :
    Host.scatterAdd d x idx upd i
      = x i + ∑ j ∈ Finset.univ.filter (fun j => d.resultIdx? j idx = some i), upd j := rfl

/-- An accumulating scatter of real updates into a real operand is a real array. -/
theorem scatterAdd_real {s si su : Shape} {w : Nat} {φ : FTy} (d : ScatterDims s si su)
    (x : FVec Ideal s φ) (idx : IVec si w) (upd : FVec Ideal su φ)
    (hx : ∀ i, ∃ r : ℝ, x i = (r : EReal)) (hu : ∀ j, ∃ r : ℝ, upd j = (r : EReal)) :
    ∀ i, ∃ r : ℝ, Host.scatterAdd d x idx upd i = (r : EReal) := by
  intro i
  obtain ⟨rx, hrx⟩ := hx i
  obtain ⟨rs, hrs⟩ := exists_real_sum (Finset.univ.filter (fun j => d.resultIdx? j idx = some i)) upd
    (fun j _ => hu j)
  exact ⟨rx + rs, by rw [scatterAdd_apply, hrx, hrs, EReal.coe_add]⟩

/-- An accumulating scatter of nonnegative real updates into a nonnegative real operand is an
    array of nonnegative reals. -/
theorem scatterAdd_nonneg_real {s si su : Shape} {w : Nat} {φ : FTy} (d : ScatterDims s si su)
    (x : FVec Ideal s φ) (idx : IVec si w) (upd : FVec Ideal su φ)
    (hx : ∀ i, ∃ r : ℝ, 0 ≤ r ∧ x i = (r : EReal)) (hu : ∀ j, ∃ r : ℝ, 0 ≤ r ∧ upd j = (r : EReal)) :
    ∀ i, ∃ r : ℝ, 0 ≤ r ∧ Host.scatterAdd d x idx upd i = (r : EReal) := by
  intro i
  obtain ⟨rx, h0x, hrx⟩ := hx i
  obtain ⟨rs, h0s, hrs⟩ := exists_nonneg_real_sum
    (Finset.univ.filter (fun j => d.resultIdx? j idx = some i)) upd (fun j _ => hu j)
  exact ⟨rx + rs, add_nonneg h0x h0s, by rw [scatterAdd_apply, hrx, hrs, EReal.coe_add]⟩

/-- A quotient of a real by the larger of a nonnegative real and one is a real: the divisor is a
    real that is at least one. -/
theorem div_max_one_real (a n : ℝ) (one : EReal) (h1 : one = ((1 : ℝ) : EReal)) :
    ∃ r : ℝ, Ideal.div (a : EReal) (max (n : EReal) one) = (r : EReal) := by
  subst h1
  have hmax : max (n : EReal) ((1 : ℝ) : EReal) = ((max n 1 : ℝ) : EReal) :=
    (EReal.coe_strictMono.monotone.map_max).symm
  have hne : (max n 1 : ℝ) ≠ 0 := (lt_of_lt_of_le one_pos (le_max_right n 1)).ne'
  exact ⟨a * (1 / max n 1), by rw [hmax, Ideal.div_coe hne, EReal.coe_mul]⟩

/-! ### The reference's neighbour sums, in-degree counts and their quotient -/

section Reference

variable [Facts₀]

/-- The zero array the neighbour sums accumulate into is the real zero everywhere. -/
theorem zeros2_real : ∀ i, ∃ r : ℝ, Read.val_main_v11 (F := Ideal) i = (r : EReal) :=
  fun _ => ⟨0, Ideal.ofBits_zero_f32⟩

/-- The zero array the counts accumulate into is the real zero everywhere. -/
theorem zeros1_real : ∀ i, ∃ r : ℝ, 0 ≤ r ∧ Read.val_main_v15 (F := Ideal) i = (r : EReal) :=
  fun _ => ⟨0, le_refl 0, Ideal.ofBits_zero_f32⟩

/-- The array of ones the counts add up is the real one everywhere. -/
theorem ones_real : ∀ j, ∃ r : ℝ, 0 ≤ r ∧ Read.val_main_v14 (F := Ideal) j = (r : EReal) :=
  fun _ => ⟨1, zero_le_one, Cert.Consts.ofBits_one⟩

/-- The neighbour sums of real node features are real. -/
theorem sums_real (x0 : FVec Ideal S100000x128 .f32) (x1 : IVec S2x1600000 32)
    (h0 : ∀ i, ∃ r : ℝ, x0 i = (r : EReal)) :
    ∀ i, ∃ r : ℝ, Read.val_main_v13 (F := Ideal) x0 x1 i = (r : EReal) :=
  scatterAdd_real _ _ _ _ zeros2_real (gather_real _ x0 _ h0)

/-- The in-degree counts are nonnegative reals. -/
theorem counts_real (x1 : IVec S2x1600000 32) :
    ∀ i, ∃ r : ℝ, 0 ≤ r ∧ Read.val_main_v17 (F := Ideal) x1 i = (r : EReal) :=
  scatterAdd_nonneg_real _ _ _ _ zeros1_real ones_real

/-- The neighbour mean — the neighbour sum over the larger of the count and one — is real. -/
theorem mean_real (x0 : FVec Ideal S100000x128 .f32) (x1 : IVec S2x1600000 32)
    (h0 : ∀ i, ∃ r : ℝ, x0 i = (r : EReal)) :
    ∀ (i : Fin 100000) (c : Fin 128), ∃ r : ℝ,
      Ideal.div (Read.val_main_v13 (F := Ideal) x0 x1 (ix2 i c))
        (max (Read.val_main_v17 (F := Ideal) x1 (ix1 i)) (Ideal.ofBits .f32 0x3F800000#32)) = (r : EReal) := by
  intro i c
  obtain ⟨a, ha⟩ := sums_real x0 x1 h0 (ix2 i c)
  obtain ⟨n, -, hn⟩ := counts_real x1 (ix1 i)
  rw [ha, hn]
  exact div_max_one_real a n _ Cert.Consts.ofBits_one

end Reference

end Cert.ReferenceIdeal.AggReal

end
-- ==== Proof.RefReal.lean ====
/-
  The reference's activations before each normalisation block are arrays of real numbers.

  For real node features, weights, biases, scales and shifts: the neighbour means are real, so the
  aggregation layer's output — two finite sums of products of reals and a bias — is real at every
  entry. A normalisation block followed by the rectifier takes a real array to the coercion of a
  real array, and a dense layer of a real array — at each entry a finite sum of products of reals
  plus a bias — is real again. So the outputs of the aggregation layer and of the three dense
  layers after it are real, one after the other.
-/
import proofs.«119158_j67731634258670_1_alg».proof.Proof.ReadP
import proofs.«119158_j67731634258670_1_alg».proof.Proof.RefLayers
import proofs.«119158_j67731634258670_1_alg».proof.Proof.RefLayers1
import proofs.«119158_j67731634258670_1_alg».proof.Proof.RefLayers2
import proofs.«119158_j67731634258670_1_alg».proof.Proof.AggregateReal
import proofs.«119158_j67731634258670_1_alg».proof.Proof.LibBatchNorm
import proofs.«119158_j67731634258670_1_alg».proof.Proof.Consts

open Idealize.ShloMosaic Idealize.ShloMosaic.ValueIdx
open Cert.ReferenceIdeal Cert.ReferenceIdeal.Gen
open scoped BigOperators

noncomputable section

namespace Cert.ReferenceIdeal.Reals

/-! ### Sums of products of reals -/

/-- A finite sum of products of reals is a real. -/
theorem dot_real {n : ℕ} (a w : Fin n → EReal) (ha : ∀ c, ∃ r : ℝ, a c = (r : EReal))
    (hw : ∀ c, ∃ r : ℝ, w c = (r : EReal)) : ∃ r : ℝ, ∑ c, a c * w c = (r : EReal) :=
  AggReal.exists_real_sum Finset.univ (fun c => a c * w c) fun c _ => by
    obtain ⟨ra, hra⟩ := ha c
    obtain ⟨rw, hrw⟩ := hw c
    exact ⟨ra * rw, by rw [hra, hrw, EReal.coe_mul]⟩

/-- A finite sum of products of reals plus a real is a real. -/
theorem dot_add_real {n : ℕ} (a w : Fin n → EReal) (b : EReal) (ha : ∀ c, ∃ r : ℝ, a c = (r : EReal))
    (hw : ∀ c, ∃ r : ℝ, w c = (r : EReal)) (hb : ∃ r : ℝ, b = (r : EReal)) :
    ∃ r : ℝ, (∑ c, a c * w c) + b = (r : EReal) := by
  obtain ⟨rs, hrs⟩ := dot_real a w ha hw
  obtain ⟨rb, hrb⟩ := hb
  exact ⟨rs + rb, by rw [hrs, hrb, EReal.coe_add]⟩

variable (x0 : (⟨S100000x128, .f32⟩ : BufTy).Contents (Elt Ideal))
variable (x1 : (⟨S2x1600000, .i32⟩ : BufTy).Contents (Elt Ideal))
variable (x2 : (⟨S256x128, .f32⟩ : BufTy).Contents (Elt Ideal))
variable (x3 : (⟨S256, .f32⟩ : BufTy).Contents (Elt Ideal))
variable (x4 : (⟨S256x128, .f32⟩ : BufTy).Contents (Elt Ideal))
variable (x5 x6 : (⟨S256, .f32⟩ : BufTy).Contents (Elt Ideal))
variable (x7 : (⟨S256x256, .f32⟩ : BufTy).Contents (Elt Ideal))
variable (x8 : (⟨S256, .f32⟩ : BufTy).Contents (Elt Ideal))
variable (x9 : (⟨S64x256, .f32⟩ : BufTy).Contents (Elt Ideal))
variable (x10 : (⟨S64, .f32⟩ : BufTy).Contents (Elt Ideal))
variable (x11 : (⟨S14x64, .f32⟩ : BufTy).Contents (Elt Ideal))
variable (x12 : (⟨S14, .f32⟩ : BufTy).Contents (Elt Ideal))
variable (x15 x16 : (⟨S256, .f32⟩ : BufTy).Contents (Elt Ideal))
variable (x17 x18 : (⟨S64, .f32⟩ : BufTy).Contents (Elt Ideal))

/-! ### The aggregation layer -/

/-- Every entry of the aggregation layer's output is a real. -/
theorem v30_pt
    (h0 : ∀ i, ∃ r : ℝ, x0 i = (r : EReal))
    (h2 : ∀ i, ∃ r : ℝ, x2 i = (r : EReal))
    (h3 : ∀ i, ∃ r : ℝ, x3 i = (r : EReal))
    (h4 : ∀ i, ∃ r : ℝ, x4 i = (r : EReal)) :
    ∀ (i : Fin 100000) (k : Fin 256), ∃ r : ℝ,
      Read.val_main_v30 (F := Ideal) x0 x1 x2 x3 x4 (ix2 i k) = (r : EReal) := by
  intro i k
  rw [Layers.sage]
  obtain ⟨r1, e1⟩ := dot_add_real
    (fun c : Fin 128 => Ideal.div (Read.val_main_v13 (F := Ideal) x0 x1 (ix2 i c))
      (max (Read.val_main_v17 (F := Ideal) x1 (ix1 i)) (Ideal.ofBits .f32 0x3F800000#32)))
    (fun c : Fin 128 => x2 (ix2 k c)) (x3 (ix1 k))
    (fun c => AggReal.mean_real x0 x1 h0 i c) (fun c => h2 _) (h3 _)
  obtain ⟨r2, e2⟩ := dot_real (fun c : Fin 128 => x0 (ix2 i c)) (fun c : Fin 128 => x4 (ix2 k c))
    (fun c => h0 _) (fun c => h4 _)
  exact ⟨r1 + r2, (congrArg₂ (· + ·) e1 e2).trans (EReal.coe_add r1 r2).symm⟩

/-- The aggregation layer's output is the coercion of a real array. -/
theorem v30_real
    (h0 : ∀ i, ∃ r : ℝ, x0 i = (r : EReal))
    (h2 : ∀ i, ∃ r : ℝ, x2 i = (r : EReal))
    (h3 : ∀ i, ∃ r : ℝ, x3 i = (r : EReal))
    (h4 : ∀ i, ∃ r : ℝ, x4 i = (r : EReal)) :
    ∃ hr : Fin 100000 → Fin 256 → ℝ, ∀ i k,
      Read.val_main_v30 (F := Ideal) x0 x1 x2 x3 x4 (ix2 i k) = ((hr i k : ℝ) : EReal) := by
  choose hr h using v30_pt x0 x1 x2 x3 x4 h0 h2 h3 h4
  exact ⟨hr, h⟩

/-! ### The first dense layer -/

/-- Every entry of the first dense layer's output is a real. -/
theorem v61_pt
    (h0 : ∀ i, ∃ r : ℝ, x0 i = (r : EReal))
    (h2 : ∀ i, ∃ r : ℝ, x2 i = (r : EReal))
    (h3 : ∀ i, ∃ r : ℝ, x3 i = (r : EReal))
    (h4 : ∀ i, ∃ r : ℝ, x4 i = (r : EReal))
    (h5 : ∀ i, ∃ r : ℝ, x5 i = (r : EReal))
    (h6 : ∀ i, ∃ r : ℝ, x6 i = (r : EReal))
    (h7 : ∀ i, ∃ r : ℝ, x7 i = (r : EReal))
    (h8 : ∀ i, ∃ r : ℝ, x8 i = (r : EReal)) :
    ∀ (i : Fin 100000) (k : Fin 256), ∃ r : ℝ,
      Read.val_main_v61 (F := Ideal) x0 x1 x2 x3 x4 x5 x6 x7 x8 (ix2 i k) = (r : EReal) := by
  obtain ⟨hr, e⟩ := v30_real x0 x1 x2 x3 x4 h0 h2 h3 h4
  have h5' : ∀ k : Fin 256, ∃ r : ℝ, x5 (ix1 k) = (r : EReal) := fun k => h5 _
  have h6' : ∀ k : Fin 256, ∃ r : ℝ, x6 (ix1 k) = (r : EReal) := fun k => h6 _
  choose gr hg using h5'
  choose br hb using h6'
  intro i k
  rw [Layers.lin1]
  exact dot_add_real (fun c : Fin 256 => Read.val_main_v56 (F := Ideal) x0 x1 x2 x3 x4 x5 x6 (ix2 i c))
    (fun c : Fin 256 => x7 (ix2 k c)) (x8 (ix1 k))
    (fun c => ⟨_, Layers.bn0 x0 x1 x2 x3 x4 x5 x6 hr e gr br hg hb i c⟩) (fun c => h7 _) (h8 _)

/-- The first dense layer's output is the coercion of a real array. -/
theorem v61_real
    (h0 : ∀ i, ∃ r : ℝ, x0 i = (r : EReal))
    (h2 : ∀ i, ∃ r : ℝ, x2 i = (r : EReal))
    (h3 : ∀ i, ∃ r : ℝ, x3 i = (r : EReal))
    (h4 : ∀ i, ∃ r : ℝ, x4 i = (r : EReal))
    (h5 : ∀ i, ∃ r : ℝ, x5 i = (r : EReal))
    (h6 : ∀ i, ∃ r : ℝ, x6 i = (r : EReal))
    (h7 : ∀ i, ∃ r : ℝ, x7 i = (r : EReal))
    (h8 : ∀ i, ∃ r : ℝ, x8 i = (r : EReal)) :
    ∃ hr : Fin 100000 → Fin 256 → ℝ, ∀ i k,
      Read.val_main_v61 (F := Ideal) x0 x1 x2 x3 x4 x5 x6 x7 x8 (ix2 i k) = ((hr i k : ℝ) : EReal) := by
  choose hr h using v61_pt x0 x1 x2 x3 x4 x5 x6 x7 x8 h0 h2 h3 h4 h5 h6 h7 h8
  exact ⟨hr, h⟩

/-! ### The second dense layer -/

/-- Every entry of the second dense layer's output is a real. -/
theorem v92_pt
    (h0 : ∀ i, ∃ r : ℝ, x0 i = (r : EReal))
    (h2 : ∀ i, ∃ r : ℝ, x2 i = (r : EReal))
    (h3 : ∀ i, ∃ r : ℝ, x3 i = (r : EReal))
    (h4 : ∀ i, ∃ r : ℝ, x4 i = (r : EReal))
    (h5 : ∀ i, ∃ r : ℝ, x5 i = (r : EReal))
    (h6 : ∀ i, ∃ r : ℝ, x6 i = (r : EReal))
    (h7 : ∀ i, ∃ r : ℝ, x7 i = (r : EReal))
    (h8 : ∀ i, ∃ r : ℝ, x8 i = (r : EReal))
    (h9 : ∀ i, ∃ r : ℝ, x9 i = (r : EReal))
    (h10 : ∀ i, ∃ r : ℝ, x10 i = (r : EReal))
    (h15 : ∀ i, ∃ r : ℝ, x15 i = (r : EReal))
    (h16 : ∀ i, ∃ r : ℝ, x16 i = (r : EReal)) :
    ∀ (i : Fin 100000) (k : Fin 64), ∃ r : ℝ,
      Read.val_main_v92 (F := Ideal) x0 x1 x2 x3 x4 x5 x6 x7 x8 x9 x10 x15 x16 (ix2 i k) = (r : EReal) := by
  obtain ⟨hr, e⟩ := v61_real x0 x1 x2 x3 x4 x5 x6 x7 x8 h0 h2 h3 h4 h5 h6 h7 h8
  have h15' : ∀ k : Fin 256, ∃ r : ℝ, x15 (ix1 k) = (r : EReal) := fun k => h15 _
  have h16' : ∀ k : Fin 256, ∃ r : ℝ, x16 (ix1 k) = (r : EReal) := fun k => h16 _
  choose gr hg using h15'
  choose br hb using h16'
  intro i k
  rw [Layers.lin2]
  exact dot_add_real (fun c : Fin 256 => Read.val_main_v87 (F := Ideal) x0 x1 x2 x3 x4 x5 x6 x7 x8 x15 x16 (ix2 i c))
    (fun c : Fin 256 => x9 (ix2 k c)) (x10 (ix1 k))
    (fun c => ⟨_, Layers.bn1 x0 x1 x2 x3 x4 x5 x6 x7 x8 x15 x16 hr e gr br hg hb i c⟩) (fun c => h9 _) (h10 _)

/-- The second dense layer's output is the coercion of a real array. -/
theorem v92_real
    (h0 : ∀ i, ∃ r : ℝ, x0 i = (r : EReal))
    (h2 : ∀ i, ∃ r : ℝ, x2 i = (r : EReal))
    (h3 : ∀ i, ∃ r : ℝ, x3 i = (r : EReal))
    (h4 : ∀ i, ∃ r : ℝ, x4 i = (r : EReal))
    (h5 : ∀ i, ∃ r : ℝ, x5 i = (r : EReal))
    (h6 : ∀ i, ∃ r : ℝ, x6 i = (r : EReal))
    (h7 : ∀ i, ∃ r : ℝ, x7 i = (r : EReal))
    (h8 : ∀ i, ∃ r : ℝ, x8 i = (r : EReal))
    (h9 : ∀ i, ∃ r : ℝ, x9 i = (r : EReal))
    (h10 : ∀ i, ∃ r : ℝ, x10 i = (r : EReal))
    (h15 : ∀ i, ∃ r : ℝ, x15 i = (r : EReal))
    (h16 : ∀ i, ∃ r : ℝ, x16 i = (r : EReal)) :
    ∃ hr : Fin 100000 → Fin 64 → ℝ, ∀ i k,
      Read.val_main_v92 (F := Ideal) x0 x1 x2 x3 x4 x5 x6 x7 x8 x9 x10 x15 x16 (ix2 i k) = ((hr i k : ℝ) : EReal) := by
  choose hr h using v92_pt x0 x1 x2 x3 x4 x5 x6 x7 x8 x9 x10 x15 x16 h0 h2 h3 h4 h5 h6 h7 h8 h9 h10 h15 h16
  exact ⟨hr, h⟩

/-! ### The third dense layer -/

/-- Every entry of the third dense layer's output is a real. -/
theorem v123_pt
    (h0 : ∀ i, ∃ r : ℝ, x0 i = (r : EReal))
    (h2 : ∀ i, ∃ r : ℝ, x2 i = (r : EReal))
    (h3 : ∀ i, ∃ r : ℝ, x3 i = (r : EReal))
    (h4 : ∀ i, ∃ r : ℝ, x4 i = (r : EReal))
    (h5 : ∀ i, ∃ r : ℝ, x5 i = (r : EReal))
    (h6 : ∀ i, ∃ r : ℝ, x6 i = (r : EReal))
    (h7 : ∀ i, ∃ r : ℝ, x7 i = (r : EReal))
    (h8 : ∀ i, ∃ r : ℝ, x8 i = (r : EReal))
    (h9 : ∀ i, ∃ r : ℝ, x9 i = (r : EReal))
    (h10 : ∀ i, ∃ r : ℝ, x10 i = (r : EReal))
    (h11 : ∀ i, ∃ r : ℝ, x11 i = (r : EReal))
    (h12 : ∀ i, ∃ r : ℝ, x12 i = (r : EReal))
    (h15 : ∀ i, ∃ r : ℝ, x15 i = (r : EReal))
    (h16 : ∀ i, ∃ r : ℝ, x16 i = (r : EReal))
    (h17 : ∀ i, ∃ r : ℝ, x17 i = (r : EReal))
    (h18 : ∀ i, ∃ r : ℝ, x18 i = (r : EReal)) :
    ∀ (i : Fin 100000) (k : Fin 14), ∃ r : ℝ,
      Read.val_main_v123 (F := Ideal) x0 x1 x2 x3 x4 x5 x6 x7 x8 x9 x10 x11 x12 x15 x16 x17 x18 (ix2 i k) = (r : EReal) := by
  obtain ⟨hr, e⟩ := v92_real x0 x1 x2 x3 x4 x5 x6 x7 x8 x9 x10 x15 x16 h0 h2 h3 h4 h5 h6 h7 h8 h9 h10 h15 h16
  have h17' : ∀ k : Fin 64, ∃ r : ℝ, x17 (ix1 k) = (r : EReal) := fun k => h17 _
  have h18' : ∀ k : Fin 64, ∃ r : ℝ, x18 (ix1 k) = (r : EReal) := fun k => h18 _
  choose gr hg using h17'
  choose br hb using h18'
  intro i k
  rw [Layers.lin3]
  exact dot_add_real (fun c : Fin 64 => Read.val_main_v118 (F := Ideal) x0 x1 x2 x3 x4 x5 x6 x7 x8 x9 x10 x15 x16 x17 x18 (ix2 i c))
    (fun c : Fin 64 => x11 (ix2 k c)) (x12 (ix1 k))
    (fun c => ⟨_, Layers.bn2 x0 x1 x2 x3 x4 x5 x6 x7 x8 x9 x10 x15 x16 x17 x18 hr e gr br hg hb i c⟩) (fun c => h11 _) (h12 _)

/-- The third dense layer's output is the coercion of a real array. -/
theorem v123_real
    (h0 : ∀ i, ∃ r : ℝ, x0 i = (r : EReal))
    (h2 : ∀ i, ∃ r : ℝ, x2 i = (r : EReal))
    (h3 : ∀ i, ∃ r : ℝ, x3 i = (r : EReal))
    (h4 : ∀ i, ∃ r : ℝ, x4 i = (r : EReal))
    (h5 : ∀ i, ∃ r : ℝ, x5 i = (r : EReal))
    (h6 : ∀ i, ∃ r : ℝ, x6 i = (r : EReal))
    (h7 : ∀ i, ∃ r : ℝ, x7 i = (r : EReal))
    (h8 : ∀ i, ∃ r : ℝ, x8 i = (r : EReal))
    (h9 : ∀ i, ∃ r : ℝ, x9 i = (r : EReal))
    (h10 : ∀ i, ∃ r : ℝ, x10 i = (r : EReal))
    (h11 : ∀ i, ∃ r : ℝ, x11 i = (r : EReal))
    (h12 : ∀ i, ∃ r : ℝ, x12 i = (r : EReal))
    (h15 : ∀ i, ∃ r : ℝ, x15 i = (r : EReal))
    (h16 : ∀ i, ∃ r : ℝ, x16 i = (r : EReal))
    (h17 : ∀ i, ∃ r : ℝ, x17 i = (r : EReal))
    (h18 : ∀ i, ∃ r : ℝ, x18 i = (r : EReal)) :
    ∃ hr : Fin 100000 → Fin 14 → ℝ, ∀ i k,
      Read.val_main_v123 (F := Ideal) x0 x1 x2 x3 x4 x5 x6 x7 x8 x9 x10 x11 x12 x15 x16 x17 x18 (ix2 i k) = ((hr i k : ℝ) : EReal) := by
  choose hr h using v123_pt x0 x1 x2 x3 x4 x5 x6 x7 x8 x9 x10 x11 x12 x15 x16 x17 x18 h0 h2 h3 h4 h5 h6 h7 h8 h9 h10 h11 h12 h15 h16 h17 h18
  exact ⟨hr, h⟩

end Cert.ReferenceIdeal.Reals

end
-- ==== Proof.FiniteInputs.lean ====
/-
  The precondition read back: every float argument is an array of finite reals.

  The printed predicate is the conjunction, over the twenty float arguments `x`, of
  "every entry of `|x|` is below `+∞`". At the extended reals `|x| = max x (-x)`, which is `+∞`
  at both infinities, so an entry whose absolute value is below `+∞` is a real number. A
  conjunction of one-bit words is one exactly when both words are one, and a reduction by
  conjunction over all axes is one exactly when every entry is one.
-/
import proofs.«119158_j67731634258670_1_alg».proof.Pre_finite_inputs
import proofs.«119158_j67731634258670_1_alg».proof.Proof.Consts
import Idealize.ShloMosaic.Lib.ReduceAll
import Idealize.ShloMosaic.PureOps.Ideal

noncomputable section

namespace Cert.FiniteInputs

open Idealize.ShloMosaic
open Cert.Pre_finite_inputs
open Cert.Consts (ofBits_inf)

/-- A shape of rank zero has exactly one index. -/
instance : Subsingleton S_.Idx := ⟨fun a b => funext fun d => d.elim0⟩

/-- An extended real whose absolute value `max x (-x)` is below `+∞` is a real: at `-∞` the
    negation is `+∞`, at `+∞` the value itself is. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A one-bit word made from a truth value is one exactly when the value is true. -/
theorem ofBool_eq_one {b : Bool} : BitVec.ofBool b = 1#1 ↔ b = true := by cases b <;> decide

/-- "All entries of `|x|` are below `+∞`" is one: then every entry of `x` is a real. Over an
    arbitrary shape `s`, reduced over all of its axes to the shape of rank zero. -/
theorem real_of_all {s : Shape} {axes : List (Fin s.rank)}
    (hb : S_.BroadcastsInDim s (![] : Fin 0 → Fin s.rank)) (hr : s.ReducesTo axes S_) (hu : 0 < S_.numel)
    (x : FVec Ideal s .f32) (init : IVec S_ 1) (j : S_.Idx)
    (e : Host.reduce IntOp.andi
          (cmpf .olt (Host.absf x) (broadcastInDim s ![] hb (constant S_ .f32 0x7F800000#32)))
          init hr hu j = 1#1) :
    ∀ i, ∃ r : ℝ, x i = (r : EReal) := by
  intro i
  have hi := Host.reduce_andi_all _ init hr hu j e i
  have hlt : max (x i) (-(x i)) < Ideal.ofBits .f32 0x7F800000#32 := by
    have h2 : BitVec.ofBool (decide (max (x i) (-(x i)) < Ideal.ofBits .f32 0x7F800000#32)) = 1#1 := hi
    exact of_decide_eq_true (ofBool_eq_one.1 h2)
  rw [ofBits_inf] at hlt
  exact real_of_abs_lt_top (x i) hlt

/-- The precondition decoded: each of the twenty float arguments is real at every index. -/
theorem real_of_pre [Facts] (a0 : FVec Ideal S100000x128 .f32) (a1 : IVec S2x1600000 32) (a2 : FVec Ideal S256x128 .f32) (a3 : FVec Ideal S256 .f32) (a4 : FVec Ideal S256x128 .f32) (a5 : FVec Ideal S256 .f32) (a6 : FVec Ideal S256 .f32) (a7 : FVec Ideal S256x256 .f32) (a8 : FVec Ideal S256 .f32) (a9 : FVec Ideal S64x256 .f32) (a10 : FVec Ideal S64 .f32) (a11 : FVec Ideal S14x64 .f32) (a12 : FVec Ideal S14 .f32) (a13 : FVec Ideal S2x14 .f32) (a14 : FVec Ideal S2 .f32) (a15 : FVec Ideal S256 .f32) (a16 : FVec Ideal S256 .f32) (a17 : FVec Ideal S64 .f32) (a18 : FVec Ideal S64 .f32) (a19 : FVec Ideal S14 .f32) (a20 : FVec Ideal S14 .f32)
    (h : Cert.Pre_finite_inputs.fn (F := Ideal) a0 a1 a2 a3 a4 a5 a6 a7 a8 a9 a10 a11 a12 a13 a14 a15 a16 a17 a18 a19 a20 = fun _ => 1#1) :
    (∀ i, ∃ r : ℝ, a0 i = (r : EReal)) ∧
      (∀ i, ∃ r : ℝ, a2 i = (r : EReal)) ∧
      (∀ i, ∃ r : ℝ, a3 i = (r : EReal)) ∧
      (∀ i, ∃ r : ℝ, a4 i = (r : EReal)) ∧
      (∀ i, ∃ r : ℝ, a5 i = (r : EReal)) ∧
      (∀ i, ∃ r : ℝ, a6 i = (r : EReal)) ∧
      (∀ i, ∃ r : ℝ, a7 i = (r : EReal)) ∧
      (∀ i, ∃ r : ℝ, a8 i = (r : EReal)) ∧
      (∀ i, ∃ r : ℝ, a9 i = (r : EReal)) ∧
      (∀ i, ∃ r : ℝ, a10 i = (r : EReal)) ∧
      (∀ i, ∃ r : ℝ, a11 i = (r : EReal)) ∧
      (∀ i, ∃ r : ℝ, a12 i = (r : EReal)) ∧
      (∀ i, ∃ r : ℝ, a13 i = (r : EReal)) ∧
      (∀ i, ∃ r : ℝ, a14 i = (r : EReal)) ∧
      (∀ i, ∃ r : ℝ, a15 i = (r : EReal)) ∧
      (∀ i, ∃ r : ℝ, a16 i = (r : EReal)) ∧
      (∀ i, ∃ r : ℝ, a17 i = (r : EReal)) ∧
      (∀ i, ∃ r : ℝ, a18 i = (r : EReal)) ∧
      (∀ i, ∃ r : ℝ, a19 i = (r : EReal)) ∧
      (∀ i, ∃ r : ℝ, a20 i = (r : EReal)) := by
  have e := congrFun h (fun a => a.elim0)
  simp only [fn, fn_part1, fn_part2, fn_part3, fn_part4, fn_part5, andi, IntOp.andi_eq_one] at e
  obtain ⟨⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩, h20⟩ := e
  exact ⟨real_of_all _ _ _ a0 _ _ h0,
    real_of_all _ _ _ a2 _ _ h2,
    real_of_all _ _ _ a3 _ _ h3,
    real_of_all _ _ _ a4 _ _ h4,
    real_of_all _ _ _ a5 _ _ h5,
    real_of_all _ _ _ a6 _ _ h6,
    real_of_all _ _ _ a7 _ _ h7,
    real_of_all _ _ _ a8 _ _ h8,
    real_of_all _ _ _ a9 _ _ h9,
    real_of_all _ _ _ a10 _ _ h10,
    real_of_all _ _ _ a11 _ _ h11,
    real_of_all _ _ _ a12 _ _ h12,
    real_of_all _ _ _ a13 _ _ h13,
    real_of_all _ _ _ a14 _ _ h14,
    real_of_all _ _ _ a15 _ _ h15,
    real_of_all _ _ _ a16 _ _ h16,
    real_of_all _ _ _ a17 _ _ h17,
    real_of_all _ _ _ a18 _ _ h18,
    real_of_all _ _ _ a19 _ _ h19,
    real_of_all _ _ _ a20 _ _ h20⟩

end Cert.FiniteInputs

end
-- ==== Proof.KTop.lean ====
import proofs.«119158_j67731634258670_1_alg».proof.Proof.KChain0
import proofs.«119158_j67731634258670_1_alg».proof.Proof.KChain1
import proofs.«119158_j67731634258670_1_alg».proof.Proof.KChain2
import proofs.«119158_j67731634258670_1_alg».proof.Proof.KChain3
import proofs.«119158_j67731634258670_1_alg».proof.Proof.KChain4
import proofs.«119158_j67731634258670_1_alg».proof.Proof.KArgs
import proofs.«119158_j67731634258670_1_alg».proof.Proof.RefReal
import proofs.«119158_j67731634258670_1_alg».proof.Proof.FiniteInputs
import proofs.«119158_j67731634258670_1_alg».proof.Proof.Gen.Pre_finite_inputs

/-!
# The kernel's result is the reference's function of the kernel's own arguments

For finite float arguments every pre-normalisation activation of the reference is an array of real numbers, and so are
the normalisation parameters. Layer by layer the kernel's activation arrays and accumulators are then the reference's
activations and their column sums and column sums of squares; the last region's log-softmax rows are the reference's
result.
-/

noncomputable section

open Idealize.ShloMosaic Idealize.ShloMosaic.ValueIdx Idealize.ShloMosaic.TcCoe Idealize.SL.Sem

namespace Cert.KernelIdeal.Top

open Cert.KernelIdeal Cert.KernelIdeal.Gen

variable (m : (ℓ : Loc nD τ sig) → Buf (Elt Ideal) ℓ) (ρ : Dev nD → PrngReg)

/-- Entry `k` of a real-valued vector, as a real number, for every `k`. -/
theorem choose_vec {n : ℕ} (x : (⟨1, ![n]⟩ : Shape).Idx → EReal) (h : ∀ i, ∃ r : ℝ, x i = (r : EReal)) :
    ∃ g : Fin n → ℝ, ∀ k, x (ix1 k) = ((g k : ℝ) : EReal) :=
  ⟨fun k => Classical.choose (h (ix1 k)), fun k => Classical.choose_spec (h (ix1 k))⟩

theorem kernel_value (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) = fun _ => 1#1) :
    W10 m ρ c (Proc.devRef .tc main_v96) = Cert.ReferenceIdeal.Read.val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  obtain ⟨r0, r2, r3, r4, r5, r6, r7, r8, r9, r10, r11, r12, r13, r14, r15, r16, r17, r18, r19, r20⟩ := Cert.FiniteInputs.real_of_pre _ _ _ _ _ _ _ _ _ _ _ _ _ _ _ _ _ _ _ _ _ hpre
  generalize hx0 : m ((c.tc : Thread nD τ).loc main_arg0) = x0 at *
  generalize hx1 : m ((c.tc : Thread nD τ).loc main_arg1) = x1 at *
  generalize hx2 : m ((c.tc : Thread nD τ).loc main_arg2) = x2 at *
  generalize hx3 : m ((c.tc : Thread nD τ).loc main_arg3) = x3 at *
  generalize hx4 : m ((c.tc : Thread nD τ).loc main_arg4) = x4 at *
  generalize hx5 : m ((c.tc : Thread nD τ).loc main_arg5) = x5 at *
  generalize hx6 : m ((c.tc : Thread nD τ).loc main_arg6) = x6 at *
  generalize hx7 : m ((c.tc : Thread nD τ).loc main_arg7) = x7 at *
  generalize hx8 : m ((c.tc : Thread nD τ).loc main_arg8) = x8 at *
  generalize hx9 : m ((c.tc : Thread nD τ).loc main_arg9) = x9 at *
  generalize hx10 : m ((c.tc : Thread nD τ).loc main_arg10) = x10 at *
  generalize hx11 : m ((c.tc : Thread nD τ).loc main_arg11) = x11 at *
  generalize hx12 : m ((c.tc : Thread nD τ).loc main_arg12) = x12 at *
  generalize hx13 : m ((c.tc : Thread nD τ).loc main_arg13) = x13 at *
  generalize hx14 : m ((c.tc : Thread nD τ).loc main_arg14) = x14 at *
  generalize hx15 : m ((c.tc : Thread nD τ).loc main_arg15) = x15 at *
  generalize hx16 : m ((c.tc : Thread nD τ).loc main_arg16) = x16 at *
  generalize hx17 : m ((c.tc : Thread nD τ).loc main_arg17) = x17 at *
  generalize hx18 : m ((c.tc : Thread nD τ).loc main_arg18) = x18 at *
  generalize hx19 : m ((c.tc : Thread nD τ).loc main_arg19) = x19 at *
  generalize hx20 : m ((c.tc : Thread nD τ).loc main_arg20) = x20 at *
  obtain ⟨hr0, hH0⟩ := Cert.ReferenceIdeal.Reals.v30_real x0 x1 x2 x3 x4 r0 r2 r3 r4
  obtain ⟨hr1, hH1⟩ := Cert.ReferenceIdeal.Reals.v61_real x0 x1 x2 x3 x4 x5 x6 x7 x8 r0 r2 r3 r4 r5 r6 r7 r8
  obtain ⟨hr2, hH2⟩ := Cert.ReferenceIdeal.Reals.v92_real x0 x1 x2 x3 x4 x5 x6 x7 x8 x9 x10 x15 x16 r0 r2 r3 r4 r5 r6 r7 r8 r9 r10 r15 r16
  obtain ⟨hr3, hH3⟩ := Cert.ReferenceIdeal.Reals.v123_real x0 x1 x2 x3 x4 x5 x6 x7 x8 x9 x10 x11 x12 x15 x16 x17 x18 r0 r2 r3 r4 r5 r6 r7 r8 r9 r10 r11 r12 r15 r16 r17 r18
  obtain ⟨g0, hg0⟩ := choose_vec x5 r5
  obtain ⟨b0, hb0⟩ := choose_vec x6 r6
  obtain ⟨g1, hg1⟩ := choose_vec x15 r15
  obtain ⟨b1, hb1⟩ := choose_vec x16 r16
  obtain ⟨g2, hg2⟩ := choose_vec x17 r17
  obtain ⟨b2, hb2⟩ := choose_vec x18 r18
  obtain ⟨g3, hg3⟩ := choose_vec x19 r19
  obtain ⟨b3, hb3⟩ := choose_vec x20 r20
  have L0 := Chain.layer0 m ρ c x0 x1 x2 x3 x4 hx0 hx1 hx2 hx3 hx4
  have L1 := Chain.layer1 m ρ c x0 x1 x2 x3 x4 x5 x6 x7 x8 ((Args.W2_arg5 m ρ c).trans hx5) ((Args.W2_arg6 m ρ c).trans hx6) ((Args.W2_arg7 m ρ c).trans hx7) ((Args.W2_arg8 m ρ c).trans hx8)
    hr0 g0 b0 hg0 hb0 hH0 L0.1 L0.2.1 L0.2.2
  have L2 := Chain.layer2 m ρ c x0 x1 x2 x3 x4 x5 x6 x7 x8 x9 x10 x15 x16 ((Args.W4_arg15 m ρ c).trans hx15) ((Args.W4_arg16 m ρ c).trans hx16) ((Args.W4_arg9 m ρ c).trans hx9) ((Args.W4_arg10 m ρ c).trans hx10)
    hr1 g1 b1 hg1 hb1 hH1 L1.1 L1.2.1 L1.2.2
  have L3 := Chain.layer3 m ρ c x0 x1 x2 x3 x4 x5 x6 x7 x8 x9 x10 x11 x12 x15 x16 x17 x18 ((Args.W6_arg17 m ρ c).trans hx17) ((Args.W6_arg18 m ρ c).trans hx18) ((Args.W6_arg11 m ρ c).trans hx11) ((Args.W6_arg12 m ρ c).trans hx12)
    hr2 g2 b2 hg2 hb2 hH2 L2.1 L2.2.1 L2.2.2
  have L4 := Chain.layer4 m ρ c x0 x1 x2 x3 x4 x5 x6 x7 x8 x9 x10 x11 x12 x13 x14 x15 x16 x17 x18 x19 x20 ((Args.W8_arg19 m ρ c).trans hx19) ((Args.W8_arg20 m ρ c).trans hx20) ((Args.W8_arg13 m ρ c).trans hx13) ((Args.W8_arg14 m ρ c).trans hx14)
    hr3 g3 b3 hg3 hb3 hH3 L3.1 L3.2.1 L3.2.2
  funext idx
  rw [eq_ix2 idx]
  exact L4 _ _

end Cert.KernelIdeal.Top

end
-- ==== Proof.RefRun.lean ====
/- The reference program's run, one layer at a time. The program is a straight line of 204 host operations whose dataflow
   is a chain: each layer reads the previous layer's output buffer and some of the program's arguments, and nothing else.
   The line is cut after each layer's output; over an ARBITRARY valuation that holds the arguments and the previous
   layer's output at its stage function, one piece leaves the next output at the next stage function and the arguments
   as they were. Composing the nine pieces gives the final buffer as the last stage function of the arguments. -/
import proofs.«119158_j67731634258670_1_alg».proof.Proof.ReadP
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The neighbourhood mean and the first dense layer: up to the buffer of `%30`. -/
abbrev seg0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    unary main_arg2 main_v23 ((transpose S128x256 [1, 0] · transposes_S256x128_S128x256_1_0) : (⟨S256x128, .f32⟩ : BufTy).Contents (Elt F) → (⟨S128x256, .f32⟩ : BufTy).Contents (Elt F)),
    binary main_v22 main_v23 main_v24 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v25 (broadcastInDim S1x256 ![1] bcast_S256_S1x256_1 : (⟨S256, .f32⟩ : BufTy).Contents (Elt F) → (⟨S1x256, .f32⟩ : BufTy).Contents (Elt F)),
    unary main_v25 main_v26 (broadcastInDim S100000x256 ![0, 1] bcast_S1x256_S100000x256_0_1 : (⟨S1x256, .f32⟩ : BufTy).Contents (Elt F) → (⟨S100000x256, .f32⟩ : BufTy).Contents (Elt F)),
    binary main_v24 main_v26 main_v27 (addf : (⟨S100000x256, .f32⟩ : BufTy).Contents (Elt F) → (⟨S100000x256, .f32⟩ : BufTy).Contents (Elt F) → (⟨S100000x256, .f32⟩ : BufTy).Contents (Elt F)),
    unary main_arg4 main_v28 ((transpose S128x256 [1, 0] · transposes_S256x128_S128x256_1_0) : (⟨S256x128, .f32⟩ : BufTy).Contents (Elt F) → (⟨S128x256, .f32⟩ : BufTy).Contents (Elt F)),
    binary main_arg0 main_v28 main_v29 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v27 main_v29 main_v30 (addf : (⟨S100000x256, .f32⟩ : BufTy).Contents (Elt F) → (⟨S100000x256, .f32⟩ : BufTy).Contents (Elt F) → (⟨S100000x256, .f32⟩ : BufTy).Contents (Elt F)) ]

/-- The first normalization and its rectifier: up to the buffer of `%56`. -/
abbrev seg1 : List (HloOp τ sig (Elt F)) :=
  [ nullary main_cst_4 (constant S_ .f32 0x00000000#32),
    binary main_v30 main_cst_4 main_v31 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_5 (constant S_ .f32 0x47C35000#32),
    unary main_cst_5 main_v32 (broadcastInDim S256 ![] bcast_S_S256 : (⟨S_, .f32⟩ : BufTy).Contents (Elt F) → (⟨S256, .f32⟩ : BufTy).Contents (Elt F)),
    binary main_v31 main_v32 main_v33 (Host.divf : (⟨S256, .f32⟩ : BufTy).Contents (Elt F) → (⟨S256, .f32⟩ : BufTy).Contents (Elt F) → (⟨S256, .f32⟩ : BufTy).Contents (Elt F)),
    unary main_v33 main_v34 (broadcastInDim S1x256 ![1] bcast_S256_S1x256_1 : (⟨S256, .f32⟩ : BufTy).Contents (Elt F) → (⟨S1x256, .f32⟩ : BufTy).Contents (Elt F)),
    unary main_v34 main_v35 (broadcastInDim S100000x256 ![0, 1] bcast_S1x256_S100000x256_0_1 : (⟨S1x256, .f32⟩ : BufTy).Contents (Elt F) → (⟨S100000x256, .f32⟩ : BufTy).Contents (Elt F)),
    binary main_v30 main_v35 main_v36 (subf : (⟨S100000x256, .f32⟩ : BufTy).Contents (Elt F) → (⟨S100000x256, .f32⟩ : BufTy).Contents (Elt F) → (⟨S100000x256, .f32⟩ : BufTy).Contents (Elt F)),
    binary main_v36 main_v36 main_v37 (mulf : (⟨S100000x256, .f32⟩ : BufTy).Contents (Elt F) → (⟨S100000x256, .f32⟩ : BufTy).Contents (Elt F) → (⟨S100000x256, .f32⟩ : BufTy).Contents (Elt F)),
    nullary main_cst_6 (constant S_ .f32 0x00000000#32),
    binary main_v37 main_cst_6 main_v38 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_7 (constant S_ .f32 0x47C35000#32),
    unary main_cst_7 main_v39 (broadcastInDim S256 ![] bcast_S_S256 : (⟨S_, .f32⟩ : BufTy).Contents (Elt F) → (⟨S256, .f32⟩ : BufTy).Contents (Elt F)),
    binary main_v38 main_v39 main_v40 (Host.divf : (⟨S256, .f32⟩ : BufTy).Contents (Elt F) → (⟨S256, .f32⟩ : BufTy).Contents (Elt F) → (⟨S256, .f32⟩ : BufTy).Contents (Elt F)),
    unary main_v33 main_v41 (broadcastInDim S1x256 ![1] bcast_S256_S1x256_1 : (⟨S256, .f32⟩ : BufTy).Contents (Elt F) → (⟨S1x256, .f32⟩ : BufTy).Contents (Elt F)),
    unary main_v41 main_v42 (broadcastInDim S100000x256 ![0, 1] bcast_S1x256_S100000x256_0_1 : (⟨S1x256, .f32⟩ : BufTy).Contents (Elt F) → (⟨S100000x256, .f32⟩ : BufTy).Contents (Elt F)),
    binary main_v30 main_v42 main_v43 (subf : (⟨S100000x256, .f32⟩ : BufTy).Contents (Elt F) → (⟨S100000x256, .f32⟩ : BufTy).Contents (Elt F) → (⟨S100000x256, .f32⟩ : BufTy).Contents (Elt F)),
    unary main_arg5 main_v44 (broadcastInDim S1x256 ![1] bcast_S256_S1x256_1 : (⟨S256, .f32⟩ : BufTy).Contents (Elt F) → (⟨S1x256, .f32⟩ : BufTy).Contents (Elt F)),
    unary main_v44 main_v45 (broadcastInDim S100000x256 ![0, 1] bcast_S1x256_S100000x256_0_1 : (⟨S1x256, .f32⟩ : BufTy).Contents (Elt F) → (⟨S100000x256, .f32⟩ : BufTy).Contents (Elt F)),
    binary main_v45 main_v43 main_v46 (mulf : (⟨S100000x256, .f32⟩ : BufTy).Contents (Elt F) → (⟨S100000x256, .f32⟩ : BufTy).Contents (Elt F) → (⟨S100000x256, .f32⟩ : BufTy).Contents (Elt F)),
    nullary main_cst_8 (constant S_ .f32 0x3727C5AC#32),
    unary main_cst_8 main_v47 (broadcastInDim S256 ![] bcast_S_S256 : (⟨S_, .f32⟩ : BufTy).Contents (Elt F) → (⟨S256, .f32⟩ : BufTy).Contents (Elt F)),
    binary main_v40 main_v47 main_v48 (addf : (⟨S256, .f32⟩ : BufTy).Contents (Elt F) → (⟨S256, .f32⟩ : BufTy).Contents (Elt F) → (⟨S256, .f32⟩ : BufTy).Contents (Elt F)),
    unary main_v48 main_v49 (Host.rsqrt : (⟨S256, .f32⟩ : BufTy).Contents (Elt F) → (⟨S256, .f32⟩ : BufTy).Contents (Elt F)),
    unary main_v49 main_v50 (broadcastInDim S1x256 ![1] bcast_S256_S1x256_1 : (⟨S256, .f32⟩ : BufTy).Contents (Elt F) → (⟨S1x256, .f32⟩ : BufTy).Contents (Elt F)),
    unary main_v50 main_v51 (broadcastInDim S100000x256 ![0, 1] bcast_S1x256_S100000x256_0_1 : (⟨S1x256, .f32⟩ : BufTy).Contents (Elt F) → (⟨S100000x256, .f32⟩ : BufTy).Contents (Elt F)),
    binary main_v46 main_v51 main_v52 (mulf : (⟨S100000x256, .f32⟩ : BufTy).Contents (Elt F) → (⟨S100000x256, .f32⟩ : BufTy).Contents (Elt F) → (⟨S100000x256, .f32⟩ : BufTy).Contents (Elt F)),
    unary main_arg6 main_v53 (broadcastInDim S1x256 ![1] bcast_S256_S1x256_1 : (⟨S256, .f32⟩ : BufTy).Contents (Elt F) → (⟨S1x256, .f32⟩ : BufTy).Contents (Elt F)),
    unary main_v53 main_v54 (broadcastInDim S100000x256 ![0, 1] bcast_S1x256_S100000x256_0_1 : (⟨S1x256, .f32⟩ : BufTy).Contents (Elt F) → (⟨S100000x256, .f32⟩ : BufTy).Contents (Elt F)),
    binary main_v52 main_v54 main_v55 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v55) (TRef.of (T := ⟨S100000x256, .f32⟩) main_call0_v0) (TRef.of (T := ⟨S100000x256, .f32⟩) main_v56) maximumf ]

/-- The second dense layer: up to the buffer of `%61`. -/
abbrev seg2 : List (HloOp τ sig (Elt F)) :=
  [ unary main_arg7 main_v57 ((transpose S256x256 [1, 0] · transposes_S256x256_S256x256_1_0) : (⟨S256x256, .f32⟩ : BufTy).Contents (Elt F) → (⟨S256x256, .f32⟩ : BufTy).Contents (Elt F)),
    binary main_v56 main_v57 main_v58 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg8 main_v59 (broadcastInDim S1x256 ![1] bcast_S256_S1x256_1 : (⟨S256, .f32⟩ : BufTy).Contents (Elt F) → (⟨S1x256, .f32⟩ : BufTy).Contents (Elt F)),
    unary main_v59 main_v60 (broadcastInDim S100000x256 ![0, 1] bcast_S1x256_S100000x256_0_1 : (⟨S1x256, .f32⟩ : BufTy).Contents (Elt F) → (⟨S100000x256, .f32⟩ : BufTy).Contents (Elt F)),
    binary main_v58 main_v60 main_v61 (addf : (⟨S100000x256, .f32⟩ : BufTy).Contents (Elt F) → (⟨S100000x256, .f32⟩ : BufTy).Contents (Elt F) → (⟨S100000x256, .f32⟩ : BufTy).Contents (Elt F)) ]

/-- The second normalization and its rectifier: up to the buffer of `%87`. -/
abbrev seg3 : List (HloOp τ sig (Elt F)) :=
  [ nullary main_cst_9 (constant S_ .f32 0x00000000#32),
    binary main_v61 main_cst_9 main_v62 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_10 (constant S_ .f32 0x47C35000#32),
    unary main_cst_10 main_v63 (broadcastInDim S256 ![] bcast_S_S256 : (⟨S_, .f32⟩ : BufTy).Contents (Elt F) → (⟨S256, .f32⟩ : BufTy).Contents (Elt F)),
    binary main_v62 main_v63 main_v64 (Host.divf : (⟨S256, .f32⟩ : BufTy).Contents (Elt F) → (⟨S256, .f32⟩ : BufTy).Contents (Elt F) → (⟨S256, .f32⟩ : BufTy).Contents (Elt F)),
    unary main_v64 main_v65 (broadcastInDim S1x256 ![1] bcast_S256_S1x256_1 : (⟨S256, .f32⟩ : BufTy).Contents (Elt F) → (⟨S1x256, .f32⟩ : BufTy).Contents (Elt F)),
    unary main_v65 main_v66 (broadcastInDim S100000x256 ![0, 1] bcast_S1x256_S100000x256_0_1 : (⟨S1x256, .f32⟩ : BufTy).Contents (Elt F) → (⟨S100000x256, .f32⟩ : BufTy).Contents (Elt F)),
    binary main_v61 main_v66 main_v67 (subf : (⟨S100000x256, .f32⟩ : BufTy).Contents (Elt F) → (⟨S100000x256, .f32⟩ : BufTy).Contents (Elt F) → (⟨S100000x256, .f32⟩ : BufTy).Contents (Elt F)),
    binary main_v67 main_v67 main_v68 (mulf : (⟨S100000x256, .f32⟩ : BufTy).Contents (Elt F) → (⟨S100000x256, .f32⟩ : BufTy).Contents (Elt F) → (⟨S100000x256, .f32⟩ : BufTy).Contents (Elt F)),
    nullary main_cst_11 (constant S_ .f32 0x00000000#32),
    binary main_v68 main_cst_11 main_v69 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    nullary main_cst_12 (constant S_ .f32 0x47C35000#32),
    unary main_cst_12 main_v70 (broadcastInDim S256 ![] bcast_S_S256 : (⟨S_, .f32⟩ : BufTy).Contents (Elt F) → (⟨S256, .f32⟩ : BufTy).Contents (Elt F)),
    binary main_v69 main_v70 main_v71 (Host.divf : (⟨S256, .f32⟩ : BufTy).Contents (Elt F) → (⟨S256, .f32⟩ : BufTy).Contents (Elt F) → (⟨S256, .f32⟩ : BufTy).Contents (Elt F)),
    unary main_v64 main_v72 (broadcastInDim S1x256 ![1] bcast_S256_S1x256_1 : (⟨S256, .f32⟩ : BufTy).Contents (Elt F) → (⟨S1x256, .f32⟩ : BufTy).Contents (Elt F)),
    unary main_v72 main_v73 (broadcastInDim S100000x256 ![0, 1] bcast_S1x256_S100000x256_0_1 : (⟨S1x256, .f32⟩ : BufTy).Contents (Elt F) → (⟨S100000x256, .f32⟩ : BufTy).Contents (Elt F)),
    binary main_v61 main_v73 main_v74 (subf : (⟨S100000x256, .f32⟩ : BufTy).Contents (Elt F) → (⟨S100000x256, .f32⟩ : BufTy).Contents (Elt F) → (⟨S100000x256, .f32⟩ : BufTy).Contents (Elt F)),
    unary main_arg15 main_v75 (broadcastInDim S1x256 ![1] bcast_S256_S1x256_1 : (⟨S256, .f32⟩ : BufTy).Contents (Elt F) → (⟨S1x256, .f32⟩ : BufTy).Contents (Elt F)),
    unary main_v75 main_v76 (broadcastInDim S100000x256 ![0, 1] bcast_S1x256_S100000x256_0_1 : (⟨S1x256, .f32⟩ : BufTy).Contents (Elt F) → (⟨S100000x256, .f32⟩ : BufTy).Contents (Elt F)),
    binary main_v76 main_v74 main_v77 (mulf : (⟨S100000x256, .f32⟩ : BufTy).Contents (Elt F) → (⟨S100000x256, .f32⟩ : BufTy).Contents (Elt F) → (⟨S100000x256, .f32⟩ : BufTy).Contents (Elt F)),
    nullary main_cst_13 (constant S_ .f32 0x3727C5AC#32),
    unary main_cst_13 main_v78 (broadcastInDim S256 ![] bcast_S_S256 : (⟨S_, .f32⟩ : BufTy).Contents (Elt F) → (⟨S256, .f32⟩ : BufTy).Contents (Elt F)),
    binary main_v71 main_v78 main_v79 (addf : (⟨S256, .f32⟩ : BufTy).Contents (Elt F) → (⟨S256, .f32⟩ : BufTy).Contents (Elt F) → (⟨S256, .f32⟩ : BufTy).Contents (Elt F)),
    unary main_v79 main_v80 (Host.rsqrt : (⟨S256, .f32⟩ : BufTy).Contents (Elt F) → (⟨S256, .f32⟩ : BufTy).Contents (Elt F)),
    unary main_v80 main_v81 (broadcastInDim S1x256 ![1] bcast_S256_S1x256_1 : (⟨S256, .f32⟩ : BufTy).Contents (Elt F) → (⟨S1x256, .f32⟩ : BufTy).Contents (Elt F)),
    unary main_v81 main_v82 (broadcastInDim S100000x256 ![0, 1] bcast_S1x256_S100000x256_0_1 : (⟨S1x256, .f32⟩ : BufTy).Contents (Elt F) → (⟨S100000x256, .f32⟩ : BufTy).Contents (Elt F)),
    binary main_v77 main_v82 main_v83 (mulf : (⟨S100000x256, .f32⟩ : BufTy).Contents (Elt F) → (⟨S100000x256, .f32⟩ : BufTy).Contents (Elt F) → (⟨S100000x256, .f32⟩ : BufTy).Contents (Elt F)),
    unary main_arg16 main_v84 (broadcastInDim S1x256 ![1] bcast_S256_S1x256_1 : (⟨S256, .f32⟩ : BufTy).Contents (Elt F) → (⟨S1x256, .f32⟩ : BufTy).Contents (Elt F)),
    unary main_v84 main_v85 (broadcastInDim S100000x256 ![0, 1] bcast_S1x256_S100000x256_0_1 : (⟨S1x256, .f32⟩ : BufTy).Contents (Elt F) → (⟨S100000x256, .f32⟩ : BufTy).Contents (Elt F)),
    binary main_v83 main_v85 main_v86 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x256, .f32⟩) main_call1_v0) (broadcastInDim S100000x256 ![] bcast_S_S100000x256),
    TRef.binary (TRef.of (T := ⟨S100000x256, .f32⟩) main_v86) (TRef.of (T := ⟨S100000x256, .f32⟩) main_call1_v0) (TRef.of (T := ⟨S100000x256, .f32⟩) main_v87) maximumf ]

/-- The third dense layer: up to the buffer of `%92`. -/
abbrev seg4 : List (HloOp τ sig (Elt F)) :=
  [ unary main_arg9 main_v88 ((transpose S256x64 [1, 0] · transposes_S64x256_S256x64_1_0) : (⟨S64x256, .f32⟩ : BufTy).Contents (Elt F) → (⟨S256x64, .f32⟩ : BufTy).Contents (Elt F)),
    binary main_v87 main_v88 main_v89 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg10 main_v90 (broadcastInDim S1x64 ![1] bcast_S64_S1x64_1 : (⟨S64, .f32⟩ : BufTy).Contents (Elt F) → (⟨S1x64, .f32⟩ : BufTy).Contents (Elt F)),
    unary main_v90 main_v91 (broadcastInDim S100000x64 ![0, 1] bcast_S1x64_S100000x64_0_1 : (⟨S1x64, .f32⟩ : BufTy).Contents (Elt F) → (⟨S100000x64, .f32⟩ : BufTy).Contents (Elt F)),
    binary main_v89 main_v91 main_v92 (addf : (⟨S100000x64, .f32⟩ : BufTy).Contents (Elt F) → (⟨S100000x64, .f32⟩ : BufTy).Contents (Elt F) → (⟨S100000x64, .f32⟩ : BufTy).Contents (Elt F)) ]

/-- The third normalization and its rectifier: up to the buffer of `%118`. -/
abbrev seg5 : List (HloOp τ sig (Elt F)) :=
  [ nullary main_cst_14 (constant S_ .f32 0x00000000#32),
    binary main_v92 main_cst_14 main_v93 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_15 (constant S_ .f32 0x47C35000#32),
    unary main_cst_15 main_v94 (broadcastInDim S64 ![] bcast_S_S64 : (⟨S_, .f32⟩ : BufTy).Contents (Elt F) → (⟨S64, .f32⟩ : BufTy).Contents (Elt F)),
    binary main_v93 main_v94 main_v95 (Host.divf : (⟨S64, .f32⟩ : BufTy).Contents (Elt F) → (⟨S64, .f32⟩ : BufTy).Contents (Elt F) → (⟨S64, .f32⟩ : BufTy).Contents (Elt F)),
    unary main_v95 main_v96 (broadcastInDim S1x64 ![1] bcast_S64_S1x64_1 : (⟨S64, .f32⟩ : BufTy).Contents (Elt F) → (⟨S1x64, .f32⟩ : BufTy).Contents (Elt F)),
    unary main_v96 main_v97 (broadcastInDim S100000x64 ![0, 1] bcast_S1x64_S100000x64_0_1 : (⟨S1x64, .f32⟩ : BufTy).Contents (Elt F) → (⟨S100000x64, .f32⟩ : BufTy).Contents (Elt F)),
    binary main_v92 main_v97 main_v98 (subf : (⟨S100000x64, .f32⟩ : BufTy).Contents (Elt F) → (⟨S100000x64, .f32⟩ : BufTy).Contents (Elt F) → (⟨S100000x64, .f32⟩ : BufTy).Contents (Elt F)),
    binary main_v98 main_v98 main_v99 (mulf : (⟨S100000x64, .f32⟩ : BufTy).Contents (Elt F) → (⟨S100000x64, .f32⟩ : BufTy).Contents (Elt F) → (⟨S100000x64, .f32⟩ : BufTy).Contents (Elt F)),
    nullary main_cst_16 (constant S_ .f32 0x00000000#32),
    binary main_v99 main_cst_16 main_v100 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_17 (constant S_ .f32 0x47C35000#32),
    unary main_cst_17 main_v101 (broadcastInDim S64 ![] bcast_S_S64 : (⟨S_, .f32⟩ : BufTy).Contents (Elt F) → (⟨S64, .f32⟩ : BufTy).Contents (Elt F)),
    binary main_v100 main_v101 main_v102 (Host.divf : (⟨S64, .f32⟩ : BufTy).Contents (Elt F) → (⟨S64, .f32⟩ : BufTy).Contents (Elt F) → (⟨S64, .f32⟩ : BufTy).Contents (Elt F)),
    unary main_v95 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v92 main_v104 main_v105 (subf : (⟨S100000x64, .f32⟩ : BufTy).Contents (Elt F) → (⟨S100000x64, .f32⟩ : BufTy).Contents (Elt F) → (⟨S100000x64, .f32⟩ : BufTy).Contents (Elt F)),
    unary main_arg17 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v107 main_v105 main_v108 (mulf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v109 (broadcastInDim S64 ![] bcast_S_S64 : (⟨S_, .f32⟩ : BufTy).Contents (Elt F) → (⟨S64, .f32⟩ : BufTy).Contents (Elt F)),
    binary main_v102 main_v109 main_v110 (addf : (⟨S64, .f32⟩ : BufTy).Contents (Elt F) → (⟨S64, .f32⟩ : BufTy).Contents (Elt F) → (⟨S64, .f32⟩ : BufTy).Contents (Elt F)),
    unary main_v110 main_v111 (Host.rsqrt : (⟨S64, .f32⟩ : BufTy).Contents (Elt F) → (⟨S64, .f32⟩ : BufTy).Contents (Elt F)),
    unary main_v111 main_v112 (broadcastInDim S1x64 ![1] bcast_S64_S1x64_1 : (⟨S64, .f32⟩ : BufTy).Contents (Elt F) → (⟨S1x64, .f32⟩ : BufTy).Contents (Elt F)),
    unary main_v112 main_v113 (broadcastInDim S100000x64 ![0, 1] bcast_S1x64_S100000x64_0_1 : (⟨S1x64, .f32⟩ : BufTy).Contents (Elt F) → (⟨S100000x64, .f32⟩ : BufTy).Contents (Elt F)),
    binary main_v108 main_v113 main_v114 (mulf : (⟨S100000x64, .f32⟩ : BufTy).Contents (Elt F) → (⟨S100000x64, .f32⟩ : BufTy).Contents (Elt F) → (⟨S100000x64, .f32⟩ : BufTy).Contents (Elt F)),
    unary main_arg18 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v114 main_v116 main_v117 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v117) (TRef.of (T := ⟨S100000x64, .f32⟩) main_call2_v0) (TRef.of (T := ⟨S100000x64, .f32⟩) main_v118) maximumf ]

/-- The fourth dense layer: up to the buffer of `%123`. -/
abbrev seg6 : List (HloOp τ sig (Elt F)) :=
  [ unary main_arg11 main_v119 ((transpose S64x14 [1, 0] · transposes_S14x64_S64x14_1_0) : (⟨S14x64, .f32⟩ : BufTy).Contents (Elt F) → (⟨S64x14, .f32⟩ : BufTy).Contents (Elt F)),
    binary main_v118 main_v119 main_v120 ((fun l r => Host.dotGeneral dot_S100000x64_S64x14_S100000x14_1_0_0_1_n_n none l r) : (⟨S100000x64, .f32⟩ : BufTy).Contents (Elt F) → (⟨S64x14, .f32⟩ : BufTy).Contents (Elt F) → (⟨S100000x14, .f32⟩ : BufTy).Contents (Elt F)),
    unary main_arg12 main_v121 (broadcastInDim S1x14 ![1] bcast_S14_S1x14_1 : (⟨S14, .f32⟩ : BufTy).Contents (Elt F) → (⟨S1x14, .f32⟩ : BufTy).Contents (Elt F)),
    unary main_v121 main_v122 (broadcastInDim S100000x14 ![0, 1] bcast_S1x14_S100000x14_0_1 : (⟨S1x14, .f32⟩ : BufTy).Contents (Elt F) → (⟨S100000x14, .f32⟩ : BufTy).Contents (Elt F)),
    binary main_v120 main_v122 main_v123 (addf : (⟨S100000x14, .f32⟩ : BufTy).Contents (Elt F) → (⟨S100000x14, .f32⟩ : BufTy).Contents (Elt F) → (⟨S100000x14, .f32⟩ : BufTy).Contents (Elt F)) ]

/-- The fourth normalization and its rectifier: up to the buffer of `%149`. -/
abbrev seg7 : List (HloOp τ sig (Elt F)) :=
  [ nullary main_cst_19 (constant S_ .f32 0x00000000#32),
    binary main_v123 main_cst_19 main_v124 ((fun x v => Host.reduceAdd x v reducesTo_S100000x14_S14_d0 h_S_) : (⟨S100000x14, .f32⟩ : BufTy).Contents (Elt F) → (⟨S_, .f32⟩ : BufTy).Contents (Elt F) → (⟨S14, .f32⟩ : BufTy).Contents (Elt F)),
    nullary main_cst_20 (constant S_ .f32 0x47C35000#32),
    unary main_cst_20 main_v125 (broadcastInDim S14 ![] bcast_S_S14 : (⟨S_, .f32⟩ : BufTy).Contents (Elt F) → (⟨S14, .f32⟩ : BufTy).Contents (Elt F)),
    binary main_v124 main_v125 main_v126 (Host.divf : (⟨S14, .f32⟩ : BufTy).Contents (Elt F) → (⟨S14, .f32⟩ : BufTy).Contents (Elt F) → (⟨S14, .f32⟩ : BufTy).Contents (Elt F)),
    unary main_v126 main_v127 (broadcastInDim S1x14 ![1] bcast_S14_S1x14_1 : (⟨S14, .f32⟩ : BufTy).Contents (Elt F) → (⟨S1x14, .f32⟩ : BufTy).Contents (Elt F)),
    unary main_v127 main_v128 (broadcastInDim S100000x14 ![0, 1] bcast_S1x14_S100000x14_0_1 : (⟨S1x14, .f32⟩ : BufTy).Contents (Elt F) → (⟨S100000x14, .f32⟩ : BufTy).Contents (Elt F)),
    binary main_v123 main_v128 main_v129 (subf : (⟨S100000x14, .f32⟩ : BufTy).Contents (Elt F) → (⟨S100000x14, .f32⟩ : BufTy).Contents (Elt F) → (⟨S100000x14, .f32⟩ : BufTy).Contents (Elt F)),
    binary main_v129 main_v129 main_v130 (mulf : (⟨S100000x14, .f32⟩ : BufTy).Contents (Elt F) → (⟨S100000x14, .f32⟩ : BufTy).Contents (Elt F) → (⟨S100000x14, .f32⟩ : BufTy).Contents (Elt F)),
    nullary main_cst_21 (constant S_ .f32 0x00000000#32),
    binary main_v130 main_cst_21 main_v131 ((fun x v => Host.reduceAdd x v reducesTo_S100000x14_S14_d0 h_S_) : (⟨S100000x14, .f32⟩ : BufTy).Contents (Elt F) → (⟨S_, .f32⟩ : BufTy).Contents (Elt F) → (⟨S14, .f32⟩ : BufTy).Contents (Elt F)),
    nullary main_cst_22 (constant S_ .f32 0x47C35000#32),
    unary main_cst_22 main_v132 (broadcastInDim S14 ![] bcast_S_S14 : (⟨S_, .f32⟩ : BufTy).Contents (Elt F) → (⟨S14, .f32⟩ : BufTy).Contents (Elt F)),
    binary main_v131 main_v132 main_v133 (Host.divf : (⟨S14, .f32⟩ : BufTy).Contents (Elt F) → (⟨S14, .f32⟩ : BufTy).Contents (Elt F) → (⟨S14, .f32⟩ : BufTy).Contents (Elt F)),
    unary main_v126 main_v134 (broadcastInDim S1x14 ![1] bcast_S14_S1x14_1 : (⟨S14, .f32⟩ : BufTy).Contents (Elt F) → (⟨S1x14, .f32⟩ : BufTy).Contents (Elt F)),
    unary main_v134 main_v135 (broadcastInDim S100000x14 ![0, 1] bcast_S1x14_S100000x14_0_1 : (⟨S1x14, .f32⟩ : BufTy).Contents (Elt F) → (⟨S100000x14, .f32⟩ : BufTy).Contents (Elt F)),
    binary main_v123 main_v135 main_v136 (subf : (⟨S100000x14, .f32⟩ : BufTy).Contents (Elt F) → (⟨S100000x14, .f32⟩ : BufTy).Contents (Elt F) → (⟨S100000x14, .f32⟩ : BufTy).Contents (Elt F)),
    unary main_arg19 main_v137 (broadcastInDim S1x14 ![1] bcast_S14_S1x14_1 : (⟨S14, .f32⟩ : BufTy).Contents (Elt F) → (⟨S1x14, .f32⟩ : BufTy).Contents (Elt F)),
    unary main_v137 main_v138 (broadcastInDim S100000x14 ![0, 1] bcast_S1x14_S100000x14_0_1 : (⟨S1x14, .f32⟩ : BufTy).Contents (Elt F) → (⟨S100000x14, .f32⟩ : BufTy).Contents (Elt F)),
    binary main_v138 main_v136 main_v139 (mulf : (⟨S100000x14, .f32⟩ : BufTy).Contents (Elt F) → (⟨S100000x14, .f32⟩ : BufTy).Contents (Elt F) → (⟨S100000x14, .f32⟩ : BufTy).Contents (Elt F)),
    nullary main_cst_23 (constant S_ .f32 0x3727C5AC#32),
    unary main_cst_23 main_v140 (broadcastInDim S14 ![] bcast_S_S14 : (⟨S_, .f32⟩ : BufTy).Contents (Elt F) → (⟨S14, .f32⟩ : BufTy).Contents (Elt F)),
    binary main_v133 main_v140 main_v141 (addf : (⟨S14, .f32⟩ : BufTy).Contents (Elt F) → (⟨S14, .f32⟩ : BufTy).Contents (Elt F) → (⟨S14, .f32⟩ : BufTy).Contents (Elt F)),
    unary main_v141 main_v142 (Host.rsqrt : (⟨S14, .f32⟩ : BufTy).Contents (Elt F) → (⟨S14, .f32⟩ : BufTy).Contents (Elt F)),
    unary main_v142 main_v143 (broadcastInDim S1x14 ![1] bcast_S14_S1x14_1 : (⟨S14, .f32⟩ : BufTy).Contents (Elt F) → (⟨S1x14, .f32⟩ : BufTy).Contents (Elt F)),
    unary main_v143 main_v144 (broadcastInDim S100000x14 ![0, 1] bcast_S1x14_S100000x14_0_1 : (⟨S1x14, .f32⟩ : BufTy).Contents (Elt F) → (⟨S100000x14, .f32⟩ : BufTy).Contents (Elt F)),
    binary main_v139 main_v144 main_v145 (mulf : (⟨S100000x14, .f32⟩ : BufTy).Contents (Elt F) → (⟨S100000x14, .f32⟩ : BufTy).Contents (Elt F) → (⟨S100000x14, .f32⟩ : BufTy).Contents (Elt F)),
    unary main_arg20 main_v146 (broadcastInDim S1x14 ![1] bcast_S14_S1x14_1 : (⟨S14, .f32⟩ : BufTy).Contents (Elt F) → (⟨S1x14, .f32⟩ : BufTy).Contents (Elt F)),
    unary main_v146 main_v147 (broadcastInDim S100000x14 ![0, 1] bcast_S1x14_S100000x14_0_1 : (⟨S1x14, .f32⟩ : BufTy).Contents (Elt F) → (⟨S100000x14, .f32⟩ : BufTy).Contents (Elt F)),
    binary main_v145 main_v147 main_v148 (addf : (⟨S100000x14, .f32⟩ : BufTy).Contents (Elt F) → (⟨S100000x14, .f32⟩ : BufTy).Contents (Elt F) → (⟨S100000x14, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x14, .f32⟩) main_call3_v0) (broadcastInDim S100000x14 ![] bcast_S_S100000x14),
    TRef.binary (TRef.of (T := ⟨S100000x14, .f32⟩) main_v148) (TRef.of (T := ⟨S100000x14, .f32⟩) main_call3_v0) (TRef.of (T := ⟨S100000x14, .f32⟩) main_v149) maximumf ]

/-- The last dense layer and the log-softmax: up to the result, the buffer of `%155`. -/
abbrev seg8 : List (HloOp τ sig (Elt F)) :=
  [ unary main_arg13 main_v150 ((transpose S14x2 [1, 0] · transposes_S2x14_S14x2_1_0) : (⟨S2x14, .f32⟩ : BufTy).Contents (Elt F) → (⟨S14x2, .f32⟩ : BufTy).Contents (Elt F)),
    binary main_v149 main_v150 main_v151 ((fun l r => Host.dotGeneral dot_S100000x14_S14x2_S100000x2_1_0_0_1_n_n none l r) : (⟨S100000x14, .f32⟩ : BufTy).Contents (Elt F) → (⟨S14x2, .f32⟩ : BufTy).Contents (Elt F) → (⟨S100000x2, .f32⟩ : BufTy).Contents (Elt F)),
    unary main_arg14 main_v152 (broadcastInDim S1x2 ![1] bcast_S2_S1x2_1 : (⟨S2, .f32⟩ : BufTy).Contents (Elt F) → (⟨S1x2, .f32⟩ : BufTy).Contents (Elt F)),
    unary main_v152 main_v153 (broadcastInDim S100000x2 ![0, 1] bcast_S1x2_S100000x2_0_1 : (⟨S1x2, .f32⟩ : BufTy).Contents (Elt F) → (⟨S100000x2, .f32⟩ : BufTy).Contents (Elt F)),
    binary main_v151 main_v153 main_v154 (addf : (⟨S100000x2, .f32⟩ : BufTy).Contents (Elt F) → (⟨S100000x2, .f32⟩ : BufTy).Contents (Elt F) → (⟨S100000x2, .f32⟩ : BufTy).Contents (Elt F)),
    TRef.nullary (TRef.of (T := ⟨S_, .f32⟩) main_call4_cst) (constant S_ .f32 0xFF800000#32),
    TRef.binary (TRef.of (T := ⟨S100000x2, .f32⟩) main_v154) (TRef.of (T := ⟨S_, .f32⟩) main_call4_cst) (TRef.of (T := ⟨S100000, .f32⟩) main_call4_v0) (fun x v => Host.reduce FloatOps.maximumf x v reducesTo_S100000x2_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x2, .f32⟩) main_call4_v4) (broadcastInDim S100000x2 ![0, 1] bcast_S100000x1_S100000x2_0_1),
    TRef.binary (TRef.of (T := ⟨S100000x2, .f32⟩) main_v154) (TRef.of (T := ⟨S100000x2, .f32⟩) main_call4_v4) (TRef.of (T := ⟨S100000x2, .f32⟩) main_call4_v5) subf,
    TRef.unary (TRef.of (T := ⟨S100000x2, .f32⟩) main_call4_v5) (TRef.of (T := ⟨S100000x2, .f32⟩) main_call4_v6) Host.exp,
    TRef.nullary (TRef.of (T := ⟨S_, .f32⟩) main_call4_cst_1) (constant S_ .f32 0x00000000#32),
    TRef.binary (TRef.of (T := ⟨S100000x2, .f32⟩) main_call4_v6) (TRef.of (T := ⟨S_, .f32⟩) main_call4_cst_1) (TRef.of (T := ⟨S100000, .f32⟩) main_call4_v7) (fun x v => Host.reduceAdd x v reducesTo_S100000x2_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x2, .f32⟩) main_call4_v10) (broadcastInDim S100000x2 ![0, 1] bcast_S100000x1_S100000x2_0_1),
    TRef.binary (TRef.of (T := ⟨S100000x2, .f32⟩) main_call4_v5) (TRef.of (T := ⟨S100000x2, .f32⟩) main_call4_v10) (TRef.of (T := ⟨S100000x2, .f32⟩) main_v155) subf ]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The one buffer of a reference in the list `Wl` lies among the buffers of `Wl`. -/
theorem single_sub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.2 (List.mem_toFinset.2 (List.mem_map_of_mem h))

/-- No operation of either line allocates, so none of their concatenation does. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ := fun op h => (List.mem_append.1 h).elim (h₁ op) (h₂ op)

/-- The valuation `W` holds the program's twenty-one arguments `x0 … x20`. -/
structure Args (W : Valuation τ sig (Elt F)) (x0 : (⟨S100000x128, .f32⟩ : BufTy).Contents (Elt F)) (x1 : (⟨S2x1600000, .i32⟩ : BufTy).Contents (Elt F)) (x2 : (⟨S256x128, .f32⟩ : BufTy).Contents (Elt F)) (x3 : (⟨S256, .f32⟩ : BufTy).Contents (Elt F)) (x4 : (⟨S256x128, .f32⟩ : BufTy).Contents (Elt F)) (x5 : (⟨S256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S64x256, .f32⟩ : BufTy).Contents (Elt F)) (x10 : (⟨S64, .f32⟩ : BufTy).Contents (Elt F)) (x11 : (⟨S14x64, .f32⟩ : BufTy).Contents (Elt F)) (x12 : (⟨S14, .f32⟩ : BufTy).Contents (Elt F)) (x13 : (⟨S2x14, .f32⟩ : BufTy).Contents (Elt F)) (x14 : (⟨S2, .f32⟩ : BufTy).Contents (Elt F)) (x15 : (⟨S256, .f32⟩ : BufTy).Contents (Elt F)) (x16 : (⟨S256, .f32⟩ : BufTy).Contents (Elt F)) (x17 : (⟨S64, .f32⟩ : BufTy).Contents (Elt F)) (x18 : (⟨S64, .f32⟩ : BufTy).Contents (Elt F)) (x19 : (⟨S14, .f32⟩ : BufTy).Contents (Elt F)) (x20 : (⟨S14, .f32⟩ : BufTy).Contents (Elt F)) : Prop where
  h0 : W (Proc.devRef .tc main_arg0) = x0
  h1 : W (Proc.devRef .tc main_arg1) = x1
  h2 : W (Proc.devRef .tc main_arg2) = x2
  h3 : W (Proc.devRef .tc main_arg3) = x3
  h4 : W (Proc.devRef .tc main_arg4) = x4
  h5 : W (Proc.devRef .tc main_arg5) = x5
  h6 : W (Proc.devRef .tc main_arg6) = x6
  h7 : W (Proc.devRef .tc main_arg7) = x7
  h8 : W (Proc.devRef .tc main_arg8) = x8
  h9 : W (Proc.devRef .tc main_arg9) = x9
  h10 : W (Proc.devRef .tc main_arg10) = x10
  h11 : W (Proc.devRef .tc main_arg11) = x11
  h12 : W (Proc.devRef .tc main_arg12) = x12
  h13 : W (Proc.devRef .tc main_arg13) = x13
  h14 : W (Proc.devRef .tc main_arg14) = x14
  h15 : W (Proc.devRef .tc main_arg15) = x15
  h16 : W (Proc.devRef .tc main_arg16) = x16
  h17 : W (Proc.devRef .tc main_arg17) = x17
  h18 : W (Proc.devRef .tc main_arg18) = x18
  h19 : W (Proc.devRef .tc main_arg19) = x19
  h20 : W (Proc.devRef .tc main_arg20) = x20

variable {W : Valuation τ sig (Elt F)} {x0 : (⟨S100000x128, .f32⟩ : BufTy).Contents (Elt F)} {x1 : (⟨S2x1600000, .i32⟩ : BufTy).Contents (Elt F)} {x2 : (⟨S256x128, .f32⟩ : BufTy).Contents (Elt F)} {x3 : (⟨S256, .f32⟩ : BufTy).Contents (Elt F)} {x4 : (⟨S256x128, .f32⟩ : BufTy).Contents (Elt F)} {x5 : (⟨S256, .f32⟩ : BufTy).Contents (Elt F)} {x6 : (⟨S256, .f32⟩ : BufTy).Contents (Elt F)} {x7 : (⟨S256x256, .f32⟩ : BufTy).Contents (Elt F)} {x8 : (⟨S256, .f32⟩ : BufTy).Contents (Elt F)} {x9 : (⟨S64x256, .f32⟩ : BufTy).Contents (Elt F)} {x10 : (⟨S64, .f32⟩ : BufTy).Contents (Elt F)} {x11 : (⟨S14x64, .f32⟩ : BufTy).Contents (Elt F)} {x12 : (⟨S14, .f32⟩ : BufTy).Contents (Elt F)} {x13 : (⟨S2x14, .f32⟩ : BufTy).Contents (Elt F)} {x14 : (⟨S2, .f32⟩ : BufTy).Contents (Elt F)} {x15 : (⟨S256, .f32⟩ : BufTy).Contents (Elt F)} {x16 : (⟨S256, .f32⟩ : BufTy).Contents (Elt F)} {x17 : (⟨S64, .f32⟩ : BufTy).Contents (Elt F)} {x18 : (⟨S64, .f32⟩ : BufTy).Contents (Elt F)} {x19 : (⟨S14, .f32⟩ : BufTy).Contents (Elt F)} {x20 : (⟨S14, .f32⟩ : BufTy).Contents (Elt F)}

/-- The program's twenty-one argument references. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-- A line that writes only buffers of the list `Wl`, none of them an argument's, keeps the arguments. -/
theorem args_after {l : List (HloOp τ sig (Elt F))} {Wl : List (Ref sig .tc)}
    (hW : l.Forall fun op => op.writes ⊆ (Wl.map (Proc.devRef (τ := τ) .tc)).toFinset)
    (hn : ∀ r ∈ argRefs, r ∉ Wl) (hA : Args W x0 x1 x2 x3 x4 x5 x6 x7 x8 x9 x10 x11 x12 x13 x14 x15 x16 x17 x18 x19 x20) : Args (after l W) x0 x1 x2 x3 x4 x5 x6 x7 x8 x9 x10 x11 x12 x13 x14 x15 x16 x17 x18 x19 x20 :=
  ⟨(after_of_writes_sub l W hW (hn main_arg0 (by decide))).trans hA.h0,
   (after_of_writes_sub l W hW (hn main_arg1 (by decide))).trans hA.h1,
   (after_of_writes_sub l W hW (hn main_arg2 (by decide))).trans hA.h2,
   (after_of_writes_sub l W hW (hn main_arg3 (by decide))).trans hA.h3,
   (after_of_writes_sub l W hW (hn main_arg4 (by decide))).trans hA.h4,
   (after_of_writes_sub l W hW (hn main_arg5 (by decide))).trans hA.h5,
   (after_of_writes_sub l W hW (hn main_arg6 (by decide))).trans hA.h6,
   (after_of_writes_sub l W hW (hn main_arg7 (by decide))).trans hA.h7,
   (after_of_writes_sub l W hW (hn main_arg8 (by decide))).trans hA.h8,
   (after_of_writes_sub l W hW (hn main_arg9 (by decide))).trans hA.h9,
   (after_of_writes_sub l W hW (hn main_arg10 (by decide))).trans hA.h10,
   (after_of_writes_sub l W hW (hn main_arg11 (by decide))).trans hA.h11,
   (after_of_writes_sub l W hW (hn main_arg12 (by decide))).trans hA.h12,
   (after_of_writes_sub l W hW (hn main_arg13 (by decide))).trans hA.h13,
   (after_of_writes_sub l W hW (hn main_arg14 (by decide))).trans hA.h14,
   (after_of_writes_sub l W hW (hn main_arg15 (by decide))).trans hA.h15,
   (after_of_writes_sub l W hW (hn main_arg16 (by decide))).trans hA.h16,
   (after_of_writes_sub l W hW (hn main_arg17 (by decide))).trans hA.h17,
   (after_of_writes_sub l W hW (hn main_arg18 (by decide))).trans hA.h18,
   (after_of_writes_sub l W hW (hn main_arg19 (by decide))).trans hA.h19,
   (after_of_writes_sub l W hW (hn main_arg20 (by decide))).trans hA.h20⟩

/-- The references piece 0 writes. -/
abbrev seg0_W : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_v29, main_v30]

theorem seg0_writes : (seg0 : List (HloOp τ sig (Elt F))).Forall fun op => op.writes ⊆ (seg0_W.map (Proc.devRef (τ := τ) .tc)).toFinset :=
  ⟨single_sub (y := main_v0) (by decide),
   single_sub (y := main_v1) (by decide),
   single_sub (y := main_v2) (by decide),
   single_sub (y := main_v3) (by decide),
   single_sub (y := main_c) (by decide),
   single_sub (y := main_v4) (by decide),
   single_sub (y := main_v5) (by decide),
   single_sub (y := main_c_0) (by decide),
   single_sub (y := main_v6) (by decide),
   single_sub (y := main_v7) (by decide),
   single_sub (y := main_v8) (by decide),
   single_sub (y := main_v9) (by decide),
   single_sub (y := main_v10) (by decide),
   single_sub (y := main_cst) (by decide),
   single_sub (y := main_v11) (by decide),
   single_sub (y := main_v12) (by decide),
   single_sub (y := main_v13) (by decide),
   single_sub (y := main_cst_1) (by decide),
   single_sub (y := main_v14) (by decide),
   single_sub (y := main_cst_2) (by decide),
   single_sub (y := main_v15) (by decide),
   single_sub (y := main_v16) (by decide),
   single_sub (y := main_v17) (by decide),
   single_sub (y := main_cst_3) (by decide),
   single_sub (y := main_v18) (by decide),
   single_sub (y := main_v19) (by decide),
   single_sub (y := main_v20) (by decide),
   single_sub (y := main_v21) (by decide),
   single_sub (y := main_v22) (by decide),
   single_sub (y := main_v23) (by decide),
   single_sub (y := main_v24) (by decide),
   single_sub (y := main_v25) (by decide),
   single_sub (y := main_v26) (by decide),
   single_sub (y := main_v27) (by decide),
   single_sub (y := main_v28) (by decide),
   single_sub (y := main_v29) (by decide),
   single_sub (y := main_v30) (by decide)⟩

theorem seg0_sub : (seg0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub ..⟩

theorem seg0_fresh : ∀ op ∈ (seg0 : List (HloOp τ sig (Elt F))), op.fresh = ∅ := by
  intro _ h; (repeat (cases h with | head => rfl | tail _ h => ?_)); exact nomatch h

/-- Piece 0 writes none of the arguments. -/
theorem args_seg0 (hA : Args W x0 x1 x2 x3 x4 x5 x6 x7 x8 x9 x10 x11 x12 x13 x14 x15 x16 x17 x18 x19 x20) : Args (after seg0 W) x0 x1 x2 x3 x4 x5 x6 x7 x8 x9 x10 x11 x12 x13 x14 x15 x16 x17 x18 x19 x20 :=
  args_after seg0_writes (by decide) hA

/-- Piece 0 leaves the buffer of `%30` at its stage function. -/
theorem seg0_res (hA : Args W x0 x1 x2 x3 x4 x5 x6 x7 x8 x9 x10 x11 x12 x13 x14 x15 x16 x17 x18 x19 x20) :
    after seg0 W (Proc.devRef .tc main_v30) = Read.val_main_v30 (F := F) x0 x1 x2 x3 x4 := by
  after_results_simp
  rw [hA.h0, hA.h1, hA.h2, hA.h3, hA.h4]
  rfl

/-- The references piece 1 writes. -/
abbrev seg1_W : List (Ref sig .tc) := [main_cst_4, main_v31, main_cst_5, main_v32, main_v33, main_v34, main_v35, main_v36, main_v37, main_cst_6, main_v38, main_cst_7, main_v39, main_v40, main_v41, main_v42, main_v43, main_v44, main_v45, main_v46, main_cst_8, main_v47, main_v48, main_v49, main_v50, main_v51, main_v52, main_v53, main_v54, main_v55, main_call0_cst, main_call0_v0, main_v56]

theorem seg1_writes : (seg1 : List (HloOp τ sig (Elt F))).Forall fun op => op.writes ⊆ (seg1_W.map (Proc.devRef (τ := τ) .tc)).toFinset :=
  ⟨single_sub (y := main_cst_4) (by decide),
   single_sub (y := main_v31) (by decide),
   single_sub (y := main_cst_5) (by decide),
   single_sub (y := main_v32) (by decide),
   single_sub (y := main_v33) (by decide),
   single_sub (y := main_v34) (by decide),
   single_sub (y := main_v35) (by decide),
   single_sub (y := main_v36) (by decide),
   single_sub (y := main_v37) (by decide),
   single_sub (y := main_cst_6) (by decide),
   single_sub (y := main_v38) (by decide),
   single_sub (y := main_cst_7) (by decide),
   single_sub (y := main_v39) (by decide),
   single_sub (y := main_v40) (by decide),
   single_sub (y := main_v41) (by decide),
   single_sub (y := main_v42) (by decide),
   single_sub (y := main_v43) (by decide),
   single_sub (y := main_v44) (by decide),
   single_sub (y := main_v45) (by decide),
   single_sub (y := main_v46) (by decide),
   single_sub (y := main_cst_8) (by decide),
   single_sub (y := main_v47) (by decide),
   single_sub (y := main_v48) (by decide),
   single_sub (y := main_v49) (by decide),
   single_sub (y := main_v50) (by decide),
   single_sub (y := main_v51) (by decide),
   single_sub (y := main_v52) (by decide),
   single_sub (y := main_v53) (by decide),
   single_sub (y := main_v54) (by decide),
   single_sub (y := main_v55) (by decide),
   single_sub (y := main_call0_cst) (by decide),
   single_sub (y := main_call0_v0) (by decide),
   single_sub (y := main_v56) (by decide)⟩

theorem seg1_sub : (seg1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem seg1_fresh : ∀ op ∈ (seg1 : List (HloOp τ sig (Elt F))), op.fresh = ∅ := by
  intro _ h; (repeat (cases h with | head => rfl | tail _ h => ?_)); exact nomatch h

/-- Piece 1 writes none of the arguments. -/
theorem args_seg1 (hA : Args W x0 x1 x2 x3 x4 x5 x6 x7 x8 x9 x10 x11 x12 x13 x14 x15 x16 x17 x18 x19 x20) : Args (after seg1 W) x0 x1 x2 x3 x4 x5 x6 x7 x8 x9 x10 x11 x12 x13 x14 x15 x16 x17 x18 x19 x20 :=
  args_after seg1_writes (by decide) hA

/-- Piece 1 leaves the buffer of `%56` at its stage function, from a valuation that holds `%30` at its own. -/
theorem seg1_res (hA : Args W x0 x1 x2 x3 x4 x5 x6 x7 x8 x9 x10 x11 x12 x13 x14 x15 x16 x17 x18 x19 x20)
    (h : W (Proc.devRef .tc main_v30) = Read.val_main_v30 (F := F) x0 x1 x2 x3 x4) :
    after seg1 W (Proc.devRef .tc main_v56) = Read.val_main_v56 (F := F) x0 x1 x2 x3 x4 x5 x6 := by
  after_results_simp
  rw [h, hA.h5, hA.h6]
  rfl

/-- The references piece 2 writes. -/
abbrev seg2_W : List (Ref sig .tc) := [main_v57, main_v58, main_v59, main_v60, main_v61]

theorem seg2_writes : (seg2 : List (HloOp τ sig (Elt F))).Forall fun op => op.writes ⊆ (seg2_W.map (Proc.devRef (τ := τ) .tc)).toFinset :=
  ⟨single_sub (y := main_v57) (by decide),
   single_sub (y := main_v58) (by decide),
   single_sub (y := main_v59) (by decide),
   single_sub (y := main_v60) (by decide),
   single_sub (y := main_v61) (by decide)⟩

theorem seg2_sub : (seg2 : List (HloOp τ sig (Elt F))).Forall fun op => op.bufs ⊆ tcRefs τ sig :=
  ⟨unary_bufs_sub .., binary_bufs_sub .., unary_bufs_sub .., unary_bufs_sub .., binary_bufs_sub ..⟩

theorem seg2_fresh : ∀ op ∈ (seg2 : List (HloOp τ sig (Elt F))), op.fresh = ∅ := by
  intro _ h; (repeat (cases h with | head => rfl | tail _ h => ?_)); exact nomatch h

/-- Piece 2 writes none of the arguments. -/
theorem args_seg2 (hA : Args W x0 x1 x2 x3 x4 x5 x6 x7 x8 x9 x10 x11 x12 x13 x14 x15 x16 x17 x18 x19 x20) : Args (after seg2 W) x0 x1 x2 x3 x4 x5 x6 x7 x8 x9 x10 x11 x12 x13 x14 x15 x16 x17 x18 x19 x20 :=
  args_after seg2_writes (by decide) hA

/-- Piece 2 leaves the buffer of `%61` at its stage function, from a valuation that holds `%56` at its own. -/
theorem seg2_res (hA : Args W x0 x1 x2 x3 x4 x5 x6 x7 x8 x9 x10 x11 x12 x13 x14 x15 x16 x17 x18 x19 x20)
    (h : W (Proc.devRef .tc main_v56) = Read.val_main_v56 (F := F) x0 x1 x2 x3 x4 x5 x6) :
    after seg2 W (Proc.devRef .tc main_v61) = Read.val_main_v61 (F := F) x0 x1 x2 x3 x4 x5 x6 x7 x8 := by
  after_results_simp
  rw [h, hA.h7, hA.h8]
  rfl

/-- The references piece 3 writes. -/
abbrev seg3_W : List (Ref sig .tc) := [main_cst_9, main_v62, main_cst_10, main_v63, main_v64, main_v65, main_v66, main_v67, main_v68, main_cst_11, main_v69, main_cst_12, main_v70, main_v71, main_v72, main_v73, main_v74, main_v75, main_v76, main_v77, main_cst_13, main_v78, main_v79, main_v80, main_v81, main_v82, main_v83, main_v84, main_v85, main_v86, main_call1_cst, main_call1_v0, main_v87]

theorem seg3_writes : (seg3 : List (HloOp τ sig (Elt F))).Forall fun op => op.writes ⊆ (seg3_W.map (Proc.devRef (τ := τ) .tc)).toFinset :=
  ⟨single_sub (y := main_cst_9) (by decide),
   single_sub (y := main_v62) (by decide),
   single_sub (y := main_cst_10) (by decide),
   single_sub (y := main_v63) (by decide),
   single_sub (y := main_v64) (by decide),
   single_sub (y := main_v65) (by decide),
   single_sub (y := main_v66) (by decide),
   single_sub (y := main_v67) (by decide),
   single_sub (y := main_v68) (by decide),
   single_sub (y := main_cst_11) (by decide),
   single_sub (y := main_v69) (by decide),
   single_sub (y := main_cst_12) (by decide),
   single_sub (y := main_v70) (by decide),
   single_sub (y := main_v71) (by decide),
   single_sub (y := main_v72) (by decide),
   single_sub (y := main_v73) (by decide),
   single_sub (y := main_v74) (by decide),
   single_sub (y := main_v75) (by decide),
   single_sub (y := main_v76) (by decide),
   single_sub (y := main_v77) (by decide),
   single_sub (y := main_cst_13) (by decide),
   single_sub (y := main_v78) (by decide),
   single_sub (y := main_v79) (by decide),
   single_sub (y := main_v80) (by decide),
   single_sub (y := main_v81) (by decide),
   single_sub (y := main_v82) (by decide),
   single_sub (y := main_v83) (by decide),
   single_sub (y := main_v84) (by decide),
   single_sub (y := main_v85) (by decide),
   single_sub (y := main_v86) (by decide),
   single_sub (y := main_call1_cst) (by decide),
   single_sub (y := main_call1_v0) (by decide),
   single_sub (y := main_v87) (by decide)⟩

theorem seg3_sub : (seg3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem seg3_fresh : ∀ op ∈ (seg3 : List (HloOp τ sig (Elt F))), op.fresh = ∅ := by
  intro _ h; (repeat (cases h with | head => rfl | tail _ h => ?_)); exact nomatch h

/-- Piece 3 writes none of the arguments. -/
theorem args_seg3 (hA : Args W x0 x1 x2 x3 x4 x5 x6 x7 x8 x9 x10 x11 x12 x13 x14 x15 x16 x17 x18 x19 x20) : Args (after seg3 W) x0 x1 x2 x3 x4 x5 x6 x7 x8 x9 x10 x11 x12 x13 x14 x15 x16 x17 x18 x19 x20 :=
  args_after seg3_writes (by decide) hA

/-- Piece 3 leaves the buffer of `%87` at its stage function, from a valuation that holds `%61` at its own. -/
theorem seg3_res (hA : Args W x0 x1 x2 x3 x4 x5 x6 x7 x8 x9 x10 x11 x12 x13 x14 x15 x16 x17 x18 x19 x20)
    (h : W (Proc.devRef .tc main_v61) = Read.val_main_v61 (F := F) x0 x1 x2 x3 x4 x5 x6 x7 x8) :
    after seg3 W (Proc.devRef .tc main_v87) = Read.val_main_v87 (F := F) x0 x1 x2 x3 x4 x5 x6 x7 x8 x15 x16 := by
  after_results_simp
  rw [h, hA.h15, hA.h16]
  rfl

/-- The references piece 4 writes. -/
abbrev seg4_W : List (Ref sig .tc) := [main_v88, main_v89, main_v90, main_v91, main_v92]

theorem seg4_writes : (seg4 : List (HloOp τ sig (Elt F))).Forall fun op => op.writes ⊆ (seg4_W.map (Proc.devRef (τ := τ) .tc)).toFinset :=
  ⟨single_sub (y := main_v88) (by decide),
   single_sub (y := main_v89) (by decide),
   single_sub (y := main_v90) (by decide),
   single_sub (y := main_v91) (by decide),
   single_sub (y := main_v92) (by decide)⟩

theorem seg4_sub : (seg4 : List (HloOp τ sig (Elt F))).Forall fun op => op.bufs ⊆ tcRefs τ sig :=
  ⟨unary_bufs_sub .., binary_bufs_sub .., unary_bufs_sub .., unary_bufs_sub .., binary_bufs_sub ..⟩

theorem seg4_fresh : ∀ op ∈ (seg4 : List (HloOp τ sig (Elt F))), op.fresh = ∅ := by
  intro _ h; (repeat (cases h with | head => rfl | tail _ h => ?_)); exact nomatch h

/-- Piece 4 writes none of the arguments. -/
theorem args_seg4 (hA : Args W x0 x1 x2 x3 x4 x5 x6 x7 x8 x9 x10 x11 x12 x13 x14 x15 x16 x17 x18 x19 x20) : Args (after seg4 W) x0 x1 x2 x3 x4 x5 x6 x7 x8 x9 x10 x11 x12 x13 x14 x15 x16 x17 x18 x19 x20 :=
  args_after seg4_writes (by decide) hA

/-- Piece 4 leaves the buffer of `%92` at its stage function, from a valuation that holds `%87` at its own. -/
theorem seg4_res (hA : Args W x0 x1 x2 x3 x4 x5 x6 x7 x8 x9 x10 x11 x12 x13 x14 x15 x16 x17 x18 x19 x20)
    (h : W (Proc.devRef .tc main_v87) = Read.val_main_v87 (F := F) x0 x1 x2 x3 x4 x5 x6 x7 x8 x15 x16) :
    after seg4 W (Proc.devRef .tc main_v92) = Read.val_main_v92 (F := F) x0 x1 x2 x3 x4 x5 x6 x7 x8 x9 x10 x15 x16 := by
  after_results_simp
  rw [h, hA.h9, hA.h10]
  rfl

/-- The references piece 5 writes. -/
abbrev seg5_W : List (Ref sig .tc) := [main_cst_14, main_v93, main_cst_15, main_v94, main_v95, main_v96, main_v97, main_v98, main_v99, main_cst_16, main_v100, main_cst_17, main_v101, main_v102, main_v103, main_v104, main_v105, main_v106, main_v107, main_v108, main_cst_18, main_v109, main_v110, main_v111, main_v112, main_v113, main_v114, main_v115, main_v116, main_v117, main_call2_cst, main_call2_v0, main_v118]

theorem seg5_writes : (seg5 : List (HloOp τ sig (Elt F))).Forall fun op => op.writes ⊆ (seg5_W.map (Proc.devRef (τ := τ) .tc)).toFinset :=
  ⟨single_sub (y := main_cst_14) (by decide),
   single_sub (y := main_v93) (by decide),
   single_sub (y := main_cst_15) (by decide),
   single_sub (y := main_v94) (by decide),
   single_sub (y := main_v95) (by decide),
   single_sub (y := main_v96) (by decide),
   single_sub (y := main_v97) (by decide),
   single_sub (y := main_v98) (by decide),
   single_sub (y := main_v99) (by decide),
   single_sub (y := main_cst_16) (by decide),
   single_sub (y := main_v100) (by decide),
   single_sub (y := main_cst_17) (by decide),
   single_sub (y := main_v101) (by decide),
   single_sub (y := main_v102) (by decide),
   single_sub (y := main_v103) (by decide),
   single_sub (y := main_v104) (by decide),
   single_sub (y := main_v105) (by decide),
   single_sub (y := main_v106) (by decide),
   single_sub (y := main_v107) (by decide),
   single_sub (y := main_v108) (by decide),
   single_sub (y := main_cst_18) (by decide),
   single_sub (y := main_v109) (by decide),
   single_sub (y := main_v110) (by decide),
   single_sub (y := main_v111) (by decide),
   single_sub (y := main_v112) (by decide),
   single_sub (y := main_v113) (by decide),
   single_sub (y := main_v114) (by decide),
   single_sub (y := main_v115) (by decide),
   single_sub (y := main_v116) (by decide),
   single_sub (y := main_v117) (by decide),
   single_sub (y := main_call2_cst) (by decide),
   single_sub (y := main_call2_v0) (by decide),
   single_sub (y := main_v118) (by decide)⟩

theorem seg5_sub : (seg5 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem seg5_fresh : ∀ op ∈ (seg5 : List (HloOp τ sig (Elt F))), op.fresh = ∅ := by
  intro _ h; (repeat (cases h with | head => rfl | tail _ h => ?_)); exact nomatch h

/-- Piece 5 writes none of the arguments. -/
theorem args_seg5 (hA : Args W x0 x1 x2 x3 x4 x5 x6 x7 x8 x9 x10 x11 x12 x13 x14 x15 x16 x17 x18 x19 x20) : Args (after seg5 W) x0 x1 x2 x3 x4 x5 x6 x7 x8 x9 x10 x11 x12 x13 x14 x15 x16 x17 x18 x19 x20 :=
  args_after seg5_writes (by decide) hA

/-- Piece 5 leaves the buffer of `%118` at its stage function, from a valuation that holds `%92` at its own. -/
theorem seg5_res (hA : Args W x0 x1 x2 x3 x4 x5 x6 x7 x8 x9 x10 x11 x12 x13 x14 x15 x16 x17 x18 x19 x20)
    (h : W (Proc.devRef .tc main_v92) = Read.val_main_v92 (F := F) x0 x1 x2 x3 x4 x5 x6 x7 x8 x9 x10 x15 x16) :
    after seg5 W (Proc.devRef .tc main_v118) = Read.val_main_v118 (F := F) x0 x1 x2 x3 x4 x5 x6 x7 x8 x9 x10 x15 x16 x17 x18 := by
  after_results_simp
  rw [h, hA.h17, hA.h18]
  rfl

/-- The references piece 6 writes. -/
abbrev seg6_W : List (Ref sig .tc) := [main_v119, main_v120, main_v121, main_v122, main_v123]

theorem seg6_writes : (seg6 : List (HloOp τ sig (Elt F))).Forall fun op => op.writes ⊆ (seg6_W.map (Proc.devRef (τ := τ) .tc)).toFinset :=
  ⟨single_sub (y := main_v119) (by decide),
   single_sub (y := main_v120) (by decide),
   single_sub (y := main_v121) (by decide),
   single_sub (y := main_v122) (by decide),
   single_sub (y := main_v123) (by decide)⟩

theorem seg6_sub : (seg6 : List (HloOp τ sig (Elt F))).Forall fun op => op.bufs ⊆ tcRefs τ sig :=
  ⟨unary_bufs_sub .., binary_bufs_sub .., unary_bufs_sub .., unary_bufs_sub .., binary_bufs_sub ..⟩

theorem seg6_fresh : ∀ op ∈ (seg6 : List (HloOp τ sig (Elt F))), op.fresh = ∅ := by
  intro _ h; (repeat (cases h with | head => rfl | tail _ h => ?_)); exact nomatch h

/-- Piece 6 writes none of the arguments. -/
theorem args_seg6 (hA : Args W x0 x1 x2 x3 x4 x5 x6 x7 x8 x9 x10 x11 x12 x13 x14 x15 x16 x17 x18 x19 x20) : Args (after seg6 W) x0 x1 x2 x3 x4 x5 x6 x7 x8 x9 x10 x11 x12 x13 x14 x15 x16 x17 x18 x19 x20 :=
  args_after seg6_writes (by decide) hA

/-- Piece 6 leaves the buffer of `%123` at its stage function, from a valuation that holds `%118` at its own. -/
theorem seg6_res (hA : Args W x0 x1 x2 x3 x4 x5 x6 x7 x8 x9 x10 x11 x12 x13 x14 x15 x16 x17 x18 x19 x20)
    (h : W (Proc.devRef .tc main_v118) = Read.val_main_v118 (F := F) x0 x1 x2 x3 x4 x5 x6 x7 x8 x9 x10 x15 x16 x17 x18) :
    after seg6 W (Proc.devRef .tc main_v123) = Read.val_main_v123 (F := F) x0 x1 x2 x3 x4 x5 x6 x7 x8 x9 x10 x11 x12 x15 x16 x17 x18 := by
  after_results_simp
  rw [h, hA.h11, hA.h12]
  rfl

/-- The references piece 7 writes. -/
abbrev seg7_W : List (Ref sig .tc) := [main_cst_19, main_v124, main_cst_20, main_v125, main_v126, main_v127, main_v128, main_v129, main_v130, main_cst_21, main_v131, main_cst_22, main_v132, main_v133, main_v134, main_v135, main_v136, main_v137, main_v138, main_v139, main_cst_23, main_v140, main_v141, main_v142, main_v143, main_v144, main_v145, main_v146, main_v147, main_v148, main_call3_cst, main_call3_v0, main_v149]

theorem seg7_writes : (seg7 : List (HloOp τ sig (Elt F))).Forall fun op => op.writes ⊆ (seg7_W.map (Proc.devRef (τ := τ) .tc)).toFinset :=
  ⟨single_sub (y := main_cst_19) (by decide),
   single_sub (y := main_v124) (by decide),
   single_sub (y := main_cst_20) (by decide),
   single_sub (y := main_v125) (by decide),
   single_sub (y := main_v126) (by decide),
   single_sub (y := main_v127) (by decide),
   single_sub (y := main_v128) (by decide),
   single_sub (y := main_v129) (by decide),
   single_sub (y := main_v130) (by decide),
   single_sub (y := main_cst_21) (by decide),
   single_sub (y := main_v131) (by decide),
   single_sub (y := main_cst_22) (by decide),
   single_sub (y := main_v132) (by decide),
   single_sub (y := main_v133) (by decide),
   single_sub (y := main_v134) (by decide),
   single_sub (y := main_v135) (by decide),
   single_sub (y := main_v136) (by decide),
   single_sub (y := main_v137) (by decide),
   single_sub (y := main_v138) (by decide),
   single_sub (y := main_v139) (by decide),
   single_sub (y := main_cst_23) (by decide),
   single_sub (y := main_v140) (by decide),
   single_sub (y := main_v141) (by decide),
   single_sub (y := main_v142) (by decide),
   single_sub (y := main_v143) (by decide),
   single_sub (y := main_v144) (by decide),
   single_sub (y := main_v145) (by decide),
   single_sub (y := main_v146) (by decide),
   single_sub (y := main_v147) (by decide),
   single_sub (y := main_v148) (by decide),
   single_sub (y := main_call3_cst) (by decide),
   single_sub (y := main_call3_v0) (by decide),
   single_sub (y := main_v149) (by decide)⟩

theorem seg7_sub : (seg7 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

theorem seg7_fresh : ∀ op ∈ (seg7 : List (HloOp τ sig (Elt F))), op.fresh = ∅ := by
  intro _ h; (repeat (cases h with | head => rfl | tail _ h => ?_)); exact nomatch h

/-- Piece 7 writes none of the arguments. -/
theorem args_seg7 (hA : Args W x0 x1 x2 x3 x4 x5 x6 x7 x8 x9 x10 x11 x12 x13 x14 x15 x16 x17 x18 x19 x20) : Args (after seg7 W) x0 x1 x2 x3 x4 x5 x6 x7 x8 x9 x10 x11 x12 x13 x14 x15 x16 x17 x18 x19 x20 :=
  args_after seg7_writes (by decide) hA

/-- Piece 7 leaves the buffer of `%149` at its stage function, from a valuation that holds `%123` at its own. -/
theorem seg7_res (hA : Args W x0 x1 x2 x3 x4 x5 x6 x7 x8 x9 x10 x11 x12 x13 x14 x15 x16 x17 x18 x19 x20)
    (h : W (Proc.devRef .tc main_v123) = Read.val_main_v123 (F := F) x0 x1 x2 x3 x4 x5 x6 x7 x8 x9 x10 x11 x12 x15 x16 x17 x18) :
    after seg7 W (Proc.devRef .tc main_v149) = Read.val_main_v149 (F := F) x0 x1 x2 x3 x4 x5 x6 x7 x8 x9 x10 x11 x12 x15 x16 x17 x18 x19 x20 := by
  after_results_simp
  rw [h, hA.h19, hA.h20]
  rfl

/-- The references piece 8 writes. -/
abbrev seg8_W : List (Ref sig .tc) := [main_v150, main_v151, main_v152, main_v153, main_v154, main_call4_cst, main_call4_v0, main_call4_cst_0, main_call4_v1, main_call4_v2, main_call4_v3, main_call4_v4, main_call4_v5, main_call4_v6, main_call4_cst_1, main_call4_v7, main_call4_v8, main_call4_v9, main_call4_v10, main_v155]

theorem seg8_writes : (seg8 : List (HloOp τ sig (Elt F))).Forall fun op => op.writes ⊆ (seg8_W.map (Proc.devRef (τ := τ) .tc)).toFinset :=
  ⟨single_sub (y := main_v150) (by decide),
   single_sub (y := main_v151) (by decide),
   single_sub (y := main_v152) (by decide),
   single_sub (y := main_v153) (by decide),
   single_sub (y := main_v154) (by decide),
   single_sub (y := main_call4_cst) (by decide),
   single_sub (y := main_call4_v0) (by decide),
   single_sub (y := main_call4_cst_0) (by decide),
   single_sub (y := main_call4_v1) (by decide),
   single_sub (y := main_call4_v2) (by decide),
   single_sub (y := main_call4_v3) (by decide),
   single_sub (y := main_call4_v4) (by decide),
   single_sub (y := main_call4_v5) (by decide),
   single_sub (y := main_call4_v6) (by decide),
   single_sub (y := main_call4_cst_1) (by decide),
   single_sub (y := main_call4_v7) (by decide),
   single_sub (y := main_call4_v8) (by decide),
   single_sub (y := main_call4_v9) (by decide),
   single_sub (y := main_call4_v10) (by decide),
   single_sub (y := main_v155) (by decide)⟩

theorem seg8_sub : (seg8 : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem seg8_fresh : ∀ op ∈ (seg8 : List (HloOp τ sig (Elt F))), op.fresh = ∅ := by
  intro _ h; (repeat (cases h with | head => rfl | tail _ h => ?_)); exact nomatch h

/-- Piece 8 writes none of the arguments. -/
theorem args_seg8 (hA : Args W x0 x1 x2 x3 x4 x5 x6 x7 x8 x9 x10 x11 x12 x13 x14 x15 x16 x17 x18 x19 x20) : Args (after seg8 W) x0 x1 x2 x3 x4 x5 x6 x7 x8 x9 x10 x11 x12 x13 x14 x15 x16 x17 x18 x19 x20 :=
  args_after seg8_writes (by decide) hA

/-- Piece 8 leaves the buffer of `%155` at its stage function, from a valuation that holds `%149` at its own. -/
theorem seg8_res (hA : Args W x0 x1 x2 x3 x4 x5 x6 x7 x8 x9 x10 x11 x12 x13 x14 x15 x16 x17 x18 x19 x20)
    (h : W (Proc.devRef .tc main_v149) = Read.val_main_v149 (F := F) x0 x1 x2 x3 x4 x5 x6 x7 x8 x9 x10 x11 x12 x15 x16 x17 x18 x19 x20) :
    after seg8 W (Proc.devRef .tc main_v155) = Read.val_main_v155 (F := F) x0 x1 x2 x3 x4 x5 x6 x7 x8 x9 x10 x11 x12 x13 x14 x15 x16 x17 x18 x19 x20 := by
  after_results_simp
  rw [h, hA.h13, hA.h14]
  simp only [TRef.ofBuf, TRef.toBuf, cast_eq]
  rfl

/-- The whole line: the nine pieces in order. -/
abbrev ops : List (HloOp τ sig (Elt F)) := seg0 ++ seg1 ++ seg2 ++ seg3 ++ seg4 ++ seg5 ++ seg6 ++ seg7 ++ seg8

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  (List.forall_append.2 ⟨(List.forall_append.2 ⟨(List.forall_append.2 ⟨(List.forall_append.2 ⟨(List.forall_append.2 ⟨(List.forall_append.2 ⟨(List.forall_append.2 ⟨(List.forall_append.2 ⟨seg0_sub, seg1_sub⟩), seg2_sub⟩), seg3_sub⟩), seg4_sub⟩), seg5_sub⟩), seg6_sub⟩), seg7_sub⟩), seg8_sub⟩)

theorem ops_fresh : ∀ op ∈ (ops : List (HloOp τ sig (Elt F))), op.fresh = ∅ :=
  (fresh_append (fresh_append (fresh_append (fresh_append (fresh_append (fresh_append (fresh_append (fresh_append seg0_fresh seg1_fresh) seg2_fresh) seg3_fresh) seg4_fresh) seg5_fresh) seg6_fresh) seg7_fresh) seg8_fresh)

/-- The line's run is the pieces' runs, one after the other. -/
theorem after_ops (V : Valuation τ sig (Elt F)) :
    after ops V = after seg8 (after seg7 (after seg6 (after seg5 (after seg4 (after seg3 (after seg2 (after seg1 (after seg0 V)))))))) := by
  simp only [ops, after_append]

/-- From a valuation that holds the arguments, the whole line leaves the result buffer at the last stage function of
    the arguments, and the arguments as they were. -/
theorem ops_res (hA : Args W x0 x1 x2 x3 x4 x5 x6 x7 x8 x9 x10 x11 x12 x13 x14 x15 x16 x17 x18 x19 x20) :
    after ops W (Proc.devRef .tc main_v155) = Read.val_main_v155 (F := F) x0 x1 x2 x3 x4 x5 x6 x7 x8 x9 x10 x11 x12 x13 x14 x15 x16 x17 x18 x19 x20 ∧ Args (after ops W) x0 x1 x2 x3 x4 x5 x6 x7 x8 x9 x10 x11 x12 x13 x14 x15 x16 x17 x18 x19 x20 := by
  rw [after_ops]
  have A0 := args_seg0 hA
  have A1 := args_seg1 A0
  have A2 := args_seg2 A1
  have A3 := args_seg3 A2
  have A4 := args_seg4 A3
  have A5 := args_seg5 A4
  have A6 := args_seg6 A5
  have A7 := args_seg7 A6
  have A8 := args_seg8 A7
  exact ⟨seg8_res A7 (seg7_res A6 (seg6_res A5 (seg5_res A4 (seg4_res A3 (seg3_res A2 (seg2_res A1 (seg1_res A0 (seg0_res hA)))))))), A8⟩

/-- On every device, for any float values, from any memory with zero counters: every weakly fair execution of
    @main terminates with the result buffer at the last stage function of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v155) = Read.val_main_v155 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => by
      obtain ⟨hR, hK⟩ := ops_res (F := F) (W := launchContents m c)
        (Args.mk rfl rfl rfl rfl rfl rfl rfl rfl rfl rfl rfl rfl rfl rfl rfl rfl rfl rfl rfl rfl rfl)
      exact ⟨(h c main_v155).trans hR,
        (h c main_arg0).trans hK.h0,
        (h c main_arg1).trans hK.h1,
        (h c main_arg2).trans hK.h2,
        (h c main_arg3).trans hK.h3,
        (h c main_arg4).trans hK.h4,
        (h c main_arg5).trans hK.h5,
        (h c main_arg6).trans hK.h6,
        (h c main_arg7).trans hK.h7,
        (h c main_arg8).trans hK.h8,
        (h c main_arg9).trans hK.h9,
        (h c main_arg10).trans hK.h10,
        (h c main_arg11).trans hK.h11,
        (h c main_arg12).trans hK.h12,
        (h c main_arg13).trans hK.h13,
        (h c main_arg14).trans hK.h14,
        (h c main_arg15).trans hK.h15,
        (h c main_arg16).trans hK.h16,
        (h c main_arg17).trans hK.h17,
        (h c main_arg18).trans hK.h18,
        (h c main_arg19).trans hK.h19,
        (h c main_arg20).trans hK.h20⟩)
    (run_seq scopedRefs_eq scopedSems_eq defs main (fun _ => ops) main_eq (fun _ => ops_sub) m ρ (fun _ => ops_fresh))

end Cert.ReferenceIdeal.HandRun

end
-- ==== Proof.lean ====
/- The five claims of this certificate, and their conjunction.
   The three frames: the program as printed and its reading at the extended reals run and leave their arguments as
   launched by the generated frames (Proof/Gen/Kernel/Frame.lean, Proof/Gen/KernelIdeal/Frame.lean); the reference does by
   its run (Proof/RefRun.lean: every operation of the reference in turn, the result buffer ending at the composed
   function `val_main_v155` of the argument arrays), the result forgotten. The ideal pass rewrote no operation, so there
   is nothing to preserve. The algebraic claim: the common result is the reference's result function of the kernel's
   own argument arrays. The kernel's result buffer ends at the contents its last region's write-backs leave
   (Proof/KernelRunNamed.lean: the generated frame with the result buffer kept in the post), and those contents are
   that function (Proof/KTop.lean, the value theorem: the five regions' closed forms at the extended reals chained
   through the host operations between them and matched, layer by layer, with the reference's operations, under the
   finiteness of the inputs the precondition states); the reference's result buffer ends at the same function of its
   own arguments, which agree with the kernel's. -/
import proofs.«119158_j67731634258670_1_alg».proof.Defs
import proofs.«119158_j67731634258670_1_alg».proof.Proof.Gen.Kernel
import proofs.«119158_j67731634258670_1_alg».proof.Proof.Gen.Kernel.Skeleton
import proofs.«119158_j67731634258670_1_alg».proof.Proof.Gen.Kernel.Launch
import proofs.«119158_j67731634258670_1_alg».proof.Proof.Gen.Kernel.Points
import proofs.«119158_j67731634258670_1_alg».proof.Proof.Gen.Kernel.Frame
import proofs.«119158_j67731634258670_1_alg».proof.Proof.Gen.KernelIdeal
import proofs.«119158_j67731634258670_1_alg».proof.Proof.Gen.KernelIdeal.Skeleton
import proofs.«119158_j67731634258670_1_alg».proof.Proof.Gen.KernelIdeal.Launch
import proofs.«119158_j67731634258670_1_alg».proof.Proof.Gen.KernelIdeal.Points
import proofs.«119158_j67731634258670_1_alg».proof.Proof.Gen.KernelIdeal.Frame
import proofs.«119158_j67731634258670_1_alg».proof.Proof.Gen.ReferenceIdeal
import proofs.«119158_j67731634258670_1_alg».proof.Proof.Gen.Pre_finite_inputs
import proofs.«119158_j67731634258670_1_alg».proof.Proof.KernelRunNamed
import proofs.«119158_j67731634258670_1_alg».proof.Proof.KTop
import proofs.«119158_j67731634258670_1_alg».proof.Proof.RefRun
import Idealize.ShloMosaic.Adequacy
import Idealize.ShloMosaic.Init

noncomputable section

namespace Cert.Proof

open Idealize.ShloMosaic Idealize.SL.Sem Cert.Kernel

/-- The program as printed runs and leaves its arguments as launched: the generated frame. -/
theorem frame_p : Cert.frame_Kernel (hKernel := Cert.Kernel.Gen.facts) (hPre_finite_inputs := Cert.Pre_finite_inputs.Gen.facts) :=
  fun m ρ _ => Cert.Kernel.Gen.frame m ρ

/-- So does its reading at the extended reals. -/
theorem frame_pi : Cert.frame_KernelIdeal (hKernelIdeal := Cert.KernelIdeal.Gen.facts)
    (hPre_finite_inputs := Cert.Pre_finite_inputs.Gen.facts) :=
  fun m ρ _ => Cert.KernelIdeal.Gen.frame m ρ

/-- The reference runs and leaves its arguments as launched: its run, the result forgotten. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (Cert.ReferenceIdeal.HandRun.run (F := Ideal) m ρ)

/-- The ideal pass rewrote no operation: nothing to preserve. -/
theorem preserves : Cert.preserves_Kernel_KernelIdeal := trivial

/-- At the extended reals, from memories that agree on the arguments, both programs run and end with one result: the
    reference's result function of the kernel's own argument arrays. The kernel's result buffer holds it by the value
    theorem, under the finiteness of the inputs; the reference's holds that function of its own arguments, which are
    the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v155 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20)), ?_, ?_⟩
  · exact (θ_run Cert.KernelIdeal.defs _ _).mono
      (fun r h c => ⟨(h c).1.trans (Cert.KernelIdeal.Top.kernel_value m ρ c (hpre c)), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.HandRun.run (F := Ideal) m' ρ')
    obtain ⟨e0, e1, e2, e3, e4, e5, e6, e7, e8, e9, e10, e11, e12, e13, e14, e15, e16, e17, e18, e19, e20⟩ := hagree c
    rw [e0, e1, e2, e3, e4, e5, e6, e7, e8, e9, e10, e11, e12, e13, e14, e15, e16, e17, e18, e19, e20]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
